-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S128x512 : Shape := ⟨2, ![128, 512]⟩
abbrev S128 : Shape := ⟨1, ![128]⟩
abbrev S128x15000 : Shape := ⟨2, ![128, 15000]⟩
abbrev S128x128 : Shape := ⟨2, ![128, 128]⟩
abbrev S3x128x128 : Shape := ⟨3, ![3, 128, 128]⟩
abbrev S3x128 : Shape := ⟨2, ![3, 128]⟩
abbrev S8x128 : Shape := ⟨2, ![8, 128]⟩
abbrev S8 : Shape := ⟨1, ![8]⟩
abbrev S800000 : Shape := ⟨1, ![800000]⟩
abbrev S50000 : Shape := ⟨1, ![50000]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S128x15000 : S_.BroadcastsInDim S128x15000 (![] : Fin 0 → Fin S128x15000.rank)
  reducesTo_S128x15000_S_d0_1 : S128x15000.ReducesTo [0, 1] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg14 : FVec F S8 .f32) (main_arg17 : IVec S50000 32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  let main_c_28 : IVec S_ 32 := constantI S_ 32 0#32
  let main_v74 : IVec S50000 32 := broadcastInDim S50000 ![] bcast_S_S50000 main_c_28
  let main_v75 : IVec S50000 1 := cmpi .sge main_arg17 main_v74
  let main_c_29 : IVec S_ 32 := constantI S_ 32 4#32
  let main_v76 : IVec S50000 32 := broadcastInDim S50000 ![] bcast_S_S50000 main_c_29
  let main_v77 : IVec S50000 1 := cmpi .slt main_arg17 main_v76
  let main_v78 : IVec S50000 1 := andi main_v75 main_v77
  let main_c_30 : IVec S_ 1 := constantI S_ 1 1#1
  let main_v79 : IVec S_ 1 := (fun x v => Host.reduce IntOp.andi x v reducesTo_S50000_S_d0 h_S_) main_v78 main_c_30
  let main_v80 : IVec S_ 1 := andi main_v73 main_v79
  main_v80

def fn_part3 {F : FTy → Type} [FloatOps F] (main_arg11 : FVec F S128x128 .f32) (main_arg12 : FVec F S128 .f32) (main_arg13 : FVec F S8x128 .f32) (main_arg14 : FVec F S8 .f32) (main_arg17 : IVec S50000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S8x128 .f32 := Host.absf main_arg13
  let main_cst_24 : FVec F S_ .f32 := constant S_ .f32 0x7F800000#32
  let main_v65 : FVec F S8x128 .f32 := broadcastInDim S8x128 ![] bcast_S_S8x128 main_cst_24
  let main_v66 : IVec S8x128 1 := cmpf .olt main_v64 main_v65
  let main_c_25 : IVec S_ 1 := constantI S_ 1 1#1
  let main_v67 : IVec S_ 1 := (fun x v => Host.reduce IntOp.andi x v reducesTo_S8x128_S_d0_1 h_S_) main_v66 main_c_25
  fn_part4 (F := F) main_arg14 main_arg17 main_v63 main_v67

def fn_part2 {F : FTy → Type} [FloatOps F] (main_arg7 : FVec F S128x128 .f32) (main_arg8 : FVec F S128 .f32) (main_arg9 : FVec F S3x128x128 .f32) (main_arg10 : FVec F S3x128 .f32) (main_arg11 : FVec F S128x128 .f32) (main_arg12 : FVec F S128 .f32) (main_arg13 : FVec F S8x128 .f32) (main_arg14 : FVec F S8 .f32) (main_arg17 : IVec S50000 32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S3x128x128 .f32 := Host.absf main_arg9
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg17 main_v48 main_v49 main_v50

def fn_part1 {F : FTy → Type} [FloatOps F] (main_arg4 : FVec F S128 .f32) (main_arg5 : FVec F S128x15000 .f32) (main_arg6 : FVec F S128 .f32) (main_arg7 : FVec F S128x128 .f32) (main_arg8 : FVec F S128 .f32) (main_arg9 : FVec F S3x128x128 .f32) (main_arg10 : FVec F S3x128 .f32) (main_arg11 : FVec F S128x128 .f32) (main_arg12 : FVec F S128 .f32) (main_arg13 : FVec F S8x128 .f32) (main_arg14 : FVec F S8 .f32) (main_arg17 : IVec S50000 32) (main_v13 : IVec S_ 1) (main_v16 : IVec S128x15000 1) : IVec S_ 1 :=
  let main_c_5 : IVec S_ 1 := constantI S_ 1 1#1
  let main_v17 : IVec S_ 1 := (fun x v => Host.reduce IntOp.andi x v reducesTo_S128x15000_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x15000 .f32 := Host.absf main_arg5
  let main_cst_8 : FVec F S_ .f32 := constant S_ .f32 0x7F800000#32
  let main_v25 : FVec F S128x15000 .f32 := broadcastInDim S128x15000 ![] bcast_S_S128x15000 main_cst_8
  let main_v26 : IVec S128x15000 1 := cmpf .olt main_v24 main_v25
  let main_c_9 : IVec S_ 1 := constantI S_ 1 1#1
  let main_v27 : IVec S_ 1 := (fun x v => Host.reduce IntOp.andi x v reducesTo_S128x15000_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg17 main_v33

def fn {F : FTy → Type} [FloatOps F] (main_arg0 : FVec F S20000x512 .f32) (main_arg1 : FVec F S128x512 .f32) (main_arg2 : FVec F S128 .f32) (main_arg3 : FVec F S128x15000 .f32) (main_arg4 : FVec F S128 .f32) (main_arg5 : FVec F S128x15000 .f32) (main_arg6 : FVec F S128 .f32) (main_arg7 : FVec F S128x128 .f32) (main_arg8 : FVec F S128 .f32) (main_arg9 : FVec F S3x128x128 .f32) (main_arg10 : FVec F S3x128 .f32) (main_arg11 : FVec F S128x128 .f32) (main_arg12 : FVec F S128 .f32) (main_arg13 : FVec F S8x128 .f32) (main_arg14 : FVec F S8 .f32) (main_arg15 : IVec S800000 32) (main_arg16 : IVec S800000 32) (main_arg17 : IVec S50000 32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x15000 .f32 := Host.absf main_arg3
  let main_cst_4 : FVec F S_ .f32 := constant S_ .f32 0x7F800000#32
  let main_v15 : FVec F S128x15000 .f32 := broadcastInDim S128x15000 ![] bcast_S_S128x15000 main_cst_4
  let main_v16 : IVec S128x15000 1 := cmpf .olt main_v14 main_v15
  fn_part1 (F := F) main_arg4 main_arg5 main_arg6 main_arg7 main_arg8 main_arg9 main_arg10 main_arg11 main_arg12 main_arg13 main_arg14 main_arg17 main_v13 main_v16
-- ==== Kernel.lean ====
abbrev S20000x512 : Shape := ⟨2, ![20000, 512]⟩
abbrev S128x512 : Shape := ⟨2, ![128, 512]⟩
abbrev S128 : Shape := ⟨1, ![128]⟩
abbrev S128x15000 : Shape := ⟨2, ![128, 15000]⟩
abbrev S128x128 : Shape := ⟨2, ![128, 128]⟩
abbrev S3x128x128 : Shape := ⟨3, ![3, 128, 128]⟩
abbrev S3x128 : Shape := ⟨2, ![3, 128]⟩
abbrev S8x128 : Shape := ⟨2, ![8, 128]⟩
abbrev S8 : Shape := ⟨1, ![8]⟩
abbrev S800000 : Shape := ⟨1, ![800000]⟩
abbrev S50000 : Shape := ⟨1, ![50000]⟩
abbrev S50 : Shape := ⟨1, ![50]⟩
abbrev S20000x128 : Shape := ⟨2, ![20000, 128]⟩
abbrev S1000x512 : Shape := ⟨2, ![1000, 512]⟩
abbrev S1000x128 : Shape := ⟨2, ![1000, 128]⟩
abbrev S512x128 : Shape := ⟨2, ![512, 128]⟩
abbrev S1x128 : Shape := ⟨2, ![1, 128]⟩
abbrev S_ : Shape := ⟨0, ![]⟩
abbrev S30000x128 : Shape := ⟨2, ![30000, 128]⟩
abbrev S50000x128 : Shape := ⟨2, ![50000, 128]⟩
abbrev S15000x128 : Shape := ⟨2, ![15000, 128]⟩
abbrev S800000x1 : Shape := ⟨2, ![800000, 1]⟩
abbrev S800000x128 : Shape := ⟨2, ![800000, 128]⟩
abbrev S50000x1 : Shape := ⟨2, ![50000, 1]⟩
abbrev S1000x1 : Shape := ⟨2, ![1000, 1]⟩
abbrev S3x1x128 : Shape := ⟨3, ![3, 1, 128]⟩
abbrev S1x128x128 : Shape := ⟨3, ![1, 128, 128]⟩
abbrev S1 : Shape := ⟨1, ![1]⟩
abbrev S1x1x128 : Shape := ⟨3, ![1, 1, 128]⟩
abbrev S50000x8 : Shape := ⟨2, ![50000, 8]⟩
abbrev S1000x8 : Shape := ⟨2, ![1000, 8]⟩
abbrev S128x8 : Shape := ⟨2, ![128, 8]⟩
abbrev S1x8 : Shape := ⟨2, ![1, 8]⟩

abbrev nBuf : Space → Nat
  | .hbm => 98
  | .vmem => 40
  | .smem => 1
  | _ => 0

abbrev bufTy : (tb : Table) → Fin (tcTables nBuf tb) → BufTy
  | .hbm, ⟨0, _⟩ => ⟨S20000x512, .f32⟩
  | .hbm, ⟨1, _⟩ => ⟨S128x512, .f32⟩
  | .hbm, ⟨2, _⟩ => ⟨S128, .f32⟩
  | .hbm, ⟨3, _⟩ => ⟨S128x15000, .f32⟩
  | .hbm, ⟨4, _⟩ => ⟨S128, .f32⟩
  | .hbm, ⟨5, _⟩ => ⟨S128x15000, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S3x128x128, .f32⟩
  | .hbm, ⟨10, _⟩ => ⟨S3x128, .f32⟩
  | .hbm, ⟨11, _⟩ => ⟨S128x128, .f32⟩
  | .hbm, ⟨12, _⟩ => ⟨S128, .f32⟩
  | .hbm, ⟨13, _⟩ => ⟨S8x128, .f32⟩
  | .hbm, ⟨14, _⟩ => ⟨S8, .f32⟩
  | .hbm, ⟨15, _⟩ => ⟨S800000, .i32⟩
  | .hbm, ⟨16, _⟩ => ⟨S800000, .i32⟩
  | .hbm, ⟨17, _⟩ => ⟨S50000, .i32⟩
  | .hbm, ⟨18, _⟩ => ⟨S20000x128, .f32⟩
  | .hbm, ⟨19, _⟩ => ⟨S_, .f32⟩
  | .hbm, ⟨20, _⟩ => ⟨S30000x128, .f32⟩
  | .hbm, ⟨21, _⟩ => ⟨S50000x128, .f32⟩
  | .hbm, ⟨22, _⟩ => ⟨S_, .f32⟩
  | .hbm, ⟨23, _⟩ => ⟨S20000x128, .f32⟩
  | .hbm, ⟨24, _⟩ => ⟨S15000x128, .f32⟩
  | .hbm, ⟨25, _⟩ => ⟨S1x128, .f32⟩
  | .hbm, ⟨26, _⟩ => ⟨S15000x128, .f32⟩
  | .hbm, ⟨27, _⟩ => ⟨S15000x128, .f32⟩
  | .hbm, ⟨28, _⟩ => ⟨S15000x128, .f32⟩
  | .hbm, ⟨29, _⟩ => ⟨S1x128, .f32⟩
  | .hbm, ⟨30, _⟩ => ⟨S15000x128, .f32⟩
  | .hbm, ⟨31, _⟩ => ⟨S15000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S_, .f32⟩
  | .hbm, ⟨48, _⟩ => ⟨S800000, .f32⟩
  | .hbm, ⟨49, _⟩ => ⟨S_, .f32⟩
  | .hbm, ⟨50, _⟩ => ⟨S50000, .f32⟩
  | .hbm, ⟨51, _⟩ => ⟨S800000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S50000, .i32⟩
  | .hbm, ⟨61, _⟩ => ⟨S50000, .i1⟩
  | .hbm, ⟨62, _⟩ => ⟨S_, .i32⟩
  | .hbm, ⟨63, _⟩ => ⟨S50000, .i32⟩
  | .hbm, ⟨64, _⟩ => ⟨S50000, .i1⟩
  | .hbm, ⟨65, _⟩ => ⟨S50000, .i1⟩
  | .hbm, ⟨66, _⟩ => ⟨S50000, .f32⟩
  | .hbm, ⟨67, _⟩ => ⟨S50000x1, .f32⟩
  | .hbm, ⟨68, _⟩ => ⟨S50000x128, .f32⟩
  | .hbm, ⟨69, _⟩ => ⟨S3x1x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S_, .f32⟩
  | .hbm, ⟨85, _⟩ => ⟨S800000, .f32⟩
  | .hbm, ⟨86, _⟩ => ⟨S_, .f32⟩
  | .hbm, ⟨87, _⟩ => ⟨S50000, .f32⟩
  | .hbm, ⟨88, _⟩ => ⟨S800000x1, .i32⟩
  | .hbm, ⟨89, _⟩ => ⟨S50000, .f32⟩
  | .hbm, ⟨90, _⟩ => ⟨S_, .f32⟩
  | .hbm, ⟨91, _⟩ => ⟨S50000, .f32⟩
  | .hbm, ⟨92, _⟩ => ⟨S50000, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S50000x8, .f32⟩
  | .local _ .vmem, ⟨0, _⟩ => ⟨S1000x512, .f32⟩
  | .local _ .vmem, ⟨1, _⟩ => ⟨S1000x512, .f32⟩
  | .local _ .vmem, ⟨2, _⟩ => ⟨S128x512, .f32⟩
  | .local _ .vmem, ⟨3, _⟩ => ⟨S128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1000x128, .f32⟩
  | .local _ .vmem, ⟨18, _⟩ => ⟨S1000x1, .f32⟩
  | .local _ .vmem, ⟨19, _⟩ => ⟨S1000x1, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1x128x128, .f32⟩
  | .local _ .vmem, ⟨25, _⟩ => ⟨S1x128x128, .f32⟩
  | .local _ .vmem, ⟨26, _⟩ => ⟨S1x1x128, .f32⟩
  | .local _ .vmem, ⟨27, _⟩ => ⟨S1x1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x128, .f32⟩
  | .local _ .vmem, ⟨33, _⟩ => ⟨S128, .f32⟩
  | .local _ .vmem, ⟨34, _⟩ => ⟨S8x128, .f32⟩
  | .local _ .vmem, ⟨35, _⟩ => ⟨S8, .f32⟩
  | .local _ .vmem, ⟨36, _⟩ => ⟨S1000x128, .f32⟩
  | .local _ .vmem, ⟨37, _⟩ => ⟨S1000x128, .f32⟩
  | .local _ .vmem, ⟨38, _⟩ => ⟨S1000x8, .f32⟩
  | .local _ .vmem, ⟨39, _⟩ => ⟨S1000x8, .f32⟩
  | .local _ .smem, ⟨0, _⟩ => ⟨S50, .i32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_cst_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_c_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_cst_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_11 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_12 : Ref sig .tc := ⟨.hbm, 84, rfl⟩
abbrev main_v53 : Ref sig .tc := ⟨.hbm, 85, rfl⟩
abbrev main_cst_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62_0 : Ref sig .tc := ⟨.hbm, 96, rfl⟩
abbrev main_v62_1 : Ref sig .tc := ⟨.hbm, 97, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc4_stg6_0 : Ref sig .tc := ⟨.vmem, 38, rfl⟩
abbrev cc4_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

abbrev pre3 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (k3_off1_inb : ∀ i : grid3.Coords, ∀ a, (k3_off1 i) a + S1.size a ≤ S50.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S50) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S50.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S50) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x128x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S8x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S8 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1000x8 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S30000x128 : S_.BroadcastsInDim S30000x128 (![] : Fin 0 → Fin S30000x128.rank)
  concatenates_S20000x128_S30000x128_S50000x128_d0 : Shape.Concatenates [S20000x128, S30000x128] S50000x128 0
  bcast_S_S20000x128 : S_.BroadcastsInDim S20000x128 (![] : Fin 0 → Fin S20000x128.rank)
  transposes_S128x15000_S15000x128_1_0 : S128x15000.Transposes [1, 0] S15000x128
  bcast_S128_S1x128_1 : S128.BroadcastsInDim S1x128 (![1] : Fin 1 → Fin S1x128.rank)
  bcast_S1x128_S15000x128_0_1 : S1x128.BroadcastsInDim S15000x128 (![0, 1] : Fin 2 → Fin S15000x128.rank)
  concatenates_S20000x128_S15000x128_S15000x128_S50000x128_d0 : Shape.Concatenates [S20000x128, S15000x128, S15000x128] S50000x128 0
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x128 : S1000x1.Broadcasts S1000x128
  shapeCasts_S3x128_S3x1x128 : S3x128.ShapeCasts S3x1x128
  numel1_S1 : S1.numel = 1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S8x128_S8x128_0_0 : ∀ a, (![0, 0] : Fin 2 → Nat) a + S8x128.size a ≤ S8x128.size a
  h_S8x128 : 0 < S8x128.numel
  transposes_S8x128_p1_0_S128x8 : S8x128.Transposes [1, 0] S128x8
  inb_S8_S8_0 : ∀ a, (![0] : Fin 1 → Nat) a + S8.size a ≤ S8.size a
  h_S8 : 0 < S8.numel
  shapeCasts_S8_S1x8 : S8.ShapeCasts S1x8
  broadcasts_S1x8_S1000x8 : S1x8.Broadcasts S1000x8
  inb_S1000x8_S1000x8_0_0 : ∀ a, (![0, 0] : Fin 2 → Nat) a + S1000x8.size a ≤ S1000x8.size a
  h_S1000x8 : 0 < S1000x8.numel
  dot_S1000x512_S512x128_S1000x128_1_0_0_1_n_n_wf : DotDims.WF S1000x512 S512x128 S1000x128 [1] [0] [0] [1] [] []
  dot_S1000x128_S128x128_S1000x128_1_0_0_1_n_n_wf : DotDims.WF S1000x128 S128x128 S1000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S1000x128_S128x8_S1000x8_1_0_0_1_n_n_wf : DotDims.WF S1000x128 S128x8 S1000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S20000x512.size a
  hwx0_0 : ∀ i : grid0.Coords, EltTy.bits .f32 = 32 ∨ (Rect.block (s := S20000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S20000x128.size a
  hwx0_3 : ∀ i : grid0.Coords, EltTy.bits .f32 = 32 ∨ (Rect.block (s := S20000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .f32 = 32 ∨ (Rect.block (s := S50000x128) S1000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .f32 = 32 ∨ (Rect.block (s := S50000x128) S1000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x1.size a ≤ S50000x1.size a
  hwx2_3 : ∀ i : grid2.Coords, EltTy.bits .f32 = 32 ∨ (Rect.block (s := S50000x1) S1000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x128.size a ≤ S50000x128.size a
  hwx2_4 : ∀ i : grid2.Coords, EltTy.bits .f32 = 32 ∨ (Rect.block (s := S50000x128) S1000x128.size (cc2_transform_4 i) (hinb2_4 i)).WholeWords (EltTy.packing .f32)
  hrank3 : 0 < grid3.rank
  k3_off1_inb : ∀ i : grid3.Coords, ∀ a, (k3_off1 i) a + S1.size a ≤ S50.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off1_inb numel1_S1 pf i = cc3_transform_2 k3_off1_inb numel1_S1 pf i'
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x128.size a ≤ S50000x128.size a
  hwx3_3 : ∀ i : grid3.Coords, EltTy.bits .f32 = 32 ∨ (Rect.block (s := S50000x128) S1000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .f32 = 32 ∨ (Rect.block (s := S50000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S8x128.size a ≤ S8x128.size a
  hwx4_3 : ∀ i : grid4.Coords, EltTy.bits .f32 = 32 ∨ (Rect.block (s := S8x128) S8x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S8.size a ≤ S8.size a
  hwx4_4 : ∀ i : grid4.Coords, EltTy.bits .f32 = 32 ∨ (Rect.block (s := S8) S8.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x128.size a ≤ S50000x128.size a
  hwx4_5 : ∀ i : grid4.Coords, EltTy.bits .f32 = 32 ∨ (Rect.block (s := S50000x128) S1000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1000x8.size a ≤ S50000x8.size a
  hwx4_6 : ∀ i : grid4.Coords, EltTy.bits .f32 = 32 ∨ (Rect.block (s := S50000x8) S1000x8.size (cc4_transform_6 i) (hinb4_6 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S1000x128_S128x8_S1000x8_1_0_0_1_n_n : DotDims S1000x128 S128x8 S1000x8 where
  lhsContracting := [1]
  rhsContracting := [0]
  lhsNonContracting := [0]
  rhsNonContracting := [1]
  lhsBatch := []
  rhsBatch := []
  wf := dot_S1000x128_S128x8_S1000x8_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev spec3_0 : Pipeline.WinSpec sig grid3.rank :=
  Pipeline.WinSpec.ofSpec (Memref.whole main_v40) S1000x128.size reads3_0 false false 2 stage3_0 sem3_0 nbuf3_0 hstage3_0

abbrev spec3_1 : Pipeline.WinSpec sig grid3.rank :=
  Pipeline.WinSpec.ofSpec (Memref.whole main_arg9) S1x128x128.size reads3_1 false false 2 stage3_1 sem3_1 nbuf3_1 hstage3_1

abbrev spec3_2 : Pipeline.WinSpec sig grid3.rank :=
  Pipeline.WinSpec.ofSpec (Memref.whole main_v41) S1x1x128.size reads3_2 false false 2 stage3_2 sem3_2 nbuf3_2 hstage3_2

abbrev spec3_3 : Pipeline.WinSpec sig grid3.rank :=
  Pipeline.WinSpec.ofSpec (Memref.whole main_v42) S1000x128.size reads3_3 true false 2 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 | 1 => cc3_transform_1 k3_off1_inb numel1_S1 pf | 2 => cc3_transform_2 k3_off1_inb numel1_S1 pf | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | 1 => hreads3_1 pf | 2 => hreads3_2 pf | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_1 k3_off1_inb numel1_S1 pf i a + 1) * S1x128x128.size a ≤ S3x128x128.size a), EltTy.bits .f32 = 32 ∨ (Rect.block (s := S3x128x128) S1x128x128.size (cc3_transform_1 k3_off1_inb numel1_S1 pf i) h).WholeWords (EltTy.packing .f32)) ∧
  (∀ i : grid3.Coords, ∃ h : (∀ a, (cc3_transform_2 k3_off1_inb numel1_S1 pf i a + 1) * S1x1x128.size a ≤ S3x1x128.size a), EltTy.bits .f32 = 32 ∨ (Rect.block (s := S3x1x128) S1x1x128.size (cc3_transform_2 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => hinb3_0 | 1 => fun i a => (hok.1 i).elim fun h _ => h a | 2 => fun i a => (hok.2 i).elim fun h _ => h a | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => hwx3_0 | 1 => fun i => (hok.1 i).elim fun _ h => h | 2 => fun i => (hok.2 i).elim fun _ h => h | 3 => hwx3_3 | ⟨_ + 4, h⟩ => absurd h (Nat.not_lt.2 (Nat.le_add_left _ _))
abbrev win4_0 : Pipeline.Window sig grid4 :=
  Pipeline.Window.ofSpec (Memref.whole main_v61) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S8x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S8.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62_0) S1000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v62_1) S1000x8.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where
  harr3 : ∀ w, (spec3 w).arr.IsWhole

variable [Facts]
-- ==== ReferenceIdeal.lean ====
abbrev S20000x512 : Shape := ⟨2, ![20000, 512]⟩
abbrev S128x512 : Shape := ⟨2, ![128, 512]⟩
abbrev S128 : Shape := ⟨1, ![128]⟩
abbrev S128x15000 : Shape := ⟨2, ![128, 15000]⟩
abbrev S128x128 : Shape := ⟨2, ![128, 128]⟩
abbrev S3x128x128 : Shape := ⟨3, ![3, 128, 128]⟩
abbrev S3x128 : Shape := ⟨2, ![3, 128]⟩
abbrev S8x128 : Shape := ⟨2, ![8, 128]⟩
abbrev S8 : Shape := ⟨1, ![8]⟩
abbrev S800000 : Shape := ⟨1, ![800000]⟩
abbrev S50000 : Shape := ⟨1, ![50000]⟩
abbrev S4 : Shape := ⟨1, ![4]⟩
abbrev S512x128 : Shape := ⟨2, ![512, 128]⟩
abbrev S20000x128 : Shape := ⟨2, ![20000, 128]⟩
abbrev S1x128 : Shape := ⟨2, ![1, 128]⟩
abbrev S_ : Shape := ⟨0, ![]⟩
abbrev S50000x128 : Shape := ⟨2, ![50000, 128]⟩
abbrev S1 : Shape := ⟨1, ![1]⟩
abbrev S15000x128 : Shape := ⟨2, ![15000, 128]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S128x8 : Shape := ⟨2, ![128, 8]⟩
abbrev S50000x8 : Shape := ⟨2, ![50000, 8]⟩
abbrev S1x8 : Shape := ⟨2, ![1, 8]⟩

abbrev nBuf : Space → Nat
  | .hbm => 164
  | .vmem => 0
  | .smem => 0
  | _ => 0

abbrev hbmTy0_0 (i : Nat) : BufTy := match i % 128 with
  | 0 => ⟨S20000x512, .f32⟩
  | 1 => ⟨S128x512, .f32⟩
  | 2 => ⟨S128, .f32⟩
  | 3 => ⟨S128x15000, .f32⟩
  | 4 => ⟨S128, .f32⟩
  | 5 => ⟨S128x15000, .f32⟩
  | 6 => ⟨S128, .f32⟩
  | 7 => ⟨S128x128, .f32⟩
  | 8 => ⟨S128, .f32⟩
  | 9 => ⟨S3x128x128, .f32⟩
  | 10 => ⟨S3x128, .f32⟩
  | 11 => ⟨S128x128, .f32⟩
  | 12 => ⟨S128, .f32⟩
  | 13 => ⟨S8x128, .f32⟩
  | 14 => ⟨S8, .f32⟩
  | 15 => ⟨S800000, .i32⟩
  | 16 => ⟨S800000, .i32⟩
  | 17 => ⟨S50000, .i32⟩
  | 18 => ⟨S4, .i1⟩
  | 19 => ⟨S512x128, .f32⟩
  | 20 => ⟨S20000x128, .f32⟩
  | 21 => ⟨S1x128, .f32⟩
  | 22 => ⟨S20000x128, .f32⟩
  | 23 => ⟨S20000x128, .f32⟩
  | 24 => ⟨S_, .f32⟩
  | 25 => ⟨S50000x128, .f32⟩
  | 26 => ⟨S_, .i32⟩
  | 27 => ⟨S1, .i32⟩
  | 28 => ⟨S50000x128, .f32⟩
  | 29 => ⟨S_, .f32⟩
  | 30 => ⟨S20000x128, .f32⟩
  | 31 => ⟨S15000x128, .f32⟩
  | 32 => ⟨S1x128, .f32⟩
  | 33 => ⟨S15000x128, .f32⟩
  | 34 => ⟨S15000x128, .f32⟩
  | 35 => ⟨S15000x128, .f32⟩
  | 36 => ⟨S1x128, .f32⟩
  | 37 => ⟨S15000x128, .f32⟩
  | 38 => ⟨S15000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S_, .f32⟩
  | 55 => ⟨S50000x128, .f32⟩
  | 56 => ⟨S800000x1, .i32⟩
  | 57 => ⟨S50000x128, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000x1, .f32⟩
  | 68 => ⟨S50000x128, .f32⟩
  | 69 => ⟨S50000x128, .f32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000, .i1⟩
  | 79 => ⟨S50000x1, .i1⟩
  | 80 => ⟨S50000x128, .i1⟩
  | 81 => ⟨S50000x128, .f32⟩
  | 82 => ⟨S50000x128, .f32⟩
  | 83 => ⟨S20000x128, .f32⟩
  | 84 => ⟨S1x128x128, .f32⟩
  | 85 => ⟨S128x128, .f32⟩
  | 86 => ⟨S128x128, .f32⟩
  | 87 => ⟨S20000x128, .f32⟩
  | 88 => ⟨S1x128, .f32⟩
  | 89 => ⟨S128, .f32⟩
  | 90 => ⟨S1x128, .f32⟩
  | 91 => ⟨S20000x128, .f32⟩
  | 92 => ⟨S20000x128, .f32⟩
  | 93 => ⟨S15000x128, .f32⟩
  | 94 => ⟨S1x128x128, .f32⟩
  | 95 => ⟨S128x128, .f32⟩
  | 96 => ⟨S128x128, .f32⟩
  | 97 => ⟨S15000x128, .f32⟩
  | 98 => ⟨S1x128, .f32⟩
  | 99 => ⟨S128, .f32⟩
  | 100 => ⟨S1x128, .f32⟩
  | 101 => ⟨S15000x128, .f32⟩
  | 102 => ⟨S15000x128, .f32⟩
  | 103 => ⟨S15000x128, .f32⟩
  | 104 => ⟨S1x128x128, .f32⟩
  | 105 => ⟨S128x128, .f32⟩
  | 106 => ⟨S128x128, .f32⟩
  | 107 => ⟨S15000x128, .f32⟩
  | 108 => ⟨S1x128, .f32⟩
  | 109 => ⟨S128, .f32⟩
  | 110 => ⟨S1x128, .f32⟩
  | 111 => ⟨S15000x128, .f32⟩
  | 112 => ⟨S15000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S_, .f32⟩
  | _ => ⟨S20000x512, .f32⟩

abbrev hbmTy0_1 (i : Nat) : BufTy := match i % 128 with
  | 0 => ⟨S800000, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x128, .f32⟩
  | 10 => ⟨S50000x128, .f32⟩
  | 11 => ⟨S128x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .i1⟩
  | 19 => ⟨S_, .f32⟩
  | 20 => ⟨S50000x128, .f32⟩
  | 21 => ⟨S50000x128, .i1⟩
  | 22 => ⟨S_, .f32⟩
  | 23 => ⟨S_, .f32⟩
  | 24 => ⟨S50000x128, .f32⟩
  | 25 => ⟨S50000x128, .f32⟩
  | 26 => ⟨S50000x128, .f32⟩
  | 27 => ⟨S_, .f32⟩
  | 28 => ⟨S50000x128, .f32⟩
  | 29 => ⟨S50000x128, .f32⟩
  | 30 => ⟨S50000x128, .f32⟩
  | 31 => ⟨S128x8, .f32⟩
  | 32 => ⟨S50000x8, .f32⟩
  | 33 => ⟨S1x8, .f32⟩
  | 34 => ⟨S50000x8, .f32⟩
  | 35 => ⟨S50000x8, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_8 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call0_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_10 : Ref sig .tc := ⟨.hbm, 114, rfl⟩
abbrev main_v83 : Ref sig .tc := ⟨.hbm, 115, rfl⟩
abbrev main_v84 : Ref sig .tc := ⟨.hbm, 116, rfl⟩
abbrev main_c_11 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_12 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_13 : Ref sig .tc := ⟨.hbm, 127, rfl⟩
abbrev main_v93 : Ref sig .tc := ⟨.hbm, 128, rfl⟩
abbrev main_cst_14 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_15 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_call1_cst : Ref sig .tc := ⟨.hbm, 144, rfl⟩
abbrev main_call1_v0 : Ref sig .tc := ⟨.hbm, 145, rfl⟩
abbrev main_call1_v1 : Ref sig .tc := ⟨.hbm, 146, rfl⟩
abbrev main_call1_cst_0 : Ref sig .tc := ⟨.hbm, 147, rfl⟩
abbrev main_call1_v2 : Ref sig .tc := ⟨.hbm, 148, rfl⟩
abbrev main_call1_v3 : Ref sig .tc := ⟨.hbm, 149, rfl⟩
abbrev main_call1_cst_1 : Ref sig .tc := ⟨.hbm, 150, rfl⟩
abbrev main_call1_call0_v0 : Ref sig .tc := ⟨.hbm, 151, rfl⟩
abbrev main_call1_call0_v1 : Ref sig .tc := ⟨.hbm, 152, rfl⟩
abbrev main_call1_v4 : Ref sig .tc := ⟨.hbm, 153, rfl⟩
abbrev main_call1_v5 : Ref sig .tc := ⟨.hbm, 154, rfl⟩
abbrev main_call1_cst_2 : Ref sig .tc := ⟨.hbm, 155, rfl⟩
abbrev main_call1_v6 : Ref sig .tc := ⟨.hbm, 156, rfl⟩
abbrev main_call1_v7 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S50000x128 : S_.BroadcastsInDim S50000x128 (![] : Fin 0 → Fin S50000x128.rank)
  bcast_S_S1 : S_.BroadcastsInDim S1 (![] : Fin 0 → Fin S1.rank)
  bcast_S_S20000x128 : S_.BroadcastsInDim S20000x128 (![] : Fin 0 → Fin S20000x128.rank)
  transposes_S128x15000_S15000x128_1_0 : S128x15000.Transposes [1, 0] S15000x128
  bcast_S1x128_S15000x128_0_1 : S1x128.BroadcastsInDim S15000x128 (![0, 1] : Fin 2 → Fin S15000x128.rank)
  concatenates_S20000x128_S15000x128_S15000x128_S50000x128_d0 : Shape.Concatenates [S20000x128, S15000x128, S15000x128] S50000x128 0
  transposes_S128x128_S128x128_1_0 : S128x128.Transposes [1, 0] S128x128
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S50000x128_S20000x128_0_0 : S50000x128.Slices ![0, 0] S20000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S50000x128_S15000x128_20000_0 : S50000x128.Slices ![20000, 0] S15000x128
  slices_S3x128x128_S1x128x128_1_0_0 : S3x128x128.Slices ![1, 0, 0] S1x128x128
  slices_S3x128_S1x128_1_0 : S3x128.Slices ![1, 0] S1x128
  slices_S50000x128_S15000x128_35000_0 : S50000x128.Slices ![35000, 0] S15000x128
  slices_S3x128x128_S1x128x128_2_0_0 : S3x128x128.Slices ![2, 0, 0] S1x128x128
  slices_S3x128_S1x128_2_0 : S3x128.Slices ![2, 0] S1x128
  transposes_S8x128_S128x8_1_0 : S8x128.Transposes [1, 0] S128x8
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  dot_S20000x512_S512x128_S20000x128_1_0_0_1_n_n_wf : DotDims.WF S20000x512 S512x128 S20000x128 [1] [0] [0] [1] [] []
  scatter_S50000x128_S1_S20000x128_01_n_0_0_wf : ScatterDims.WF S50000x128 S1 S20000x128 [0, 1] [] [0] 0
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  gather_S4_S50000x1_S50000_n_0_n_n_0_1_1_wf : GatherDims.WF S4 S50000x1 S50000 [] [0] [] [0] [] 1 ![1]
  dot_S20000x128_S128x128_S20000x128_1_0_0_1_n_n_wf : DotDims.WF S20000x128 S128x128 S20000x128 [1] [0] [0] [1] [] []
  dot_S15000x128_S128x128_S15000x128_1_0_0_1_n_n_wf : DotDims.WF S15000x128 S128x128 S15000x128 [1] [0] [0] [1] [] []
  dot_S50000x128_S128x8_S50000x8_1_0_0_1_n_n_wf : DotDims.WF S50000x128 S128x8 S50000x8 [1] [0] [0] [1] [] []

variable [Facts₀]

def dot_S20000x512_S512x128_S20000x128_1_0_0_1_n_n : DotDims S20000x512 S512x128 S20000x128 where
  lhsContracting := [1]
  rhsContracting := [0]
  lhsNonContracting := [0]
  rhsNonContracting := [1]
  lhsBatch := []
  rhsBatch := []
  wf := dot_S20000x512_S512x128_S20000x128_1_0_0_1_n_n_wf
def scatter_S50000x128_S1_S20000x128_01_n_0_0 : ScatterDims S50000x128 S1 S20000x128 where
  updateWindowDims := [0, 1]
  insertedWindowDims := []
  scatterDimsToOperandDims := [0]
  indexVectorDim := 0
  wf := scatter_S50000x128_S1_S20000x128_01_n_0_0_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S4_S50000x1_S50000_n_0_n_n_0_1_1 : GatherDims S4 S50000x1 S50000 where
  offsetDims := []
  collapsedSliceDims := [0]
  operandBatchingDims := []
  startIndicesBatchingDims := []
  startIndexMap := [0]
  indexVectorDim := 1
  sliceSizes := ![1]
  wf := gather_S4_S50000x1_S50000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S15000x128_S128x128_S15000x128_1_0_0_1_n_n : DotDims S15000x128 S128x128 S15000x128 where
  lhsContracting := [1]
  rhsContracting := [0]
  lhsNonContracting := [0]
  rhsNonContracting := [1]
  lhsBatch := []
  rhsBatch := []
  wf := dot_S15000x128_S128x128_S15000x128_1_0_0_1_n_n_wf
def dot_S50000x128_S128x8_S50000x8_1_0_0_1_n_n : DotDims S50000x128 S128x8 S50000x8 where
  lhsContracting := [1]
  rhsContracting := [0]
  lhsNonContracting := [0]
  rhsNonContracting := [1]
  lhsBatch := []
  rhsBatch := []
  wf := dot_S50000x128_S128x8_S50000x8_1_0_0_1_n_n_wf

class Facts : Prop extends Facts₀ where

variable [Facts]
-- ==== Proof.K.R0.lean ====
/- The frame half of region 0 of @main (custom_call 0, `cc0__linear_kernel` (pipeline 0)), at a PARAMETER `V`: the TensorCore's buffer
   contents when the region is entered. Each window's block at a point (`iblk0`), what the body leaves in each
   output window's buffer (`out0_W`: its one whole store over the payload of the input blocks), the body's triple
   on whole staging memrefs (`sound_kernel0`), the pipeline's proof data over the class-A invariant (`dat0`)
   and its body obligation at every point (`body_obligation0`). Generic in the float instance. -/
import proofs.«107237_j10496900072251_2_alg».proof.Proof.Gen.Kernel.Launch
import proofs.«107237_j10496900072251_2_alg».proof.Proof.Gen.Kernel.Skeleton
import proofs.«107237_j10496900072251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1000x512 := Rect.unit (s := S1000x512) ![0, 0] S1000x512.size inb_S1000x512_S1000x512_0_0
abbrev r0_1 : Rect S128x512 := Rect.unit (s := S128x512) ![0, 0] S128x512.size inb_S128x512_S128x512_0_0
abbrev r0_2 : Rect S128 := Rect.unit (s := S128) ![0] S128.size inb_S128_S128_0
abbrev r0_3 : Rect S1000x128 := Rect.unit (s := S1000x128) ![0, 0] S1000x128.size inb_S1000x128_S1000x128_0_0

/-! ## What the body leaves in each output window's buffer -/

/-- Window 3's staging buffer after the body, from the input windows' blocks: its one store, of the whole
    buffer, of the payload `k0_pay1` of the blocks loaded whole. -/
def out0_3 (x0 : Vec F S1000x512 .f32) (x1 : Vec F S128x512 .f32) (x2 : Vec F S128 .f32) : Vec F S1000x128 .f32 :=
  View.canon [⟨r0_3, k0_pay1 (View.ld x0 r0_0) (View.ld x1 r0_1) (View.ld x2 r0_2)⟩]

/-- The one store is of the whole buffer, so it covers it. -/
theorem cover0_3 (p0 : Vec F S1000x128 .f32) (y : S1000x128.Idx) :
    ∃ pc ∈ ([⟨r0_3, p0⟩] : List (View.Piece (Elt F) S1000x128 .f32)), y ∈ pc.1.set :=
  View.cover_of_tiled [⟨r0_3, p0⟩] S1000x128.size (by rfl) y

/-! ## The body's triple -/

set_option maxHeartbeats 1000000 in
/-- The kernel body on whole staging memrefs, the inputs' at read contents `xW` and the outputs' at anything, runs to
    the continuation holding the inputs' as they were and each output's at `out0_W` of the inputs'. The body loads
    each input whole, loads the output's old contents (unused), and stores the payload over the whole output. -/
theorem sound_kernel0 (c : Dev nD) (E : Set ℕ) (i : grid0.Coords) (arg1 : Memref sig .tc .vmem S1000x512 .f32) (harg1 : arg1.IsWhole) (arg2 : Memref sig .tc .vmem S128x512 .f32) (harg2 : arg2.IsWhole) (arg3 : Memref sig .tc .vmem S128 .f32) (harg3 : arg3.IsWhole) (arg4 : Memref sig .tc .vmem S1000x128 .f32) (harg4 : arg4.IsWhole)
    (x0 : Vec F S1000x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1.lean ====
/- The frame half of region 1 of @main (custom_call 1, `cc1__linear_kernel` (pipeline 1)), at a PARAMETER `V`: the TensorCore's buffer
   contents when the region is entered. Each window's block at a point (`iblk1`), what the body leaves in each
   output window's buffer (`out1_W`: its one whole store over the payload of the input blocks), the body's triple
   on whole staging memrefs (`sound_kernel1`), the pipeline's proof data over the class-A invariant (`dat1`)
   and its body obligation at every point (`body_obligation1`). Generic in the float instance. -/
import proofs.«107237_j10496900072251_2_alg».proof.Proof.Gen.Kernel.Launch
import proofs.«107237_j10496900072251_2_alg».proof.Proof.Gen.Kernel.Skeleton
import proofs.«107237_j10496900072251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1000x128 := Rect.unit (s := S1000x128) ![0, 0] S1000x128.size inb_S1000x128_S1000x128_0_0
abbrev r1_1 : Rect S128x128 := Rect.unit (s := S128x128) ![0, 0] S128x128.size inb_S128x128_S128x128_0_0
abbrev r1_2 : Rect S128 := Rect.unit (s := S128) ![0] S128.size inb_S128_S128_0

/-! ## What the body leaves in each output window's buffer -/

/-- Window 3's staging buffer after the body, from the input windows' blocks: its one store, of the whole
    buffer, of the payload `k1_pay1` of the blocks loaded whole. -/
def out1_3 (x0 : Vec F S1000x128 .f32) (x1 : Vec F S128x128 .f32) (x2 : Vec F S128 .f32) : Vec F S1000x128 .f32 :=
  View.canon [⟨r1_0, k1_pay1 (View.ld x0 r1_0) (View.ld x1 r1_1) (View.ld x2 r1_2)⟩]

/-- The one store is of the whole buffer, so it covers it. -/
theorem cover1_3 (p0 : Vec F S1000x128 .f32) (y : S1000x128.Idx) :
    ∃ pc ∈ ([⟨r1_0, p0⟩] : List (View.Piece (Elt F) S1000x128 .f32)), y ∈ pc.1.set :=
  View.cover_of_tiled [⟨r1_0, p0⟩] S1000x128.size (by rfl) y

/-! ## The body's triple -/

set_option maxHeartbeats 1000000 in
/-- The kernel body on whole staging memrefs, the inputs' at read contents `xW` and the outputs' at anything, runs to
    the continuation holding the inputs' as they were and each output's at `out1_W` of the inputs'. The body loads
    each input whole, loads the output's old contents (unused), and stores the payload over the whole output. -/
theorem sound_kernel1 (c : Dev nD) (E : Set ℕ) (i : grid1.Coords) (arg1 : Memref sig .tc .vmem S1000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S1000x128 .f32) (harg4 : arg4.IsWhole)
    (x0 : Vec F S1000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.R2.lean ====
/- The frame half of region 2 of @main (custom_call 2, `cc2__select_add_kernel` (pipeline 2)), at a PARAMETER `V`: the TensorCore's buffer
   contents when the region is entered. Each window's block at a point (`iblk2`), what the body leaves in each
   output window's buffer (`out2_W`: its one whole store over the payload of the input blocks), the body's triple
   on whole staging memrefs (`sound_kernel2`), the pipeline's proof data over the class-A invariant (`dat2`)
   and its body obligation at every point (`body_obligation2`). Generic in the float instance. -/
import proofs.«107237_j10496900072251_2_alg».proof.Proof.Gen.Kernel.Launch
import proofs.«107237_j10496900072251_2_alg».proof.Proof.Gen.Kernel.Skeleton
import proofs.«107237_j10496900072251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the pipeline did not
    fetch, the block index has not moved, so the buffer still holds this point's block. The window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S1000x128 := Rect.unit (s := S1000x128) ![0, 0] S1000x128.size inb_S1000x128_S1000x128_0_0
abbrev r2_1 : Rect S1000x1 := Rect.unit (s := S1000x1) ![0, 0] S1000x1.size inb_S1000x1_S1000x1_0_0

/-! ## What the body leaves in each output window's buffer -/

/-- Window 4's staging buffer after the body, from the input windows' blocks: its one store, of the whole
    buffer, of the payload `k2_pay1` of the blocks loaded whole. -/
def out2_4 (x0 : Vec F S1000x128 .f32) (x1 : Vec F S1000x128 .f32) (x2 : Vec F S1000x128 .f32) (x3 : Vec F S1000x1 .f32) : Vec F S1000x128 .f32 :=
  View.canon [⟨r2_0, k2_pay1 (View.ld x3 r2_1) (View.ld x0 r2_0) (View.ld x1 r2_0) (View.ld x2 r2_0)⟩]

/-- The one store is of the whole buffer, so it covers it. -/
theorem cover2_4 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

/-! ## The body's triple -/

set_option maxHeartbeats 1000000 in
/-- The kernel body on whole staging memrefs, the inputs' at read contents `xW` and the outputs' at anything, runs to
    the continuation holding the inputs' as they were and each output's at `out2_W` of the inputs'. The body loads
    each input whole, loads the output's old contents (unused), and stores the payload over the whole output. -/
theorem sound_kernel2 (c : Dev nD) (E : Set ℕ) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S1000x128 .f32) (harg5 : arg5.IsWhole)
    (x0 : Vec F S1000x128 .f32) (x1 : Vec F S1000x128 .f32) (x2 : Vec F S1000x128 .f32) (x3 : Vec F S1000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__select_add_kernel i arg1 harg1 arg2 harg2 arg3 harg3 arg4 harg4 arg5 harg5) K := by
  simp only [cc2__select_add_kernel_eq_skeleton]; unfold cc2__select_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (the scoped rest and the generator register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3.lean ====
import proofs.«107237_j10496900072251_2_alg».proof.Proof.Gen.Kernel.Launch
import proofs.«107237_j10496900072251_2_alg».proof.Proof.Gen.Kernel.Skeleton
import proofs.«107237_j10496900072251_2_alg».proof.Proof.Gen.Kernel.Points
import proofs.«107237_j10496900072251_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main: the grouped linear layer, its frame half

The fourth pallas_call multiplies each tile of 1000 rows by the weight matrix of the tile's type and adds that
type's bias. Which of the three matrices (and biases) a tile takes is read from a table of 50 words, one per
tile, that the call prefetches into scalar memory: the index maps of the weight window and of the bias window
are functions of the table's contents, those of the row window and of the output window of the grid point alone.

Everything here is stated at a parameter `V` — the TensorCore's buffers as the region finds them — and at ANY
admissible contents `a` of the table; only the last section names the literal table the host writes. -/

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3

variable (V : (c : Dev nD) → (b : Ref sig .tc) → Buf (Elt F) ((c : Thread nD τ).loc b))
variable (a : (pcfg3 (F := F)).Adm)

/-! ## The staging memrefs and the body at a point -/

/-- The current staging memref of each window at point `t`, at any admissible contents of the table. -/
abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)

/-- The kernel body at point `t`, on what the pipeline calls it with: the grid point, the whole table in scalar
    memory, each window's current staging buffer. -/
abbrev bodyAt3 (t : Fin (cfg3 a).N) : Prog (TpuEff nD τ sig (Elt F) Λ₀ .tc) PUnit :=
  cc3__group_linear_kernel (grid3.coords t) (Memref.whole main_c) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3))

/-! ## The windows' blocks -/

/-- Window `w`'s block at point `t`, read off its array as the region finds it (`V`); for the weight and bias
    windows, whose index maps read the table, a function of the table's words. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not, for any proof
    data whose array is `V`'s and whose body leaves the block in place: where the block index has not moved the
    buffer still holds the previous point's block, which is this point's. The windows are uncut and never idle. -/
theorem before3_0_of {c : Dev nD} (dat : Dat τ (Elt F) Unit ℕ (Pipeline.UD sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ (cfg3 a) c) (hA : dat.A 1 = V c (Pipeline.arrRef spec3 1))
    (hafter : ∀ t, dat.after 1 t = iblk3 V a c 1 t) (t : Fin (cfg3 a).N) (d) : dat.before 1 t d = iblk3 V a c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ (cfg3 a) c) (hA : dat.A 2 = V c (Pipeline.arrRef spec3 2))
    (hafter : ∀ t, dat.after 2 t = iblk3 V a c 2 t) (t : Fin (cfg3 a).N) (d) : dat.before 2 t d = iblk3 V a c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1000x128 := Rect.unit (s := S1000x128) ![0, 0] S1000x128.size inb_S1000x128_S1000x128_0_0
abbrev r3_1 : Rect S1x128x128 := Rect.unit (s := S1x128x128) ![0, 0, 0] S1x128x128.size inb_S1x128x128_S1x128x128_0_0_0
abbrev r3_2 : Rect S1x1x128 := Rect.unit (s := S1x1x128) ![0, 0, 0] S1x1x128.size inb_S1x1x128_S1x1x128_0_0_0

/-! ## What the body leaves in the output window's buffer -/

/-- The output window's staging buffer after the body, from the three input blocks: its one store, of the whole
    block, as a piece. -/
def out3_3 (x0 : Vec F S1000x128 .f32) (x1 : Vec F S1x128x128 .f32) (x2 : Vec F S1x1x128 .f32) : Vec F S1000x128 .f32 :=
  View.canon [⟨r3_0, k3_pay1 (View.ld x0 r3_0) (View.ld x1 r3_1) (View.ld x2 r3_2)⟩]

/-- The one store is of the whole block, so it covers the buffer. -/
theorem cover3_3 (p0 : Vec F S1000x128 .f32) (y : S1000x128.Idx) :
    ∃ pc ∈ ([⟨r3_0, p0⟩] : List (View.Piece (Elt F) S1000x128 .f32)), y ∈ pc.1.set :=
  View.cover_of_tiled [⟨r3_0, p0⟩] S1000x128.size (by rfl) y

/-! ## The body's triple -/

set_option maxHeartbeats 1000000 in
/-- The kernel body on whole staging memrefs, the inputs' at read contents `xW` and the output's at anything, runs
    to the continuation holding the inputs' as they were and the output's at `out3_3` of the inputs'. The table's
    memref `arg1` is any whole memref in scalar memory: the body never loads from it (the table is read by the
    index maps alone), so nothing is asked of its contents and nothing of it is held here — whatever holds it,
    at whatever contents, passes by untouched. -/
theorem sound_kernel3 (c : Dev nD) (E : Set ℕ) (i : grid3.Coords) (arg1 : Memref sig .tc .smem S50 .i32) (harg1 : arg1.IsWhole) (arg2 : Memref sig .tc .vmem S1000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S1000x128 .f32) (harg5 : arg5.IsWhole)
    (x0 : Vec F S1000x128 .f32) (x1 : Vec F S1x128x128 .f32) (x2 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__group_linear_kernel i arg1 harg1 arg2 harg2 arg3 harg3 arg4 harg4 arg5 harg5) K := by
  simp only [cc3__group_linear_kernel_eq_skeleton]; unfold cc3__group_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The table on core `c` as the region hands it to the invariant: its buffer at the contents `a.1`, whole (a
    region among several takes the table whole at its entry and gives it back whole at its exit). -/
abbrev ΦT3 (c : Dev nD) : sProp 𝕄 :=
  Pipeline.prefHeld (Ix := Unit) (Name := ℕ) (U := Pipeline.UD sig nD τ) (Lvl := ℕ) pre3 c (fun _ => fullShare) a.1

/-- The proof data of pipeline 3 on core `c`: the arrays as the region finds them (`V`); after the body at point
    `t` each input's buffer at its block and the output's at `out3_3` of the input blocks; the invariant the
    scoped rest and the generator register, untouched, beside the table held at `a.1`; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => out3_3 (iblk3 V a c 0 t) (iblk3 V a c 1 t) (iblk3 V a c 2 t)
  Φ _ := iprop(Pipeline.ΦA spec3 c ∗ ΦT3 a c)
  q _ := fullShare
  owed _ := 0

/-- The proof data's arrays are the region-entry contents. -/
theorem A_eq3 (c : Dev nD) (w : Fin (cfg3 a).W) : (dat3 V a c).A w = V c (Pipeline.arrRef spec3 w) := by
  dsimp only [dat3]

/-- What the body leaves, window by window. -/
theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = iblk3 V a c 2 t := by dsimp only [dat3]; try rfl
theorem after3_3 (c : Dev nD) (t : Fin (cfg3 a).N) : (dat3 V a c).after 3 t = out3_3 (iblk3 V a c 0 t) (iblk3 V a c 1 t) (iblk3 V a c 2 t) := by dsimp only [dat3]; try rfl

/-- Each input's current staging buffer holds its block at every point, fetched there or not. -/
theorem before3_0 (c : Dev nD) (t : Fin (cfg3 a).N) (d) : (dat3 V a c).before 0 t d = iblk3 V a c 0 t :=
  before3_0_of V a (dat3 V a c) (A_eq3 V a c 0) (after3_0 V a c) t d
theorem before3_1 (c : Dev nD) (t : Fin (cfg3 a).N) (d) : (dat3 V a c).before 1 t d = iblk3 V a c 1 t :=
  before3_1_of V a (dat3 V a c) (A_eq3 V a c 1) (after3_1 V a c) t d
theorem before3_2 (c : Dev nD) (t : Fin (cfg3 a).N) (d) : (dat3 V a c).before 2 t d = iblk3 V a c 2 t :=
  before3_2_of V a (dat3 V a c) (A_eq3 V a c 2) (after3_2 V a c) t d

/-! ## The body obligation, at a generic point -/

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d))
    ∗ (∃ d, owns (c : Thread nD τ) (st3_2 a t) fullShare ((dat3 V a c).before 2 t d))
    ∗ (∃ d, owns (c : Thread nD τ) (st3_3 a t) fullShare ((dat3 V a c).before 3 t d)))

/-- and what it returns. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t)
    ∗ owns (c : Thread nD τ) (st3_2 a t) fullShare ((dat3 V a c).after 2 t)
    ∗ owns (c : Thread nD τ) (st3_3 a t) fullShare ((dat3 V a c).after 3 t))

/-- The body at any point: the inputs' memrefs hold their blocks, so the body's triple applies; the invariant —
    the table in it — and the core's `owes` pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1, before3_2]
  rw [show (dat3 V a c).Φ t.succ = (dat3 V a c).Φ t.castSucc from rfl,
    show (dat3 V a c).owesAt () t.succ = (dat3 V a c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ _ _ (iblk3 V a c 0 t) (iblk3 V a c 1 t) (iblk3 V a c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V a c) (defs₀ (F := F)) Variants.none () Set.univ := fun t => by
  rw [bigSep_W3, bigSep_W3]
  exact sound_body3 V a c t

/-! ## The region as a segment of @main: the table's road

A region among several takes the table WHOLE at its entry, beside the windows' arrays — split out of the unscoped
buffers no window stages —, carries it in the invariant, and gives it back whole at its exit, where it rejoins
those buffers. The three entailments below are that road, at any admissible contents. -/

/-- The unscoped buffers no window stages, at contents `Vc` that hold the table at `a.1`, are the table held
    whole and the rest. -/
theorem unscopedRest3_split (c : Dev nD) (Vc : (b : Ref sig .tc) → Buf (Elt F) ((c : Thread nD τ).loc b)) (hpf : ∀ k, Vc (pre3.ref k) = a.1 k) :
    (Pipeline.unscopedRest (Ix := Unit) (Name := ℕ) (U := Pipeline.UD sig nD τ) (Lvl := ℕ) spec3 c Vc : sProp 𝕄)
      = iprop(ΦT3 a c ∗ Pipeline.unscopedRestP (Ix := Unit) (Name := ℕ) (U := Pipeline.UD sig nD τ) (Lvl := ℕ) pre3 spec3 c Vc) := by
  rw [Pipeline.unscopedRest_split preFacts3 c Vc, show (fun k => Vc (pre3.ref k)) = a.1 from funext hpf]

/-- The invariant at the first point, from the generator register, the table whole and the scoped buffers no window
    stages. -/
theorem hin3 (c : Dev nD) :
    iprop((∃ r, prngReg c r) ∗ ΦT3 a c ∗ Pipeline.scopedRest (Ix := Unit) (Name := ℕ) (U := Pipeline.UD sig nD τ) (Lvl := ℕ) (Val := Elt F) spec3 c)
      ⊢ (dat3 V a c).Φ 0 := by
  rw [show (dat3 V a c).Φ 0 = iprop(Pipeline.ΦA spec3 c ∗ ΦT3 a c) from rfl]; unfold Pipeline.ΦA
  iintro ⟨Hp, Ht, Hr⟩
  isplitl [Hr Hp]
  · isplitl [Hr]; · iexact Hr
    iexact Hp
  iexact Ht

/-- The invariant at the last point gives back the generator register and the table, whole, and those scoped
    buffers. -/
theorem hout3 (c : Dev nD) :
    (dat3 V a c).Φ (Fin.last (cfg3 a).N)
      ⊢ iprop(iprop((∃ r, prngReg c r) ∗ ΦT3 a c) ∗ Pipeline.scopedRest (Ix := Unit) (Name := ℕ) (U := Pipeline.UD sig nD τ) (Lvl := ℕ) (Val := Elt F) spec3 c) := by
  rw [show (dat3 V a c).Φ (Fin.last (cfg3 a).N) = iprop(Pipeline.ΦA spec3 c ∗ ΦT3 a c) from rfl]; unfold Pipeline.ΦA
  iintro ⟨⟨Hr, Hp⟩, Ht⟩
  isplitl [Hp Ht]
  · isplitl [Hp]; · iexact Hp
    iexact Ht
  iexact Hr

end Region3

/-! ## The literal table

The host writes the table before the region: a constant of 50 words, tile `k`'s type — 0 for the first 20
tiles, 1 for the next 15, 2 for the last 15. Every structural fact above is at ANY admissible contents; here the
contents are named, shown admissible, and the index maps of the weight and bias windows are computed at them. -/

/-- The table the host writes before the region: the type of each tile of rows. -/
def tbl3 : pre3.Contents (Elt F) := fun
  | 0 => fun i => lit0 (S50.rowMajor i)
  | ⟨_ + 1, h⟩ => absurd h (Nat.not_lt.2 (Nat.le_add_left _ _))

theorem tbl3_zero : tbl3 (F := F) 0 = fun i => lit0 (S50.rowMajor i) := rfl

/-- The index of the table's word `k`. -/
def ik3 (k : Fin 50) : S50.Idx := fun a => match a with | ⟨0, _⟩ => k

/-- Every index of the table is some word's. -/
theorem S50_idx (x : S50.Idx) : x = ik3 (x 0) := by
  funext a
  match a with
  | ⟨0, _⟩ => rfl

/-- The type of tile `k`: 0 below 20, 1 below 35, 2 from there on. -/
def grp3 (k : ℕ) : ℕ := if k < 20 then 0 else if k < 35 then 1 else 2

theorem grp3_lt (k : ℕ) : grp3 k < 3 := by unfold grp3; split <;> [omega; (split <;> omega)]

/-- The table's word `k` is tile `k`'s type. -/
theorem tbl3_word : ∀ k : Fin 50, (tbl3 (F := F) 0 (ik3 k)).toNat = grp3 k.val := by
  intro k
  rw [tbl3_zero]
  revert k
  decide

/-- The three value facts, by range. -/
theorem tbl3_word_lo (k : Fin 50) (h : k.val < 20) : (tbl3 (F := F) 0 (ik3 k)).toNat = 0 := by
  rw [tbl3_word, grp3, if_pos h]
theorem tbl3_word_mid (k : Fin 50) (h1 : 20 ≤ k.val) (h2 : k.val < 35) : (tbl3 (F := F) 0 (ik3 k)).toNat = 1 := by
  rw [tbl3_word, grp3, if_neg (by omega), if_pos h2]
theorem tbl3_word_hi (k : Fin 50) (h : 35 ≤ k.val) : (tbl3 (F := F) 0 (ik3 k)).toNat = 2 := by
  rw [tbl3_word, grp3, if_neg (by omega), if_neg (by omega)]

/-- Every word of the table names one of the three types. -/
theorem tbl3_lt (x : S50.Idx) : (tbl3 (F := F) 0 x).toNat < 3 :=
  lt_of_eq_of_lt ((congrArg (fun y => (tbl3 (F := F) 0 y).toNat) (S50_idx x)).trans (tbl3_word (x 0))) (grp3_lt _)

/-- The word the index maps read at grid point `i` is the table's word `i`: the unit rectangle at offset `i` has
    the one index `i`. Decided over the 50 grid points; the table's contents do not occur. -/
theorem emb3 : ∀ i : grid3.Coords,
    (Rect.unit (s := S50) ![(Scalar.indexCast (BitVec.ofNat 32 (i 0).val)).toNat] S1.size (k3_off1_inb i)).emb
      (Shape.Idx.first (numel1_S1.symm ▸ Nat.one_pos)) = ik3 (i 0) := by
  decide +kernel

/-- The weight window's index map at any contents of the table: the table's word at the grid point, then zeros. -/
theorem tf1_eq (pf : pre3.Contents (Elt F)) (i : grid3.Coords) :
    cc3_transform_1 k3_off1_inb numel1_S1 pf i = ![(pf 0 (ik3 (i 0))).toNat, 0, 0] :=
  congrArg (fun x => (![(pf 0 x).toNat, 0, 0] : Fin 3 → ℕ)) (emb3 i)
/-- The bias window's likewise. -/
theorem tf2_eq (pf : pre3.Contents (Elt F)) (i : grid3.Coords) :
    cc3_transform_2 k3_off1_inb numel1_S1 pf i = ![(pf 0 (ik3 (i 0))).toNat, 0, 0] :=
  congrArg (fun x => (![(pf 0 x).toNat, 0, 0] : Fin 3 → ℕ)) (emb3 i)

/-- The pipeline's side condition of the table holds of any contents whose every word is below 3: the weight
    block `(w, 0, 0)` lies inside the [3, 128, 128] array and the bias block inside the [3, 1, 128] one; the
    elements are word-wide. -/
theorem ok3_of_lt (pf : pre3.Contents (Elt F)) (h : ∀ x, (pf 0 x).toNat < 3) : ok3 pf := by
  refine ⟨fun i => ⟨fun a => ?_, Or.inl rfl⟩, fun i => ⟨fun a => ?_, Or.inl rfl⟩⟩
  · rw [tf1_eq]
    have := h (ik3 (i 0))
    fin_cases a <;> simp [S1x128x128, S3x128x128] <;> omega
  · rw [tf2_eq]
    have := h (ik3 (i 0))
    fin_cases a <;> simp [S1x1x128, S3x1x128] <;> omega

/-- The literal table is admissible. -/
theorem ok3_tbl3 : ok3 (F := F) tbl3 := ok3_of_lt tbl3 tbl3_lt

/-- The literal table as admissible contents: what region 3 runs its pipeline at. -/
abbrev adm3 : (pcfg3 (F := F)).Adm := ⟨tbl3, ok3_tbl3⟩

/-- At the literal table the weight window's block index at grid point `i` is the tile's type, -/
theorem tf1_tbl3 (i : grid3.Coords) : cc3_transform_1 k3_off1_inb numel1_S1 (tbl3 (F := F)) i = ![grp3 (i 0).val, 0, 0] :=
  (tf1_eq tbl3 i).trans (congrArg (fun n => (![n, 0, 0] : Fin 3 → ℕ)) (tbl3_word (i 0)))
/-- and the bias window's too. -/
theorem tf2_tbl3 (i : grid3.Coords) : cc3_transform_2 k3_off1_inb numel1_S1 (tbl3 (F := F)) i = ![grp3 (i 0).val, 0, 0] :=
  (tf2_eq tbl3 i).trans (congrArg (fun n => (![n, 0, 0] : Fin 3 → ℕ)) (tbl3_word (i 0)))
/-- The same of the pipeline's own index maps (`ix3`, what `(cfg3 adm3).win w` is pinned at). -/
theorem ix3_1_tbl3 (i : grid3.Coords) : ix3 (tbl3 (F := F)) 1 i = ![grp3 (i 0).val, 0, 0] := tf1_tbl3 i
theorem ix3_2_tbl3 (i : grid3.Coords) : ix3 (tbl3 (F := F)) 2 i = ![grp3 (i 0).val, 0, 0] := tf2_tbl3 i

/-! ## The table when region 3 is entered

The host writes the table once, before the first region; no later host stretch and no earlier region writes its
buffer, so region 3 finds it as written. -/

section Entry

variable (m : (ℓ : Loc nD τ sig) → Buf (Elt F) ℓ) (outs : Outs (F := F))

/-- The table's buffer after the first host stretch holds the literal table: the stretch is the one constant. -/
theorem V1_main_c (c : Dev nD) : V1 m c main_c = tbl3 (F := F) 0 := by
  show StableHlo.after hostOps0 (V0 m c) main_c = _
  simp only [hostOps0, StableHlo.after_cons, StableHlo.after_nil]
  exact StableHlo.nullary_result main_c _ _ _

/-- The table's buffer when region 3 is entered holds the literal table. -/
theorem V7_main_c (c : Dev nD) : V7 m outs c main_c = tbl3 (F := F) 0 :=
  (V7_of m outs c main_c (by decide)).trans <| (V6_of m outs c main_c (by decide)).trans <| (V5_of m outs c main_c (by decide)).trans <|
    (V4_of m outs c main_c (by decide)).trans <| (V3_of m outs c main_c (by decide)).trans <| (V2_of m outs c main_c (by decide)).trans <|
    V1_main_c m c

/-- The same, table by table: what the region's entry reads the tables at. -/
theorem V7_pre3 (c : Dev nD) : ∀ k, V7 m outs c (pre3.ref k) = (adm3 (F := F)).1 k
  | 0 => V7_main_c m outs c
  | ⟨_ + 1, h⟩ => absurd h (Nat.not_lt.2 (Nat.le_add_left _ _))

/-- Region 3 writes only its output array: the table's buffer leaves the region as it entered. -/
theorem V8_main_c (c : Dev nD) : V8 m outs c main_c = tbl3 (F := F) 0 :=
  (V8_of m outs c main_c (by decide)).trans (V7_main_c m outs c)

end Entry

end Cert.Kernel.Fr

end
-- ==== Proof.K.R4.lean ====
/- The frame half of region 4 of @main (custom_call 4, `cc4__final_kernel` (pipeline 4)), at a PARAMETER `V`: the TensorCore's buffer
   contents when the region is entered. Each window's block at a point (`iblk4`), what the body leaves in each
   output window's buffer (`out4_W`: its one whole store over the payload of the input blocks), the body's triple
   on whole staging memrefs (`sound_kernel4`), the pipeline's proof data over the class-A invariant (`dat4`)
   and its body obligation at every point (`body_obligation4`). Generic in the float instance. -/
import proofs.«107237_j10496900072251_2_alg».proof.Proof.Gen.Kernel.Launch
import proofs.«107237_j10496900072251_2_alg».proof.Proof.Gen.Kernel.Skeleton
import proofs.«107237_j10496900072251_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): where the pipeline did not
    fetch, the block index has not moved, so the buffer still holds this point's block. The window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof
    data whose array is `V`'s (`hA`) and whose body leaves the block in place (`hafter`): where the pipeline did not
    fetch, the block index has not moved, so the buffer still holds this point's block. The window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S1000x128 := Rect.unit (s := S1000x128) ![0, 0] S1000x128.size inb_S1000x128_S1000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_3 : Rect S8x128 := Rect.unit (s := S8x128) ![0, 0] S8x128.size inb_S8x128_S8x128_0_0
abbrev r4_4 : Rect S8 := Rect.unit (s := S8) ![0] S8.size inb_S8_S8_0
abbrev r4_5 : Rect S1000x8 := Rect.unit (s := S1000x8) ![0, 0] S1000x8.size inb_S1000x8_S1000x8_0_0

/-! ## What the body leaves in each output window's buffer -/

/-- Window 5's staging buffer after the body, from the input windows' blocks: its one store, of the whole
    buffer, of the payload `k4_pay1` of the blocks loaded whole. -/
def out4_5 (x0 : Vec F S1000x128 .f32) (x1 : Vec F S128x128 .f32) (x2 : Vec F S128 .f32) (x3 : Vec F S8x128 .f32) (x4 : Vec F S8 .f32) : Vec F S1000x128 .f32 :=
  View.canon [⟨r4_0, k4_pay1 (View.ld x0 r4_0) (View.ld x1 r4_1) (View.ld x2 r4_2)⟩]

/-- The one store is of the whole buffer, so it covers it. -/
theorem cover4_5 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

/-- Window 6's staging buffer after the body, from the input windows' blocks: its one store, of the whole
    buffer, of the payload `k4_pay2` of the blocks loaded whole. -/
def out4_6 (x0 : Vec F S1000x128 .f32) (x1 : Vec F S128x128 .f32) (x2 : Vec F S128 .f32) (x3 : Vec F S8x128 .f32) (x4 : Vec F S8 .f32) : Vec F S1000x8 .f32 :=
  View.canon [⟨r4_5, k4_pay2 (View.ld x0 r4_0) (View.ld x1 r4_1) (View.ld x2 r4_2) (View.ld x3 r4_3) (View.ld x4 r4_4)⟩]

/-- The one store is of the whole buffer, so it covers it. -/
theorem cover4_6 (p0 : Vec F S1000x8 .f32) (y : S1000x8.Idx) :
    ∃ pc ∈ ([⟨r4_5, p0⟩] : List (View.Piece (Elt F) S1000x8 .f32)), y ∈ pc.1.set :=
  View.cover_of_tiled [⟨r4_5, p0⟩] S1000x8.size (by rfl) y

/-! ## The body's triple -/

set_option maxHeartbeats 1000000 in
/-- The kernel body on whole staging memrefs, the inputs' at read contents `xW` and the outputs' at anything, runs to
    the continuation holding the inputs' as they were and each output's at `out4_W` of the inputs'. The body loads
    each input whole, loads the output's old contents (unused), and stores the payload over the whole output. -/
theorem sound_kernel4 (c : Dev nD) (E : Set ℕ) (i : grid4.Coords) (arg1 : Memref sig .tc .vmem S1000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S8x128 .f32) (harg4 : arg4.IsWhole) (arg5 : Memref sig .tc .vmem S8 .f32) (harg5 : arg5.IsWhole) (arg6 : Memref sig .tc .vmem S1000x128 .f32) (harg6 : arg6.IsWhole) (arg7 : Memref sig .tc .vmem S1000x8 .f32) (harg7 : arg7.IsWhole)
    (x0 : Vec F S1000x128 .f32) (x1 : Vec F S128x128 .f32) (x2 : Vec F S128 .f32) (x3 : Vec F S8x128 .f32) (x4 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__final_kernel i arg1 harg1 arg2 harg2 arg3 harg3 arg4 harg4 arg5 harg5 arg6 harg6 arg7 harg7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _)

/-! ## The pipeline's proof data -/

/-- The proof data of pipeline 4 on core `c`: the arrays as the region finds them (`V`); after the body at
    point `t` each input's buffer at its block and each output's at `out4_W` of the input blocks; the invariant the
    class's (the scoped rest and the generator register, untouched); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Fr

end
-- ==== Proof.K.Run.lean ====
/- The five-region program run from the launch to the return, at any float instance: the buffers' contents
   between @main's items (the launch memory, each host stretch applied, each region's output arrays at what its
   write-backs leave), each region as a segment entered from the contents before it and left at the contents after
   it, and from the run of the segments: every unscoped buffer at the last contents. The frame (arguments
   unchanged) and the two results' values are read off that. -/
import proofs.«107237_j10496900072251_2_alg».proof.Proof.K.R0
import proofs.«107237_j10496900072251_2_alg».proof.Proof.K.R1
import proofs.«107237_j10496900072251_2_alg».proof.Proof.K.R2
import proofs.«107237_j10496900072251_2_alg».proof.Proof.K.R3
import proofs.«107237_j10496900072251_2_alg».proof.Proof.K.R4
import proofs.«107237_j10496900072251_2_alg».proof.Proof.K.RunCond

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers read at the TensorCore's references. -/
abbrev AtTc (F : FTy → Type) [FloatOps F] : Type := (c : Dev nD) → (b : Ref sig .tc) → Buf (Elt F) ((c : Thread nD τ).loc b)

/-! ## What each region leaves, stage by stage

Region K's proof data are stated at the contents the region is entered from, which depend on what the regions
before it left: the contents are built one region at a time. -/

/-- The contents region 0 is entered from: the launch memory after the first host stretch. -/
abbrev E1 : AtTc F := fun c b => V1 m c b
/-- After region 0: its arrays at what its write-backs leave, read at any reference. -/
def o2 (r : Ref sig .tc) (c : Dev nD) : Buf (Elt F) ((c : Thread nD τ).loc r) :=
  Pipeline.withArrays spec0 c (V1 m c) (fun w => (dat0 (E1 m) c).arrAt w cfg0.N) (Proc.devRef .tc r)
def outs2 : Outs (F := F) := fun _ r c => o2 m r c
/-- The contents region 1 is entered from. -/
abbrev E3 : AtTc F := fun c b => V3 m (outs2 m) c b
def o4 (r : Ref sig .tc) (c : Dev nD) : Buf (Elt F) ((c : Thread nD τ).loc r) :=
  Pipeline.withArrays spec1 c (V3 m (outs2 m) c) (fun w => (dat1 (E3 m) c).arrAt w cfg1.N) (Proc.devRef .tc r)
def outs4 : Outs (F := F) := fun J r c => match J with | 2 => o2 m r c | _ => o4 m r c
/-- The contents region 2 is entered from. -/
abbrev E5 : AtTc F := fun c b => V5 m (outs4 m) c b
def o6 (r : Ref sig .tc) (c : Dev nD) : Buf (Elt F) ((c : Thread nD τ).loc r) :=
  Pipeline.withArrays spec2 c (V5 m (outs4 m) c) (fun w => (dat2 (E5 m) c).arrAt w cfg2.N) (Proc.devRef .tc r)
def outs6 : Outs (F := F) := fun J r c => match J with | 2 => o2 m r c | 4 => o4 m r c | _ => o6 m r c
/-- The contents region 3 is entered from. -/
abbrev E7 : AtTc F := fun c b => V7 m (outs6 m) c b

variable (a3 : (pcfg3 (F := F)).Adm)

def o8 (r : Ref sig .tc) (c : Dev nD) : Buf (Elt F) ((c : Thread nD τ).loc r) :=
  Pipeline.withArrays spec3 c (V7 m (outs6 m) c) (fun w => (dat3 (E7 m) a3 c).arrAt w (cfg3 a3).N) (Proc.devRef .tc r)
def outs8 : Outs (F := F) := fun J r c => match J with | 2 => o2 m r c | 4 => o4 m r c | 6 => o6 m r c | _ => o8 m a3 r c
/-- The contents region 4 is entered from. -/
abbrev E9 : AtTc F := fun c b => V9 m (outs8 m a3) c b
def o10 (r : Ref sig .tc) (c : Dev nD) : Buf (Elt F) ((c : Thread nD τ).loc r) :=
  Pipeline.withArrays spec4 c (V9 m (outs8 m a3) c) (fun w => (dat4 (E9 m a3) c).arrAt w cfg4.N) (Proc.devRef .tc r)
/-- What every region leaves. -/
def outs : Outs (F := F) := fun J r c => match J with | 2 => o2 m r c | 4 => o4 m r c | 6 => o6 m r c | 8 => o8 m a3 r c | _ => o10 m a3 r c

/-- The tables' admissible contents: only pipeline 3 has a table. -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨4, _⟩ => cfg4.toPCfg_adm

/-- Every pipeline's proof data, each at its region's entry contents. -/
def pdats : (p : Fin 5) → (c : Dev nD) → Dat τ (Elt F) Unit ℕ (Pipeline.UD sig nD τ) ℕ (Pipeline.pin (pcfgs (F := F)) (adm a3) p) c
  | ⟨0, _⟩ => fun c => dat0 (E1 m) c
  | ⟨1, _⟩ => fun c => dat1 (E3 m) c
  | ⟨2, _⟩ => fun c => dat2 (E5 m) c
  | ⟨3, _⟩ => fun c => dat3 (E7 m) a3 c
  | ⟨4, _⟩ => fun c => dat4 (E9 m a3) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## Region 0's arrays after it, and the other buffers -/

theorem o2_arr (c : Dev nD) (w : Fin cfg0.W) : o2 m (Pipeline.arrRef spec0 w) c = (dat0 (E1 m) c).arrAt w cfg0.N :=
  Pipeline.withArrays_arr spec0 (launch0 (F := F)).win.arr_inj c _ _ w
theorem o4_arr (c : Dev nD) (w : Fin cfg1.W) : o4 m (Pipeline.arrRef spec1 w) c = (dat1 (E3 m) c).arrAt w cfg1.N :=
  Pipeline.withArrays_arr spec1 (launch1 (F := F)).win.arr_inj c _ _ w

theorem hF0 (c : Dev nD) : ∀ w : Fin cfg0.W, (dat0 (E1 m) c).arrAt w cfg0.N = (fun b : Ref sig .tc => V2 m (outs2 m) c b) (Pipeline.arrRef spec0 w)
  | ⟨0, _⟩ => (((dat0 (E1 m) c).arrAt_in 0 rfl _).trans (A_eq0 (E1 m) c 0)).trans (V2_of m (outs2 m) c _ (by decide)).symm
  | ⟨1, _⟩ => (((dat0 (E1 m) c).arrAt_in 1 rfl _).trans (A_eq0 (E1 m) c 1)).trans (V2_of m (outs2 m) c _ (by decide)).symm
  | ⟨2, _⟩ => (((dat0 (E1 m) c).arrAt_in 2 rfl _).trans (A_eq0 (E1 m) c 2)).trans (V2_of m (outs2 m) c _ (by decide)).symm
  | ⟨3, _⟩ => by
      show _ = Function.update (V1 m c) (Proc.devRef .tc main_v0) (outs2 m 2 main_v0 c) (Proc.devRef .tc main_v0)
      rw [Function.update_self]
      exact (o2_arr m c 3).symm

theorem hrest0 (c : Dev nD) : ∀ b : Ref sig .tc, b ∉ Finset.univ.image (Pipeline.arrRef spec0) → V2 m (outs2 m) c b = V1 m c b :=
  fun b hb => V2_of m (outs2 m) c b fun h => hb (by
    rw [List.mem_singleton] at h; subst h
    exact Finset.mem_image.mpr ⟨3, Finset.mem_univ _, rfl⟩)

theorem hF1 (c : Dev nD) : ∀ w : Fin cfg1.W, (dat1 (E3 m) c).arrAt w cfg1.N = (fun b : Ref sig .tc => V4 m (outs4 m) c b) (Pipeline.arrRef spec1 w)
  | ⟨0, _⟩ => (((dat1 (E3 m) c).arrAt_in 0 rfl _).trans (A_eq1 (E3 m) c 0)).trans (V4_of m (outs4 m) c _ (by decide)).symm
  | ⟨1, _⟩ => (((dat1 (E3 m) c).arrAt_in 1 rfl _).trans (A_eq1 (E3 m) c 1)).trans (V4_of m (outs4 m) c _ (by decide)).symm
  | ⟨2, _⟩ => (((dat1 (E3 m) c).arrAt_in 2 rfl _).trans (A_eq1 (E3 m) c 2)).trans (V4_of m (outs4 m) c _ (by decide)).symm
  | ⟨3, _⟩ => by
      show _ = Function.update (V3 m (outs4 m) c) (Proc.devRef .tc main_v13) (outs4 m 4 main_v13 c) (Proc.devRef .tc main_v13)
      rw [Function.update_self]
      exact (o4_arr m c 3).symm

theorem hrest1 (c : Dev nD) : ∀ b : Ref sig .tc, b ∉ Finset.univ.image (Pipeline.arrRef spec1) → V4 m (outs4 m) c b = V3 m (outs4 m) c b :=
  fun b hb => V4_of m (outs4 m) c b fun h => hb (by
    rw [List.mem_singleton] at h; subst h
    exact Finset.mem_image.mpr ⟨3, Finset.mem_univ _, rfl⟩)

theorem o6_arr (c : Dev nD) (w : Fin cfg2.W) : o6 m (Pipeline.arrRef spec2 w) c = (dat2 (E5 m) c).arrAt w cfg2.N :=
  Pipeline.withArrays_arr spec2 (launch2 (F := F)).win.arr_inj c _ _ w
theorem o8_arr (c : Dev nD) (w : Fin (cfg3 a3).W) : o8 m a3 (Pipeline.arrRef spec3 w) c = (dat3 (E7 m) a3 c).arrAt w (cfg3 a3).N :=
  Pipeline.withArrays_arr spec3 (launch3 (F := F)).win.arr_inj c _ _ w
theorem o10_arr (c : Dev nD) (w : Fin cfg4.W) : o10 m a3 (Pipeline.arrRef spec4 w) c = (dat4 (E9 m a3) c).arrAt w cfg4.N :=
  Pipeline.withArrays_arr spec4 (launch4 (F := F)).win.arr_inj c _ _ w

theorem hF2 (c : Dev nD) : ∀ w : Fin cfg2.W, (dat2 (E5 m) c).arrAt w cfg2.N = (fun b : Ref sig .tc => V6 m (outs6 m) c b) (Pipeline.arrRef spec2 w)
  | ⟨0, _⟩ => (((dat2 (E5 m) c).arrAt_in 0 rfl _).trans (A_eq2 (E5 m) c 0)).trans (V6_of m (outs6 m) c _ (by decide)).symm
  | ⟨1, _⟩ => (((dat2 (E5 m) c).arrAt_in 1 rfl _).trans (A_eq2 (E5 m) c 1)).trans (V6_of m (outs6 m) c _ (by decide)).symm
  | ⟨2, _⟩ => (((dat2 (E5 m) c).arrAt_in 2 rfl _).trans (A_eq2 (E5 m) c 2)).trans (V6_of m (outs6 m) c _ (by decide)).symm
  | ⟨3, _⟩ => (((dat2 (E5 m) c).arrAt_in 3 rfl _).trans (A_eq2 (E5 m) c 3)).trans (V6_of m (outs6 m) c _ (by decide)).symm
  | ⟨4, _⟩ => by
      show _ = Function.update (V5 m (outs6 m) c) (Proc.devRef .tc main_v40) (outs6 m 6 main_v40 c) (Proc.devRef .tc main_v40)
      rw [Function.update_self]
      exact (o6_arr m c 4).symm

theorem hrest2 (c : Dev nD) : ∀ b : Ref sig .tc, b ∉ Finset.univ.image (Pipeline.arrRef spec2) → V6 m (outs6 m) c b = V5 m (outs6 m) c b :=
  fun b hb => V6_of m (outs6 m) c b fun h => hb (by
    rw [List.mem_singleton] at h; subst h
    exact Finset.mem_image.mpr ⟨4, Finset.mem_univ _, rfl⟩)

theorem hF3 (c : Dev nD) : ∀ w : Fin (cfg3 a3).W, (dat3 (E7 m) a3 c).arrAt w (cfg3 a3).N = (fun b : Ref sig .tc => V8 m (outs8 m a3) c b) (Pipeline.arrRef spec3 w)
  | ⟨0, _⟩ => (((dat3 (E7 m) a3 c).arrAt_in 0 rfl _).trans (A_eq3 (E7 m) a3 c 0)).trans (V8_of m (outs8 m a3) c (Pipeline.arrRef spec3 (0 : Fin 4)) (by decide)).symm
  | ⟨1, _⟩ => (((dat3 (E7 m) a3 c).arrAt_in 1 rfl _).trans (A_eq3 (E7 m) a3 c 1)).trans (V8_of m (outs8 m a3) c (Pipeline.arrRef spec3 (1 : Fin 4)) (by decide)).symm
  | ⟨2, _⟩ => (((dat3 (E7 m) a3 c).arrAt_in 2 rfl _).trans (A_eq3 (E7 m) a3 c 2)).trans (V8_of m (outs8 m a3) c (Pipeline.arrRef spec3 (2 : Fin 4)) (by decide)).symm
  | ⟨3, _⟩ => by
      show _ = Function.update (V7 m (outs8 m a3) c) (Proc.devRef .tc main_v42) (outs8 m a3 8 main_v42 c) (Proc.devRef .tc main_v42)
      rw [Function.update_self]
      exact (o8_arr m a3 c 3).symm

theorem hrest3 (c : Dev nD) : ∀ b : Ref sig .tc, b ∉ Finset.univ.image (Pipeline.arrRef spec3) → V8 m (outs8 m a3) c b = V7 m (outs8 m a3) c b :=
  fun b hb => V8_of m (outs8 m a3) c b fun h => hb (by
    rw [List.mem_singleton] at h; subst h
    exact Finset.mem_image.mpr ⟨3, Finset.mem_univ _, rfl⟩)

theorem V10_at0 (c : Dev nD) : V10 m (outs m a3) c main_v62_0 = o10 m a3 main_v62_0 c := by
  simp only [V10, Function.update_of_ne (StableHlo.devRef_ne_of_ne (by decide : main_v62_0 ≠ main_v62_1) : (Proc.devRef .tc main_v62_0 : DevRef τ sig) ≠ Proc.devRef .tc main_v62_1), Function.update_self]
  rfl
theorem V10_at1 (c : Dev nD) : V10 m (outs m a3) c main_v62_1 = o10 m a3 main_v62_1 c := by
  simp only [V10, Function.update_self]
  rfl

theorem hF4_0 (c : Dev nD) : (dat4 (E9 m a3) c).arrAt 0 cfg4.N = (fun b : Ref sig .tc => V10 m (outs m a3) c b) (Pipeline.arrRef spec4 0) :=
  (((dat4 (E9 m a3) c).arrAt_in 0 rfl _).trans (A_eq4 (E9 m a3) c 0)).trans (V10_of m (outs m a3) c (Pipeline.arrRef spec4 (0 : Fin 7)) (by decide)).symm
theorem hF4_1 (c : Dev nD) : (dat4 (E9 m a3) c).arrAt 1 cfg4.N = (fun b : Ref sig .tc => V10 m (outs m a3) c b) (Pipeline.arrRef spec4 1) :=
  (((dat4 (E9 m a3) c).arrAt_in 1 rfl _).trans (A_eq4 (E9 m a3) c 1)).trans (V10_of m (outs m a3) c (Pipeline.arrRef spec4 (1 : Fin 7)) (by decide)).symm
theorem hF4_2 (c : Dev nD) : (dat4 (E9 m a3) c).arrAt 2 cfg4.N = (fun b : Ref sig .tc => V10 m (outs m a3) c b) (Pipeline.arrRef spec4 2) :=
  (((dat4 (E9 m a3) c).arrAt_in 2 rfl _).trans (A_eq4 (E9 m a3) c 2)).trans (V10_of m (outs m a3) c (Pipeline.arrRef spec4 (2 : Fin 7)) (by decide)).symm
theorem hF4_3 (c : Dev nD) : (dat4 (E9 m a3) c).arrAt 3 cfg4.N = (fun b : Ref sig .tc => V10 m (outs m a3) c b) (Pipeline.arrRef spec4 3) :=
  (((dat4 (E9 m a3) c).arrAt_in 3 rfl _).trans (A_eq4 (E9 m a3) c 3)).trans (V10_of m (outs m a3) c (Pipeline.arrRef spec4 (3 : Fin 7)) (by decide)).symm
theorem hF4_4 (c : Dev nD) : (dat4 (E9 m a3) c).arrAt 4 cfg4.N = (fun b : Ref sig .tc => V10 m (outs m a3) c b) (Pipeline.arrRef spec4 4) :=
  (((dat4 (E9 m a3) c).arrAt_in 4 rfl _).trans (A_eq4 (E9 m a3) c 4)).trans (V10_of m (outs m a3) c (Pipeline.arrRef spec4 (4 : Fin 7)) (by decide)).symm
theorem hF4_5 (c : Dev nD) : (dat4 (E9 m a3) c).arrAt 5 cfg4.N = (fun b : Ref sig .tc => V10 m (outs m a3) c b) (Pipeline.arrRef spec4 5) :=
  (o10_arr m a3 c 5).symm.trans (V10_at0 m a3 c).symm
theorem hF4_6 (c : Dev nD) : (dat4 (E9 m a3) c).arrAt 6 cfg4.N = (fun b : Ref sig .tc => V10 m (outs m a3) c b) (Pipeline.arrRef spec4 6) :=
  (o10_arr m a3 c 6).symm.trans (V10_at1 m a3 c).symm

set_option maxHeartbeats 1000000 in
theorem hF4 (c : Dev nD) : ∀ w : Fin cfg4.W, (dat4 (E9 m a3) c).arrAt w cfg4.N = (fun b : Ref sig .tc => V10 m (outs m a3) c b) (Pipeline.arrRef spec4 w) :=
  fun | 0 => hF4_0 m a3 c | 1 => hF4_1 m a3 c | 2 => hF4_2 m a3 c | 3 => hF4_3 m a3 c | 4 => hF4_4 m a3 c | 5 => hF4_5 m a3 c | 6 => hF4_6 m a3 c
      | ⟨_ + 7, h⟩ => absurd h (Nat.not_lt.2 (Nat.le_add_left _ _))

theorem hrest4 (c : Dev nD) : ∀ b : Ref sig .tc, b ∉ Finset.univ.image (Pipeline.arrRef spec4) → V10 m (outs m a3) c b = V9 m (outs m a3) c b :=
  fun b hb => V10_of m (outs m a3) c b fun h => hb (by
    rcases List.mem_cons.mp h with h | h
    · subst h; exact Finset.mem_image.mpr ⟨5, Finset.mem_univ _, rfl⟩
    · rw [List.mem_singleton] at h; subst h; exact Finset.mem_image.mpr ⟨6, Finset.mem_univ _, rfl⟩)

/-! ## The regions as segments -/

set_option backward.isDefEq.respectTransparency.types false in
/-- Region 0 as a segment: entered from every unscoped buffer at the contents before it, left at the contents after
    it; its arrays split out of the unscoped buffers and put back at what the write-backs leave; the generator
    register into the class invariant and out; nothing owed; no semaphore of the kernel's own. -/
def reg0 : Pipeline.RegionSeg (pcfgs (F := F)) (adm a3) (pdats m a3) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs2 m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) (adm a3) (pdats m a3) (launch0 (F := F)).win (launch0 (F := F)).arr_whole c
      ((pdats m a3 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a3) (Ix := Unit) (Name := ℕ) (U := Pipeline.UD sig nD τ) (Lvl := ℕ)
      (launch0 (F := F)).win (launch0 (F := F)).arr_whole c (pdats m a3) ((pdats m a3 0 c).share_full fun _ => rfl)
      (E1 m c) (fun b : Ref sig .tc => V2 m (outs2 m) c b) ((pdats m a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after
    it; its arrays split out of the unscoped buffers and put back at what the write-backs leave; the generator
    register into the class invariant and out; nothing owed; no semaphore of the kernel's own. -/
def reg1 : Pipeline.RegionSeg (pcfgs (F := F)) (adm a3) (pdats m a3) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outs4 m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m c)
  hentry c := by
    rw [Pipeline.ownSems0_none]
    have hsplit := Pipeline.arrays_of_unscopedBufs (p := 1) (pcfgs (F := F)) (adm a3) (pdats m a3) (launch1 (F := F)).win (launch1 (F := F)).arr_whole c
      ((pdats m a3 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a3) (Ix := Unit) (Name := ℕ) (U := Pipeline.UD sig nD τ) (Lvl := ℕ)
      (launch1 (F := F)).win (launch1 (F := F)).arr_whole c (pdats m a3) ((pdats m a3 1 c).share_full fun _ => rfl)
      (E3 m c) (fun b : Ref sig .tc => V4 m (outs4 m) c b) ((pdats m a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after
    it; its arrays split out of the unscoped buffers and put back at what the write-backs leave; the generator
    register into the class invariant and out; nothing owed; no semaphore of the kernel's own. -/
def reg2 : Pipeline.RegionSeg (pcfgs (F := F)) (adm a3) (pdats m a3) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (V5 m (outs4 m) c) ∗ R c)
  post c := iprop(StableHlo.held (c : Thread nD τ) (Pipeline.ucRefs τ sig) (V6 m (outs6 m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (E5 m c)
  hentry c := by
    rw [Pipeline.ownSems0_none]
    have hsplit := Pipeline.arrays_of_unscopedBufs (p := 2) (pcfgs (F := F)) (adm a3) (pdats m a3) (launch2 (F := F)).win (launch2 (F := F)).arr_whole c
      ((pdats m a3 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a3) (Ix := Unit) (Name := ℕ) (U := Pipeline.UD sig nD τ) (Lvl := ℕ)
      (launch2 (F := F)).win (launch2 (F := F)).arr_whole c (pdats m a3) ((pdats m a3 2 c).share_full fun _ => rfl)
      (E5 m c) (fun b : Ref sig .tc => V6 m (outs6 m) c b) ((pdats m a3 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment. Beside its arrays the region takes its prefetched table, an unscoped buffer that is no
    window's array: it is split out of the rest at entry, held whole at the admissible contents (which the buffer
    holds: `htbl`), rides in the pipeline's invariant, and is put back with the rest at the exit. -/
def reg3 (htbl : ∀ c : Dev nD, (fun k => E7 m c (pre3.ref k)) = a3.1) : Pipeline.RegionSeg (pcfgs (F := F)) (adm a3) (pdats m a3) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (E7 m) a3 c).loose
  hwaits := Pipeline.hwaits_of_owed_zero _ _ _ _ L lv 3 fun _ _ => rfl
  pre c := iprop(StableHlo.held (c : Thread nD τ) (Pipeline.ucRefs τ sig) (V7 m (outs6 m) c) ∗ R c)
  post c := iprop(StableHlo.held (c : Thread nD τ) (Pipeline.ucRefs τ sig) (V8 m (outs8 m a3) c) ∗ R c)
  X c := iprop(∃ r, prngReg c r)
  Y c := iprop((∃ r, prngReg c r) ∗ Pipeline.prefHeld (Ix := Unit) (Name := ℕ) (U := Pipeline.UD sig nD τ) (Lvl := ℕ) pre3 c (fun _ => fullShare) a3.1)
  Z c := Pipeline.unscopedRestP (Ix := Unit) (Name := ℕ) (U := Pipeline.UD sig nD τ) (Lvl := ℕ) pre3 spec3 c (E7 m c)
  hentry c := by
    rw [Pipeline.ownSems0_none]
    have hsplit := Pipeline.arrays_of_unscopedBufs (p := 3) (pcfgs (F := F)) (adm a3) (pdats m a3) (launch3 (F := F)).win (launch3 (F := F)).arr_whole c
      ((pdats m a3 3 c).share_full fun _ => rfl) (E7 m c) fun _ => rfl
    rw [Pipeline.unscopedBufs_held, show Pipeline.unscopedRest (Ix := Unit) (Name := ℕ) (U := Pipeline.UD sig nD τ) (Lvl := ℕ) (Pipeline.pin (pcfgs (F := F)) (adm a3) 3).spec c (E7 m c) = _ from Pipeline.unscopedRest_split (preFacts3) c (E7 m c), htbl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 3 c).Φ 0 = iprop(Pipeline.ΦA spec3 c ∗ ΦT3 a3 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a3 3 c).Φ (Fin.last _) = iprop(Pipeline.ΦA spec3 c ∗ ΦT3 a3 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm a3) (Ix := Unit) (Name := ℕ) (U := Pipeline.UD sig nD τ) (Lvl := ℕ)
      (launch3 (F := F)).win (launch3 (F := F)).arr_whole c (pdats m a3) ((pdats m a3 3 c).share_full fun _ => rfl)
      (E7 m c) (fun b : Ref sig .tc => V8 m (outs8 m a3) c b) ((pdats m a3 3 c).arrAt · (cfg3 a3).N) (hF3 m a3 c) (hrest3 m a3 c)
    rw [Pipeline.unscopedBufs_held, show Pipeline.unscopedRest (Ix := Unit) (Name := ℕ) (U := Pipeline.UD sig nD τ) (Lvl := ℕ) (Pipeline.pin (pcfgs (F := F)) (adm a3) 3).spec c (E7 m c) = _ from Pipeline.unscopedRest_split (preFacts3) c (E7 m c), htbl c] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at the contents before it, left at the contents after
    it; its arrays split out of the unscoped buffers and put back at what the write-backs leave; the generator
    register into the class invariant and out; nothing owed; no semaphore of the kernel's own. -/
def reg4 : Pipeline.RegionSeg (pcfgs (F := F)) (adm a3) (pdats m a3) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (E9 m a3) c).loose
  hwaits := Pipeline.hwaits_of_owed_zero _ _ _ _ L lv 4 fun _ _ => rfl
  pre c := iprop(StableHlo.held (c : Thread nD τ) (Pipeline.ucRefs τ sig) (V9 m (outs8 m a3) c) ∗ R c)
  post c := iprop(StableHlo.held (c : Thread nD τ) (Pipeline.ucRefs τ sig) (V10 m (outs m a3) c) ∗ R c)
  X c := iprop(∃ r, prngReg c r)
  Y c := iprop(∃ r, prngReg c r)
  Z c := Pipeline.unscopedRest (Ix := Unit) (Name := ℕ) (U := Pipeline.UD sig nD τ) (Lvl := ℕ) spec4 c (E9 m a3 c)
  hentry c := by
    rw [Pipeline.ownSems0_none]
    have hsplit := Pipeline.arrays_of_unscopedBufs (p := 4) (pcfgs (F := F)) (adm a3) (pdats m a3) (launch4 (F := F)).win (launch4 (F := F)).arr_whole c
      ((pdats m a3 4 c).share_full fun _ => rfl) (E9 m a3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m a3 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm a3) (Ix := Unit) (Name := ℕ) (U := Pipeline.UD sig nD τ) (Lvl := ℕ)
      (launch4 (F := F)).win (launch4 (F := F)).arr_whole c (pdats m a3) ((pdats m a3 4 c).share_full fun _ => rfl)
      (E9 m a3 c) (fun b : Ref sig .tc => V10 m (outs m a3) c b) ((pdats m a3 4 c).arrAt · cfg4.N) (hF4 m a3 c) (hrest4 m a3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- Every weakly fair execution terminates without a fault with every unscoped buffer at the last contents: the
    segments' run at the algebra of the staging counters, the rest state beside the buffers the generator register and
    nothing owed, made at the launch and dropped at the end. -/
theorem run_all_of (htbl : ∀ c : Dev nD, (fun k => E7 m c (pre3.ref k)) = a3.1) : θ_run defs (onTc (τ := τ) (main (F := F))) ⟨m, fun _ => 0, ρ⟩ (fun r => ∀ c : Dev nD,
      ∀ b ∈ Pipeline.ucRefs τ sig, r.2.mem (((c : Thread nD τ)).1, b) = V10 m (outs m a3) c b) :=
  run_cond m (Ix := Unit) (U := Pipeline.UD sig nD τ) (Lvl := ℕ) embL () 𝒱₀ L lv (fun _ _ => rfl) ρ (outs m a3) (adm a3) (pdats m a3)
    (O₀ := 0) (G := fun _ => iprop(emp))
    (u₀ := (initOf (Pipeline.cells (Pipeline.pin (pcfgs (F := F)) (adm a3)) (cellOf_inj (adm a3))) (Pipeline.launchToks (Pipeline.pin (pcfgs (F := F)) (adm a3)) (cellOf_inj (adm a3))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m a3) (fun _ => .rfl) (fun _ => .rfl)
    (reg1 m a3) (fun _ => .rfl) (fun _ => .rfl)
    (reg2 m a3) (fun _ => .rfl) (fun _ => .rfl)
    (reg3 m a3 htbl) (fun _ => .rfl) (fun _ => .rfl)
    (reg4 m a3) (fun _ => .rfl) (fun _ => .rfl)

/-- The frame: the argument arrays end as launched (no host stretch writes one, no region may change one). -/
theorem frame_of (a3 : (pcfg3 (F := F)).Adm) (htbl : ∀ c : Dev nD, (fun k => E7 m c (pre3.ref k)) = a3.1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V10_main_arg0 m (outs m a3) c),
      (h c _ (mem_uc main_arg1 (by decide))).trans (V10_main_arg1 m (outs m a3) c),
      (h c _ (mem_uc main_arg2 (by decide))).trans (V10_main_arg2 m (outs m a3) c),
      (h c _ (mem_uc main_arg3 (by decide))).trans (V10_main_arg3 m (outs m a3) c),
      (h c _ (mem_uc main_arg4 (by decide))).trans (V10_main_arg4 m (outs m a3) c),
      (h c _ (mem_uc main_arg5 (by decide))).trans (V10_main_arg5 m (outs m a3) c),
      (h c _ (mem_uc main_arg6 (by decide))).trans (V10_main_arg6 m (outs m a3) c),
      (h c _ (mem_uc main_arg7 (by decide))).trans (V10_main_arg7 m (outs m a3) c),
      (h c _ (mem_uc main_arg8 (by decide))).trans (V10_main_arg8 m (outs m a3) c),
      (h c _ (mem_uc main_arg9 (by decide))).trans (V10_main_arg9 m (outs m a3) c),
      (h c _ (mem_uc main_arg10 (by decide))).trans (V10_main_arg10 m (outs m a3) c),
      (h c _ (mem_uc main_arg11 (by decide))).trans (V10_main_arg11 m (outs m a3) c),
      (h c _ (mem_uc main_arg12 (by decide))).trans (V10_main_arg12 m (outs m a3) c),
      (h c _ (mem_uc main_arg13 (by decide))).trans (V10_main_arg13 m (outs m a3) c),
      (h c _ (mem_uc main_arg14 (by decide))).trans (V10_main_arg14 m (outs m a3) c),
      (h c _ (mem_uc main_arg15 (by decide))).trans (V10_main_arg15 m (outs m a3) c),
      (h c _ (mem_uc main_arg16 (by decide))).trans (V10_main_arg16 m (outs m a3) c),
      (h c _ (mem_uc main_arg17 (by decide))).trans (V10_main_arg17 m (outs m a3) c)⟩) (run_all_of m a3 ρ htbl)

/-- The run with the two result arrays at the last contents, beside the frame. -/
theorem run_results_of (htbl : ∀ c : Dev nD, (fun k => E7 m c (pre3.ref k)) = a3.1) : θ_run defs (onTc (τ := τ) (main (F := F))) ⟨m, fun _ => 0, ρ⟩ (fun r => ∀ c : Dev nD,
      r.2.mem ((c.tc : Thread nD τ).loc main_v62_0) = V10 m (outs m a3) c main_v62_0
      ∧ r.2.mem ((c.tc : Thread nD τ).loc main_v62_1) = V10 m (outs m a3) c main_v62_1
      ∧ r.2.mem ((c.tc : Thread nD τ).loc main_v62_1) = V10 m (outs m a3) c main_v62_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v62_0 (by decide)), h c _ (mem_uc main_v62_1 (by decide)), h c _ (mem_uc main_v62_1 (by decide)),
      (h c _ (mem_uc main_arg0 (by decide))).trans (V10_main_arg0 m (outs m a3) c),
      (h c _ (mem_uc main_arg1 (by decide))).trans (V10_main_arg1 m (outs m a3) c),
      (h c _ (mem_uc main_arg2 (by decide))).trans (V10_main_arg2 m (outs m a3) c),
      (h c _ (mem_uc main_arg3 (by decide))).trans (V10_main_arg3 m (outs m a3) c),
      (h c _ (mem_uc main_arg4 (by decide))).trans (V10_main_arg4 m (outs m a3) c),
      (h c _ (mem_uc main_arg5 (by decide))).trans (V10_main_arg5 m (outs m a3) c),
      (h c _ (mem_uc main_arg6 (by decide))).trans (V10_main_arg6 m (outs m a3) c),
      (h c _ (mem_uc main_arg7 (by decide))).trans (V10_main_arg7 m (outs m a3) c),
      (h c _ (mem_uc main_arg8 (by decide))).trans (V10_main_arg8 m (outs m a3) c),
      (h c _ (mem_uc main_arg9 (by decide))).trans (V10_main_arg9 m (outs m a3) c),
      (h c _ (mem_uc main_arg10 (by decide))).trans (V10_main_arg10 m (outs m a3) c),
      (h c _ (mem_uc main_arg11 (by decide))).trans (V10_main_arg11 m (outs m a3) c),
      (h c _ (mem_uc main_arg12 (by decide))).trans (V10_main_arg12 m (outs m a3) c),
      (h c _ (mem_uc main_arg13 (by decide))).trans (V10_main_arg13 m (outs m a3) c),
      (h c _ (mem_uc main_arg14 (by decide))).trans (V10_main_arg14 m (outs m a3) c),
      (h c _ (mem_uc main_arg15 (by decide))).trans (V10_main_arg15 m (outs m a3) c),
      (h c _ (mem_uc main_arg16 (by decide))).trans (V10_main_arg16 m (outs m a3) c),
      (h c _ (mem_uc main_arg17 (by decide))).trans (V10_main_arg17 m (outs m a3) c)⟩) (run_all_of m a3 ρ htbl)

/-! ## At the table the first host stretch writes -/

/-- The table's buffer holds the admissible contents when region 3 is entered: the first host stretch wrote it and
    nothing since may change it. -/
theorem htbl3 (c : Dev nD) : (fun k => E7 m c (pre3.ref k)) = (adm3 (F := F)).1 :=
  funext fun k => V7_pre3 m (outs6 m) c k

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ adm3 (htbl3 m)

/-- The last contents of the buffers. -/
abbrev Vlast (c : Dev nD) : Valuation τ sig (Elt F) := V10 m (outs m adm3) c

/-- THE RUN with the two results named. -/
theorem run_results : θ_run defs (onTc (τ := τ) (main (F := F))) ⟨m, fun _ => 0, ρ⟩ (fun r => ∀ c : Dev nD,
      r.2.mem ((c.tc : Thread nD τ).loc main_v62_0) = Vlast m c main_v62_0
      ∧ r.2.mem ((c.tc : Thread nD τ).loc main_v62_1) = Vlast m c main_v62_1
      ∧ r.2.mem ((c.tc : Thread nD τ).loc main_v62_1) = Vlast m c main_v62_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_results_of m adm3 ρ (htbl3 m)

end Cert.Kernel.Fr

end
-- ==== Proof.KI.R0.lean ====
/- The frame half of region 0 of @main (custom_call 0, `cc0__linear_kernel` (pipeline 0)), at a PARAMETER `V`: the TensorCore's buffer
   contents when the region is entered. Each window's block at a point (`iblk0`), what the body leaves in each
   output window's buffer (`out0_W`: its one whole store over the payload of the input blocks), the body's triple
   on whole staging memrefs (`sound_kernel0`), the pipeline's proof data over the class-A invariant (`dat0`)
   and its body obligation at every point (`body_obligation0`). Generic in the float instance. -/
import proofs.«107237_j10496900072251_2_alg».proof.Proof.Gen.KernelIdeal.Launch
import proofs.«107237_j10496900072251_2_alg».proof.Proof.Gen.KernelIdeal.Skeleton
import proofs.«107237_j10496900072251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev r0_0 : Rect S1000x512 := Rect.unit (s := S1000x512) ![0, 0] S1000x512.size inb_S1000x512_S1000x512_0_0
abbrev r0_1 : Rect S128x512 := Rect.unit (s := S128x512) ![0, 0] S128x512.size inb_S128x512_S128x512_0_0
abbrev r0_2 : Rect S128 := Rect.unit (s := S128) ![0] S128.size inb_S128_S128_0
abbrev r0_3 : Rect S1000x128 := Rect.unit (s := S1000x128) ![0, 0] S1000x128.size inb_S1000x128_S1000x128_0_0

/-! ## What the body leaves in each output window's buffer -/

/-- Window 3's staging buffer after the body, from the input windows' blocks: its one store, of the whole
    buffer, of the payload `k0_pay1` of the blocks loaded whole. -/
def out0_3 (x0 : Vec F S1000x512 .f32) (x1 : Vec F S128x512 .f32) (x2 : Vec F S128 .f32) : Vec F S1000x128 .f32 :=
  View.canon [⟨r0_3, k0_pay1 (View.ld x0 r0_0) (View.ld x1 r0_1) (View.ld x2 r0_2)⟩]

/-- The one store is of the whole buffer, so it covers it. -/
theorem cover0_3 (p0 : Vec F S1000x128 .f32) (y : S1000x128.Idx) :
    ∃ pc ∈ ([⟨r0_3, p0⟩] : List (View.Piece (Elt F) S1000x128 .f32)), y ∈ pc.1.set :=
  View.cover_of_tiled [⟨r0_3, p0⟩] S1000x128.size (by rfl) y

/-! ## The body's triple -/

set_option maxHeartbeats 1000000 in
/-- The kernel body on whole staging memrefs, the inputs' at read contents `xW` and the outputs' at anything, runs to
    the continuation holding the inputs' as they were and each output's at `out0_W` of the inputs'. The body loads
    each input whole, loads the output's old contents (unused), and stores the payload over the whole output. -/
theorem sound_kernel0 (c : Dev nD) (E : Set ℕ) (i : grid0.Coords) (arg1 : Memref sig .tc .vmem S1000x512 .f32) (harg1 : arg1.IsWhole) (arg2 : Memref sig .tc .vmem S128x512 .f32) (harg2 : arg2.IsWhole) (arg3 : Memref sig .tc .vmem S128 .f32) (harg3 : arg3.IsWhole) (arg4 : Memref sig .tc .vmem S1000x128 .f32) (harg4 : arg4.IsWhole)
    (x0 : Vec F S1000x512 .f32) (x1 : Vec F S128x512 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and each output's at `out0_W` of the input blocks; the invariant the
    class's (the scoped rest and the generator register, untouched); nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1.lean ====
/- The frame half of region 1 of @main (custom_call 1, `cc1__linear_kernel` (pipeline 1)), at a PARAMETER `V`: the TensorCore's buffer
   contents when the region is entered. Each window's block at a point (`iblk1`), what the body leaves in each
   output window's buffer (`out1_W`: its one whole store over the payload of the input blocks), the body's triple
   on whole staging memrefs (`sound_kernel1`), the pipeline's proof data over the class-A invariant (`dat1`)
   and its body obligation at every point (`body_obligation1`). Generic in the float instance. -/
import proofs.«107237_j10496900072251_2_alg».proof.Proof.Gen.KernelIdeal.Launch
import proofs.«107237_j10496900072251_2_alg».proof.Proof.Gen.KernelIdeal.Skeleton
import proofs.«107237_j10496900072251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev r1_0 : Rect S1000x128 := Rect.unit (s := S1000x128) ![0, 0] S1000x128.size inb_S1000x128_S1000x128_0_0
abbrev r1_1 : Rect S128x128 := Rect.unit (s := S128x128) ![0, 0] S128x128.size inb_S128x128_S128x128_0_0
abbrev r1_2 : Rect S128 := Rect.unit (s := S128) ![0] S128.size inb_S128_S128_0

/-! ## What the body leaves in each output window's buffer -/

/-- Window 3's staging buffer after the body, from the input windows' blocks: its one store, of the whole
    buffer, of the payload `k1_pay1` of the blocks loaded whole. -/
def out1_3 (x0 : Vec F S1000x128 .f32) (x1 : Vec F S128x128 .f32) (x2 : Vec F S128 .f32) : Vec F S1000x128 .f32 :=
  View.canon [⟨r1_0, k1_pay1 (View.ld x0 r1_0) (View.ld x1 r1_1) (View.ld x2 r1_2)⟩]

/-- The one store is of the whole buffer, so it covers it. -/
theorem cover1_3 (p0 : Vec F S1000x128 .f32) (y : S1000x128.Idx) :
    ∃ pc ∈ ([⟨r1_0, p0⟩] : List (View.Piece (Elt F) S1000x128 .f32)), y ∈ pc.1.set :=
  View.cover_of_tiled [⟨r1_0, p0⟩] S1000x128.size (by rfl) y

/-! ## The body's triple -/

set_option maxHeartbeats 1000000 in
/-- The kernel body on whole staging memrefs, the inputs' at read contents `xW` and the outputs' at anything, runs to
    the continuation holding the inputs' as they were and each output's at `out1_W` of the inputs'. The body loads
    each input whole, loads the output's old contents (unused), and stores the payload over the whole output. -/
theorem sound_kernel1 (c : Dev nD) (E : Set ℕ) (i : grid1.Coords) (arg1 : Memref sig .tc .vmem S1000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S1000x128 .f32) (harg4 : arg4.IsWhole)
    (x0 : Vec F S1000x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (the scoped rest and the generator register, untouched); nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.R2.lean ====
/- The frame half of region 2 of @main (custom_call 2, `cc2__select_add_kernel` (pipeline 2)), at a PARAMETER `V`: the TensorCore's buffer
   contents when the region is entered. Each window's block at a point (`iblk2`), what the body leaves in each
   output window's buffer (`out2_W`: its one whole store over the payload of the input blocks), the body's triple
   on whole staging memrefs (`sound_kernel2`), the pipeline's proof data over the class-A invariant (`dat2`)
   and its body obligation at every point (`body_obligation2`). Generic in the float instance. -/
import proofs.«107237_j10496900072251_2_alg».proof.Proof.Gen.KernelIdeal.Launch
import proofs.«107237_j10496900072251_2_alg».proof.Proof.Gen.KernelIdeal.Skeleton
import proofs.«107237_j10496900072251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): where the pipeline did not
    fetch, the block index has not moved, so the buffer still holds this point's block. The window is uncut and never idle. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and store is of a whole buffer -/

abbrev r2_0 : Rect S1000x128 := Rect.unit (s := S1000x128) ![0, 0] S1000x128.size inb_S1000x128_S1000x128_0_0
abbrev r2_1 : Rect S1000x1 := Rect.unit (s := S1000x1) ![0, 0] S1000x1.size inb_S1000x1_S1000x1_0_0

/-! ## What the body leaves in each output window's buffer -/

/-- Window 4's staging buffer after the body, from the input windows' blocks: its one store, of the whole
    buffer, of the payload `k2_pay1` of the blocks loaded whole. -/
def out2_4 (x0 : Vec F S1000x128 .f32) (x1 : Vec F S1000x128 .f32) (x2 : Vec F S1000x128 .f32) (x3 : Vec F S1000x1 .f32) : Vec F S1000x128 .f32 :=
  View.canon [⟨r2_0, k2_pay1 (View.ld x3 r2_1) (View.ld x0 r2_0) (View.ld x1 r2_0) (View.ld x2 r2_0)⟩]

/-- The one store is of the whole buffer, so it covers it. -/
theorem cover2_4 (p0 : Vec F S1000x128 .f32) (y : S1000x128.Idx) :
    ∃ pc ∈ ([⟨r2_0, p0⟩] : List (View.Piece (Elt F) S1000x128 .f32)), y ∈ pc.1.set :=
  View.cover_of_tiled [⟨r2_0, p0⟩] S1000x128.size (by rfl) y

/-! ## The body's triple -/

set_option maxHeartbeats 1000000 in
/-- The kernel body on whole staging memrefs, the inputs' at read contents `xW` and the outputs' at anything, runs to
    the continuation holding the inputs' as they were and each output's at `out2_W` of the inputs'. The body loads
    each input whole, loads the output's old contents (unused), and stores the payload over the whole output. -/
theorem sound_kernel2 (c : Dev nD) (E : Set ℕ) (i : grid2.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S1000x1 .f32) (harg4 : arg4.IsWhole) (arg5 : Memref sig .tc .vmem S1000x128 .f32) (harg5 : arg5.IsWhole)
    (x0 : Vec F S1000x128 .f32) (x1 : Vec F S1000x128 .f32) (x2 : Vec F S1000x128 .f32) (x3 : Vec F S1000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__select_add_kernel i arg1 harg1 arg2 harg2 arg3 harg3 arg4 harg4 arg5 harg5) K := by
  simp only [cc2__select_add_kernel_eq_skeleton]; unfold cc2__select_add_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (the scoped rest and the generator register, untouched); nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents (the definition projected). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
import proofs.«107237_j10496900072251_2_alg».proof.Proof.Gen.KernelIdeal.Launch
import proofs.«107237_j10496900072251_2_alg».proof.Proof.Gen.KernelIdeal.Skeleton
import proofs.«107237_j10496900072251_2_alg».proof.Proof.Gen.KernelIdeal.Points
import proofs.«107237_j10496900072251_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 of @main: the grouped linear layer, its frame half

The fourth pallas_call multiplies each tile of 1000 rows by the weight matrix of the tile's type and adds that
type's bias. Which of the three matrices (and biases) a tile takes is read from a table of 50 words, one per
tile, that the call prefetches into scalar memory: the index maps of the weight window and of the bias window
are functions of the table's contents, those of the row window and of the output window of the grid point alone.

Everything here is stated at a parameter `V` — the TensorCore's buffers as the region finds them — and at ANY
admissible contents `a` of the table; only the last section names the literal table the host writes. -/

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3

variable (V : (c : Dev nD) → (b : Ref sig .tc) → Buf (Elt F) ((c : Thread nD τ).loc b))
variable (a : (pcfg3 (F := F)).Adm)

/-! ## The staging memrefs and the body at a point -/

/-- The current staging memref of each window at point `t`, at any admissible contents of the table. -/
abbrev st3_0 (t : Fin (cfg3 a).N) := ((cfg3 a).win 0).stage ((cfg3 a).slots t 0)
abbrev st3_1 (t : Fin (cfg3 a).N) := ((cfg3 a).win 1).stage ((cfg3 a).slots t 1)
abbrev st3_2 (t : Fin (cfg3 a).N) := ((cfg3 a).win 2).stage ((cfg3 a).slots t 2)
abbrev st3_3 (t : Fin (cfg3 a).N) := ((cfg3 a).win 3).stage ((cfg3 a).slots t 3)

/-- The kernel body at point `t`, on what the pipeline calls it with: the grid point, the whole table in scalar
    memory, each window's current staging buffer. -/
abbrev bodyAt3 (t : Fin (cfg3 a).N) : Prog (TpuEff nD τ sig (Elt F) Λ₀ .tc) PUnit :=
  cc3__group_linear_kernel (grid3.coords t) (Memref.whole main_c) (Memref.isWhole_whole _) (spec3_0.stage ((cfg3 a).slots t 0)) (hstage3_0 (((cfg3 a).slots t 0).cast nbuf3_0)) (spec3_1.stage ((cfg3 a).slots t 1)) (hstage3_1 (((cfg3 a).slots t 1).cast nbuf3_1)) (spec3_2.stage ((cfg3 a).slots t 2)) (hstage3_2 (((cfg3 a).slots t 2).cast nbuf3_2)) (spec3_3.stage ((cfg3 a).slots t 3)) (hstage3_3 (((cfg3 a).slots t 3).cast nbuf3_3))

/-! ## The windows' blocks -/

/-- Window `w`'s block at point `t`, read off its array as the region finds it (`V`); for the weight and bias
    windows, whose index maps read the table, a function of the table's words. -/
def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- An input window's current staging buffer holds its block at every point, fetched there or not, for any proof
    data whose array is `V`'s and whose body leaves the block in place: where the block index has not moved the
    buffer still holds the previous point's block, which is this point's. The windows are uncut and never idle. -/
theorem before3_0_of {c : Dev nD} (dat : Dat τ (Elt F) Unit ℕ (Pipeline.UD sig nD τ) ℕ (cfg3 a) c) (hA : dat.A 0 = V c (Pipeline.arrRef spec3 0))
    (hafter : ∀ t, dat.after 0 t = iblk3 V a c 0 t) (t : Fin (cfg3 a).N) (d) : dat.before 0 t d = iblk3 V a c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ (cfg3 a) c) (hA : dat.A 1 = V c (Pipeline.arrRef spec3 1))
    (hafter : ∀ t, dat.after 1 t = iblk3 V a c 1 t) (t : Fin (cfg3 a).N) (d) : dat.before 1 t d = iblk3 V a c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ (cfg3 a) c) (hA : dat.A 2 = V c (Pipeline.arrRef spec3 2))
    (hafter : ∀ t, dat.after 2 t = iblk3 V a c 2 t) (t : Fin (cfg3 a).N) (d) : dat.before 2 t d = iblk3 V a c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1000x128 := Rect.unit (s := S1000x128) ![0, 0] S1000x128.size inb_S1000x128_S1000x128_0_0
abbrev r3_1 : Rect S1x128x128 := Rect.unit (s := S1x128x128) ![0, 0, 0] S1x128x128.size inb_S1x128x128_S1x128x128_0_0_0
abbrev r3_2 : Rect S1x1x128 := Rect.unit (s := S1x1x128) ![0, 0, 0] S1x1x128.size inb_S1x1x128_S1x1x128_0_0_0

/-! ## What the body leaves in the output window's buffer -/

/-- The output window's staging buffer after the body, from the three input blocks: its one store, of the whole
    block, as a piece. -/
def out3_3 (x0 : Vec F S1000x128 .f32) (x1 : Vec F S1x128x128 .f32) (x2 : Vec F S1x1x128 .f32) : Vec F S1000x128 .f32 :=
  View.canon [⟨r3_0, k3_pay1 (View.ld x0 r3_0) (View.ld x1 r3_1) (View.ld x2 r3_2)⟩]

/-- The one store is of the whole block, so it covers the buffer. -/
theorem cover3_3 (p0 : Vec F S1000x128 .f32) (y : S1000x128.Idx) :
    ∃ pc ∈ ([⟨r3_0, p0⟩] : List (View.Piece (Elt F) S1000x128 .f32)), y ∈ pc.1.set :=
  View.cover_of_tiled [⟨r3_0, p0⟩] S1000x128.size (by rfl) y

/-! ## The body's triple -/

set_option maxHeartbeats 1000000 in
/-- The kernel body on whole staging memrefs, the inputs' at read contents `xW` and the output's at anything, runs
    to the continuation holding the inputs' as they were and the output's at `out3_3` of the inputs'. The table's
    memref `arg1` is any whole memref in scalar memory: the body never loads from it (the table is read by the
    index maps alone), so nothing is asked of its contents and nothing of it is held here — whatever holds it,
    at whatever contents, passes by untouched. -/
theorem sound_kernel3 (c : Dev nD) (E : Set ℕ) (i : grid3.Coords) (arg1 : Memref sig .tc .smem S50 .i32) (harg1 : arg1.IsWhole) (arg2 : Memref sig .tc .vmem S1000x128 .f32) (harg2 : arg2.IsWhole) (arg3 : Memref sig .tc .vmem S1x128x128 .f32) (harg3 : arg3.IsWhole) (arg4 : Memref sig .tc .vmem S1x1x128 .f32) (harg4 : arg4.IsWhole) (arg5 : Memref sig .tc .vmem S1000x128 .f32) (harg5 : arg5.IsWhole)
    (x0 : Vec F S1000x128 .f32) (x1 : Vec F S1x128x128 .f32) (x2 : Vec F S1x1x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out3_3 x0 x1 x2)) -∗ K ⟨⟩))
      ⊢ wp frame (wpE (defs₀ (F := F)) Variants.none c none) E (cc3__group_linear_kernel i arg1 harg1 arg2 harg2 arg3 harg3 arg4 harg4 arg5 harg5) K := by
  simp only [cc3__group_linear_kernel_eq_skeleton]; unfold cc3__group_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The table on core `c` as the region hands it to the invariant: its buffer at the contents `a.1`, whole (a
    region among several takes the table whole at its entry and gives it back whole at its exit). -/
abbrev ΦT3 (c : Dev nD) : sProp 𝕄 :=
  Pipeline.prefHeld (Ix := Unit) (Name := ℕ) (U := Pipeline.UD sig nD τ) (Lvl := ℕ) pre3 c (fun _ => fullShare) a.1

/-- The proof data of pipeline 3 on core `c`: the arrays as the region finds them (`V`); after the body at point
    `t` each input's buffer at its block and the output's at `out3_3` of the input blocks; the invariant the
    scoped rest and the generator register, untouched, beside the table held at `a.1`; nothing owed; full shares. -/
def dat3 (c : Dev nD) : Dat τ (Elt F) Unit ℕ (Pipeline.UD sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => out3_3 (iblk3 V a c 0 t) (iblk3 V a c 1 t) (iblk3 V a c 2 t)
  Φ _ := iprop(Pipeline.ΦA spec3 c ∗ ΦT3 a c)
  q _ := fullShare
  owed _ := 0

/-- The proof data's arrays are the region-entry contents. -/
theorem A_eq3 (c : Dev nD) (w : Fin (cfg3 a).W) : (dat3 V a c).A w = V c (Pipeline.arrRef spec3 w) := by
  dsimp only [dat3]

/-- What the body leaves, window by window. -/
theorem after3_0 (c : Dev nD) (t : Fin (cfg3 a).N) : (dat3 V a c).after 0 t = iblk3 V a c 0 t := by dsimp only [dat3]; try rfl
theorem after3_1 (c : Dev nD) (t : Fin (cfg3 a).N) : (dat3 V a c).after 1 t = iblk3 V a c 1 t := by dsimp only [dat3]; try rfl
theorem after3_2 (c : Dev nD) (t : Fin (cfg3 a).N) : (dat3 V a c).after 2 t = iblk3 V a c 2 t := by dsimp only [dat3]; try rfl
theorem after3_3 (c : Dev nD) (t : Fin (cfg3 a).N) : (dat3 V a c).after 3 t = out3_3 (iblk3 V a c 0 t) (iblk3 V a c 1 t) (iblk3 V a c 2 t) := by dsimp only [dat3]; try rfl

/-- Each input's current staging buffer holds its block at every point, fetched there or not. -/
theorem before3_0 (c : Dev nD) (t : Fin (cfg3 a).N) (d) : (dat3 V a c).before 0 t d = iblk3 V a c 0 t :=
  before3_0_of V a (dat3 V a c) (A_eq3 V a c 0) (after3_0 V a c) t d
theorem before3_1 (c : Dev nD) (t : Fin (cfg3 a).N) (d) : (dat3 V a c).before 1 t d = iblk3 V a c 1 t :=
  before3_1_of V a (dat3 V a c) (A_eq3 V a c 1) (after3_1 V a c) t d
theorem before3_2 (c : Dev nD) (t : Fin (cfg3 a).N) (d) : (dat3 V a c).before 2 t d = iblk3 V a c 2 t :=
  before3_2_of V a (dat3 V a c) (A_eq3 V a c 2) (after3_2 V a c) t d

/-! ## The body obligation, at a generic point -/

/-- What the body is called with at point `t`, the windows one by one, -/
def bodyPre3 (c : Dev nD) (t : Fin (cfg3 a).N) : sProp 𝕄 :=
  iprop((dat3 V a c).Φ t.castSucc ∗ (dat3 V a c).owesAt () t.castSucc
    ∗ (∃ d, owns (c : Thread nD τ) (st3_0 a t) fullShare ((dat3 V a c).before 0 t d))
    ∗ (∃ d, owns (c : Thread nD τ) (st3_1 a t) fullShare ((dat3 V a c).before 1 t d))
    ∗ (∃ d, owns (c : Thread nD τ) (st3_2 a t) fullShare ((dat3 V a c).before 2 t d))
    ∗ (∃ d, owns (c : Thread nD τ) (st3_3 a t) fullShare ((dat3 V a c).before 3 t d)))

/-- and what it returns. -/
def bodyPost3 (c : Dev nD) (t : Fin (cfg3 a).N) : sProp 𝕄 :=
  iprop((dat3 V a c).Φ t.succ ∗ (dat3 V a c).owesAt () t.succ
    ∗ owns (c : Thread nD τ) (st3_0 a t) fullShare ((dat3 V a c).after 0 t)
    ∗ owns (c : Thread nD τ) (st3_1 a t) fullShare ((dat3 V a c).after 1 t)
    ∗ owns (c : Thread nD τ) (st3_2 a t) fullShare ((dat3 V a c).after 2 t)
    ∗ owns (c : Thread nD τ) (st3_3 a t) fullShare ((dat3 V a c).after 3 t))

/-- The body at any point: the inputs' memrefs hold their blocks, so the body's triple applies; the invariant —
    the table in it — and the core's `owes` pass through unread. -/
theorem sound_body3 (c : Dev nD) (t : Fin (cfg3 a).N) :
    bodyPre3 V a c t ⊢ wp frame (wpE (defs₀ (F := F)) Variants.none c none) Set.univ (bodyAt3 a t) (fun _ => bodyPost3 V a c t) := by
  unfold bodyPre3 bodyPost3 bodyAt3
  simp only [before3_0, before3_1, before3_2]
  rw [show (dat3 V a c).Φ t.succ = (dat3 V a c).Φ t.castSucc from rfl,
    show (dat3 V a c).owesAt () t.succ = (dat3 V a c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ _ _ (iblk3 V a c 0 t) (iblk3 V a c 1 t) (iblk3 V a c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V a c) (defs₀ (F := F)) Variants.none () Set.univ := fun t => by
  rw [bigSep_W3, bigSep_W3]
  exact sound_body3 V a c t

/-! ## The region as a segment of @main: the table's road

A region among several takes the table WHOLE at its entry, beside the windows' arrays — split out of the unscoped
buffers no window stages —, carries it in the invariant, and gives it back whole at its exit, where it rejoins
those buffers. The three entailments below are that road, at any admissible contents. -/

/-- The unscoped buffers no window stages, at contents `Vc` that hold the table at `a.1`, are the table held
    whole and the rest. -/
theorem unscopedRest3_split (c : Dev nD) (Vc : (b : Ref sig .tc) → Buf (Elt F) ((c : Thread nD τ).loc b)) (hpf : ∀ k, Vc (pre3.ref k) = a.1 k) :
    (Pipeline.unscopedRest (Ix := Unit) (Name := ℕ) (U := Pipeline.UD sig nD τ) (Lvl := ℕ) spec3 c Vc : sProp 𝕄)
      = iprop(ΦT3 a c ∗ Pipeline.unscopedRestP (Ix := Unit) (Name := ℕ) (U := Pipeline.UD sig nD τ) (Lvl := ℕ) pre3 spec3 c Vc) := by
  rw [Pipeline.unscopedRest_split preFacts3 c Vc, show (fun k => Vc (pre3.ref k)) = a.1 from funext hpf]

/-- The invariant at the first point, from the generator register, the table whole and the scoped buffers no window
    stages. -/
theorem hin3 (c : Dev nD) :
    iprop((∃ r, prngReg c r) ∗ ΦT3 a c ∗ Pipeline.scopedRest (Ix := Unit) (Name := ℕ) (U := Pipeline.UD sig nD τ) (Lvl := ℕ) (Val := Elt F) spec3 c)
      ⊢ (dat3 V a c).Φ 0 := by
  rw [show (dat3 V a c).Φ 0 = iprop(Pipeline.ΦA spec3 c ∗ ΦT3 a c) from rfl]; unfold Pipeline.ΦA
  iintro ⟨Hp, Ht, Hr⟩
  isplitl [Hr Hp]
  · isplitl [Hr]; · iexact Hr
    iexact Hp
  iexact Ht

/-- The invariant at the last point gives back the generator register and the table, whole, and those scoped
    buffers. -/
theorem hout3 (c : Dev nD) :
    (dat3 V a c).Φ (Fin.last (cfg3 a).N)
      ⊢ iprop(iprop((∃ r, prngReg c r) ∗ ΦT3 a c) ∗ Pipeline.scopedRest (Ix := Unit) (Name := ℕ) (U := Pipeline.UD sig nD τ) (Lvl := ℕ) (Val := Elt F) spec3 c) := by
  rw [show (dat3 V a c).Φ (Fin.last (cfg3 a).N) = iprop(Pipeline.ΦA spec3 c ∗ ΦT3 a c) from rfl]; unfold Pipeline.ΦA
  iintro ⟨⟨Hr, Hp⟩, Ht⟩
  isplitl [Hp Ht]
  · isplitl [Hp]; · iexact Hp
    iexact Ht
  iexact Hr

end Region3

/-! ## The literal table

The host writes the table before the region: a constant of 50 words, tile `k`'s type — 0 for the first 20
tiles, 1 for the next 15, 2 for the last 15. Every structural fact above is at ANY admissible contents; here the
contents are named, shown admissible, and the index maps of the weight and bias windows are computed at them. -/

/-- The table the host writes before the region: the type of each tile of rows. -/
def tbl3 : pre3.Contents (Elt F) := fun
  | 0 => fun i => lit0 (S50.rowMajor i)
  | ⟨_ + 1, h⟩ => absurd h (Nat.not_lt.2 (Nat.le_add_left _ _))

theorem tbl3_zero : tbl3 (F := F) 0 = fun i => lit0 (S50.rowMajor i) := rfl

/-- The index of the table's word `k`. -/
def ik3 (k : Fin 50) : S50.Idx := fun a => match a with | ⟨0, _⟩ => k

/-- Every index of the table is some word's. -/
theorem S50_idx (x : S50.Idx) : x = ik3 (x 0) := by
  funext a
  match a with
  | ⟨0, _⟩ => rfl

/-- The type of tile `k`: 0 below 20, 1 below 35, 2 from there on. -/
def grp3 (k : ℕ) : ℕ := if k < 20 then 0 else if k < 35 then 1 else 2

theorem grp3_lt (k : ℕ) : grp3 k < 3 := by unfold grp3; split <;> [omega; (split <;> omega)]

/-- The table's word `k` is tile `k`'s type. -/
theorem tbl3_word : ∀ k : Fin 50, (tbl3 (F := F) 0 (ik3 k)).toNat = grp3 k.val := by
  intro k
  rw [tbl3_zero]
  revert k
  decide

/-- The three value facts, by range. -/
theorem tbl3_word_lo (k : Fin 50) (h : k.val < 20) : (tbl3 (F := F) 0 (ik3 k)).toNat = 0 := by
  rw [tbl3_word, grp3, if_pos h]
theorem tbl3_word_mid (k : Fin 50) (h1 : 20 ≤ k.val) (h2 : k.val < 35) : (tbl3 (F := F) 0 (ik3 k)).toNat = 1 := by
  rw [tbl3_word, grp3, if_neg (by omega), if_pos h2]
theorem tbl3_word_hi (k : Fin 50) (h : 35 ≤ k.val) : (tbl3 (F := F) 0 (ik3 k)).toNat = 2 := by
  rw [tbl3_word, grp3, if_neg (by omega), if_neg (by omega)]

/-- Every word of the table names one of the three types. -/
theorem tbl3_lt (x : S50.Idx) : (tbl3 (F := F) 0 x).toNat < 3 :=
  lt_of_eq_of_lt ((congrArg (fun y => (tbl3 (F := F) 0 y).toNat) (S50_idx x)).trans (tbl3_word (x 0))) (grp3_lt _)

/-- The word the index maps read at grid point `i` is the table's word `i`: the unit rectangle at offset `i` has
    the one index `i`. Decided over the 50 grid points; the table's contents do not occur. -/
theorem emb3 : ∀ i : grid3.Coords,
    (Rect.unit (s := S50) ![(Scalar.indexCast (BitVec.ofNat 32 (i 0).val)).toNat] S1.size (k3_off1_inb i)).emb
      (Shape.Idx.first (numel1_S1.symm ▸ Nat.one_pos)) = ik3 (i 0) := by
  decide +kernel

/-- The weight window's index map at any contents of the table: the table's word at the grid point, then zeros. -/
theorem tf1_eq (pf : pre3.Contents (Elt F)) (i : grid3.Coords) :
    cc3_transform_1 k3_off1_inb numel1_S1 pf i = ![(pf 0 (ik3 (i 0))).toNat, 0, 0] :=
  congrArg (fun x => (![(pf 0 x).toNat, 0, 0] : Fin 3 → ℕ)) (emb3 i)
/-- The bias window's likewise. -/
theorem tf2_eq (pf : pre3.Contents (Elt F)) (i : grid3.Coords) :
    cc3_transform_2 k3_off1_inb numel1_S1 pf i = ![(pf 0 (ik3 (i 0))).toNat, 0, 0] :=
  congrArg (fun x => (![(pf 0 x).toNat, 0, 0] : Fin 3 → ℕ)) (emb3 i)

/-- The pipeline's side condition of the table holds of any contents whose every word is below 3: the weight
    block `(w, 0, 0)` lies inside the [3, 128, 128] array and the bias block inside the [3, 1, 128] one; the
    elements are word-wide. -/
theorem ok3_of_lt (pf : pre3.Contents (Elt F)) (h : ∀ x, (pf 0 x).toNat < 3) : ok3 pf := by
  refine ⟨fun i => ⟨fun a => ?_, Or.inl rfl⟩, fun i => ⟨fun a => ?_, Or.inl rfl⟩⟩
  · rw [tf1_eq]
    have := h (ik3 (i 0))
    fin_cases a <;> simp [S1x128x128, S3x128x128] <;> omega
  · rw [tf2_eq]
    have := h (ik3 (i 0))
    fin_cases a <;> simp [S1x1x128, S3x1x128] <;> omega

/-- The literal table is admissible. -/
theorem ok3_tbl3 : ok3 (F := F) tbl3 := ok3_of_lt tbl3 tbl3_lt

/-- The literal table as admissible contents: what region 3 runs its pipeline at. -/
abbrev adm3 : (pcfg3 (F := F)).Adm := ⟨tbl3, ok3_tbl3⟩

/-- At the literal table the weight window's block index at grid point `i` is the tile's type, -/
theorem tf1_tbl3 (i : grid3.Coords) : cc3_transform_1 k3_off1_inb numel1_S1 (tbl3 (F := F)) i = ![grp3 (i 0).val, 0, 0] :=
  (tf1_eq tbl3 i).trans (congrArg (fun n => (![n, 0, 0] : Fin 3 → ℕ)) (tbl3_word (i 0)))
/-- and the bias window's too. -/
theorem tf2_tbl3 (i : grid3.Coords) : cc3_transform_2 k3_off1_inb numel1_S1 (tbl3 (F := F)) i = ![grp3 (i 0).val, 0, 0] :=
  (tf2_eq tbl3 i).trans (congrArg (fun n => (![n, 0, 0] : Fin 3 → ℕ)) (tbl3_word (i 0)))
/-- The same of the pipeline's own index maps (`ix3`, what `(cfg3 adm3).win w` is pinned at). -/
theorem ix3_1_tbl3 (i : grid3.Coords) : ix3 (tbl3 (F := F)) 1 i = ![grp3 (i 0).val, 0, 0] := tf1_tbl3 i
theorem ix3_2_tbl3 (i : grid3.Coords) : ix3 (tbl3 (F := F)) 2 i = ![grp3 (i 0).val, 0, 0] := tf2_tbl3 i

/-! ## The table when region 3 is entered

The host writes the table once, before the first region; no later host stretch and no earlier region writes its
buffer, so region 3 finds it as written. -/

section Entry

variable (m : (ℓ : Loc nD τ sig) → Buf (Elt F) ℓ) (outs : Outs (F := F))

/-- The table's buffer after the first host stretch holds the literal table: the stretch is the one constant. -/
theorem V1_main_c (c : Dev nD) : V1 m c main_c = tbl3 (F := F) 0 := by
  show StableHlo.after hostOps0 (V0 m c) main_c = _
  simp only [hostOps0, StableHlo.after_cons, StableHlo.after_nil]
  exact StableHlo.nullary_result main_c _ _ _

/-- The table's buffer when region 3 is entered holds the literal table. -/
theorem V7_main_c (c : Dev nD) : V7 m outs c main_c = tbl3 (F := F) 0 :=
  (V7_of m outs c main_c (by decide)).trans <| (V6_of m outs c main_c (by decide)).trans <| (V5_of m outs c main_c (by decide)).trans <|
    (V4_of m outs c main_c (by decide)).trans <| (V3_of m outs c main_c (by decide)).trans <| (V2_of m outs c main_c (by decide)).trans <|
    V1_main_c m c

/-- The same, table by table: what the region's entry reads the tables at. -/
theorem V7_pre3 (c : Dev nD) : ∀ k, V7 m outs c (pre3.ref k) = (adm3 (F := F)).1 k
  | 0 => V7_main_c m outs c
  | ⟨_ + 1, h⟩ => absurd h (Nat.not_lt.2 (Nat.le_add_left _ _))

/-- Region 3 writes only its output array: the table's buffer leaves the region as it entered. -/
theorem V8_main_c (c : Dev nD) : V8 m outs c main_c = tbl3 (F := F) 0 :=
  (V8_of m outs c main_c (by decide)).trans (V7_main_c m outs c)

end Entry

end Cert.KernelIdeal.Fr

end
-- ==== Proof.KI.R4.lean ====
/- The frame half of region 4 of @main (custom_call 4, `cc4__final_kernel` (pipeline 4)), at a PARAMETER `V`: the TensorCore's buffer
   contents when the region is entered. Each window's block at a point (`iblk4`), what the body leaves in each
   output window's buffer (`out4_W`: its one whole store over the payload of the input blocks), the body's triple
   on whole staging memrefs (`sound_kernel4`), the pipeline's proof data over the class-A invariant (`dat4`)
   and its body obligation at every point (`body_obligation4`). Generic in the float instance. -/
import proofs.«107237_j10496900072251_2_alg».proof.Proof.Gen.KernelIdeal.Launch
import proofs.«107237_j10496900072251_2_alg».proof.Proof.Gen.KernelIdeal.Skeleton
import proofs.«107237_j10496900072251_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents: the structural recursion goes once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s (`hA`) and whose body leaves the block in place (`hafter`): where the pipeline did not
    fetch, the block index has not moved, so the buffer still holds this point's block. The window is uncut and never idle. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for any proof
    data whose array is `V`'s (`hA`) and whose body leaves the block in place (`hafter`): where the pipeline did not
    fetch, the block index has not moved, so the buffer still holds this point's block. The window is uncut and never idle. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for any proof
    data whose array is `V`'s (`hA`) and whose body leaves the block in place (`hafter`): where the pipeline did not
    fetch, the block index has not moved, so the buffer still holds this point's block. The window is uncut and never idle. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for any proof
    data whose array is `V`'s (`hA`) and whose body leaves the block in place (`hafter`): where the pipeline did not
    fetch, the block index has not moved, so the buffer still holds this point's block. The window is uncut and never idle. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for any proof
    data whose array is `V`'s (`hA`) and whose body leaves the block in place (`hafter`): where the pipeline did not
    fetch, the block index has not moved, so the buffer still holds this point's block. The window is uncut and never idle. -/
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and store is of a whole buffer -/

abbrev r4_0 : Rect S1000x128 := Rect.unit (s := S1000x128) ![0, 0] S1000x128.size inb_S1000x128_S1000x128_0_0
abbrev r4_1 : Rect S128x128 := Rect.unit (s := S128x128) ![0, 0] S128x128.size inb_S128x128_S128x128_0_0
abbrev r4_2 : Rect S128 := Rect.unit (s := S128) ![0] S128.size inb_S128_S128_0
abbrev r4_3 : Rect S8x128 := Rect.unit (s := S8x128) ![0, 0] S8x128.size inb_S8x128_S8x128_0_0
abbrev r4_4 : Rect S8 := Rect.unit (s := S8) ![0] S8.size inb_S8_S8_0
abbrev r4_5 : Rect S1000x8 := Rect.unit (s := S1000x8) ![0, 0] S1000x8.size inb_S1000x8_S1000x8_0_0

/-! ## What the body leaves in each output window's buffer -/

/-- Window 5's staging buffer after the body, from the input windows' blocks: its one store, of the whole
    buffer, of the payload `k4_pay1` of the blocks loaded whole. -/
def out4_5 (x0 : Vec F S1000x128 .f32) (x1 : Vec F S128x128 .f32) (x2 : Vec F S128 .f32) (x3 : Vec F S8x128 .f32) (x4 : Vec F S8 .f32) : Vec F S1000x128 .f32 :=
  View.canon [⟨r4_0, k4_pay1 (View.ld x0 r4_0) (View.ld x1 r4_1) (View.ld x2 r4_2)⟩]

/-- The one store is of the whole buffer, so it covers it. -/
theorem cover4_5 (p0 : Vec F S1000x128 .f32) (y : S1000x128.Idx) :
    ∃ pc ∈ ([⟨r4_0, p0⟩] : List (View.Piece (Elt F) S1000x128 .f32)), y ∈ pc.1.set :=
  View.cover_of_tiled [⟨r4_0, p0⟩] S1000x128.size (by rfl) y

/-- Window 6's staging buffer after the body, from the input windows' blocks: its one store, of the whole
    buffer, of the payload `k4_pay2` of the blocks loaded whole. -/
def out4_6 (x0 : Vec F S1000x128 .f32) (x1 : Vec F S128x128 .f32) (x2 : Vec F S128 .f32) (x3 : Vec F S8x128 .f32) (x4 : Vec F S8 .f32) : Vec F S1000x8 .f32 :=
  View.canon [⟨r4_5, k4_pay2 (View.ld x0 r4_0) (View.ld x1 r4_1) (View.ld x2 r4_2) (View.ld x3 r4_3) (View.ld x4 r4_4)⟩]

/-- The one store is of the whole buffer, so it covers it. -/
theorem cover4_6 (p0 : Vec F S1000x8 .f32) (y : S1000x8.Idx) :
    ∃ pc ∈ ([⟨r4_5, p0⟩] : List (View.Piece (Elt F) S1000x8 .f32)), y ∈ pc.1.set :=
  View.cover_of_tiled [⟨r4_5, p0⟩] S1000x8.size (by rfl) y

/-! ## The body's triple -/

set_option maxHeartbeats 1000000 in
/-- The kernel body on whole staging memrefs, the inputs' at read contents `xW` and the outputs' at anything, runs to
    the continuation holding the inputs' as they were and each output's at `out4_W` of the inputs'. The body loads
    each input whole, loads the output's old contents (unused), and stores the payload over the whole output. -/
theorem sound_kernel4 (c : Dev nD) (E : Set ℕ) (i : grid4.Coords) (arg1 : Memref sig .tc .vmem S1000x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S8x128 .f32) (harg4 : arg4.IsWhole) (arg5 : Memref sig .tc .vmem S8 .f32) (harg5 : arg5.IsWhole) (arg6 : Memref sig .tc .vmem S1000x128 .f32) (harg6 : arg6.IsWhole) (arg7 : Memref sig .tc .vmem S1000x8 .f32) (harg7 : arg7.IsWhole)
    (x0 : Vec F S1000x128 .f32) (x1 : Vec F S128x128 .f32) (x2 : Vec F S128 .f32) (x3 : Vec F S8x128 .f32) (x4 : Vec F S8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4) ∗ owns (c : Thread nD τ) arg7 fullShare (out4_6 x0 x1 x2 x3 x4)) -∗ K ⟨⟩))
      ⊢ wp frame (wpE (defs₀ (F := F)) Variants.none c none) E (cc4__final_kernel i arg1 harg1 arg2 harg2 arg3 harg3 arg4 harg4 arg5 harg5 arg6 harg6 arg7 harg7) K := by
  simp only [cc4__final_kernel_eq_skeleton]; unfold cc4__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover4_5 _)
  iexists _; isplitr
  swap; · iexact H6
  ipureintro
  exact View.read_writes_eq_canon _ _ _ (cover4_6 _)

/-! ## The pipeline's proof data -/

/-- The proof data of pipeline 4 on core `c`: the arrays as the region finds them (`V`); after the body at
    point `t` each input's buffer at its block and each output's at `out4_W` of the input blocks; the invariant the
    class's (the scoped rest and the generator register, untouched); nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents (the definition projected). -/
theorem A_eq4 (c : Dev nD) (w : Fin cfg4.W) : (dat4 V c).A w = V c (Pipeline.arrRef spec4 w) := by
  dsimp only [dat4]

/-- What the body leaves, window by window (the proof data's `match` reduced). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ (grid4.coords t) _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Fr

end
-- ==== Proof.KI.Run.lean ====
/- The five-region program run from the launch to the return, at any float instance: the buffers' contents
   between @main's items (the launch memory, each host stretch applied, each region's output arrays at what its
   write-backs leave), each region as a segment entered from the contents before it and left at the contents after
   it, and from the run of the segments: every unscoped buffer at the last contents. The frame (arguments
   unchanged) and the two results' values are read off that. -/
import proofs.«107237_j10496900072251_2_alg».proof.Proof.KI.R0
import proofs.«107237_j10496900072251_2_alg».proof.Proof.KI.R1
import proofs.«107237_j10496900072251_2_alg».proof.Proof.KI.R2
import proofs.«107237_j10496900072251_2_alg».proof.Proof.KI.R3
import proofs.«107237_j10496900072251_2_alg».proof.Proof.KI.R4
import proofs.«107237_j10496900072251_2_alg».proof.Proof.KI.RunCond

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers read at the TensorCore's references. -/
abbrev AtTc (F : FTy → Type) [FloatOps F] : Type := (c : Dev nD) → (b : Ref sig .tc) → Buf (Elt F) ((c : Thread nD τ).loc b)

/-! ## What each region leaves, stage by stage

Region K's proof data are stated at the contents the region is entered from, which depend on what the regions
before it left: the contents are built one region at a time. -/

/-- The contents region 0 is entered from: the launch memory after the first host stretch. -/
abbrev E1 : AtTc F := fun c b => V1 m c b
/-- After region 0: its arrays at what its write-backs leave, read at any reference. -/
def o2 (r : Ref sig .tc) (c : Dev nD) : Buf (Elt F) ((c : Thread nD τ).loc r) :=
  Pipeline.withArrays spec0 c (V1 m c) (fun w => (dat0 (E1 m) c).arrAt w cfg0.N) (Proc.devRef .tc r)
def outs2 : Outs (F := F) := fun _ r c => o2 m r c
/-- The contents region 1 is entered from. -/
abbrev E3 : AtTc F := fun c b => V3 m (outs2 m) c b
def o4 (r : Ref sig .tc) (c : Dev nD) : Buf (Elt F) ((c : Thread nD τ).loc r) :=
  Pipeline.withArrays spec1 c (V3 m (outs2 m) c) (fun w => (dat1 (E3 m) c).arrAt w cfg1.N) (Proc.devRef .tc r)
def outs4 : Outs (F := F) := fun J r c => match J with | 2 => o2 m r c | _ => o4 m r c
/-- The contents region 2 is entered from. -/
abbrev E5 : AtTc F := fun c b => V5 m (outs4 m) c b
def o6 (r : Ref sig .tc) (c : Dev nD) : Buf (Elt F) ((c : Thread nD τ).loc r) :=
  Pipeline.withArrays spec2 c (V5 m (outs4 m) c) (fun w => (dat2 (E5 m) c).arrAt w cfg2.N) (Proc.devRef .tc r)
def outs6 : Outs (F := F) := fun J r c => match J with | 2 => o2 m r c | 4 => o4 m r c | _ => o6 m r c
/-- The contents region 3 is entered from. -/
abbrev E7 : AtTc F := fun c b => V7 m (outs6 m) c b

variable (a3 : (pcfg3 (F := F)).Adm)

def o8 (r : Ref sig .tc) (c : Dev nD) : Buf (Elt F) ((c : Thread nD τ).loc r) :=
  Pipeline.withArrays spec3 c (V7 m (outs6 m) c) (fun w => (dat3 (E7 m) a3 c).arrAt w (cfg3 a3).N) (Proc.devRef .tc r)
def outs8 : Outs (F := F) := fun J r c => match J with | 2 => o2 m r c | 4 => o4 m r c | 6 => o6 m r c | _ => o8 m a3 r c
/-- The contents region 4 is entered from. -/
abbrev E9 : AtTc F := fun c b => V9 m (outs8 m a3) c b
def o10 (r : Ref sig .tc) (c : Dev nD) : Buf (Elt F) ((c : Thread nD τ).loc r) :=
  Pipeline.withArrays spec4 c (V9 m (outs8 m a3) c) (fun w => (dat4 (E9 m a3) c).arrAt w cfg4.N) (Proc.devRef .tc r)
/-- What every region leaves. -/
def outs : Outs (F := F) := fun J r c => match J with | 2 => o2 m r c | 4 => o4 m r c | 6 => o6 m r c | 8 => o8 m a3 r c | _ => o10 m a3 r c

/-- The tables' admissible contents: only pipeline 3 has a table. -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3
  | ⟨4, _⟩ => cfg4.toPCfg_adm

/-- Every pipeline's proof data, each at its region's entry contents. -/
def pdats : (p : Fin 5) → (c : Dev nD) → Dat τ (Elt F) Unit ℕ (Pipeline.UD sig nD τ) ℕ (Pipeline.pin (pcfgs (F := F)) (adm a3) p) c
  | ⟨0, _⟩ => fun c => dat0 (E1 m) c
  | ⟨1, _⟩ => fun c => dat1 (E3 m) c
  | ⟨2, _⟩ => fun c => dat2 (E5 m) c
  | ⟨3, _⟩ => fun c => dat3 (E7 m) a3 c
  | ⟨4, _⟩ => fun c => dat4 (E9 m a3) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-! ## Region 0's arrays after it, and the other buffers -/

theorem o2_arr (c : Dev nD) (w : Fin cfg0.W) : o2 m (Pipeline.arrRef spec0 w) c = (dat0 (E1 m) c).arrAt w cfg0.N :=
  Pipeline.withArrays_arr spec0 (launch0 (F := F)).win.arr_inj c _ _ w
theorem o4_arr (c : Dev nD) (w : Fin cfg1.W) : o4 m (Pipeline.arrRef spec1 w) c = (dat1 (E3 m) c).arrAt w cfg1.N :=
  Pipeline.withArrays_arr spec1 (launch1 (F := F)).win.arr_inj c _ _ w

theorem hF0 (c : Dev nD) : ∀ w : Fin cfg0.W, (dat0 (E1 m) c).arrAt w cfg0.N = (fun b : Ref sig .tc => V2 m (outs2 m) c b) (Pipeline.arrRef spec0 w)
  | ⟨0, _⟩ => (((dat0 (E1 m) c).arrAt_in 0 rfl _).trans (A_eq0 (E1 m) c 0)).trans (V2_of m (outs2 m) c _ (by decide)).symm
  | ⟨1, _⟩ => (((dat0 (E1 m) c).arrAt_in 1 rfl _).trans (A_eq0 (E1 m) c 1)).trans (V2_of m (outs2 m) c _ (by decide)).symm
  | ⟨2, _⟩ => (((dat0 (E1 m) c).arrAt_in 2 rfl _).trans (A_eq0 (E1 m) c 2)).trans (V2_of m (outs2 m) c _ (by decide)).symm
  | ⟨3, _⟩ => by
      show _ = Function.update (V1 m c) (Proc.devRef .tc main_v0) (outs2 m 2 main_v0 c) (Proc.devRef .tc main_v0)
      rw [Function.update_self]
      exact (o2_arr m c 3).symm

theorem hrest0 (c : Dev nD) : ∀ b : Ref sig .tc, b ∉ Finset.univ.image (Pipeline.arrRef spec0) → V2 m (outs2 m) c b = V1 m c b :=
  fun b hb => V2_of m (outs2 m) c b fun h => hb (by
    rw [List.mem_singleton] at h; subst h
    exact Finset.mem_image.mpr ⟨3, Finset.mem_univ _, rfl⟩)

theorem hF1 (c : Dev nD) : ∀ w : Fin cfg1.W, (dat1 (E3 m) c).arrAt w cfg1.N = (fun b : Ref sig .tc => V4 m (outs4 m) c b) (Pipeline.arrRef spec1 w)
  | ⟨0, _⟩ => (((dat1 (E3 m) c).arrAt_in 0 rfl _).trans (A_eq1 (E3 m) c 0)).trans (V4_of m (outs4 m) c _ (by decide)).symm
  | ⟨1, _⟩ => (((dat1 (E3 m) c).arrAt_in 1 rfl _).trans (A_eq1 (E3 m) c 1)).trans (V4_of m (outs4 m) c _ (by decide)).symm
  | ⟨2, _⟩ => (((dat1 (E3 m) c).arrAt_in 2 rfl _).trans (A_eq1 (E3 m) c 2)).trans (V4_of m (outs4 m) c _ (by decide)).symm
  | ⟨3, _⟩ => by
      show _ = Function.update (V3 m (outs4 m) c) (Proc.devRef .tc main_v13) (outs4 m 4 main_v13 c) (Proc.devRef .tc main_v13)
      rw [Function.update_self]
      exact (o4_arr m c 3).symm

theorem hrest1 (c : Dev nD) : ∀ b : Ref sig .tc, b ∉ Finset.univ.image (Pipeline.arrRef spec1) → V4 m (outs4 m) c b = V3 m (outs4 m) c b :=
  fun b hb => V4_of m (outs4 m) c b fun h => hb (by
    rw [List.mem_singleton] at h; subst h
    exact Finset.mem_image.mpr ⟨3, Finset.mem_univ _, rfl⟩)

theorem o6_arr (c : Dev nD) (w : Fin cfg2.W) : o6 m (Pipeline.arrRef spec2 w) c = (dat2 (E5 m) c).arrAt w cfg2.N :=
  Pipeline.withArrays_arr spec2 (launch2 (F := F)).win.arr_inj c _ _ w
theorem o8_arr (c : Dev nD) (w : Fin (cfg3 a3).W) : o8 m a3 (Pipeline.arrRef spec3 w) c = (dat3 (E7 m) a3 c).arrAt w (cfg3 a3).N :=
  Pipeline.withArrays_arr spec3 (launch3 (F := F)).win.arr_inj c _ _ w
theorem o10_arr (c : Dev nD) (w : Fin cfg4.W) : o10 m a3 (Pipeline.arrRef spec4 w) c = (dat4 (E9 m a3) c).arrAt w cfg4.N :=
  Pipeline.withArrays_arr spec4 (launch4 (F := F)).win.arr_inj c _ _ w

theorem hF2 (c : Dev nD) : ∀ w : Fin cfg2.W, (dat2 (E5 m) c).arrAt w cfg2.N = (fun b : Ref sig .tc => V6 m (outs6 m) c b) (Pipeline.arrRef spec2 w)
  | ⟨0, _⟩ => (((dat2 (E5 m) c).arrAt_in 0 rfl _).trans (A_eq2 (E5 m) c 0)).trans (V6_of m (outs6 m) c _ (by decide)).symm
  | ⟨1, _⟩ => (((dat2 (E5 m) c).arrAt_in 1 rfl _).trans (A_eq2 (E5 m) c 1)).trans (V6_of m (outs6 m) c _ (by decide)).symm
  | ⟨2, _⟩ => (((dat2 (E5 m) c).arrAt_in 2 rfl _).trans (A_eq2 (E5 m) c 2)).trans (V6_of m (outs6 m) c _ (by decide)).symm
  | ⟨3, _⟩ => (((dat2 (E5 m) c).arrAt_in 3 rfl _).trans (A_eq2 (E5 m) c 3)).trans (V6_of m (outs6 m) c _ (by decide)).symm
  | ⟨4, _⟩ => by
      show _ = Function.update (V5 m (outs6 m) c) (Proc.devRef .tc main_v40) (outs6 m 6 main_v40 c) (Proc.devRef .tc main_v40)
      rw [Function.update_self]
      exact (o6_arr m c 4).symm

theorem hrest2 (c : Dev nD) : ∀ b : Ref sig .tc, b ∉ Finset.univ.image (Pipeline.arrRef spec2) → V6 m (outs6 m) c b = V5 m (outs6 m) c b :=
  fun b hb => V6_of m (outs6 m) c b fun h => hb (by
    rw [List.mem_singleton] at h; subst h
    exact Finset.mem_image.mpr ⟨4, Finset.mem_univ _, rfl⟩)

theorem hF3 (c : Dev nD) : ∀ w : Fin (cfg3 a3).W, (dat3 (E7 m) a3 c).arrAt w (cfg3 a3).N = (fun b : Ref sig .tc => V8 m (outs8 m a3) c b) (Pipeline.arrRef spec3 w)
  | ⟨0, _⟩ => (((dat3 (E7 m) a3 c).arrAt_in 0 rfl _).trans (A_eq3 (E7 m) a3 c 0)).trans (V8_of m (outs8 m a3) c (Pipeline.arrRef spec3 (0 : Fin 4)) (by decide)).symm
  | ⟨1, _⟩ => (((dat3 (E7 m) a3 c).arrAt_in 1 rfl _).trans (A_eq3 (E7 m) a3 c 1)).trans (V8_of m (outs8 m a3) c (Pipeline.arrRef spec3 (1 : Fin 4)) (by decide)).symm
  | ⟨2, _⟩ => (((dat3 (E7 m) a3 c).arrAt_in 2 rfl _).trans (A_eq3 (E7 m) a3 c 2)).trans (V8_of m (outs8 m a3) c (Pipeline.arrRef spec3 (2 : Fin 4)) (by decide)).symm
  | ⟨3, _⟩ => by
      show _ = Function.update (V7 m (outs8 m a3) c) (Proc.devRef .tc main_v42) (outs8 m a3 8 main_v42 c) (Proc.devRef .tc main_v42)
      rw [Function.update_self]
      exact (o8_arr m a3 c 3).symm

theorem hrest3 (c : Dev nD) : ∀ b : Ref sig .tc, b ∉ Finset.univ.image (Pipeline.arrRef spec3) → V8 m (outs8 m a3) c b = V7 m (outs8 m a3) c b :=
  fun b hb => V8_of m (outs8 m a3) c b fun h => hb (by
    rw [List.mem_singleton] at h; subst h
    exact Finset.mem_image.mpr ⟨3, Finset.mem_univ _, rfl⟩)

theorem V10_at0 (c : Dev nD) : V10 m (outs m a3) c main_v62_0 = o10 m a3 main_v62_0 c := by
  simp only [V10, Function.update_of_ne (StableHlo.devRef_ne_of_ne (by decide : main_v62_0 ≠ main_v62_1) : (Proc.devRef .tc main_v62_0 : DevRef τ sig) ≠ Proc.devRef .tc main_v62_1), Function.update_self]
  rfl
theorem V10_at1 (c : Dev nD) : V10 m (outs m a3) c main_v62_1 = o10 m a3 main_v62_1 c := by
  simp only [V10, Function.update_self]
  rfl

theorem hF4_0 (c : Dev nD) : (dat4 (E9 m a3) c).arrAt 0 cfg4.N = (fun b : Ref sig .tc => V10 m (outs m a3) c b) (Pipeline.arrRef spec4 0) :=
  (((dat4 (E9 m a3) c).arrAt_in 0 rfl _).trans (A_eq4 (E9 m a3) c 0)).trans (V10_of m (outs m a3) c (Pipeline.arrRef spec4 (0 : Fin 7)) (by decide)).symm
theorem hF4_1 (c : Dev nD) : (dat4 (E9 m a3) c).arrAt 1 cfg4.N = (fun b : Ref sig .tc => V10 m (outs m a3) c b) (Pipeline.arrRef spec4 1) :=
  (((dat4 (E9 m a3) c).arrAt_in 1 rfl _).trans (A_eq4 (E9 m a3) c 1)).trans (V10_of m (outs m a3) c (Pipeline.arrRef spec4 (1 : Fin 7)) (by decide)).symm
theorem hF4_2 (c : Dev nD) : (dat4 (E9 m a3) c).arrAt 2 cfg4.N = (fun b : Ref sig .tc => V10 m (outs m a3) c b) (Pipeline.arrRef spec4 2) :=
  (((dat4 (E9 m a3) c).arrAt_in 2 rfl _).trans (A_eq4 (E9 m a3) c 2)).trans (V10_of m (outs m a3) c (Pipeline.arrRef spec4 (2 : Fin 7)) (by decide)).symm
theorem hF4_3 (c : Dev nD) : (dat4 (E9 m a3) c).arrAt 3 cfg4.N = (fun b : Ref sig .tc => V10 m (outs m a3) c b) (Pipeline.arrRef spec4 3) :=
  (((dat4 (E9 m a3) c).arrAt_in 3 rfl _).trans (A_eq4 (E9 m a3) c 3)).trans (V10_of m (outs m a3) c (Pipeline.arrRef spec4 (3 : Fin 7)) (by decide)).symm
theorem hF4_4 (c : Dev nD) : (dat4 (E9 m a3) c).arrAt 4 cfg4.N = (fun b : Ref sig .tc => V10 m (outs m a3) c b) (Pipeline.arrRef spec4 4) :=
  (((dat4 (E9 m a3) c).arrAt_in 4 rfl _).trans (A_eq4 (E9 m a3) c 4)).trans (V10_of m (outs m a3) c (Pipeline.arrRef spec4 (4 : Fin 7)) (by decide)).symm
theorem hF4_5 (c : Dev nD) : (dat4 (E9 m a3) c).arrAt 5 cfg4.N = (fun b : Ref sig .tc => V10 m (outs m a3) c b) (Pipeline.arrRef spec4 5) :=
  (o10_arr m a3 c 5).symm.trans (V10_at0 m a3 c).symm
theorem hF4_6 (c : Dev nD) : (dat4 (E9 m a3) c).arrAt 6 cfg4.N = (fun b : Ref sig .tc => V10 m (outs m a3) c b) (Pipeline.arrRef spec4 6) :=
  (o10_arr m a3 c 6).symm.trans (V10_at1 m a3 c).symm

set_option maxHeartbeats 1000000 in
theorem hF4 (c : Dev nD) : ∀ w : Fin cfg4.W, (dat4 (E9 m a3) c).arrAt w cfg4.N = (fun b : Ref sig .tc => V10 m (outs m a3) c b) (Pipeline.arrRef spec4 w) :=
  fun | 0 => hF4_0 m a3 c | 1 => hF4_1 m a3 c | 2 => hF4_2 m a3 c | 3 => hF4_3 m a3 c | 4 => hF4_4 m a3 c | 5 => hF4_5 m a3 c | 6 => hF4_6 m a3 c
      | ⟨_ + 7, h⟩ => absurd h (Nat.not_lt.2 (Nat.le_add_left _ _))

theorem hrest4 (c : Dev nD) : ∀ b : Ref sig .tc, b ∉ Finset.univ.image (Pipeline.arrRef spec4) → V10 m (outs m a3) c b = V9 m (outs m a3) c b :=
  fun b hb => V10_of m (outs m a3) c b fun h => hb (by
    rcases List.mem_cons.mp h with h | h
    · subst h; exact Finset.mem_image.mpr ⟨5, Finset.mem_univ _, rfl⟩
    · rw [List.mem_singleton] at h; subst h; exact Finset.mem_image.mpr ⟨6, Finset.mem_univ _, rfl⟩)

/-! ## The regions as segments -/

set_option backward.isDefEq.respectTransparency.types false in
/-- Region 0 as a segment: entered from every unscoped buffer at the contents before it, left at the contents after
    it; its arrays split out of the unscoped buffers and put back at what the write-backs leave; the generator
    register into the class invariant and out; nothing owed; no semaphore of the kernel's own. -/
def reg0 : Pipeline.RegionSeg (pcfgs (F := F)) (adm a3) (pdats m a3) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs2 m) c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) (adm a3) (pdats m a3) (launch0 (F := F)).win (launch0 (F := F)).arr_whole c
      ((pdats m a3 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a3 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a3) (Ix := Unit) (Name := ℕ) (U := Pipeline.UD sig nD τ) (Lvl := ℕ)
      (launch0 (F := F)).win (launch0 (F := F)).arr_whole c (pdats m a3) ((pdats m a3 0 c).share_full fun _ => rfl)
      (E1 m c) (fun b : Ref sig .tc => V2 m (outs2 m) c b) ((pdats m a3 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left at the contents after
    it; its arrays split out of the unscoped buffers and put back at what the write-backs leave; the generator
    register into the class invariant and out; nothing owed; no semaphore of the kernel's own. -/
def reg1 : Pipeline.RegionSeg (pcfgs (F := F)) (adm a3) (pdats m a3) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (V3 m (outs2 m) c) ∗ R c)
  post c := iprop(StableHlo.held (c : Thread nD τ) (Pipeline.ucRefs τ sig) (V4 m (outs4 m) c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m c)
  hentry c := by
    rw [Pipeline.ownSems0_none]
    have hsplit := Pipeline.arrays_of_unscopedBufs (p := 1) (pcfgs (F := F)) (adm a3) (pdats m a3) (launch1 (F := F)).win (launch1 (F := F)).arr_whole c
      ((pdats m a3 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a3 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a3) (Ix := Unit) (Name := ℕ) (U := Pipeline.UD sig nD τ) (Lvl := ℕ)
      (launch1 (F := F)).win (launch1 (F := F)).arr_whole c (pdats m a3) ((pdats m a3 1 c).share_full fun _ => rfl)
      (E3 m c) (fun b : Ref sig .tc => V4 m (outs4 m) c b) ((pdats m a3 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at the contents before it, left at the contents after
    it; its arrays split out of the unscoped buffers and put back at what the write-backs leave; the generator
    register into the class invariant and out; nothing owed; no semaphore of the kernel's own. -/
def reg2 : Pipeline.RegionSeg (pcfgs (F := F)) (adm a3) (pdats m a3) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (V5 m (outs4 m) c) ∗ R c)
  post c := iprop(StableHlo.held (c : Thread nD τ) (Pipeline.ucRefs τ sig) (V6 m (outs6 m) c) ∗ R c)
  X c := iprop(∃ r, prngReg c r)
  Y c := iprop(∃ r, prngReg c r)
  Z c := Pipeline.unscopedRest (Ix := Unit) (Name := ℕ) (U := Pipeline.UD sig nD τ) (Lvl := ℕ) spec2 c (E5 m c)
  hentry c := by
    rw [Pipeline.ownSems0_none]
    have hsplit := Pipeline.arrays_of_unscopedBufs (p := 2) (pcfgs (F := F)) (adm a3) (pdats m a3) (launch2 (F := F)).win (launch2 (F := F)).arr_whole c
      ((pdats m a3 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m a3 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm a3) (Ix := Unit) (Name := ℕ) (U := Pipeline.UD sig nD τ) (Lvl := ℕ)
      (launch2 (F := F)).win (launch2 (F := F)).arr_whole c (pdats m a3) ((pdats m a3 2 c).share_full fun _ => rfl)
      (E5 m c) (fun b : Ref sig .tc => V6 m (outs6 m) c b) ((pdats m a3 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment. Beside its arrays the region takes its prefetched table, an unscoped buffer that is no
    window's array: it is split out of the rest at entry, held whole at the admissible contents (which the buffer
    holds: `htbl`), rides in the pipeline's invariant, and is put back with the rest at the exit. -/
def reg3 (htbl : ∀ c : Dev nD, (fun k => E7 m c (pre3.ref k)) = a3.1) : Pipeline.RegionSeg (pcfgs (F := F)) (adm a3) (pdats m a3) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (E7 m) a3 c).loose
  hwaits := Pipeline.hwaits_of_owed_zero _ _ _ _ L lv 3 fun _ _ => rfl
  pre c := iprop(StableHlo.held (c : Thread nD τ) (Pipeline.ucRefs τ sig) (V7 m (outs6 m) c) ∗ R c)
  post c := iprop(StableHlo.held (c : Thread nD τ) (Pipeline.ucRefs τ sig) (V8 m (outs8 m a3) c) ∗ R c)
  X c := iprop(∃ r, prngReg c r)
  Y c := iprop((∃ r, prngReg c r) ∗ Pipeline.prefHeld (Ix := Unit) (Name := ℕ) (U := Pipeline.UD sig nD τ) (Lvl := ℕ) pre3 c (fun _ => fullShare) a3.1)
  Z c := Pipeline.unscopedRestP (Ix := Unit) (Name := ℕ) (U := Pipeline.UD sig nD τ) (Lvl := ℕ) pre3 spec3 c (E7 m c)
  hentry c := by
    rw [Pipeline.ownSems0_none]
    have hsplit := Pipeline.arrays_of_unscopedBufs (p := 3) (pcfgs (F := F)) (adm a3) (pdats m a3) (launch3 (F := F)).win (launch3 (F := F)).arr_whole c
      ((pdats m a3 3 c).share_full fun _ => rfl) (E7 m c) fun _ => rfl
    rw [Pipeline.unscopedBufs_held, show Pipeline.unscopedRest (Ix := Unit) (Name := ℕ) (U := Pipeline.UD sig nD τ) (Lvl := ℕ) (Pipeline.pin (pcfgs (F := F)) (adm a3) 3).spec c (E7 m c) = _ from Pipeline.unscopedRest_split (preFacts3) c (E7 m c), htbl c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 3 c).Φ 0 = iprop(Pipeline.ΦA spec3 c ∗ ΦT3 a3 c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m a3 3 c).Φ (Fin.last _) = iprop(Pipeline.ΦA spec3 c ∗ ΦT3 a3 c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 3) (pcfgs (F := F)) (adm a3) (Ix := Unit) (Name := ℕ) (U := Pipeline.UD sig nD τ) (Lvl := ℕ)
      (launch3 (F := F)).win (launch3 (F := F)).arr_whole c (pdats m a3) ((pdats m a3 3 c).share_full fun _ => rfl)
      (E7 m c) (fun b : Ref sig .tc => V8 m (outs8 m a3) c b) ((pdats m a3 3 c).arrAt · (cfg3 a3).N) (hF3 m a3 c) (hrest3 m a3 c)
    rw [Pipeline.unscopedBufs_held, show Pipeline.unscopedRest (Ix := Unit) (Name := ℕ) (U := Pipeline.UD sig nD τ) (Lvl := ℕ) (Pipeline.pin (pcfgs (F := F)) (adm a3) 3).spec c (E7 m c) = _ from Pipeline.unscopedRest_split (preFacts3) c (E7 m c), htbl c] at hjoin
    iintro ⟨Ha, HO, ⟨HY, Ht⟩, Hrest⟩
    imodintro
    isplitl [Ha Ht Hrest]
    · iapply hjoin
      isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at the contents before it, left at the contents after
    it; its arrays split out of the unscoped buffers and put back at what the write-backs leave; the generator
    register into the class invariant and out; nothing owed; no semaphore of the kernel's own. -/
def reg4 : Pipeline.RegionSeg (pcfgs (F := F)) (adm a3) (pdats m a3) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (E9 m a3) c).loose
  hwaits := Pipeline.hwaits_of_owed_zero _ _ _ _ L lv 4 fun _ _ => rfl
  pre c := iprop(StableHlo.held (c : Thread nD τ) (Pipeline.ucRefs τ sig) (V9 m (outs8 m a3) c) ∗ R c)
  post c := iprop(StableHlo.held (c : Thread nD τ) (Pipeline.ucRefs τ sig) (V10 m (outs m a3) c) ∗ R c)
  X c := iprop(∃ r, prngReg c r)
  Y c := iprop(∃ r, prngReg c r)
  Z c := Pipeline.unscopedRest (Ix := Unit) (Name := ℕ) (U := Pipeline.UD sig nD τ) (Lvl := ℕ) spec4 c (E9 m a3 c)
  hentry c := by
    rw [Pipeline.ownSems0_none]
    have hsplit := Pipeline.arrays_of_unscopedBufs (p := 4) (pcfgs (F := F)) (adm a3) (pdats m a3) (launch4 (F := F)).win (launch4 (F := F)).arr_whole c
      ((pdats m a3 4 c).share_full fun _ => rfl) (E9 m a3 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a3 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m a3 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm a3) (Ix := Unit) (Name := ℕ) (U := Pipeline.UD sig nD τ) (Lvl := ℕ)
      (launch4 (F := F)).win (launch4 (F := F)).arr_whole c (pdats m a3) ((pdats m a3 4 c).share_full fun _ => rfl)
      (E9 m a3 c) (fun b : Ref sig .tc => V10 m (outs m a3) c b) ((pdats m a3 4 c).arrAt · cfg4.N) (hF4 m a3 c) (hrest4 m a3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- Every weakly fair execution terminates without a fault with every unscoped buffer at the last contents: the
    segments' run at the algebra of the staging counters, the rest state beside the buffers the generator register and
    nothing owed, made at the launch and dropped at the end. -/
theorem run_all_of (htbl : ∀ c : Dev nD, (fun k => E7 m c (pre3.ref k)) = a3.1) : θ_run defs (onTc (τ := τ) (main (F := F))) ⟨m, fun _ => 0, ρ⟩ (fun r => ∀ c : Dev nD,
      ∀ b ∈ Pipeline.ucRefs τ sig, r.2.mem (((c : Thread nD τ)).1, b) = V10 m (outs m a3) c b) :=
  run_cond m (Ix := Unit) (U := Pipeline.UD sig nD τ) (Lvl := ℕ) embL () 𝒱₀ L lv (fun _ _ => rfl) ρ (outs m a3) (adm a3) (pdats m a3)
    (O₀ := 0) (G := fun _ => iprop(emp))
    (u₀ := (initOf (Pipeline.cells (Pipeline.pin (pcfgs (F := F)) (adm a3)) (cellOf_inj (adm a3))) (Pipeline.launchToks (Pipeline.pin (pcfgs (F := F)) (adm a3)) (cellOf_inj (adm a3))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE5 := fun c => by iintro ⟨-, HO⟩; iexact HO)
    (reg0 m a3) (fun _ => .rfl) (fun _ => .rfl)
    (reg1 m a3) (fun _ => .rfl) (fun _ => .rfl)
    (reg2 m a3) (fun _ => .rfl) (fun _ => .rfl)
    (reg3 m a3 htbl) (fun _ => .rfl) (fun _ => .rfl)
    (reg4 m a3) (fun _ => .rfl) (fun _ => .rfl)

/-- The frame: the argument arrays end as launched (no host stretch writes one, no region may change one). -/
theorem frame_of (a3 : (pcfg3 (F := F)).Adm) (htbl : ∀ c : Dev nD, (fun k => E7 m c (pre3.ref k)) = a3.1) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨(h c _ (mem_uc main_arg0 (by decide))).trans (V10_main_arg0 m (outs m a3) c),
      (h c _ (mem_uc main_arg1 (by decide))).trans (V10_main_arg1 m (outs m a3) c),
      (h c _ (mem_uc main_arg2 (by decide))).trans (V10_main_arg2 m (outs m a3) c),
      (h c _ (mem_uc main_arg3 (by decide))).trans (V10_main_arg3 m (outs m a3) c),
      (h c _ (mem_uc main_arg4 (by decide))).trans (V10_main_arg4 m (outs m a3) c),
      (h c _ (mem_uc main_arg5 (by decide))).trans (V10_main_arg5 m (outs m a3) c),
      (h c _ (mem_uc main_arg6 (by decide))).trans (V10_main_arg6 m (outs m a3) c),
      (h c _ (mem_uc main_arg7 (by decide))).trans (V10_main_arg7 m (outs m a3) c),
      (h c _ (mem_uc main_arg8 (by decide))).trans (V10_main_arg8 m (outs m a3) c),
      (h c _ (mem_uc main_arg9 (by decide))).trans (V10_main_arg9 m (outs m a3) c),
      (h c _ (mem_uc main_arg10 (by decide))).trans (V10_main_arg10 m (outs m a3) c),
      (h c _ (mem_uc main_arg11 (by decide))).trans (V10_main_arg11 m (outs m a3) c),
      (h c _ (mem_uc main_arg12 (by decide))).trans (V10_main_arg12 m (outs m a3) c),
      (h c _ (mem_uc main_arg13 (by decide))).trans (V10_main_arg13 m (outs m a3) c),
      (h c _ (mem_uc main_arg14 (by decide))).trans (V10_main_arg14 m (outs m a3) c),
      (h c _ (mem_uc main_arg15 (by decide))).trans (V10_main_arg15 m (outs m a3) c),
      (h c _ (mem_uc main_arg16 (by decide))).trans (V10_main_arg16 m (outs m a3) c),
      (h c _ (mem_uc main_arg17 (by decide))).trans (V10_main_arg17 m (outs m a3) c)⟩) (run_all_of m a3 ρ htbl)

/-- The run with the two result arrays at the last contents, beside the frame. -/
theorem run_results_of (htbl : ∀ c : Dev nD, (fun k => E7 m c (pre3.ref k)) = a3.1) : θ_run defs (onTc (τ := τ) (main (F := F))) ⟨m, fun _ => 0, ρ⟩ (fun r => ∀ c : Dev nD,
      r.2.mem ((c.tc : Thread nD τ).loc main_v62_0) = V10 m (outs m a3) c main_v62_0
      ∧ r.2.mem ((c.tc : Thread nD τ).loc main_v62_1) = V10 m (outs m a3) c main_v62_1
      ∧ r.2.mem ((c.tc : Thread nD τ).loc main_v62_1) = V10 m (outs m a3) c main_v62_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v62_0 (by decide)), h c _ (mem_uc main_v62_1 (by decide)), h c _ (mem_uc main_v62_1 (by decide)),
      (h c _ (mem_uc main_arg0 (by decide))).trans (V10_main_arg0 m (outs m a3) c),
      (h c _ (mem_uc main_arg1 (by decide))).trans (V10_main_arg1 m (outs m a3) c),
      (h c _ (mem_uc main_arg2 (by decide))).trans (V10_main_arg2 m (outs m a3) c),
      (h c _ (mem_uc main_arg3 (by decide))).trans (V10_main_arg3 m (outs m a3) c),
      (h c _ (mem_uc main_arg4 (by decide))).trans (V10_main_arg4 m (outs m a3) c),
      (h c _ (mem_uc main_arg5 (by decide))).trans (V10_main_arg5 m (outs m a3) c),
      (h c _ (mem_uc main_arg6 (by decide))).trans (V10_main_arg6 m (outs m a3) c),
      (h c _ (mem_uc main_arg7 (by decide))).trans (V10_main_arg7 m (outs m a3) c),
      (h c _ (mem_uc main_arg8 (by decide))).trans (V10_main_arg8 m (outs m a3) c),
      (h c _ (mem_uc main_arg9 (by decide))).trans (V10_main_arg9 m (outs m a3) c),
      (h c _ (mem_uc main_arg10 (by decide))).trans (V10_main_arg10 m (outs m a3) c),
      (h c _ (mem_uc main_arg11 (by decide))).trans (V10_main_arg11 m (outs m a3) c),
      (h c _ (mem_uc main_arg12 (by decide))).trans (V10_main_arg12 m (outs m a3) c),
      (h c _ (mem_uc main_arg13 (by decide))).trans (V10_main_arg13 m (outs m a3) c),
      (h c _ (mem_uc main_arg14 (by decide))).trans (V10_main_arg14 m (outs m a3) c),
      (h c _ (mem_uc main_arg15 (by decide))).trans (V10_main_arg15 m (outs m a3) c),
      (h c _ (mem_uc main_arg16 (by decide))).trans (V10_main_arg16 m (outs m a3) c),
      (h c _ (mem_uc main_arg17 (by decide))).trans (V10_main_arg17 m (outs m a3) c)⟩) (run_all_of m a3 ρ htbl)

/-! ## At the table the first host stretch writes -/

/-- The table's buffer holds the admissible contents when region 3 is entered: the first host stretch wrote it and
    nothing since may change it. -/
theorem htbl3 (c : Dev nD) : (fun k => E7 m c (pre3.ref k)) = (adm3 (F := F)).1 :=
  funext fun k => V7_pre3 m (outs6 m) c k

/-- THE FRAME of the program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ adm3 (htbl3 m)

/-- The last contents of the buffers. -/
abbrev Vlast (c : Dev nD) : Valuation τ sig (Elt F) := V10 m (outs m adm3) c

/-- THE RUN with the two results named. -/
theorem run_results : θ_run defs (onTc (τ := τ) (main (F := F))) ⟨m, fun _ => 0, ρ⟩ (fun r => ∀ c : Dev nD,
      r.2.mem ((c.tc : Thread nD τ).loc main_v62_0) = Vlast m c main_v62_0
      ∧ r.2.mem ((c.tc : Thread nD τ).loc main_v62_1) = Vlast m c main_v62_1
      ∧ r.2.mem ((c.tc : Thread nD τ).loc main_v62_1) = Vlast m c main_v62_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_results_of m adm3 ρ (htbl3 m)

end Cert.KernelIdeal.Fr

end
-- ==== Proof.Ref.Stages.lean ====
/-
  The reference's stages as pure functions of buffer contents. Each definition composes, in the order
  and with the constants the reference's @main uses, the operations that produce one
  intermediate value: the attributed-type linear layer, its placement into the zero node table, the
  one-hot embeddings, the shared linear layer, the mean aggregation over in-edges, the cluster mask,
  the masked sum, the per-type linear layers, the projection, the exponential linear unit and the
  classifier. The two results are their composition over the eighteen argument arrays.
-/
import proofs.«107237_j10496900072251_2_alg».proof.ReferenceIdeal
import Idealize.ShloMosaic.Lib.StableHlo

set_option synthInstance.maxSize 4096

noncomputable section

namespace Cert.ReferenceIdeal.Stages

open Idealize.ShloMosaic Idealize.SL.Sem
open Cert.ReferenceIdeal Cert.ReferenceIdeal.Facts₀ Cert.ReferenceIdeal.Facts

variable {F : FTy → Type} [FloatOps F] [Facts]

/-- The contents of a buffer of shape S and element type e over the float values F. -/
abbrev Arr (F : FTy → Type) [FloatOps F] (S : Shape) (e : EltTy) : Type := (⟨S, e⟩ : BufTy).Contents (Elt F)

/-- features0 · W_preᵀ + b_pre : [20000, 128]. -/
def hAttr (a0 : Arr F S20000x512 .f32) (a1 : Arr F S128x512 .f32) (a2 : Arr F S128 .f32) : Arr F S20000x128 .f32 :=
  addf
    (Host.dotGeneral dot_S20000x512_S512x128_S20000x128_1_0_0_1_n_n none a0
      (transpose S512x128 [1, 0] a1 transposes_S128x512_S512x128_1_0))
    (broadcastInDim S20000x128 ![0, 1] bcast_S1x128_S20000x128_0_1
      (broadcastInDim S1x128 ![1] bcast_S128_S1x128_1 a2))

/-- The zero table [50000, 128] with hAttr written at rows [0, 20000). -/
def h0 (a0 : Arr F S20000x512 .f32) (a1 : Arr F S128x512 .f32) (a2 : Arr F S128 .f32) : Arr F S50000x128 .f32 :=
  Host.scatter scatter_S50000x128_S1_S20000x128_01_n_0_0 (fun _ b => b)
    (broadcastInDim S50000x128 ![] bcast_S_S50000x128 (constant S_ .f32 0x00000000#32 : Arr F S_ .f32))
    (broadcastInDim S1 ![] bcast_S_S1 (constantI S_ 32 0#32 : Arr F S_ .i32))
    (hAttr a0 a1 a2)

/-- Zero rows for type 0, then W_emb1ᵀ + b_emb1, then W_emb2ᵀ + b_emb2 : [50000, 128]. -/
def oneHot (a3 : Arr F S128x15000 .f32) (a4 : Arr F S128 .f32) (a5 : Arr F S128x15000 .f32) (a6 : Arr F S128 .f32) :
    Arr F S50000x128 .f32 :=
  concatenate S50000x128 0
    [⟨S20000x128, (broadcastInDim S20000x128 ![] bcast_S_S20000x128 (constant S_ .f32 0x00000000#32 : Arr F S_ .f32) : Arr F S20000x128 .f32)⟩,
     ⟨S15000x128, (addf (transpose S15000x128 [1, 0] a3 transposes_S128x15000_S15000x128_1_0)
        (broadcastInDim S15000x128 ![0, 1] bcast_S1x128_S15000x128_0_1 (broadcastInDim S1x128 ![1] bcast_S128_S1x128_1 a4)) : Arr F S15000x128 .f32)⟩,
     ⟨S15000x128, (addf (transpose S15000x128 [1, 0] a5 transposes_S128x15000_S15000x128_1_0)
        (broadcastInDim S15000x128 ![0, 1] bcast_S1x128_S15000x128_0_1 (broadcastInDim S1x128 ![1] bcast_S128_S1x128_1 a6)) : Arr F S15000x128 .f32)⟩]
    concatenates_S20000x128_S15000x128_S15000x128_S50000x128_d0

/-- x · Wᵀ + b for a [128, 128] weight and a [128] bias on a [50000, 128] table (the shared layer and the projection). -/
def lin1 (x : Arr F S50000x128 .f32) (w : Arr F S128x128 .f32) (b : Arr F S128 .f32) : Arr F S50000x128 .f32 :=
  addf
    (Host.dotGeneral dot_S50000x128_S128x128_S50000x128_1_0_0_1_n_n none x
      (transpose S128x128 [1, 0] w transposes_S128x128_S128x128_1_0))
    (broadcastInDim S50000x128 ![0, 1] bcast_S1x128_S50000x128_0_1
      (broadcastInDim S1x128 ![1] bcast_S128_S1x128_1 b))

/-- The edge sources with a negative entry wrapped by +50000, as a column [800000, 1]. -/
def srcIdx (a15 : Arr F S800000 .i32) : Arr F S800000x1 .i32 :=
  broadcastInDim S800000x1 ![0] bcast_S800000_S800000x1_0
    (select
      (cmpi .slt a15 (broadcastInDim S800000 ![] bcast_S_S800000 (constantI S_ 32 0#32 : Arr F S_ .i32)))
      (addi a15 (broadcastInDim S800000 ![] bcast_S_S800000 (constantI S_ 32 50000#32 : Arr F S_ .i32)))
      a15)

/-- The number of in-edges of each node, at least one: max(segment_sum(1, edge_dst), 1) : [50000]. -/
def degree (a16 : Arr F S800000 .i32) : Arr F S50000 .f32 :=
  maximumf
    (Host.scatterAdd scatter_S50000_S800000x1_S800000_n_0_0_1
      (broadcastInDim S50000 ![] bcast_S_S50000 (constant S_ .f32 0x00000000#32 : Arr F S_ .f32))
      (broadcastInDim S800000x1 ![0] bcast_S800000_S800000x1_0 a16)
      (broadcastInDim S800000 ![] bcast_S_S800000 (constant S_ .f32 0x3F800000#32 : Arr F S_ .f32)))
    (broadcastInDim S50000 ![] bcast_S_S50000 (constant S_ .f32 0x3F800000#32 : Arr F S_ .f32))

/-- The mean over in-edges: rows of x gathered at the sources, summed into their destinations, divided by the degree. -/
def meanAgg (x : Arr F S50000x128 .f32) (a15 : Arr F S800000 .i32) (a16 : Arr F S800000 .i32) : Arr F S50000x128 .f32 :=
  Host.divf
    (Host.scatterAdd scatter_S50000x128_S800000x1_S800000x128_1_0_0_1
      (broadcastInDim S50000x128 ![] bcast_S_S50000x128 (constant S_ .f32 0x00000000#32 : Arr F S_ .f32))
      (broadcastInDim S800000x1 ![0] bcast_S800000_S800000x1_0 a16)
      (Host.gather gather_S50000x128_S800000x1_S800000x128_1_0_n_n_0_1_1128 x (srcIdx a15)))
    (broadcastInDim S50000x128 ![0, 1] bcast_S50000x1_S50000x128_0_1
      (broadcastInDim S50000x1 ![0] bcast_S50000_S50000x1_0 (degree a16)))

/-- The four-entry cluster table [true, false, false, true]. -/
def clusterTable : Arr F S4 .i1 := fun i => lit0 (S4.rowMajor i)

/-- The cluster of each node with a negative entry wrapped by +4, as a column [50000, 1]. -/
def assignIdx (a17 : Arr F S50000 .i32) : Arr F S50000x1 .i32 :=
  broadcastInDim S50000x1 ![0] bcast_S50000_S50000x1_0
    (select
      (cmpi .slt a17 (broadcastInDim S50000 ![] bcast_S_S50000 (constantI S_ 32 0#32 : Arr F S_ .i32)))
      (addi a17 (broadcastInDim S50000 ![] bcast_S_S50000 (constantI S_ 32 4#32 : Arr F S_ .i32)))
      a17)

/-- The mask [50000, 128]: row n is the table's entry at node n's cluster. -/
def selMask (a17 : Arr F S50000 .i32) : Arr F S50000x128 .i1 :=
  broadcastInDim S50000x128 ![0, 1] bcast_S50000x1_S50000x128_0_1
    (broadcastInDim S50000x1 ![0] bcast_S50000_S50000x1_0
      (Host.gather gather_S4_S50000x1_S50000_n_0_n_n_0_1_1 (clusterTable (F := F)) (assignIdx a17)))

/-- h0 + (one-hot rows where the mask holds, aggregated rows elsewhere). -/
def hAttributed (h0v oh gcn : Arr F S50000x128 .f32) (a17 : Arr F S50000 .i32) : Arr F S50000x128 .f32 :=
  addf h0v (select (selMask (F := F) a17) oh gcn)

/-- The per-type layers: rows [0, 20000) through W_fc[0], [20000, 35000) through W_fc[1], [35000, 50000) through W_fc[2]. -/
def typeLin (y : Arr F S50000x128 .f32) (a9 : Arr F S3x128x128 .f32) (a10 : Arr F S3x128 .f32) : Arr F S50000x128 .f32 :=
  concatenate S50000x128 0
    [⟨S20000x128, (addf
        (Host.dotGeneral dot_S20000x128_S128x128_S20000x128_1_0_0_1_n_n none
          (extractStridedSlice S20000x128 ![0, 0] y slices_S50000x128_S20000x128_0_0)
          (transpose S128x128 [1, 0]
            (shapeCast S128x128 (extractStridedSlice S1x128x128 ![0, 0, 0] a9 slices_S3x128x128_S1x128x128_0_0_0) shapeCasts_S1x128x128_S128x128 : Arr F S128x128 .f32)
            transposes_S128x128_S128x128_1_0))
        (broadcastInDim S20000x128 ![0, 1] bcast_S1x128_S20000x128_0_1
          (broadcastInDim S1x128 ![1] bcast_S128_S1x128_1
            (shapeCast S128 (extractStridedSlice S1x128 ![0, 0] a10 slices_S3x128_S1x128_0_0) shapeCasts_S1x128_S128 : Arr F S128 .f32))) : Arr F S20000x128 .f32)⟩,
     ⟨S15000x128, (addf
        (Host.dotGeneral dot_S15000x128_S128x128_S15000x128_1_0_0_1_n_n none
          (extractStridedSlice S15000x128 ![20000, 0] y slices_S50000x128_S15000x128_20000_0)
          (transpose S128x128 [1, 0]
            (shapeCast S128x128 (extractStridedSlice S1x128x128 ![1, 0, 0] a9 slices_S3x128x128_S1x128x128_1_0_0) shapeCasts_S1x128x128_S128x128 : Arr F S128x128 .f32)
            transposes_S128x128_S128x128_1_0))
        (broadcastInDim S15000x128 ![0, 1] bcast_S1x128_S15000x128_0_1
          (broadcastInDim S1x128 ![1] bcast_S128_S1x128_1
            (shapeCast S128 (extractStridedSlice S1x128 ![1, 0] a10 slices_S3x128_S1x128_1_0) shapeCasts_S1x128_S128 : Arr F S128 .f32))) : Arr F S15000x128 .f32)⟩,
     ⟨S15000x128, (addf
        (Host.dotGeneral dot_S15000x128_S128x128_S15000x128_1_0_0_1_n_n none
          (extractStridedSlice S15000x128 ![35000, 0] y slices_S50000x128_S15000x128_35000_0)
          (transpose S128x128 [1, 0]
            (shapeCast S128x128 (extractStridedSlice S1x128x128 ![2, 0, 0] a9 slices_S3x128x128_S1x128x128_2_0_0) shapeCasts_S1x128x128_S128x128 : Arr F S128x128 .f32)
            transposes_S128x128_S128x128_1_0))
        (broadcastInDim S15000x128 ![0, 1] bcast_S1x128_S15000x128_0_1
          (broadcastInDim S1x128 ![1] bcast_S128_S1x128_1
            (shapeCast S128 (extractStridedSlice S1x128 ![2, 0] a10 slices_S3x128_S1x128_2_0) shapeCasts_S1x128_S128 : Arr F S128 .f32))) : Arr F S15000x128 .f32)⟩]
    concatenates_S20000x128_S15000x128_S15000x128_S50000x128_d0

/-- z · Wgᵀ + bg. -/
def proj (z : Arr F S50000x128 .f32) (a11 : Arr F S128x128 .f32) (a12 : Arr F S128 .f32) : Arr F S50000x128 .f32 :=
  lin1 z a11 a12

/-- The exponential linear unit: p where p > 0, and 1 · expm1(p where p ≤ 0, else 0) elsewhere. -/
def elu (p : Arr F S50000x128 .f32) : Arr F S50000x128 .f32 :=
  select
    (cmpf .ogt p (broadcastInDim S50000x128 ![] bcast_S_S50000x128 (constant S_ .f32 0x00000000#32 : Arr F S_ .f32)))
    p
    (mulf
      (broadcastInDim S50000x128 ![] bcast_S_S50000x128 (constant S_ .f32 0x3F800000#32 : Arr F S_ .f32))
      (Host.expm1
        (select
          (cmpf .ogt p (broadcastInDim S50000x128 ![] bcast_S_S50000x128 (constant S_ .f32 0x00000000#32 : Arr F S_ .f32)))
          (broadcastInDim S50000x128 ![] bcast_S_S50000x128 (id (constant S_ .f32 0x00000000#32 : Arr F S_ .f32)))
          p)))

/-- e · Wcᵀ + bc : [50000, 8]. -/
def logits (e : Arr F S50000x128 .f32) (a13 : Arr F S8x128 .f32) (a14 : Arr F S8 .f32) : Arr F S50000x8 .f32 :=
  addf
    (Host.dotGeneral dot_S50000x128_S128x8_S50000x8_1_0_0_1_n_n none e
      (transpose S128x8 [1, 0] a13 transposes_S8x128_S128x8_1_0))
    (broadcastInDim S50000x8 ![0, 1] bcast_S1x8_S50000x8_0_1
      (broadcastInDim S1x8 ![1] bcast_S8_S1x8_1 a14))

/-- The node embedding: the first result, as a function of the eighteen argument arrays. -/
def emb_all (a0 : Arr F S20000x512 .f32) (a1 : Arr F S128x512 .f32) (a2 : Arr F S128 .f32)
    (a3 : Arr F S128x15000 .f32) (a4 : Arr F S128 .f32) (a5 : Arr F S128x15000 .f32) (a6 : Arr F S128 .f32)
    (a7 : Arr F S128x128 .f32) (a8 : Arr F S128 .f32) (a9 : Arr F S3x128x128 .f32) (a10 : Arr F S3x128 .f32)
    (a11 : Arr F S128x128 .f32) (a12 : Arr F S128 .f32) (a13 : Arr F S8x128 .f32) (a14 : Arr F S8 .f32)
    (a15 : Arr F S800000 .i32) (a16 : Arr F S800000 .i32) (a17 : Arr F S50000 .i32) : Arr F S50000x128 .f32 :=
  elu (proj (meanAgg (typeLin
    (hAttributed (h0 a0 a1 a2) (oneHot a3 a4 a5 a6) (meanAgg (lin1 (h0 a0 a1 a2) a7 a8) a15 a16) a17)
    a9 a10) a15 a16) a11 a12)

/-- The class scores: the second (and third) result. -/
def logits_all (a0 : Arr F S20000x512 .f32) (a1 : Arr F S128x512 .f32) (a2 : Arr F S128 .f32)
    (a3 : Arr F S128x15000 .f32) (a4 : Arr F S128 .f32) (a5 : Arr F S128x15000 .f32) (a6 : Arr F S128 .f32)
    (a7 : Arr F S128x128 .f32) (a8 : Arr F S128 .f32) (a9 : Arr F S3x128x128 .f32) (a10 : Arr F S3x128 .f32)
    (a11 : Arr F S128x128 .f32) (a12 : Arr F S128 .f32) (a13 : Arr F S8x128 .f32) (a14 : Arr F S8 .f32)
    (a15 : Arr F S800000 .i32) (a16 : Arr F S800000 .i32) (a17 : Arr F S50000 .i32) : Arr F S50000x8 .f32 :=
  logits (emb_all a0 a1 a2 a3 a4 a5 a6 a7 a8 a9 a10 a11 a12 a13 a14 a15 a16 a17) a13 a14

end Cert.ReferenceIdeal.Stages

end
-- ==== Proof.Dom.Mask.lean ====
/-
  The row mask, kernel side against reference side.

  The reference picks rows with a four-entry table [1, 0, 0, 1] gathered at node_assign (a negative entry first wrapped by
  adding 4; a gather clamps its start index into the table).  The kernel computes, per row, the 1-bit word
  (node_assign = 0) or (node_assign = 3), converts it to a float (0 or 1), and later asks whether that float is above 0.
  For a node_assign entry in {0, 1, 2, 3} the two agree: the table is 1 exactly at 0 and 3, nothing is wrapped or clamped,
  and the float is 1 > 0 exactly when the word is 1.
-/
import proofs.«107237_j10496900072251_2_alg».proof.ReferenceIdeal
import Idealize.ShloMosaic.Lib.ValueIdx
import Idealize.ShloMosaic.Lib.IdealHost
import Idealize.ShloMosaic.Lib.Pipeline.Value

noncomputable section

namespace Cert.Dom

open Idealize.ShloMosaic Idealize.ShloMosaic.ValueIdx
open Cert.ReferenceIdeal (S_ S4 S50000 S50000x1 S50000x128 lit0)

/-! ## One entry -/

/-- The kernel's 1-bit word for an entry: it is 0 or it is 3. -/
def selBit (x : BitVec 32) : BitVec 1 := IntOp.ori (IntOp.cmpi .eq x 0#32) (IntOp.cmpi .eq x 3#32)

/-- The reference's table index for an entry: a negative entry is wrapped by adding 4. -/
def wrapIdx (x : BitVec 32) : BitVec 32 := Scalar.select (IntOp.cmpi .slt x 0#32) (IntOp.addi x 4#32) x

/-- The reference's table read at an entry: the wrapped entry, read signed and clamped into the table. -/
def tblAt (x : BitVec 32) : BitVec 1 := lit0 ⟨min (wrapIdx x).toInt.toNat (4 - 1), by omega⟩

theorem selBit_cases : selBit 0#32 = 1#1 ∧ selBit 1#32 = 0#1 ∧ selBit 2#32 = 0#1 ∧ selBit 3#32 = 1#1 := by decide

theorem tblAt_cases : tblAt 0#32 = 1#1 ∧ tblAt 1#32 = 0#1 ∧ tblAt 2#32 = 0#1 ∧ tblAt 3#32 = 1#1 := by decide

/-- The float of a 1-bit word is above zero exactly when the word is 1. -/
theorem ogt_uitofp_bit (b : BitVec 1) :
    FloatOps.cmpf .ogt (FloatOps.uitofp (F := Ideal) .f32 b) (Ideal.ofBits .f32 0x00000000#32) = b := by
  have hb : b = 0#1 ∨ b = 1#1 := by revert b; decide
  rw [Ideal.cmpf_def, Ideal.ofBits_zero_f32]
  show Ideal.cmp .ogt (((b.toNat : ℝ)) : EReal) 0 = b
  rcases hb with rfl | rfl
  · simp [Ideal.cmp]
  · simp [Ideal.cmp]

/-! ## The gather of a flat table at a column of indices

What `x[idx]` of a flat table `x : [N]` at an index column `idx : [R, 1]` lowers to: a gather with no offset axes, the
table's axis collapsed, start index map `[0]`, slice size 1 and the index vector on axis 1.  Result element `r` is the table at
`idx[r, 0]` read signed and clamped into `[0, N − 1]`. -/

section Gather
variable {α : Type}

/-- Those dimension numbers for a table `[N]`, start indices `[R, 1]` and result `[R]`. -/
abbrev colDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER READ AT ROW `r`: the table at the start index `idx[r, 0]`, read signed and clamped into `[0, N − 1]`. -/
theorem gather_col_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r)
      = x (ix1 ⟨min (idx (ix2 r (0 : Fin 1))).toInt.toNat (N - 1), by omega⟩) := by
  unfold Host.gather
  refine congrArg x ?_
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Gather

/-! ## The two arrays, read at an index -/

section Arrays
variable {F : FTy → Type} [FloatOps F]
variable (a17 : IVec S50000 32)
variable (hb0 : S_.BroadcastsInDim S50000 (![] : Fin 0 → Fin S50000.rank))
variable (hb1 : S50000.BroadcastsInDim S50000x1 (![0] : Fin 1 → Fin S50000x1.rank))
variable (hb2 : S50000x1.BroadcastsInDim S50000x128 (![0, 1] : Fin 2 → Fin S50000x128.rank))
variable (wf : GatherDims.WF S4 S50000x1 S50000 [] [0] [] [0] [] 1 ![1])

/-- Row `r` of a column `[50000, 1]` made from a flat `[50000]` array is entry `r`. -/
theorem col_apply {α : Type} (x : S50000.Idx → α) (r : Fin 50000) :
    broadcastInDim S50000x1 ![0] hb1 x (ix2 r (0 : Fin 1)) = x (ix1 r) :=
  broadcastInDim_apply _ hb1 x _ _ (fun a => by obtain rfl : a = 0 := Subsingleton.elim _ _; rfl)

/-- Element `(r, q)` of a column `[50000, 1]` broadcast along 128 lanes is the column's row `r`. -/
theorem lanes_apply {α : Type} (x : S50000x1.Idx → α) (r : Fin 50000) (q : Fin 128) :
    broadcastInDim S50000x128 ![0, 1] hb2 x (ix2 r q) = x (ix2 r (0 : Fin 1)) :=
  broadcastInDim_apply _ hb2 x _ _ (fun a => by
    match a with
    | ⟨0, _⟩ => rfl
    | ⟨1, _⟩ => rfl)

/-- The kernel's selection column: the float of the word (entry = 0 or entry = 3), as a `[50000, 1]` column. -/
def selCol : FVec F S50000x1 .f32 :=
  broadcastInDim S50000x1 ![0] hb1
    (uitofp .f32 (ori (cmpi .eq a17 (broadcastInDim S50000 ![] hb0 (constantI S_ 32 0#32)))
      (cmpi .eq a17 (broadcastInDim S50000 ![] hb0 (constantI S_ 32 3#32)))))

/-- The reference's start indices: the entries, a negative one wrapped by adding 4, as a `[50000, 1]` column. -/
def refIdx : IVec S50000x1 32 :=
  broadcastInDim S50000x1 ![0] hb1
    (select (cmpi .slt a17 (broadcastInDim S50000 ![] hb0 (constantI S_ 32 0#32)))
      (addi a17 (broadcastInDim S50000 ![] hb0 (constantI S_ 32 4#32))) a17)

/-- The reference's mask: the table [1, 0, 0, 1] gathered at the start indices, broadcast along 128 lanes. -/
def refMask : IVec S50000x128 1 :=
  broadcastInDim S50000x128 ![0, 1] hb2
    (broadcastInDim S50000x1 ![0] hb1
      (Host.gather (colDims 4 50000 wf) (fun i => lit0 (S4.rowMajor i)) (refIdx a17 hb0 hb1)))

/-- Row `r` of the kernel's selection column is the float of entry `r`'s word. -/
theorem selCol_apply (r : Fin 50000) :
    selCol (F := F) a17 hb0 hb1 (ix2 r (0 : Fin 1)) = FloatOps.uitofp .f32 (selBit (a17 (ix1 r))) := by
  unfold selCol
  rw [col_apply]
  rfl

/-- Row `r` of the reference's start indices is entry `r`, wrapped. -/
theorem refIdx_apply (r : Fin 50000) : refIdx a17 hb0 hb1 (ix2 r (0 : Fin 1)) = wrapIdx (a17 (ix1 r)) := by
  unfold refIdx
  rw [col_apply]
  rfl

/-- Element `(r, q)` of the reference's mask is the table read at entry `r`. -/
theorem refMask_apply (r : Fin 50000) (q : Fin 128) : refMask a17 hb0 hb1 hb2 wf (ix2 r q) = tblAt (a17 (ix1 r)) := by
  unfold refMask
  rw [lanes_apply, col_apply, gather_col_apply (by decide) wf _ _ r]
  unfold tblAt
  refine congrArg lit0 (Fin.ext ?_)
  refine (Shape.rowMajor_val_one _).trans ?_
  show min (refIdx a17 hb0 hb1 (ix2 r (0 : Fin 1))).toInt.toNat (4 - 1) = min (wrapIdx (a17 (ix1 r))).toInt.toNat (4 - 1)
  rw [refIdx_apply]

end Arrays

/-! ## The two masks agree on entries in {0, 1, 2, 3} -/

/-- ONE ENTRY: for an entry in {0, 1, 2, 3}, the float of the kernel's word is above zero exactly when the reference's
    table, read at the entry, is 1. -/
theorem mask_elem (x : BitVec 32) (hx : x = 0#32 ∨ x = 1#32 ∨ x = 2#32 ∨ x = 3#32) :
    FloatOps.cmpf .ogt (FloatOps.uitofp (F := Ideal) .f32 (selBit x)) (Ideal.ofBits .f32 0x00000000#32) = tblAt x := by
  rw [ogt_uitofp_bit]
  rcases hx with rfl | rfl | rfl | rfl
  · exact selBit_cases.1.trans tblAt_cases.1.symm
  · exact selBit_cases.2.1.trans tblAt_cases.2.1.symm
  · exact selBit_cases.2.2.1.trans tblAt_cases.2.2.1.symm
  · exact selBit_cases.2.2.2.trans tblAt_cases.2.2.2.symm

section Agree
variable (a17 : IVec S50000 32)
variable (hr : ∀ r : Fin 50000, a17 (ix1 r) = 0#32 ∨ a17 (ix1 r) = 1#32 ∨ a17 (ix1 r) = 2#32 ∨ a17 (ix1 r) = 3#32)
variable (hb0 : S_.BroadcastsInDim S50000 (![] : Fin 0 → Fin S50000.rank))
variable (hb1 : S50000.BroadcastsInDim S50000x1 (![0] : Fin 1 → Fin S50000x1.rank))
variable (hb2 : S50000x1.BroadcastsInDim S50000x128 (![0, 1] : Fin 2 → Fin S50000x128.rank))
variable (wf : GatherDims.WF S4 S50000x1 S50000 [] [0] [] [0] [] 1 ![1])
include hr

/-- THE MASKS AGREE, the kernel's read off its column: row `r` of the selection column compared above zero is the
    reference's mask at `(r, q)`, for every lane `q`. -/
theorem mask_eq (r : Fin 50000) (q : Fin 128) :
    FloatOps.cmpf .ogt (selCol (F := Ideal) a17 hb0 hb1 (ix2 r (0 : Fin 1))) (Ideal.ofBits .f32 0x00000000#32)
      = refMask a17 hb0 hb1 hb2 wf (ix2 r q) := by
  rw [selCol_apply, refMask_apply]
  exact mask_elem _ (hr r)

/-- The same with the kernel's column broadcast along 128 lanes and compared with the zero array, at `(r, q)`. -/
theorem mask_eq_lanes (r : Fin 50000) (q : Fin 128) :
    cmpf .ogt (broadcastInDim S50000x128 ![0, 1] hb2 (selCol (F := Ideal) a17 hb0 hb1))
        (constant (F := Ideal) S50000x128 .f32 0x00000000#32) (ix2 r q)
      = refMask a17 hb0 hb1 hb2 wf (ix2 r q) := by
  rw [cmpf_apply, lanes_apply, constant_apply]
  exact mask_eq a17 hr hb0 hb1 hb2 wf r q

/-- The same as one equation of `[50000, 128]` arrays. -/
theorem mask_eq_array :
    cmpf .ogt (broadcastInDim S50000x128 ![0, 1] hb2 (selCol (F := Ideal) a17 hb0 hb1))
        (constant (F := Ideal) S50000x128 .f32 0x00000000#32)
      = refMask a17 hb0 hb1 hb2 wf := by
  funext j
  rw [eq_ix2 j]
  exact mask_eq_lanes a17 hr hb0 hb1 hb2 wf _ _

end Agree

/-! ## Two bridges to the printed programs -/

/-- The reference's printed gather record is `colDims 4 50000`: the same dimension numbers, field by field. -/
theorem printed_gather_eq [Cert.ReferenceIdeal.Facts] :
    Cert.ReferenceIdeal.gather_S4_S50000x1_S50000_n_0_n_n_0_1_1
      = colDims 4 50000 Cert.ReferenceIdeal.Facts₀.gather_S4_S50000x1_S50000_n_0_n_n_0_1_1_wf := rfl

/-- A kernel body's `[m, 1]` block broadcast along `n` lanes, read at `(p, q)`: the block's row `p`. -/
theorem broadcastTo_col_apply {α : Type} {m n : Nat} (v : (⟨2, ![m, 1]⟩ : Shape).Idx → α)
    (h : (⟨2, ![m, 1]⟩ : Shape).Broadcasts ⟨2, ![m, n]⟩) (p : Fin m) (q : Fin n) :
    broadcastTo ⟨2, ![m, n]⟩ v h (ix2 p q) = v (ix2 p (0 : Fin 1)) :=
  broadcastTo_apply v h _ _ (fun a => by
    match a with
    | ⟨0, _⟩ =>
      show p.val = if m = 1 then 0 else p.val
      have := p.isLt
      split <;> omega
    | ⟨1, _⟩ => rfl)

end Cert.Dom

end
-- ==== Proof.KI.Host.lean ====
/- What the kernel program's host stretches compute, read from an arbitrary valuation of the buffers: the node table
   (the first region's rows above zero rows), the one-hot table, the mean over in-edges of a region's output, the
   cluster-selection column, the bias table reshaped. Each is the reference's staged function of the same
   operands, the two programs applying the same operations there. -/
import proofs.«107237_j10496900072251_2_alg».proof.Proof.Gen.KernelIdeal.Regions
import proofs.«107237_j10496900072251_2_alg».proof.Proof.Ref.Stages
import proofs.«107237_j10496900072251_2_alg».proof.Proof.Dom.Mask
import Idealize.ShloMosaic.Lib.StableHlo.Run

set_option synthInstance.maxSize 4096

noncomputable section

namespace Cert.KernelIdeal.Fr

open Cert.KernelIdeal Cert.KernelIdeal.Gen
open Idealize.ShloMosaic Idealize.ShloMosaic.TcCoe Idealize.SL.Sem Idealize.ShloMosaic.StableHlo

variable {F : FTy → Type} [FloatOps F]

variable [Cert.ReferenceIdeal.Facts]

set_option maxRecDepth 8192 in
set_option maxHeartbeats 4000000 in
/-- The node table: the first region's 20000 rows above 30000 zero rows. -/
theorem host1_v2 (W : Valuation τ sig (Elt F)) :
    after hostOps1 W (Proc.devRef .tc main_v2)
      = concatenate S50000x128 0 [⟨S20000x128, W (Proc.devRef .tc main_v0)⟩, ⟨S30000x128, broadcastInDim S30000x128 ![] bcast_S_S30000x128 (constant (F := F) S_ .f32 0x00000000#32)⟩] concatenates_S20000x128_S30000x128_S50000x128_d0 := by
  simp only [hostOps1]
  after_results_simp
  rfl

set_option maxRecDepth 8192 in
set_option maxHeartbeats 4000000 in
/-- The one-hot table. -/
theorem host1_v12 (W : Valuation τ sig (Elt F)) :
    after hostOps1 W (Proc.devRef .tc main_v12)
      = Cert.ReferenceIdeal.Stages.oneHot (F := F) (W (Proc.devRef .tc main_arg3)) (W (Proc.devRef .tc main_arg4)) (W (Proc.devRef .tc main_arg5)) (W (Proc.devRef .tc main_arg6)) := by
  simp only [hostOps1]
  after_results_simp
  rfl

set_option maxRecDepth 8192 in
set_option maxHeartbeats 4000000 in
/-- The first aggregation: the mean over in-edges of the second region's output. -/
theorem host2_v32 (W : Valuation τ sig (Elt F)) :
    after hostOps2 W (Proc.devRef .tc main_v32)
      = Cert.ReferenceIdeal.Stages.meanAgg (F := F) (W (Proc.devRef .tc main_v13)) (W (Proc.devRef .tc main_arg15)) (W (Proc.devRef .tc main_arg16)) := by
  simp only [hostOps2]
  after_results_simp
  rfl

set_option maxRecDepth 8192 in
set_option maxHeartbeats 4000000 in
/-- The cluster-selection column: one where the node's cluster is 0 or 3. -/
theorem host2_v39 (W : Valuation τ sig (Elt F)) :
    after hostOps2 W (Proc.devRef .tc main_v39)
      = Cert.Dom.selCol (F := F) (W (Proc.devRef .tc main_arg17)) bcast_S_S50000 bcast_S50000_S50000x1_0 := by
  simp only [hostOps2]
  after_results_simp
  rfl

set_option maxRecDepth 8192 in
set_option maxHeartbeats 4000000 in
/-- The second aggregation: the mean over in-edges of the fourth region's output. -/
theorem host4_v61 (W : Valuation τ sig (Elt F)) :
    after hostOps4 W (Proc.devRef .tc main_v61)
      = Cert.ReferenceIdeal.Stages.meanAgg (F := F) (W (Proc.devRef .tc main_v42)) (W (Proc.devRef .tc main_arg15)) (W (Proc.devRef .tc main_arg16)) := by
  simp only [hostOps4]
  after_results_simp
  rfl

end Cert.KernelIdeal.Fr

end
-- ==== Proof.KI.C0.lean ====
/- From blocks to the array, region 0 of @main: the printed index maps in closed form over the grid (a row-blocked
   window's block index at point `t` is (t, 0), a whole window's is zero), where a block's element sits in its array
   (row 1000·t + p), each input block read off the region-entry contents `V`, and each output array after the last
   point as ONE function `G` of its index once every point's stored block is block `t` of `G`: the blocks tile the
   array (row r lies in the block of point r / 1000). Generic in the float instance. -/
import proofs.«107237_j10496900072251_2_alg».proof.Proof.KI.R0
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## Zero offsets, the grid's size, a row's bound -/

theorem zeros2_0 : (![0, 0] : Fin 2 → Nat) = fun _ => 0 := funext fun a => by fin_cases a <;> rfl
theorem zeros1_0 : (![0] : Fin 1 → Nat) = fun _ => 0 := funext fun a => by fin_cases a <;> rfl

/-- The grid has 20 points. -/
theorem tlt0 (t : Fin cfg0.N) : t.val < 20 := lt_of_lt_of_eq t.isLt N_0

/-- Row `p` of block `t` is a row of the array. -/
theorem rowlt0 (t : Fin cfg0.N) (p : Fin 1000) : 1000 * t.val + p.val < 20000 := by
  have := tlt0 t; have := p.isLt; omega

/-! ## The index maps in closed form, decided over the grid -/

/-- Each window's block index at point `t`: a row-blocked window's is (t, 0), a whole window's is zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-! ## Where a block's element sits in its array -/

/-- Window 0: element (p, q) of block `t` is element (1000·t + p, q) of the array. -/
theorem emb0_0 (t : Fin cfg0.N) (p : Fin 1000) (q : Fin 512) :
    ((cfg0.win 0).blk t).view.emb (ix2 p q) = (ix2 ⟨1000 * t.val + p.val, rowlt0 t p⟩ q : S20000x512.Idx) := by
  obtain ⟨e0_0, e0_1, e1_0, e1_1, e2_0, e3_0, e3_1⟩ := idx_facts0 t
  funext a; apply Fin.ext
  match a with
  | ⟨0, _⟩ => show win0_0.index t (0 : Fin 2) * 1000 + 1 * p.val = 1000 * t.val + p.val; omega
  | ⟨1, _⟩ => show win0_0.index t (1 : Fin 2) * 512 + 1 * q.val = q.val; omega

/-- Window 1 is its whole array: an element of the block is that element of the array. -/
theorem emb0_1 (t : Fin cfg0.N) (y : S128x512.Idx) : ((cfg0.win 1).blk t).view.emb y = y := by
  obtain ⟨e0_0, e0_1, e1_0, e1_1, e2_0, e3_0, e3_1⟩ := idx_facts0 t
  funext a; apply Fin.ext
  match a with
  | ⟨0, _⟩ => show win0_1.index t (0 : Fin 2) * 128 + 1 * (y 0).val = (y 0).val; omega
  | ⟨1, _⟩ => show win0_1.index t (1 : Fin 2) * 512 + 1 * (y 1).val = (y 1).val; omega

/-- Window 2 is its whole array: an element of the block is that element of the array. -/
theorem emb0_2 (t : Fin cfg0.N) (y : S128.Idx) : ((cfg0.win 2).blk t).view.emb y = y := by
  obtain ⟨e0_0, e0_1, e1_0, e1_1, e2_0, e3_0, e3_1⟩ := idx_facts0 t
  funext a; apply Fin.ext
  match a with
  | ⟨0, _⟩ => show win0_2.index t (0 : Fin 1) * 128 + 1 * (y 0).val = (y 0).val; omega

/-- Window 3: element (p, q) of block `t` is element (1000·t + p, q) of the array. -/
theorem emb0_3 (t : Fin cfg0.N) (p : Fin 1000) (q : Fin 128) :
    ((cfg0.win 3).blk t).view.emb (ix2 p q) = (ix2 ⟨1000 * t.val + p.val, rowlt0 t p⟩ q : S20000x128.Idx) := by
  obtain ⟨e0_0, e0_1, e1_0, e1_1, e2_0, e3_0, e3_1⟩ := idx_facts0 t
  funext a; apply Fin.ext
  match a with
  | ⟨0, _⟩ => show win0_3.index t (0 : Fin 2) * 1000 + 1 * p.val = 1000 * t.val + p.val; omega
  | ⟨1, _⟩ => show win0_3.index t (1 : Fin 2) * 128 + 1 * q.val = q.val; omega

/-! ## Each input block, read off the region-entry contents -/

/-- Input window 0's block at point `t` is rows 1000·t … 1000·t + 999 of its array. -/
theorem iblk0_0_apply (c : Dev nD) (t : Fin cfg0.N) (p : Fin 1000) (q : Fin 512) :
    (iblk0 V c 0 t : Vec F S1000x512 .f32) (ix2 p q)
      = (V c (Pipeline.arrRef spec0 0) : S20000x512.Idx → Elt F .f32) (ix2 ⟨1000 * t.val + p.val, rowlt0 t p⟩ q) := by
  unfold iblk0
  rw [View.read_apply]
  show (V c (Pipeline.arrRef spec0 0) : S20000x512.Idx → Elt F .f32) (((cfg0.win 0).blk t).view.emb (ix2 p q)) = _
  rw [emb0_0]

/-- Input window 1's block at every point is its whole array. -/
theorem iblk0_1_apply (c : Dev nD) (t : Fin cfg0.N) (y : S128x512.Idx) :
    (iblk0 V c 1 t : Vec F S128x512 .f32) y = (V c (Pipeline.arrRef spec0 1) : S128x512.Idx → Elt F .f32) y := by
  unfold iblk0
  rw [View.read_apply]
  show (V c (Pipeline.arrRef spec0 1) : S128x512.Idx → Elt F .f32) (((cfg0.win 1).blk t).view.emb y) = _
  rw [emb0_1]

/-- Input window 2's block at every point is its whole array. -/
theorem iblk0_2_apply (c : Dev nD) (t : Fin cfg0.N) (y : S128.Idx) :
    (iblk0 V c 2 t : Vec F S128 .f32) y = (V c (Pipeline.arrRef spec0 2) : S128.Idx → Elt F .f32) y := by
  unfold iblk0
  rw [View.read_apply]
  show (V c (Pipeline.arrRef spec0 2) : S128.Idx → Elt F .f32) (((cfg0.win 2).blk t).view.emb y) = _
  rw [emb0_2]

/-! ## Output window 3: the blocks tile the array, so the array ends at one function of its index -/

/-- An index of the array is in point `t`'s block iff each coordinate is in the block's range on its axis. -/
theorem mem_blk0_3 (t : Fin cfg0.N) (i : S20000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v0).slice (win0_3.rect t)).set ↔ _
  rw [View.set_slice_whole, Rect.mem_set_unit]
  exact Iff.rfl

/-- Every index of the array is in some point's block: row `r` is in the block of point `r / 1000`. -/
theorem arr_cover0_3 (i : S20000x128.Idx) :
    ∃ t : Fin cfg0.N, (cfg0.win 3).flush t = true ∧ i ∈ ((cfg0.win 3).blk t).view.set := by
  have hi0 : (i 0).val < 20000 := (i 0).isLt
  have hi1 : (i 1).val < 128 := (i 1).isLt
  obtain ⟨t, ht⟩ : ∃ t : Fin cfg0.N, t.val = (i 0).val / 1000 :=
    ⟨⟨(i 0).val / 1000, lt_of_lt_of_eq (show (i 0).val / 1000 < 20 by omega) N_0.symm⟩, rfl⟩
  obtain ⟨e0_0, e0_1, e1_0, e1_1, e2_0, e3_0, e3_1⟩ := idx_facts0 t
  refine ⟨t, flush0_3 t, ?_⟩
  rw [mem_blk0_3]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- The array after the last point is `G`, once what every point leaves in the window's buffer is block `t` of `G`. -/
theorem final0_3 (c : Dev nD) (G : S20000x128.Idx → Elt F .f32)
    (hflush : ∀ t : Fin cfg0.N, out0_3 (iblk0 V c 0 t) (iblk0 V c 1 t) (iblk0 V c 2 t) = ((cfg0.win 3).blk t).view.read (Elt F) G) :
    (dat0 V c).arrAt 3 cfg0.N = G :=
  (dat0 V c).arrAt_eq_of_cover 3 G (fun t _ => by
      show (cfg0.win 3).cut (grid0.coords t) ((dat0 V c).after 3 t) = _
      rw [after0_3]
      exact hflush t) arr_cover0_3

/-- The same from the payload point by point: element (p, q) of what point `t` stores is `G` at row 1000·t + p. -/
theorem final0_3' (c : Dev nD) (G : S20000x128.Idx → Elt F .f32)
    (hpt : ∀ (t : Fin cfg0.N) (p : Fin 1000) (q : Fin 128),
      k0_pay1 (iblk0 V c 0 t) (iblk0 V c 1 t) (iblk0 V c 2 t) (ix2 p q) = G (ix2 ⟨1000 * t.val + p.val, rowlt0 t p⟩ q)) :
    (dat0 V c).arrAt 3 cfg0.N = G :=
  final0_3 V c G fun t => by
    unfold out0_3
    rw [View.canon_unit_zero zeros2_0]
    simp only [View.ld_unit_zero (S := S1000x512) zeros2_0, View.ld_unit_zero (S := S128x512) zeros2_0, View.ld_unit_zero (S := S128) zeros1_0]
    funext (j : S1000x128.Idx)
    rw [View.read_apply]
    obtain ⟨p, q, rfl⟩ : ∃ (p : Fin 1000) (q : Fin 128), j = ix2 p q := ⟨j 0, j 1, eq_ix2 j⟩
    show _ = G (((cfg0.win 3).blk t).view.emb (ix2 p q))
    rw [emb0_3]
    exact hpt t p q

end Cert.KernelIdeal.Fr

end
-- ==== Proof.Val.KDots.lean ====
import proofs.«107237_j10496900072251_2_alg».proof.Proof.Gen.KernelIdeal.Skeleton
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-! # The kernel bodies' matrix products, transposes and bias broadcasts, read at an index

Every lemma is stated at the ideal values, over variables of the literal block shapes, at an index written by
its coordinates. A product of a row block with a transposed weight block, accumulated into the zero block, is
the plain sum over the contracted coordinate; a transposed block swaps the two coordinates; a bias vector cast to
one row and laid along every row reads the vector at the column. From these, each body's stored value at an index
is the sum of products plus the bias entry. -/

noncomputable section

namespace Cert.Val.K

open Idealize.ShloMosaic Idealize.ShloMosaic.ValueIdx
open Cert.KernelIdeal Cert.KernelIdeal.Gen
open scoped BigOperators

/-! ## A rows × contraction by contraction × columns product is the sum over the contracted coordinate -/

/-- For dimension numbers that contract the left operand's axis 1 with the right operand's axis 0, with no batch
    axis (rows × K times K × columns), the sum over the one-axis contraction index of the operands' products at the
    operand indices is the sum over `k : Fin K` of `x (p, k) * w (k, q)`. -/
theorem plain_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ k : Fin K, x (ix2 p k) * w (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ =>
        unfold DotDims.lhsIdx
        rw [dif_neg (show ¬(⟨0, _⟩ : Fin (⟨2, ![M, K]⟩ : Shape).rank) ∈ (⟨[1], [0], [0], [1], [], [], wf⟩ : DotDims ⟨2, ![M, K]⟩ ⟨2, ![K, N]⟩ ⟨2, ![M, N]⟩).lhsBatch from List.not_mem_nil),
          dif_pos (show (⟨0, _⟩ : Fin (⟨2, ![M, K]⟩ : Shape).rank) ∈ (⟨[1], [0], [0], [1], [], [], wf⟩ : DotDims ⟨2, ![M, K]⟩ ⟨2, ![K, N]⟩ ⟨2, ![M, N]⟩).lhsNonContracting from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ =>
        unfold DotDims.rhsIdx
        rw [dif_neg (show ¬(⟨1, _⟩ : Fin (⟨2, ![K, N]⟩ : Shape).rank) ∈ (⟨[1], [0], [0], [1], [], [], wf⟩ : DotDims ⟨2, ![M, K]⟩ ⟨2, ![K, N]⟩ ⟨2, ![M, N]⟩).rhsBatch from List.not_mem_nil),
          dif_pos (show (⟨1, _⟩ : Fin (⟨2, ![K, N]⟩ : Shape).rank) ∈ (⟨[1], [0], [0], [1], [], [], wf⟩ : DotDims ⟨2, ![M, K]⟩ ⟨2, ![K, N]⟩ ⟨2, ![M, N]⟩).rhsNonContracting from List.mem_singleton.mpr rfl)]
        rfl)
  rw [el, er]

/-! ## The three block products -/

/-- A `[1000, 512]` block times a `[512, 128]` block into the zero block, at `(p, q)`. -/
theorem kmm512 (x : FVec Ideal S1000x512 .bf16) (w : FVec Ideal S512x128 .bf16) (p : Fin 1000) (q : Fin 128) :
    matmul (F := Ideal) dot_S1000x512_S512x128_S1000x128_1_0_0_1_n_n none x w
        (constant (F := Ideal) S1000x128 .f32 0x00000000#32) (ix2 p q)
      = ∑ k : Fin 512, x (ix2 p k) * w (ix2 k q) :=
  (Ideal.matmul_constant_zero_apply dot_S1000x512_S512x128_S1000x128_1_0_0_1_n_n none x w (ix2 p q)).trans
    (plain_sum dot_S1000x512_S512x128_S1000x128_1_0_0_1_n_n rfl rfl rfl rfl rfl rfl x w p q)

/-- A `[1000, 128]` block times a `[128, 128]` block into the zero block, at `(p, q)`. -/
theorem kmm128 (x : FVec Ideal S1000x128 .bf16) (w : FVec Ideal S128x128 .bf16) (p : Fin 1000) (q : Fin 128) :
    matmul (F := Ideal) dot_S1000x128_S128x128_S1000x128_1_0_0_1_n_n none x w
        (constant (F := Ideal) S1000x128 .f32 0x00000000#32) (ix2 p q)
      = ∑ k : Fin 128, x (ix2 p k) * w (ix2 k q) :=
  (Ideal.matmul_constant_zero_apply dot_S1000x128_S128x128_S1000x128_1_0_0_1_n_n none x w (ix2 p q)).trans
    (plain_sum dot_S1000x128_S128x128_S1000x128_1_0_0_1_n_n rfl rfl rfl rfl rfl rfl x w p q)

/-- A `[1000, 128]` block times a `[128, 8]` block into the zero block, at `(p, q)`. -/
theorem kmm8 (x : FVec Ideal S1000x128 .bf16) (w : FVec Ideal S128x8 .bf16) (p : Fin 1000) (q : Fin 8) :
    matmul (F := Ideal) dot_S1000x128_S128x8_S1000x8_1_0_0_1_n_n none x w
        (constant (F := Ideal) S1000x8 .f32 0x00000000#32) (ix2 p q)
      = ∑ k : Fin 128, x (ix2 p k) * w (ix2 k q) :=
  (Ideal.matmul_constant_zero_apply dot_S1000x128_S128x8_S1000x8_1_0_0_1_n_n none x w (ix2 p q)).trans
    (plain_sum dot_S1000x128_S128x8_S1000x8_1_0_0_1_n_n rfl rfl rfl rfl rfl rfl x w p q)

/-! ## The transposed weight blocks -/

/-- A `[128, 512]` block transposed reads, at `(k, q)`, the block at `(q, k)`. -/
theorem ktr512 {α : Type} (v : S128x512.Idx → α) {h : S128x512.Transposes [1, 0] S512x128} (k : Fin 512) (q : Fin 128) :
    transpose S512x128 [1, 0] v h (ix2 k q) = v (ix2 q k) :=
  transpose_ix2_apply v h k q

/-- A `[128, 128]` block transposed reads, at `(k, q)`, the block at `(q, k)`. -/
theorem ktr128 {α : Type} (v : S128x128.Idx → α) {h : S128x128.Transposes [1, 0] S128x128} (k : Fin 128) (q : Fin 128) :
    transpose S128x128 [1, 0] v h (ix2 k q) = v (ix2 q k) :=
  transpose_ix2_apply v h k q

/-- An `[8, 128]` block transposed reads, at `(k, q)`, the block at `(q, k)`. -/
theorem ktr8 {α : Type} (v : S8x128.Idx → α) {h : S8x128.Transposes [1, 0] S128x8} (k : Fin 128) (q : Fin 8) :
    transpose S128x8 [1, 0] v h (ix2 k q) = v (ix2 q k) :=
  transpose_ix2_apply v h k q

/-! ## The bias rows and the selected weight slab -/

/-- A 128-vector cast to one row and laid along 1000 rows reads, at `(p, q)`, the vector at `q`. -/
theorem kbias128 {α : Type} (b : S128.Idx → α) {h1 : S128.ShapeCasts S1x128} {h2 : S1x128.Broadcasts S1000x128}
    (p : Fin 1000) (q : Fin 128) :
    broadcastTo S1000x128 (shapeCast S1x128 b h1) h2 (ix2 p q) = b (ix1 q) :=
  (broadcastTo_1b_ab_apply (shapeCast S1x128 b h1) h2 p q).trans (shapeCast_a_1a_apply b h1 0 q)

/-- An 8-vector cast to one row and laid along 1000 rows reads, at `(p, q)`, the vector at `q`. -/
theorem kbias8 {α : Type} (b : S8.Idx → α) {h1 : S8.ShapeCasts S1x8} {h2 : S1x8.Broadcasts S1000x8}
    (p : Fin 1000) (q : Fin 8) :
    broadcastTo S1000x8 (shapeCast S1x8 b h1) h2 (ix2 p q) = b (ix1 q) :=
  (broadcastTo_1b_ab_apply (shapeCast S1x8 b h1) h2 p q).trans (shapeCast_a_1a_apply b h1 0 q)

/-- A `[1, 1, 128]` slab cast to one row and laid along 1000 rows reads, at `(p, q)`, the slab at `(0, 0, q)`. -/
theorem kbias3 {α : Type} (v8 : S1x1x128.Idx → α) {h1 : S1x1x128.ShapeCasts S1x128} {h2 : S1x128.Broadcasts S1000x128}
    (p : Fin 1000) (q : Fin 128) :
    broadcastTo S1000x128 (shapeCast S1x128 v8 h1) h2 (ix2 p q) = v8 (ix3 (0 : Fin 1) (0 : Fin 1) q) :=
  (broadcastTo_1b_ab_apply (shapeCast S1x128 v8 h1) h2 p q).trans (shapeCast_1ab_ab_apply v8 h1 0 q)

/-- A `[1, 128, 128]` slab cast to `[128, 128]` reads, at `(a, b)`, the slab at `(0, a, b)`. -/
theorem kw3 {α : Type} (v3 : S1x128x128.Idx → α) {h : S1x128x128.ShapeCasts S128x128} (a : Fin 128) (b : Fin 128) :
    shapeCast S128x128 v3 h (ix2 a b) = v3 (ix3 (0 : Fin 1) a b) :=
  shapeCast_1ab_ab_apply v3 h a b

/-! ## Each body's stored value at an index -/

/-- Region 0's stored block at `(p, q)`: the row of the feature block against the row `q` of the weight, plus the
    bias entry. -/
theorem k0_pay1_apply (v0 : FVec Ideal S1000x512 .f32) (v2 : FVec Ideal S128x512 .f32) (v6 : FVec Ideal S128 .f32)
    (p : Fin 1000) (q : Fin 128) :
    k0_pay1 (F := Ideal) v0 v2 v6 (ix2 p q) = (∑ k : Fin 512, v0 (ix2 p k) * v2 (ix2 q k)) + v6 (ix1 q) := by
  unfold k0_pay1
  rw [addf_apply, kmm512, kbias128]
  refine congrArg (· + v6 (ix1 q)) (Finset.sum_congr rfl fun k _ => ?_)
  rw [ktr512, truncf_apply, truncf_apply]

/-- Region 1's stored block at `(p, q)`. -/
theorem k1_pay1_apply (v0 : FVec Ideal S1000x128 .f32) (v3 : FVec Ideal S128x128 .f32) (v7 : FVec Ideal S128 .f32)
    (p : Fin 1000) (q : Fin 128) :
    k1_pay1 (F := Ideal) v0 v3 v7 (ix2 p q) = (∑ k : Fin 128, v0 (ix2 p k) * v3 (ix2 q k)) + v7 (ix1 q) := by
  unfold k1_pay1
  rw [addf_apply, kmm128, kbias128]
  refine congrArg (· + v7 (ix1 q)) (Finset.sum_congr rfl fun k _ => ?_)
  rw [ktr128, truncf_apply, truncf_apply, shapeCast_self]

/-- A one-column block laid along 128 columns reads, at `(p, q)`, the column at `p`. -/
theorem kcol {α : Type} (v : S1000x1.Idx → α) {h : S1000x1.Broadcasts S1000x128} (p : Fin 1000) (q : Fin 128) :
    broadcastTo S1000x128 v h (ix2 p q) = v (ix2 p (0 : Fin 1)) :=
  broadcastTo_apply v h (ix2 p q) (ix2 p (0 : Fin 1)) fun a => by
    match a with
    | ⟨0, _⟩ => exact (show p.val = if (1000 : ℕ) = 1 then 0 else p.val from (if_neg (by decide)).symm)
    | ⟨1, _⟩ => exact (show (0 : ℕ) = if (1 : ℕ) = 1 then 0 else q.val from (if_pos rfl).symm)

/-- Region 2's stored block at `(p, q)`: the first block plus the second or the third, chosen by the sign of the
    selector column at row `p`. -/
theorem k2_pay1_apply (v0 : FVec Ideal S1000x1 .f32) (v4 v8 v10 : FVec Ideal S1000x128 .f32) (p : Fin 1000) (q : Fin 128) :
    k2_pay1 (F := Ideal) v0 v4 v8 v10 (ix2 p q)
      = v4 (ix2 p q) + Scalar.select (FloatOps.cmpf .ogt (v0 (ix2 p (0 : Fin 1))) (Scalar.ofBits (F := Ideal) .f32 0x00000000#32))
          (v8 (ix2 p q)) (v10 (ix2 p q)) := by
  unfold k2_pay1
  rw [addf_apply, select_apply, cmpf_apply, broadcast_apply, kcol]
  simp only [shapeCast_self]

/-- Region 3's stored block at `(p, q)`: the row of the input block against row `q` of the selected weight slab,
    plus the selected bias slab's entry. -/
theorem k3_pay1_apply (v0 : FVec Ideal S1000x128 .f32) (v3 : FVec Ideal S1x128x128 .f32) (v8 : FVec Ideal S1x1x128 .f32)
    (p : Fin 1000) (q : Fin 128) :
    k3_pay1 (F := Ideal) v0 v3 v8 (ix2 p q)
      = (∑ k : Fin 128, v0 (ix2 p k) * v3 (ix3 (0 : Fin 1) q k)) + v8 (ix3 (0 : Fin 1) (0 : Fin 1) q) := by
  unfold k3_pay1
  rw [addf_apply, kmm128, kbias3]
  refine congrArg (· + v8 (ix3 (0 : Fin 1) (0 : Fin 1) q)) (Finset.sum_congr rfl fun k _ => ?_)
  rw [ktr128, truncf_apply, truncf_apply, kw3, shapeCast_self]

/-- Region 4's first stored block is the exponential-linear unit of region 1's expression of the same three
    blocks: the two bodies compute the same product-plus-bias. -/
theorem k4_pay1_eq (v0 : FVec Ideal S1000x128 .f32) (v3 : FVec Ideal S128x128 .f32) (v7 : FVec Ideal S128 .f32) :
    k4_pay1 (F := Ideal) v0 v3 v7
      = select (cmpf .ogt (k1_pay1 (F := Ideal) v0 v3 v7) (broadcast S1000x128 (Scalar.ofBits (F := Ideal) .f32 0x00000000#32)))
          (k1_pay1 (F := Ideal) v0 v3 v7)
          (subf (exp (k1_pay1 (F := Ideal) v0 v3 v7)) (broadcast S1000x128 (Scalar.ofBits (F := Ideal) .f32 0x3F800000#32))) := rfl

/-- Region 4's first stored block at `(p, q)`: with `z` the product-plus-bias, `z` where `z > 0` and
    `exp z - 1` elsewhere. -/
theorem k4_pay1_apply (v0 : FVec Ideal S1000x128 .f32) (v3 : FVec Ideal S128x128 .f32) (v7 : FVec Ideal S128 .f32)
    (p : Fin 1000) (q : Fin 128) (z : EReal) (hz : z = (∑ k : Fin 128, v0 (ix2 p k) * v3 (ix2 q k)) + v7 (ix1 q)) :
    k4_pay1 (F := Ideal) v0 v3 v7 (ix2 p q)
      = Scalar.select (FloatOps.cmpf (F := Ideal) (φ := .f32) .ogt z (Scalar.ofBits (F := Ideal) .f32 0x00000000#32)) z
          (Ideal.exp z - Scalar.ofBits (F := Ideal) .f32 0x3F800000#32) := by
  rw [k4_pay1_eq, select_apply, cmpf_apply, subf_apply, broadcast_apply, broadcast_apply, hz, ← k1_pay1_apply]
  rfl

/-- Region 4's second stored block at `(p, q)`: the row of the first stored block against row `q` of the
    classifier weight, plus the bias entry. -/
theorem k4_pay2_apply (v0 : FVec Ideal S1000x128 .f32) (v3 : FVec Ideal S128x128 .f32) (v7 : FVec Ideal S128 .f32)
    (v18 : FVec Ideal S8x128 .f32) (v23 : FVec Ideal S8 .f32) (p : Fin 1000) (q : Fin 8) :
    k4_pay2 (F := Ideal) v0 v3 v7 v18 v23 (ix2 p q)
      = (∑ k : Fin 128, k4_pay1 (F := Ideal) v0 v3 v7 (ix2 p k) * v18 (ix2 q k)) + v23 (ix1 q) := by
  unfold k4_pay2
  rw [addf_apply, kmm8, kbias8]
  refine congrArg (· + v23 (ix1 q)) (Finset.sum_congr rfl fun k _ => ?_)
  rw [ktr8, truncf_apply, truncf_apply]

end Cert.Val.K

end
-- ==== Proof.Val.RDots.lean ====
import proofs.«107237_j10496900072251_2_alg».proof.ReferenceIdeal
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

/-! # The reference's matrix products, weight transposes and bias broadcasts, read at an index

Every lemma is stated at the ideal values, over variables of the literal array shapes, at an index written by its
coordinates. A host product of an array with a transposed weight is the plain sum over the contracted coordinate;
a transposed weight swaps the two coordinates; a bias vector broadcast to one row and then down every row reads the
vector at the column. -/

noncomputable section

namespace Cert.Val.R

open Idealize.ShloMosaic Idealize.ShloMosaic.ValueIdx
open Cert.ReferenceIdeal
open scoped BigOperators

/-! ## A rows × contraction by contraction × columns product is the sum over the contracted coordinate -/

/-- For dimension numbers that contract the left operand's axis 1 with the right operand's axis 0, with no batch
    axis (rows × K times K × columns), the sum over the one-axis contraction index of the operands' products at the
    operand indices is the sum over `k : Fin K` of `x (p, k) * w (k, q)`. -/
theorem plain_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ k : Fin K, x (ix2 p k) * w (ix2 k q) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 (⟨[1], [0], [0], [1], [], [], wf⟩ : DotDims ⟨2, ![M, K]⟩ ⟨2, ![K, N]⟩ ⟨2, ![M, N]⟩) K rfl rfl).symm k) = ix2 p k :=
    funext fun a => Fin.ext (by
      match a with
      | ⟨0, _⟩ =>
        unfold DotDims.lhsIdx
        rw [dif_neg (show ¬(⟨0, _⟩ : Fin (⟨2, ![M, K]⟩ : Shape).rank) ∈ (⟨[1], [0], [0], [1], [], [], wf⟩ : DotDims ⟨2, ![M, K]⟩ ⟨2, ![K, N]⟩ ⟨2, ![M, N]⟩).lhsBatch from List.not_mem_nil),
          dif_pos (show (⟨0, _⟩ : Fin (⟨2, ![M, K]⟩ : Shape).rank) ∈ (⟨[1], [0], [0], [1], [], [], wf⟩ : DotDims ⟨2, ![M, K]⟩ ⟨2, ![K, N]⟩ ⟨2, ![M, N]⟩).lhsNonContracting from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 (⟨[1], [0], [0], [1], [], [], wf⟩ : DotDims ⟨2, ![M, K]⟩ ⟨2, ![K, N]⟩ ⟨2, ![M, N]⟩) K rfl rfl).symm k) = ix2 k q :=
    funext fun a => Fin.ext (by
      match a with
      | ⟨0, _⟩ => exact (DotDims.rhsIdx_val_of_single _ rfl _ _).trans hk
      | ⟨1, _⟩ =>
        unfold DotDims.rhsIdx
        rw [dif_neg (show ¬(⟨1, _⟩ : Fin (⟨2, ![K, N]⟩ : Shape).rank) ∈ (⟨[1], [0], [0], [1], [], [], wf⟩ : DotDims ⟨2, ![M, K]⟩ ⟨2, ![K, N]⟩ ⟨2, ![M, N]⟩).rhsBatch from List.not_mem_nil),
          dif_pos (show (⟨1, _⟩ : Fin (⟨2, ![K, N]⟩ : Shape).rank) ∈ (⟨[1], [0], [0], [1], [], [], wf⟩ : DotDims ⟨2, ![M, K]⟩ ⟨2, ![K, N]⟩ ⟨2, ![M, N]⟩).rhsNonContracting from List.mem_singleton.mpr rfl)]
        rfl)
  rw [el, er]

/-- The host product with such dimension numbers, at `(r, q)`, whatever the row count, the contracted extent and
    the column count. -/
theorem rdot {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ φ₁) (y : FVec Ideal ⟨2, ![K, N]⟩ φ₂) (r : Fin M) (q : Fin N) :
    Host.dotGeneral (F := Ideal) d prec x y (ix2 r q) = ∑ k : Fin K, x (ix2 r k) * y (ix2 k q) :=
  (Ideal.dotGeneral_apply d prec .single x y (ix2 r q)).trans (plain_sum d hlc hrc hln hrn hlb hrb x y r q)

/-! ## The reference's five products -/

section Products
variable [Facts₀]

/-- `[20000, 512]` times `[512, 128]` (%1), at `(r, q)`. -/
theorem rdot_20000x512 (prec : Option ContractPrecision) (x : FVec Ideal S20000x512 .f32) (y : FVec Ideal S512x128 .f32)
    (r : Fin 20000) (q : Fin 128) :
    Host.dotGeneral (F := Ideal) dot_S20000x512_S512x128_S20000x128_1_0_0_1_n_n prec x y (ix2 r q)
      = ∑ k : Fin 512, x (ix2 r k) * y (ix2 k q) :=
  rdot dot_S20000x512_S512x128_S20000x128_1_0_0_1_n_n rfl rfl rfl rfl rfl rfl prec x y r q

/-- `[50000, 128]` times `[128, 128]` (%19, %103), at `(r, q)`. -/
theorem rdot_50000x128 (prec : Option ContractPrecision) (x : FVec Ideal S50000x128 .f32) (y : FVec Ideal S128x128 .f32)
    (r : Fin 50000) (q : Fin 128) :
    Host.dotGeneral (F := Ideal) dot_S50000x128_S128x128_S50000x128_1_0_0_1_n_n prec x y (ix2 r q)
      = ∑ k : Fin 128, x (ix2 r k) * y (ix2 k q) :=
  rdot dot_S50000x128_S128x128_S50000x128_1_0_0_1_n_n rfl rfl rfl rfl rfl rfl prec x y r q

/-- `[20000, 128]` times `[128, 128]` (%56), at `(r, q)`. -/
theorem rdot_20000x128 (prec : Option ContractPrecision) (x : FVec Ideal S20000x128 .f32) (y : FVec Ideal S128x128 .f32)
    (r : Fin 20000) (q : Fin 128) :
    Host.dotGeneral (F := Ideal) dot_S20000x128_S128x128_S20000x128_1_0_0_1_n_n prec x y (ix2 r q)
      = ∑ k : Fin 128, x (ix2 r k) * y (ix2 k q) :=
  rdot dot_S20000x128_S128x128_S20000x128_1_0_0_1_n_n rfl rfl rfl rfl rfl rfl prec x y r q

/-- `[15000, 128]` times `[128, 128]` (%66, %76), at `(r, q)`. -/
theorem rdot_15000x128 (prec : Option ContractPrecision) (x : FVec Ideal S15000x128 .f32) (y : FVec Ideal S128x128 .f32)
    (r : Fin 15000) (q : Fin 128) :
    Host.dotGeneral (F := Ideal) dot_S15000x128_S128x128_S15000x128_1_0_0_1_n_n prec x y (ix2 r q)
      = ∑ k : Fin 128, x (ix2 r k) * y (ix2 k q) :=
  rdot dot_S15000x128_S128x128_S15000x128_1_0_0_1_n_n rfl rfl rfl rfl rfl rfl prec x y r q

/-- `[50000, 128]` times `[128, 8]` (%109), at `(r, q)`. -/
theorem rdot_50000x8 (prec : Option ContractPrecision) (x : FVec Ideal S50000x128 .f32) (y : FVec Ideal S128x8 .f32)
    (r : Fin 50000) (q : Fin 8) :
    Host.dotGeneral (F := Ideal) dot_S50000x128_S128x8_S50000x8_1_0_0_1_n_n prec x y (ix2 r q)
      = ∑ k : Fin 128, x (ix2 r k) * y (ix2 k q) :=
  rdot dot_S50000x128_S128x8_S50000x8_1_0_0_1_n_n rfl rfl rfl rfl rfl rfl prec x y r q

end Products

/-! ## The transposed weights -/

/-- A `[128, 512]` weight transposed reads, at `(k, q)`, the weight at `(q, k)`. -/
theorem rtr512 {α : Type} (v : S128x512.Idx → α) {h : S128x512.Transposes [1, 0] S512x128} (k : Fin 512) (q : Fin 128) :
    transpose S512x128 [1, 0] v h (ix2 k q) = v (ix2 q k) :=
  transpose_ix2_apply v h k q

/-- A `[128, 128]` weight transposed reads, at `(k, q)`, the weight at `(q, k)`. -/
theorem rtr128 {α : Type} (v : S128x128.Idx → α) {h : S128x128.Transposes [1, 0] S128x128} (k : Fin 128) (q : Fin 128) :
    transpose S128x128 [1, 0] v h (ix2 k q) = v (ix2 q k) :=
  transpose_ix2_apply v h k q

/-- An `[8, 128]` weight transposed reads, at `(k, q)`, the weight at `(q, k)`. -/
theorem rtr8 {α : Type} (v : S8x128.Idx → α) {h : S8x128.Transposes [1, 0] S128x8} (k : Fin 128) (q : Fin 8) :
    transpose S128x8 [1, 0] v h (ix2 k q) = v (ix2 q k) :=
  transpose_ix2_apply v h k q

/-- A `[128, 15000]` array transposed reads, at `(r, q)`, the array at `(q, r)`. -/
theorem rtr15000 {α : Type} (v : S128x15000.Idx → α) {h : S128x15000.Transposes [1, 0] S15000x128} (r : Fin 15000) (q : Fin 128) :
    transpose S15000x128 [1, 0] v h (ix2 r q) = v (ix2 q r) :=
  transpose_ix2_apply v h r q

/-! ## The bias rows -/

/-- A vector of `n` entries broadcast to one row and then down `m` rows reads, at `(r, q)`, the vector at `q`. -/
theorem rbias {α : Type} {m n : Nat} (b : (⟨1, ![n]⟩ : Shape).Idx → α)
    {h1 : (⟨1, ![n]⟩ : Shape).BroadcastsInDim ⟨2, ![1, n]⟩ ![1]}
    {h2 : (⟨2, ![1, n]⟩ : Shape).BroadcastsInDim ⟨2, ![m, n]⟩ ![0, 1]} (r : Fin m) (q : Fin n) :
    broadcastInDim ⟨2, ![m, n]⟩ ![0, 1] h2 (broadcastInDim ⟨2, ![1, n]⟩ ![1] h1 b) (ix2 r q) = b (ix1 q) :=
  (broadcastInDim_oneRow_apply h2 (broadcastInDim ⟨2, ![1, n]⟩ ![1] h1 b) r q).trans
    (broadcastInDim_apply ![1] h1 b (ix2 (0 : Fin 1) q) (ix1 q) fun a => by
      match a with
      | ⟨0, _⟩ =>
        show q.val = if n = 1 then 0 else q.val
        split
        · have := q.isLt; omega
        · rfl)

/-- The 128-entry bias down 20000 rows. -/
theorem rbias_20000x128 {α : Type} (b : S128.Idx → α) {h1 : S128.BroadcastsInDim S1x128 ![1]}
    {h2 : S1x128.BroadcastsInDim S20000x128 ![0, 1]} (r : Fin 20000) (q : Fin 128) :
    broadcastInDim S20000x128 ![0, 1] h2 (broadcastInDim S1x128 ![1] h1 b) (ix2 r q) = b (ix1 q) :=
  rbias b r q

/-- The 128-entry bias down 15000 rows. -/
theorem rbias_15000x128 {α : Type} (b : S128.Idx → α) {h1 : S128.BroadcastsInDim S1x128 ![1]}
    {h2 : S1x128.BroadcastsInDim S15000x128 ![0, 1]} (r : Fin 15000) (q : Fin 128) :
    broadcastInDim S15000x128 ![0, 1] h2 (broadcastInDim S1x128 ![1] h1 b) (ix2 r q) = b (ix1 q) :=
  rbias b r q

/-- The 128-entry bias down 50000 rows. -/
theorem rbias_50000x128 {α : Type} (b : S128.Idx → α) {h1 : S128.BroadcastsInDim S1x128 ![1]}
    {h2 : S1x128.BroadcastsInDim S50000x128 ![0, 1]} (r : Fin 50000) (q : Fin 128) :
    broadcastInDim S50000x128 ![0, 1] h2 (broadcastInDim S1x128 ![1] h1 b) (ix2 r q) = b (ix1 q) :=
  rbias b r q

/-- The 8-entry bias down 50000 rows. -/
theorem rbias_50000x8 {α : Type} (b : S8.Idx → α) {h1 : S8.BroadcastsInDim S1x8 ![1]}
    {h2 : S1x8.BroadcastsInDim S50000x8 ![0, 1]} (r : Fin 50000) (q : Fin 8) :
    broadcastInDim S50000x8 ![0, 1] h2 (broadcastInDim S1x8 ![1] h1 b) (ix2 r q) = b (ix1 q) :=
  rbias b r q

/-! ## A product against a transposed weight, and a whole linear layer, at an index -/

/-- The host product of `x` with the transpose of a weight `w` of `N` rows and `K` columns, at `(r, q)`: row `r` of `x`
    against row `q` of `w`. -/
theorem rdotT {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    {ht : (⟨2, ![N, K]⟩ : Shape).Transposes [1, 0] ⟨2, ![K, N]⟩} (r : Fin M) (q : Fin N) :
    Host.dotGeneral (F := Ideal) d prec x (transpose ⟨2, ![K, N]⟩ [1, 0] w ht) (ix2 r q)
      = ∑ k : Fin K, x (ix2 r k) * w (ix2 q k) :=
  (rdot d hlc hrc hln hrn hlb hrb prec x (transpose ⟨2, ![K, N]⟩ [1, 0] w ht) r q).trans
    (Finset.sum_congr rfl fun k _ => congrArg (x (ix2 r k) * ·) (transpose_ix2_apply w ht k q))

/-- A whole linear layer `x · wᵀ + b` of the reference (the product, the weight's transpose, the bias broadcast to one
    row and down every row, the sum), at `(r, q)`. -/
theorem rlin {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    {ht : (⟨2, ![N, K]⟩ : Shape).Transposes [1, 0] ⟨2, ![K, N]⟩}
    {h1 : (⟨1, ![N]⟩ : Shape).BroadcastsInDim ⟨2, ![1, N]⟩ ![1]}
    {h2 : (⟨2, ![1, N]⟩ : Shape).BroadcastsInDim ⟨2, ![M, N]⟩ ![0, 1]} (r : Fin M) (q : Fin N) :
    addf (Host.dotGeneral (F := Ideal) d prec x (transpose ⟨2, ![K, N]⟩ [1, 0] w ht))
        (broadcastInDim ⟨2, ![M, N]⟩ ![0, 1] h2 (broadcastInDim ⟨2, ![1, N]⟩ ![1] h1 b)) (ix2 r q)
      = (∑ k : Fin K, x (ix2 r k) * w (ix2 q k)) + b (ix1 q) := by
  rw [addf_apply, rdotT d hlc hrc hln hrn hlb hrb, rbias]

/-! ## The reference's five products against a transposed weight -/

section TransposedProducts
variable [Facts₀]

/-- `features0 · W_preᵀ` (%1) at `(r, q)`. -/
theorem rdotT_20000x512 (prec : Option ContractPrecision) (x : FVec Ideal S20000x512 .f32) (w : FVec Ideal S128x512 .f32)
    {ht : S128x512.Transposes [1, 0] S512x128} (r : Fin 20000) (q : Fin 128) :
    Host.dotGeneral (F := Ideal) dot_S20000x512_S512x128_S20000x128_1_0_0_1_n_n prec x (transpose S512x128 [1, 0] w ht) (ix2 r q)
      = ∑ k : Fin 512, x (ix2 r k) * w (ix2 q k) :=
  rdotT dot_S20000x512_S512x128_S20000x128_1_0_0_1_n_n rfl rfl rfl rfl rfl rfl prec x w r q

/-- A `[50000, 128]` array against a transposed `[128, 128]` weight (%19, %103) at `(r, q)`. -/
theorem rdotT_50000x128 (prec : Option ContractPrecision) (x : FVec Ideal S50000x128 .f32) (w : FVec Ideal S128x128 .f32)
    {ht : S128x128.Transposes [1, 0] S128x128} (r : Fin 50000) (q : Fin 128) :
    Host.dotGeneral (F := Ideal) dot_S50000x128_S128x128_S50000x128_1_0_0_1_n_n prec x (transpose S128x128 [1, 0] w ht) (ix2 r q)
      = ∑ k : Fin 128, x (ix2 r k) * w (ix2 q k) :=
  rdotT dot_S50000x128_S128x128_S50000x128_1_0_0_1_n_n rfl rfl rfl rfl rfl rfl prec x w r q

/-- A `[20000, 128]` array against a transposed `[128, 128]` weight (%56) at `(r, q)`. -/
theorem rdotT_20000x128 (prec : Option ContractPrecision) (x : FVec Ideal S20000x128 .f32) (w : FVec Ideal S128x128 .f32)
    {ht : S128x128.Transposes [1, 0] S128x128} (r : Fin 20000) (q : Fin 128) :
    Host.dotGeneral (F := Ideal) dot_S20000x128_S128x128_S20000x128_1_0_0_1_n_n prec x (transpose S128x128 [1, 0] w ht) (ix2 r q)
      = ∑ k : Fin 128, x (ix2 r k) * w (ix2 q k) :=
  rdotT dot_S20000x128_S128x128_S20000x128_1_0_0_1_n_n rfl rfl rfl rfl rfl rfl prec x w r q

/-- A `[15000, 128]` array against a transposed `[128, 128]` weight (%66, %76) at `(r, q)`. -/
theorem rdotT_15000x128 (prec : Option ContractPrecision) (x : FVec Ideal S15000x128 .f32) (w : FVec Ideal S128x128 .f32)
    {ht : S128x128.Transposes [1, 0] S128x128} (r : Fin 15000) (q : Fin 128) :
    Host.dotGeneral (F := Ideal) dot_S15000x128_S128x128_S15000x128_1_0_0_1_n_n prec x (transpose S128x128 [1, 0] w ht) (ix2 r q)
      = ∑ k : Fin 128, x (ix2 r k) * w (ix2 q k) :=
  rdotT dot_S15000x128_S128x128_S15000x128_1_0_0_1_n_n rfl rfl rfl rfl rfl rfl prec x w r q

/-- A `[50000, 128]` array against a transposed `[8, 128]` weight (%109) at `(r, q)`. -/
theorem rdotT_50000x8 (prec : Option ContractPrecision) (x : FVec Ideal S50000x128 .f32) (w : FVec Ideal S8x128 .f32)
    {ht : S8x128.Transposes [1, 0] S128x8} (r : Fin 50000) (q : Fin 8) :
    Host.dotGeneral (F := Ideal) dot_S50000x128_S128x8_S50000x8_1_0_0_1_n_n prec x (transpose S128x8 [1, 0] w ht) (ix2 r q)
      = ∑ k : Fin 128, x (ix2 r k) * w (ix2 q k) :=
  rdotT dot_S50000x128_S128x8_S50000x8_1_0_0_1_n_n rfl rfl rfl rfl rfl rfl prec x w r q

end TransposedProducts

end Cert.Val.R

end
-- ==== Proof.KI.G0.lean ====
/-
  Region 0's result array is the reference's attributed-type linear layer of the region's input arrays.

  Every grid point stores one row block: element (p, q) of point t's block is the sum over k of the feature block's (p, k)
  times the weight's (q, k), plus the bias at q.  The feature block's row p is the array's row 1000 t + p and the weight
  and bias windows are whole arrays, so the stored element is the reference's layer at (1000 t + p, q); the row blocks tile
  the array.
-/
import proofs.«107237_j10496900072251_2_alg».proof.Proof.KI.C0
import proofs.«107237_j10496900072251_2_alg».proof.Proof.Val.KDots
import proofs.«107237_j10496900072251_2_alg».proof.Proof.Val.RDots
import proofs.«107237_j10496900072251_2_alg».proof.Proof.Ref.Stages

noncomputable section

namespace Cert.KernelIdeal.Fr

open Cert.KernelIdeal Cert.KernelIdeal.Gen Idealize.ShloMosaic Idealize.ShloMosaic.TcCoe Idealize.SL.Sem
open Idealize.ShloMosaic.ValueIdx
open scoped BigOperators

variable [Cert.KernelIdeal.Facts] [Cert.ReferenceIdeal.Facts]
variable (V : (c : Dev nD) → (b : Ref sig .tc) → Buf (Elt Ideal) ((c : Thread nD τ).loc b))

/-- The reference's attributed-type layer at (r, q): the row of the features against row q of the weight, plus the bias at q. -/
theorem hAttr_at (a0 : FVec Ideal Cert.ReferenceIdeal.S20000x512 .f32) (a1 : FVec Ideal Cert.ReferenceIdeal.S128x512 .f32)
    (a2 : FVec Ideal Cert.ReferenceIdeal.S128 .f32) (r : Fin 20000) (q : Fin 128) :
    Cert.ReferenceIdeal.Stages.hAttr (F := Ideal) a0 a1 a2 (ix2 r q) = (∑ k : Fin 512, a0 (ix2 r k) * a1 (ix2 q k)) + a2 (ix1 q) := by
  unfold Cert.ReferenceIdeal.Stages.hAttr
  rw [addf_apply, Cert.Val.R.rdot_20000x512, Cert.Val.R.rbias_20000x128]
  refine congrArg (· + _) (Finset.sum_congr rfl fun k _ => ?_)
  rw [Cert.Val.R.rtr512]

/-- REGION 0's RESULT: after the last grid point the output array is the reference's attributed-type linear layer of the
    region's features, weight and bias. -/
theorem arr0 (c : Dev nD) :
    (dat0 (F := Ideal) V c).arrAt 3 cfg0.N
      = Cert.ReferenceIdeal.Stages.hAttr (F := Ideal) (V c main_arg0) (V c main_arg1) (V c main_arg2) := by
  refine final0_3' V c _ fun t p q => ?_
  rw [Cert.Val.K.k0_pay1_apply, hAttr_at, iblk0_2_apply]
  refine congrArg₂ (· + ·) (Finset.sum_congr rfl fun k _ => ?_) rfl
  rw [iblk0_0_apply, iblk0_1_apply]

end Cert.KernelIdeal.Fr

end
-- ==== Proof.KI.C1.lean ====
/- From blocks to the array, region 1 of @main: the printed index maps in closed form over the grid (a row-blocked
   window's block index at point `t` is (t, 0), a whole window's is zero), where a block's element sits in its array
   (row 1000·t + p), each input block read off the region-entry contents `V`, and each output array after the last
   point as ONE function `G` of its index once every point's stored block is block `t` of `G`: the blocks tile the
   array (row r lies in the block of point r / 1000). Generic in the float instance. -/
import proofs.«107237_j10496900072251_2_alg».proof.Proof.KI.R1
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## Zero offsets, the grid's size, a row's bound -/

theorem zeros2_1 : (![0, 0] : Fin 2 → Nat) = fun _ => 0 := funext fun a => by fin_cases a <;> rfl
theorem zeros1_1 : (![0] : Fin 1 → Nat) = fun _ => 0 := funext fun a => by fin_cases a <;> rfl

/-- The grid has 50 points. -/
theorem tlt1 (t : Fin cfg1.N) : t.val < 50 := lt_of_lt_of_eq t.isLt N_1

/-- Row `p` of block `t` is a row of the array. -/
theorem rowlt1 (t : Fin cfg1.N) (p : Fin 1000) : 1000 * t.val + p.val < 50000 := by
  have := tlt1 t; have := p.isLt; omega

/-! ## The index maps in closed form, decided over the grid -/

/-- Each window's block index at point `t`: a row-blocked window's is (t, 0), a whole window's is zero. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-! ## Where a block's element sits in its array -/

/-- Window 0: element (p, q) of block `t` is element (1000·t + p, q) of the array. -/
theorem emb1_0 (t : Fin cfg1.N) (p : Fin 1000) (q : Fin 128) :
    ((cfg1.win 0).blk t).view.emb (ix2 p q) = (ix2 ⟨1000 * t.val + p.val, rowlt1 t p⟩ q : S50000x128.Idx) := by
  obtain ⟨e0_0, e0_1, e1_0, e1_1, e2_0, e3_0, e3_1⟩ := idx_facts1 t
  funext a; apply Fin.ext
  match a with
  | ⟨0, _⟩ => show win1_0.index t (0 : Fin 2) * 1000 + 1 * p.val = 1000 * t.val + p.val; omega
  | ⟨1, _⟩ => show win1_0.index t (1 : Fin 2) * 128 + 1 * q.val = q.val; omega

/-- Window 1 is its whole array: an element of the block is that element of the array. -/
theorem emb1_1 (t : Fin cfg1.N) (y : S128x128.Idx) : ((cfg1.win 1).blk t).view.emb y = y := by
  obtain ⟨e0_0, e0_1, e1_0, e1_1, e2_0, e3_0, e3_1⟩ := idx_facts1 t
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Window 2 is its whole array: an element of the block is that element of the array. -/
theorem emb1_2 (t : Fin cfg1.N) (y : S128.Idx) : ((cfg1.win 2).blk t).view.emb y = y := by
  obtain ⟨e0_0, e0_1, e1_0, e1_1, e2_0, e3_0, e3_1⟩ := idx_facts1 t
  funext a; apply Fin.ext
  match a with
  | ⟨0, _⟩ => show win1_2.index t (0 : Fin 1) * 128 + 1 * (y 0).val = (y 0).val; omega

/-- Window 3: element (p, q) of block `t` is element (1000·t + p, q) of the array. -/
theorem emb1_3 (t : Fin cfg1.N) (p : Fin 1000) (q : Fin 128) :
    ((cfg1.win 3).blk t).view.emb (ix2 p q) = (ix2 ⟨1000 * t.val + p.val, rowlt1 t p⟩ q : S50000x128.Idx) := by
  obtain ⟨e0_0, e0_1, e1_0, e1_1, e2_0, e3_0, e3_1⟩ := idx_facts1 t
  funext a; apply Fin.ext
  match a with
  | ⟨0, _⟩ => show win1_3.index t (0 : Fin 2) * 1000 + 1 * p.val = 1000 * t.val + p.val; omega
  | ⟨1, _⟩ => show win1_3.index t (1 : Fin 2) * 128 + 1 * q.val = q.val; omega

/-! ## Each input block, read off the region-entry contents -/

/-- Input window 0's block at point `t` is rows 1000·t … 1000·t + 999 of its array. -/
theorem iblk1_0_apply (c : Dev nD) (t : Fin cfg1.N) (p : Fin 1000) (q : Fin 128) :
    (iblk1 V c 0 t : Vec F S1000x128 .f32) (ix2 p q)
      = (V c (Pipeline.arrRef spec1 0) : S50000x128.Idx → Elt F .f32) (ix2 ⟨1000 * t.val + p.val, rowlt1 t p⟩ q) := by
  unfold iblk1
  rw [View.read_apply]
  show (V c (Pipeline.arrRef spec1 0) : S50000x128.Idx → Elt F .f32) (((cfg1.win 0).blk t).view.emb (ix2 p q)) = _
  rw [emb1_0]

/-- Input window 1's block at every point is its whole array. -/
theorem iblk1_1_apply (c : Dev nD) (t : Fin cfg1.N) (y : S128x128.Idx) :
    (iblk1 V c 1 t : Vec F S128x128 .f32) y = (V c (Pipeline.arrRef spec1 1) : S128x128.Idx → Elt F .f32) y := by
  unfold iblk1
  rw [View.read_apply]
  show (V c (Pipeline.arrRef spec1 1) : S128x128.Idx → Elt F .f32) (((cfg1.win 1).blk t).view.emb y) = _
  rw [emb1_1]

/-- Input window 2's block at every point is its whole array. -/
theorem iblk1_2_apply (c : Dev nD) (t : Fin cfg1.N) (y : S128.Idx) :
    (iblk1 V c 2 t : Vec F S128 .f32) y = (V c (Pipeline.arrRef spec1 2) : S128.Idx → Elt F .f32) y := by
  unfold iblk1
  rw [View.read_apply]
  show (V c (Pipeline.arrRef spec1 2) : S128.Idx → Elt F .f32) (((cfg1.win 2).blk t).view.emb y) = _
  rw [emb1_2]

/-! ## Output window 3: the blocks tile the array, so the array ends at one function of its index -/

/-- An index of the array is in point `t`'s block iff each coordinate is in the block's range on its axis. -/
theorem mem_blk1_3 (t : Fin cfg1.N) (i : S50000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v13).slice (win1_3.rect t)).set ↔ _
  rw [View.set_slice_whole, Rect.mem_set_unit]
  exact Iff.rfl

/-- Every index of the array is in some point's block: row `r` is in the block of point `r / 1000`. -/
theorem arr_cover1_3 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, lt_of_lt_of_eq (show (i 0).val / 1000 < 50 by omega) N_1.symm⟩, rfl⟩
  obtain ⟨e0_0, e0_1, e1_0, e1_1, e2_0, e3_0, e3_1⟩ := idx_facts1 t
  refine ⟨t, flush1_3 t, ?_⟩
  rw [mem_blk1_3]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 128 ≤ (i 1).val ∧ (i 1).val < win1_3.index t (1 : Fin 2) * 128 + 128; omega

/-- The array after the last point is `G`, once what every point leaves in the window's buffer is block `t` of `G`. -/
theorem final1_3 (c : Dev nD) (G : S50000x128.Idx → Elt F .f32)
    (hflush : ∀ t : Fin cfg1.N, out1_3 (iblk1 V c 0 t) (iblk1 V c 1 t) (iblk1 V c 2 t) = ((cfg1.win 3).blk t).view.read (Elt F) G) :
    (dat1 V c).arrAt 3 cfg1.N = G :=
  (dat1 V c).arrAt_eq_of_cover 3 G (fun t _ => by
      show (cfg1.win 3).cut (grid1.coords t) ((dat1 V c).after 3 t) = _
      rw [after1_3]
      exact hflush t) arr_cover1_3

/-- The same from the payload point by point: element (p, q) of what point `t` stores is `G` at row 1000·t + p. -/
theorem final1_3' (c : Dev nD) (G : S50000x128.Idx → Elt F .f32)
    (hpt : ∀ (t : Fin cfg1.N) (p : Fin 1000) (q : Fin 128),
      k1_pay1 (iblk1 V c 0 t) (iblk1 V c 1 t) (iblk1 V c 2 t) (ix2 p q) = G (ix2 ⟨1000 * t.val + p.val, rowlt1 t p⟩ q)) :
    (dat1 V c).arrAt 3 cfg1.N = G :=
  final1_3 V c G fun t => by
    unfold out1_3
    rw [View.canon_unit_zero zeros2_1]
    simp only [View.ld_unit_zero (S := S1000x128) zeros2_1, View.ld_unit_zero (S := S128x128) zeros2_1, View.ld_unit_zero (S := S128) zeros1_1]
    funext (j : S1000x128.Idx)
    rw [View.read_apply]
    obtain ⟨p, q, rfl⟩ : ∃ (p : Fin 1000) (q : Fin 128), j = ix2 p q := ⟨j 0, j 1, eq_ix2 j⟩
    show _ = G (((cfg1.win 3).blk t).view.emb (ix2 p q))
    rw [emb1_3]
    exact hpt t p q

end Cert.KernelIdeal.Fr

end
-- ==== Proof.KI.G1.lean ====
/-
  Region 1's result array is the reference's shared linear layer of the region's input arrays.

  Every grid point stores one row block: element (p, q) of point t's block is the sum over k of the input block's (p, k)
  times the weight's (q, k), plus the bias at q.  The input block's row p is the array's row 1000 t + p and the weight and
  bias windows are whole arrays, so the stored element is the reference's layer at (1000 t + p, q); the row blocks tile the array.
-/
import proofs.«107237_j10496900072251_2_alg».proof.Proof.KI.C1
import proofs.«107237_j10496900072251_2_alg».proof.Proof.Val.KDots
import proofs.«107237_j10496900072251_2_alg».proof.Proof.Val.RDots
import proofs.«107237_j10496900072251_2_alg».proof.Proof.Ref.Stages

noncomputable section

namespace Cert.KernelIdeal.Fr

open Cert.KernelIdeal Cert.KernelIdeal.Gen Idealize.ShloMosaic Idealize.ShloMosaic.TcCoe Idealize.SL.Sem
open Idealize.ShloMosaic.ValueIdx
open scoped BigOperators

variable [Cert.KernelIdeal.Facts] [Cert.ReferenceIdeal.Facts]
variable (V : (c : Dev nD) → (b : Ref sig .tc) → Buf (Elt Ideal) ((c : Thread nD τ).loc b))

/-- The reference's [128, 128] linear layer at (r, q): the row of the table against row q of the weight, plus the bias at q. -/
theorem lin1_at (x : FVec Ideal Cert.ReferenceIdeal.S50000x128 .f32) (w : FVec Ideal Cert.ReferenceIdeal.S128x128 .f32)
    (b : FVec Ideal Cert.ReferenceIdeal.S128 .f32) (r : Fin 50000) (q : Fin 128) :
    Cert.ReferenceIdeal.Stages.lin1 (F := Ideal) x w b (ix2 r q) = (∑ k : Fin 128, x (ix2 r k) * w (ix2 q k)) + b (ix1 q) := by
  unfold Cert.ReferenceIdeal.Stages.lin1
  rw [addf_apply, Cert.Val.R.rdot_50000x128, Cert.Val.R.rbias_50000x128]
  refine congrArg (· + _) (Finset.sum_congr rfl fun k _ => ?_)
  rw [Cert.Val.R.rtr128]

/-- REGION 1's RESULT: after the last grid point the output array is the reference's [128, 128] linear layer of the
    region's input table, weight and bias. -/
theorem arr1 (c : Dev nD) :
    (dat1 (F := Ideal) V c).arrAt 3 cfg1.N
      = Cert.ReferenceIdeal.Stages.lin1 (F := Ideal) (V c main_v2) (V c main_arg7) (V c main_arg8) := by
  refine final1_3' V c _ fun t p q => ?_
  rw [Cert.Val.K.k1_pay1_apply, lin1_at, iblk1_2_apply]
  refine congrArg₂ (· + ·) (Finset.sum_congr rfl fun k _ => ?_) rfl
  rw [iblk1_0_apply, iblk1_1_apply]

end Cert.KernelIdeal.Fr

end
-- ==== Proof.KI.C2.lean ====
/- From blocks to the array, region 2 of @main: the printed index maps in closed form over the grid (a row-blocked
   window's block index at point `t` is (t, 0), a whole window's is zero), where a block's element sits in its array
   (row 1000·t + p), each input block read off the region-entry contents `V`, and each output array after the last
   point as ONE function `G` of its index once every point's stored block is block `t` of `G`: the blocks tile the
   array (row r lies in the block of point r / 1000). Generic in the float instance. -/
import proofs.«107237_j10496900072251_2_alg».proof.Proof.KI.R2
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## Zero offsets, the grid's size, a row's bound -/

theorem zeros2_2 : (![0, 0] : Fin 2 → Nat) = fun _ => 0 := funext fun a => by fin_cases a <;> rfl
theorem zeros1_2 : (![0] : Fin 1 → Nat) = fun _ => 0 := funext fun a => by fin_cases a <;> rfl

/-- The grid has 50 points. -/
theorem tlt2 (t : Fin cfg2.N) : t.val < 50 := lt_of_lt_of_eq t.isLt N_2

/-- Row `p` of block `t` is a row of the array. -/
theorem rowlt2 (t : Fin cfg2.N) (p : Fin 1000) : 1000 * t.val + p.val < 50000 := by
  have := tlt2 t; have := p.isLt; omega

/-! ## The index maps in closed form, decided over the grid -/

/-- Each window's block index at point `t`: a row-blocked window's is (t, 0), a whole window's is zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = t.val
    ∧ win2_4.index t (1 : Fin 2) = 0 :=
  (by decide +kernel : ∀ t : Fin grid2.N, _)

/-! ## Where a block's element sits in its array -/

/-- Window 0: element (p, q) of block `t` is element (1000·t + p, q) of the array. -/
theorem emb2_0 (t : Fin cfg2.N) (p : Fin 1000) (q : Fin 128) :
    ((cfg2.win 0).blk t).view.emb (ix2 p q) = (ix2 ⟨1000 * t.val + p.val, rowlt2 t p⟩ q : S50000x128.Idx) := by
  obtain ⟨e0_0, e0_1, e1_0, e1_1, e2_0, e2_1, e3_0, e3_1, e4_0, e4_1⟩ := idx_facts2 t
  funext a; apply Fin.ext
  match a with
  | ⟨0, _⟩ => show win2_0.index t (0 : Fin 2) * 1000 + 1 * p.val = 1000 * t.val + p.val; omega
  | ⟨1, _⟩ => show win2_0.index t (1 : Fin 2) * 128 + 1 * q.val = q.val; omega

/-- Window 1: element (p, q) of block `t` is element (1000·t + p, q) of the array. -/
theorem emb2_1 (t : Fin cfg2.N) (p : Fin 1000) (q : Fin 128) :
    ((cfg2.win 1).blk t).view.emb (ix2 p q) = (ix2 ⟨1000 * t.val + p.val, rowlt2 t p⟩ q : S50000x128.Idx) := by
  obtain ⟨e0_0, e0_1, e1_0, e1_1, e2_0, e2_1, e3_0, e3_1, e4_0, e4_1⟩ := idx_facts2 t
  funext a; apply Fin.ext
  match a with
  | ⟨0, _⟩ => show win2_1.index t (0 : Fin 2) * 1000 + 1 * p.val = 1000 * t.val + p.val; omega
  | ⟨1, _⟩ => show win2_1.index t (1 : Fin 2) * 128 + 1 * q.val = q.val; omega

/-- Window 2: element (p, q) of block `t` is element (1000·t + p, q) of the array. -/
theorem emb2_2 (t : Fin cfg2.N) (p : Fin 1000) (q : Fin 128) :
    ((cfg2.win 2).blk t).view.emb (ix2 p q) = (ix2 ⟨1000 * t.val + p.val, rowlt2 t p⟩ q : S50000x128.Idx) := by
  obtain ⟨e0_0, e0_1, e1_0, e1_1, e2_0, e2_1, e3_0, e3_1, e4_0, e4_1⟩ := idx_facts2 t
  funext a; apply Fin.ext
  match a with
  | ⟨0, _⟩ => show win2_2.index t (0 : Fin 2) * 1000 + 1 * p.val = 1000 * t.val + p.val; omega
  | ⟨1, _⟩ => show win2_2.index t (1 : Fin 2) * 128 + 1 * q.val = q.val; omega

/-- Window 3: element (p, q) of block `t` is element (1000·t + p, q) of the array. -/
theorem emb2_3 (t : Fin cfg2.N) (p : Fin 1000) (q : Fin 1) :
    ((cfg2.win 3).blk t).view.emb (ix2 p q) = (ix2 ⟨1000 * t.val + p.val, rowlt2 t p⟩ q : S50000x1.Idx) := by
  obtain ⟨e0_0, e0_1, e1_0, e1_1, e2_0, e2_1, e3_0, e3_1, e4_0, e4_1⟩ := idx_facts2 t
  funext a; apply Fin.ext
  match a with
  | ⟨0, _⟩ => show win2_3.index t (0 : Fin 2) * 1000 + 1 * p.val = 1000 * t.val + p.val; omega
  | ⟨1, _⟩ => show win2_3.index t (1 : Fin 2) * 1 + 1 * q.val = q.val; omega

/-- Window 4: element (p, q) of block `t` is element (1000·t + p, q) of the array. -/
theorem emb2_4 (t : Fin cfg2.N) (p : Fin 1000) (q : Fin 128) :
    ((cfg2.win 4).blk t).view.emb (ix2 p q) = (ix2 ⟨1000 * t.val + p.val, rowlt2 t p⟩ q : S50000x128.Idx) := by
  obtain ⟨e0_0, e0_1, e1_0, e1_1, e2_0, e2_1, e3_0, e3_1, e4_0, e4_1⟩ := idx_facts2 t
  funext a; apply Fin.ext
  match a with
  | ⟨0, _⟩ => show win2_4.index t (0 : Fin 2) * 1000 + 1 * p.val = 1000 * t.val + p.val; omega
  | ⟨1, _⟩ => show win2_4.index t (1 : Fin 2) * 128 + 1 * q.val = q.val; omega

/-! ## Each input block, read off the region-entry contents -/

/-- Input window 0's block at point `t` is rows 1000·t … 1000·t + 999 of its array. -/
theorem iblk2_0_apply (c : Dev nD) (t : Fin cfg2.N) (p : Fin 1000) (q : Fin 128) :
    (iblk2 V c 0 t : Vec F S1000x128 .f32) (ix2 p q)
      = (V c (Pipeline.arrRef spec2 0) : S50000x128.Idx → Elt F .f32) (ix2 ⟨1000 * t.val + p.val, rowlt2 t p⟩ q) := by
  unfold iblk2
  rw [View.read_apply]
  show (V c (Pipeline.arrRef spec2 0) : S50000x128.Idx → Elt F .f32) (((cfg2.win 0).blk t).view.emb (ix2 p q)) = _
  rw [emb2_0]

/-- Input window 1's block at point `t` is rows 1000·t … 1000·t + 999 of its array. -/
theorem iblk2_1_apply (c : Dev nD) (t : Fin cfg2.N) (p : Fin 1000) (q : Fin 128) :
    (iblk2 V c 1 t : Vec F S1000x128 .f32) (ix2 p q)
      = (V c (Pipeline.arrRef spec2 1) : S50000x128.Idx → Elt F .f32) (ix2 ⟨1000 * t.val + p.val, rowlt2 t p⟩ q) := by
  unfold iblk2
  rw [View.read_apply]
  show (V c (Pipeline.arrRef spec2 1) : S50000x128.Idx → Elt F .f32) (((cfg2.win 1).blk t).view.emb (ix2 p q)) = _
  rw [emb2_1]

/-- Input window 2's block at point `t` is rows 1000·t … 1000·t + 999 of its array. -/
theorem iblk2_2_apply (c : Dev nD) (t : Fin cfg2.N) (p : Fin 1000) (q : Fin 128) :
    (iblk2 V c 2 t : Vec F S1000x128 .f32) (ix2 p q)
      = (V c (Pipeline.arrRef spec2 2) : S50000x128.Idx → Elt F .f32) (ix2 ⟨1000 * t.val + p.val, rowlt2 t p⟩ q) := by
  unfold iblk2
  rw [View.read_apply]
  show (V c (Pipeline.arrRef spec2 2) : S50000x128.Idx → Elt F .f32) (((cfg2.win 2).blk t).view.emb (ix2 p q)) = _
  rw [emb2_2]

/-- Input window 3's block at point `t` is rows 1000·t … 1000·t + 999 of its array. -/
theorem iblk2_3_apply (c : Dev nD) (t : Fin cfg2.N) (p : Fin 1000) (q : Fin 1) :
    (iblk2 V c 3 t : Vec F S1000x1 .f32) (ix2 p q)
      = (V c (Pipeline.arrRef spec2 3) : S50000x1.Idx → Elt F .f32) (ix2 ⟨1000 * t.val + p.val, rowlt2 t p⟩ q) := by
  unfold iblk2
  rw [View.read_apply]
  show (V c (Pipeline.arrRef spec2 3) : S50000x1.Idx → Elt F .f32) (((cfg2.win 3).blk t).view.emb (ix2 p q)) = _
  rw [emb2_3]

/-! ## Output window 4: the blocks tile the array, so the array ends at one function of its index -/

/-- An index of the array is in point `t`'s block iff each coordinate is in the block's range on its axis. -/
theorem mem_blk2_4 (t : Fin cfg2.N) (i : S50000x128.Idx) :
    i ∈ ((cfg2.win 4).blk t).view.set ↔ ∀ a : Fin 2, win2_4.index t a * S1000x128.size a ≤ (i a).val ∧ (i a).val < win2_4.index t a * S1000x128.size a + S1000x128.size a := by
  show i ∈ ((View.whole main_v40).slice (win2_4.rect t)).set ↔ _
  rw [View.set_slice_whole, Rect.mem_set_unit]
  exact Iff.rfl

/-- Every index of the array is in some point's block: row `r` is in the block of point `r / 1000`. -/
theorem arr_cover2_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ : ∃ t : Fin cfg2.N, t.val = (i 0).val / 1000 :=
    ⟨⟨(i 0).val / 1000, lt_of_lt_of_eq (show (i 0).val / 1000 < 50 by omega) N_2.symm⟩, rfl⟩
  obtain ⟨e0_0, e0_1, e1_0, e1_1, e2_0, e2_1, e3_0, e3_1, e4_0, e4_1⟩ := idx_facts2 t
  refine ⟨t, flush2_4 t, ?_⟩
  rw [mem_blk2_4]
  intro a
  match a with
  | ⟨0, _⟩ => show win2_4.index t (0 : Fin 2) * 1000 ≤ (i 0).val ∧ (i 0).val < win2_4.index t (0 : Fin 2) * 1000 + 1000; omega
  | ⟨1, _⟩ => show win2_4.index t (1 : Fin 2) * 128 ≤ (i 1).val ∧ (i 1).val < win2_4.index t (1 : Fin 2) * 128 + 128; omega

/-- The array after the last point is `G`, once what every point leaves in the window's buffer is block `t` of `G`. -/
theorem final2_4 (c : Dev nD) (G : S50000x128.Idx → Elt F .f32)
    (hflush : ∀ t : Fin cfg2.N, out2_4 (iblk2 V c 0 t) (iblk2 V c 1 t) (iblk2 V c 2 t) (iblk2 V c 3 t) = ((cfg2.win 4).blk t).view.read (Elt F) G) :
    (dat2 V c).arrAt 4 cfg2.N = G :=
  (dat2 V c).arrAt_eq_of_cover 4 G (fun t _ => by
      show (cfg2.win 4).cut (grid2.coords t) ((dat2 V c).after 4 t) = _
      rw [after2_4]
      exact hflush t) arr_cover2_4

/-- The same from the payload point by point: element (p, q) of what point `t` stores is `G` at row 1000·t + p. -/
theorem final2_4' (c : Dev nD) (G : S50000x128.Idx → Elt F .f32)
    (hpt : ∀ (t : Fin cfg2.N) (p : Fin 1000) (q : Fin 128),
      k2_pay1 (iblk2 V c 3 t) (iblk2 V c 0 t) (iblk2 V c 1 t) (iblk2 V c 2 t) (ix2 p q) = G (ix2 ⟨1000 * t.val + p.val, rowlt2 t p⟩ q)) :
    (dat2 V c).arrAt 4 cfg2.N = G :=
  final2_4 V c G fun t => by
    unfold out2_4
    rw [View.canon_unit_zero zeros2_2]
    simp only [View.ld_unit_zero (S := S1000x1) zeros2_2, View.ld_unit_zero (S := S1000x128) zeros2_2]
    funext (j : S1000x128.Idx)
    rw [View.read_apply]
    obtain ⟨p, q, rfl⟩ : ∃ (p : Fin 1000) (q : Fin 128), j = ix2 p q := ⟨j 0, j 1, eq_ix2 j⟩
    show _ = G (((cfg2.win 4).blk t).view.emb (ix2 p q))
    rw [emb2_4]
    exact hpt t p q

end Cert.KernelIdeal.Fr

end
-- ==== Proof.Val.Elem.lean ====
/-
  The two pointwise stages, element by element: the masked sum of region 2 and the exponential linear unit of region 4,
  the kernel's block values against the reference's whole-array stages.

  Region 2 stores, per row block, h0 + (one-hot where the selection float is above zero, aggregated rows elsewhere); the
  reference computes h0 + (one-hot where the table mask holds, aggregated rows elsewhere) on whole arrays.  With every
  node_assign entry in {0, 1, 2, 3} the selection float is above zero exactly where the table mask holds, so a block element is
  the whole-array element at the block's row offset.
  Region 4 stores x where x > 0 and exp x - 1 elsewhere; the reference computes x where x > 0 and
  1 * expm1 (0 where x > 0, x elsewhere) elsewhere: where x > 0 both are x, elsewhere both are exp x - 1.
-/
import proofs.«107237_j10496900072251_2_alg».proof.Proof.Gen.KernelIdeal.Skeleton
import proofs.«107237_j10496900072251_2_alg».proof.Proof.Ref.Stages
import proofs.«107237_j10496900072251_2_alg».proof.Proof.Dom.Mask
import Idealize.ShloMosaic.Lib.ValueIdx
import Idealize.ShloMosaic.Lib.IdealHost
import Idealize.ShloMosaic.Lib.Pipeline.Value

noncomputable section

namespace Cert.Val.E

open Idealize.ShloMosaic Idealize.ShloMosaic.ValueIdx
open Cert.KernelIdeal (S1000x1 S1000x128 S128x128 S128)
open Cert.ReferenceIdeal (S_ S4 S50000 S50000x1 S50000x128)
open Cert.ReferenceIdeal.Stages (Arr)

/-! ## Region 2: the masked sum -/

section K2
variable [Cert.KernelIdeal.Facts]

/-- Element `(p, q)` of region 2's stored block: the h0 entry plus the one-hot entry where row `p`'s selection float is above
    zero, the aggregated entry elsewhere. -/
theorem k2_apply (v0 : Vec Ideal S1000x1 .f32) (v4 v8 v10 : Vec Ideal S1000x128 .f32) (p : Fin 1000) (q : Fin 128) :
    Cert.KernelIdeal.Gen.k2_pay1 (F := Ideal) v0 v4 v8 v10 (ix2 p q)
      = v4 (ix2 p q) + Scalar.select (FloatOps.cmpf .ogt (v0 (ix2 p (0 : Fin 1))) (Ideal.ofBits .f32 0x00000000#32))
          (v8 (ix2 p q)) (v10 (ix2 p q)) := by
  unfold Cert.KernelIdeal.Gen.k2_pay1
  simp only [shapeCast_self]
  rw [addf_apply, select_apply, cmpf_apply, Cert.Dom.broadcastTo_col_apply, broadcast_apply]
  rfl

end K2

/-! ## The reference's masked sum, at an element -/

section Ref2
variable [Cert.ReferenceIdeal.Facts]
open Cert.ReferenceIdeal.Facts₀ Cert.ReferenceIdeal.Facts

/-- Element `(r, q)` of the reference's masked sum: the h0 entry plus the one-hot entry where the mask holds, the aggregated
    entry elsewhere. -/
theorem hAttributed_apply (h0v oh gcn : Arr Ideal S50000x128 .f32) (a17 : Arr Ideal S50000 .i32) (r : Fin 50000) (q : Fin 128) :
    Cert.ReferenceIdeal.Stages.hAttributed (F := Ideal) h0v oh gcn a17 (ix2 r q)
      = h0v (ix2 r q) + Scalar.select (Cert.ReferenceIdeal.Stages.selMask (F := Ideal) a17 (ix2 r q))
          (oh (ix2 r q)) (gcn (ix2 r q)) := rfl

/-- The reference's mask stage is the table mask of the node_assign module, at the reference's own side conditions. -/
theorem selMask_eq_refMask (a17 : Arr Ideal S50000 .i32) :
    Cert.ReferenceIdeal.Stages.selMask (F := Ideal) a17
      = Cert.Dom.refMask a17 bcast_S_S50000 bcast_S50000_S50000x1_0 bcast_S50000x1_S50000x128_0_1
          gather_S4_S50000x1_S50000_n_0_n_n_0_1_1_wf := rfl

end Ref2

/-! ## Region 2 against the reference -/

section Glue2
variable [Cert.KernelIdeal.Facts] [Cert.ReferenceIdeal.Facts]
open Cert.ReferenceIdeal.Facts₀ Cert.ReferenceIdeal.Facts

/-- REGION 2's BLOCK IS THE REFERENCE's MASKED SUM AT THE BLOCK's ROWS.  Block `tt` holds rows `1000 tt + p`; its four
    operands are the selection column's, h0's, the one-hot table's and the aggregated table's rows there; every node_assign
    entry is 0, 1, 2 or 3. -/
theorem k2_glue (a17 : IVec S50000 32)
    (hr : ∀ r : Fin 50000, a17 (ix1 r) = 0#32 ∨ a17 (ix1 r) = 1#32 ∨ a17 (ix1 r) = 2#32 ∨ a17 (ix1 r) = 3#32)
    (hb0 : S_.BroadcastsInDim S50000 (![] : Fin 0 → Fin S50000.rank))
    (hb1 : S50000.BroadcastsInDim S50000x1 (![0] : Fin 1 → Fin S50000x1.rank))
    (H0 OH GCN : Arr Ideal S50000x128 .f32) (tt : Nat) (htt : tt < 50)
    (v0 : Vec Ideal S1000x1 .f32) (v4 v8 v10 : Vec Ideal S1000x128 .f32)
    (h0 : ∀ p : Fin 1000, v0 (ix2 p (0 : Fin 1))
      = Cert.Dom.selCol (F := Ideal) a17 hb0 hb1 (ix2 ⟨1000 * tt + p.val, by have := p.isLt; omega⟩ (0 : Fin 1)))
    (h4 : ∀ (p : Fin 1000) (q : Fin 128), v4 (ix2 p q) = H0 (ix2 ⟨1000 * tt + p.val, by have := p.isLt; omega⟩ q))
    (h8 : ∀ (p : Fin 1000) (q : Fin 128), v8 (ix2 p q) = OH (ix2 ⟨1000 * tt + p.val, by have := p.isLt; omega⟩ q))
    (h10 : ∀ (p : Fin 1000) (q : Fin 128), v10 (ix2 p q) = GCN (ix2 ⟨1000 * tt + p.val, by have := p.isLt; omega⟩ q))
    (p : Fin 1000) (q : Fin 128) :
    Cert.KernelIdeal.Gen.k2_pay1 (F := Ideal) v0 v4 v8 v10 (ix2 p q)
      = Cert.ReferenceIdeal.Stages.hAttributed (F := Ideal) H0 OH GCN a17
          (ix2 ⟨1000 * tt + p.val, by have := p.isLt; omega⟩ q) := by
  rw [k2_apply, hAttributed_apply, selMask_eq_refMask, h0, h4, h8, h10]
  exact congrArg (fun b => H0 _ + Scalar.select b (OH _) (GCN _))
    (Cert.Dom.mask_eq a17 hr hb0 hb1 bcast_S50000x1_S50000x128_0_1 gather_S4_S50000x1_S50000_n_0_n_n_0_1_1_wf _ q)

end Glue2

/-! ## Region 4: the exponential linear unit -/

section K4
variable {F : FTy → Type} [FloatOps F] [Cert.KernelIdeal.Facts]
open Cert.KernelIdeal Cert.KernelIdeal.Facts₀ Cert.KernelIdeal.Facts

/-- Region 4's linear part: the block times the transposed projection weight (both rounded to bf16 first), plus the bias
    along the rows. -/
def klin4 (v0 : Vec F S1000x128 .f32) (v3 : Vec F S128x128 .f32) (v7 : Vec F S128 .f32) : FVec F S1000x128 .f32 :=
  addf
    (matmul dot_S1000x128_S128x128_S1000x128_1_0_0_1_n_n none
      (truncf .bf16 (shapeCast S1000x128 v0 shapeCasts_S1000x128_S1000x128) bitsLt_bf16_f32)
      (transpose S128x128 [1, 0] (truncf .bf16 v3 bitsLt_bf16_f32) transposes_S128x128_p1_0_S128x128)
      (constant S1000x128 .f32 0x00000000#32))
    (broadcastTo S1000x128 (shapeCast S1x128 v7 shapeCasts_S128_S1x128) broadcasts_S1x128_S1000x128)

/-- Region 4's unit on a block: x where x > 0, exp x - 1 elsewhere. -/
def kelu (pr : FVec F S1000x128 .f32) : FVec F S1000x128 .f32 :=
  select (cmpf .ogt pr (broadcast S1000x128 (Scalar.ofBits .f32 0x00000000#32))) pr
    (subf (exp pr) (broadcast S1000x128 (Scalar.ofBits .f32 0x3F800000#32)))

/-- Region 4's first stored block is the unit of its linear part. -/
theorem k4_pay1_eq (v0 : Vec F S1000x128 .f32) (v3 : Vec F S128x128 .f32) (v7 : Vec F S128 .f32) :
    Cert.KernelIdeal.Gen.k4_pay1 v0 v3 v7 = kelu (klin4 v0 v3 v7) := rfl

end K4

/-- The kernel's unit on one value. -/
def keluS (x : EReal) : EReal :=
  Scalar.select (Ideal.cmp .ogt x (Ideal.ofBits .f32 0x00000000#32)) x (Ideal.exp x - Ideal.ofBits .f32 0x3F800000#32)

/-- The reference's unit on one value. -/
def reluS (x : EReal) : EReal :=
  Scalar.select (Ideal.cmp .ogt x (Ideal.ofBits .f32 0x00000000#32)) x
    (Ideal.ofBits .f32 0x3F800000#32
      * (Ideal.exp (Scalar.select (Ideal.cmp .ogt x (Ideal.ofBits .f32 0x00000000#32)) (Ideal.ofBits .f32 0x00000000#32) x) - 1))

/-- ONE VALUE: where x > 0 both units are x; elsewhere the reference's inner choice is x, and 1 * (exp x - 1) = exp x - 1. -/
theorem elu_elem (x : EReal) : keluS x = reluS x := by
  unfold keluS reluS
  by_cases h : Ideal.cmp .ogt x (Ideal.ofBits .f32 0x00000000#32) = 1#1
  · rw [h, select_one, select_one]
  · rw [eq_zero_of_ne_one h, select_zero, select_zero, select_zero, Ideal.ofBits_one_f32, one_mul]

section Glue4
variable [Cert.KernelIdeal.Facts] [Cert.ReferenceIdeal.Facts]

/-- Element `(p, q)` of the kernel's unit on a block is the one-value unit of the block's element. -/
theorem kelu_apply (pr : FVec Ideal S1000x128 .f32) (p : Fin 1000) (q : Fin 128) :
    kelu (F := Ideal) pr (ix2 p q) = keluS (pr (ix2 p q)) := rfl

/-- Element `(r, q)` of the reference's unit is the one-value unit of the array's element. -/
theorem elu_apply (P : Arr Ideal S50000x128 .f32) (r : Fin 50000) (q : Fin 128) :
    Cert.ReferenceIdeal.Stages.elu (F := Ideal) P (ix2 r q) = reluS (P (ix2 r q)) := rfl

/-- REGION 4's UNIT ON A BLOCK IS THE REFERENCE's UNIT AT THE BLOCK's ROWS. -/
theorem elu_glue (P : Arr Ideal S50000x128 .f32) (tt : Nat) (htt : tt < 50) (pr : FVec Ideal S1000x128 .f32)
    (hpr : ∀ (p : Fin 1000) (q : Fin 128), pr (ix2 p q) = P (ix2 ⟨1000 * tt + p.val, by have := p.isLt; omega⟩ q))
    (p : Fin 1000) (q : Fin 128) :
    kelu (F := Ideal) pr (ix2 p q)
      = Cert.ReferenceIdeal.Stages.elu (F := Ideal) P (ix2 ⟨1000 * tt + p.val, by have := p.isLt; omega⟩ q) := by
  rw [kelu_apply, elu_apply, hpr, elu_elem]

end Glue4

end Cert.Val.E

end
-- ==== Proof.KI.G2.lean ====
/-
  Region 2's result array is the reference's masked sum of the region's input arrays.

  Every grid point stores one row block: element (p, q) of point t's block is the h0 block's entry plus the one-hot block's
  entry where row p of the selection block is above zero, the aggregated block's entry elsewhere.  Each input block's row p
  is its array's row 1000 t + p; the selection array is the float of the word (node_assign = 0 or node_assign = 3), which
  for node_assign entries in {0, 1, 2, 3} is above zero exactly where the reference's table mask holds.  So the stored element
  is the reference's masked sum at (1000 t + p, q); the row blocks tile the array.
-/
import proofs.«107237_j10496900072251_2_alg».proof.Proof.KI.C2
import proofs.«107237_j10496900072251_2_alg».proof.Proof.Val.KDots
import proofs.«107237_j10496900072251_2_alg».proof.Proof.Val.RDots
import proofs.«107237_j10496900072251_2_alg».proof.Proof.Ref.Stages
import proofs.«107237_j10496900072251_2_alg».proof.Proof.Val.Elem

noncomputable section

namespace Cert.KernelIdeal.Fr

open Cert.KernelIdeal Cert.KernelIdeal.Gen Idealize.ShloMosaic Idealize.ShloMosaic.TcCoe Idealize.SL.Sem
open Idealize.ShloMosaic.ValueIdx
open scoped BigOperators

variable [Cert.KernelIdeal.Facts] [Cert.ReferenceIdeal.Facts]
variable (V : (c : Dev nD) → (b : Ref sig .tc) → Buf (Elt Ideal) ((c : Thread nD τ).loc b))

/-- REGION 2's RESULT: after the last grid point the output array is the reference's masked sum of the region's h0,
    one-hot and aggregated tables, given that the selection array is the selection column of node_assign and every
    node_assign entry is 0, 1, 2 or 3. -/
theorem arr2 (c : Dev nD) (a17 : IVec Cert.ReferenceIdeal.S50000 32)
    (hr : ∀ r : Fin 50000, a17 (ix1 r) = 0#32 ∨ a17 (ix1 r) = 1#32 ∨ a17 (ix1 r) = 2#32 ∨ a17 (ix1 r) = 3#32)
    {hb0 : Cert.ReferenceIdeal.S_.BroadcastsInDim Cert.ReferenceIdeal.S50000 (![] : Fin 0 → Fin Cert.ReferenceIdeal.S50000.rank)}
    {hb1 : Cert.ReferenceIdeal.S50000.BroadcastsInDim Cert.ReferenceIdeal.S50000x1 (![0] : Fin 1 → Fin Cert.ReferenceIdeal.S50000x1.rank)}
    (hsel : V c main_v39 = Cert.Dom.selCol (F := Ideal) a17 hb0 hb1) :
    (dat2 (F := Ideal) V c).arrAt 4 cfg2.N
      = Cert.ReferenceIdeal.Stages.hAttributed (F := Ideal) (V c main_v2) (V c main_v12) (V c main_v32) a17 := by
  refine final2_4' V c _ fun t p q => ?_
  refine Cert.Val.E.k2_glue a17 hr hb0 hb1 (V c main_v2) (V c main_v12) (V c main_v32) t.val (tlt2 t) _ _ _ _
    (fun p' => ?_) (fun p' q' => ?_) (fun p' q' => ?_) (fun p' q' => ?_) p q
  · exact (iblk2_3_apply V c t p' 0).trans (congrFun hsel _)
  · exact iblk2_0_apply V c t p' q'
  · exact iblk2_1_apply V c t p' q'
  · exact iblk2_2_apply V c t p' q'

end Cert.KernelIdeal.Fr

end
-- ==== Proof.KI.C3.lean ====
/- From blocks to the array, region 3 of @main (the grouped linear layer, whose weight and bias windows pick their
   block through a prefetched table), at ANY admissible contents `a` of the table: the activation and output
   windows' block index at point `t` is (t, 0) whatever the table holds; where an element of their blocks sits in its
   array; the activation block read off the region-entry contents `V`; and the output array after the last point as ONE function `G` of its index once every point's stored block
   is block `t` of `G`: the blocks tile the array (row r lies in the block of point r / 1000). The table's contents
   are a variable throughout. Generic in the float instance. -/
import proofs.«107237_j10496900072251_2_alg».proof.Proof.KI.R3
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))
variable (a : (pcfg3 (F := F)).Adm)

/-! ## Zero offsets, the grid's size, a row's bound -/

theorem zeros2_3 : (![0, 0] : Fin 2 → Nat) = fun _ => 0 := funext fun a => by fin_cases a <;> rfl
theorem zeros3_3 : (![0, 0, 0] : Fin 3 → Nat) = fun _ => 0 := funext fun a => by fin_cases a <;> rfl

/-- The grid has 50 points. -/
theorem tlt3 (t : Fin (cfg3 a).N) : t.val < 50 := lt_of_lt_of_eq t.isLt N_3

/-- Row `p` of block `t` is a row of the array. -/
theorem rowlt3 (t : Fin (cfg3 a).N) (p : Fin 1000) : 1000 * t.val + p.val < 50000 := by
  have := tlt3 a t; have := p.isLt; omega

/-! ## The index maps in closed form -/

/-- The two index maps that read no table, and the grid's one coordinate, decided over the grid. -/
theorem idx3_closed : ∀ t : Fin grid3.N, cc3_transform_0 (grid3.coords t) (0 : Fin 2) = t.val
    ∧ cc3_transform_0 (grid3.coords t) (1 : Fin 2) = 0
    ∧ cc3_transform_3 (grid3.coords t) (0 : Fin 2) = t.val
    ∧ cc3_transform_3 (grid3.coords t) (1 : Fin 2) = 0
    ∧ (grid3.coords t 0).val = t.val := by
  decide +kernel

/-- The activation window's and the output window's block index at point `t` is (t, 0), at any table. -/
theorem idx_facts3 : ∀ t : Fin (cfg3 a).N, ((cfg3 a).win 0).index t (0 : Fin 2) = t.val
    ∧ ((cfg3 a).win 0).index t (1 : Fin 2) = 0
    ∧ ((cfg3 a).win 3).index t (0 : Fin 2) = t.val
    ∧ ((cfg3 a).win 3).index t (1 : Fin 2) = 0 :=
  fun t => ⟨(idx3_closed t).1, (idx3_closed t).2.1, (idx3_closed t).2.2.1, (idx3_closed t).2.2.2.1⟩

/-- The grid's coordinate at point `t` is `t`. -/
theorem coords3 (t : Fin (cfg3 a).N) : (grid3.coords t 0 : Fin 50) = ⟨t.val, tlt3 a t⟩ :=
  Fin.ext (idx3_closed t).2.2.2.2

/-- The output window is written back at every point: its block index moves at every step (decided over the grid on
    the closed index map, which reads no table). -/
theorem flushOf3_3 : ∀ t : Fin grid3.N, Pipeline.Window.flushOf grid3 true cc3_transform_3 t = true := by
  decide +kernel

theorem flush3_3 (t : Fin (cfg3 a).N) : ((cfg3 a).win 3).flush t = true := flushOf3_3 t

/-! ## Where a block's element sits in its array -/

/-- Window 0: element (p, q) of block `t` is element (1000·t + p, q) of the array. -/
theorem emb3_0 (t : Fin (cfg3 a).N) (p : Fin 1000) (q : Fin 128) :
    (((cfg3 a).win 0).blk t).view.emb (ix2 p q) = (ix2 ⟨1000 * t.val + p.val, rowlt3 a t p⟩ q : S50000x128.Idx) := by
  obtain ⟨e0_0, e0_1, e3_0, e3_1⟩ := idx_facts3 a t
  funext d; apply Fin.ext
  match d with
  | ⟨0, _⟩ => show ((cfg3 a).win 0).index t (0 : Fin 2) * 1000 + 1 * p.val = 1000 * t.val + p.val; omega
  | ⟨1, _⟩ => show ((cfg3 a).win 0).index t (1 : Fin 2) * 128 + 1 * q.val = q.val; omega

/-- Window 3: element (p, q) of block `t` is element (1000·t + p, q) of the array. -/
theorem emb3_3 (t : Fin (cfg3 a).N) (p : Fin 1000) (q : Fin 128) :
    (((cfg3 a).win 3).blk t).view.emb (ix2 p q) = (ix2 ⟨1000 * t.val + p.val, rowlt3 a t p⟩ q : S50000x128.Idx) := by
  obtain ⟨e0_0, e0_1, e3_0, e3_1⟩ := idx_facts3 a t
  funext d; apply Fin.ext
  match d with
  | ⟨0, _⟩ => show ((cfg3 a).win 3).index t (0 : Fin 2) * 1000 + 1 * p.val = 1000 * t.val + p.val; omega
  | ⟨1, _⟩ => show ((cfg3 a).win 3).index t (1 : Fin 2) * 128 + 1 * q.val = q.val; omega

/-! ## Each input block, read off the region-entry contents -/

/-- Input window 0's block at point `t` is rows 1000·t … 1000·t + 999 of its array. -/
theorem iblk3_0_apply (c : Dev nD) (t : Fin (cfg3 a).N) (p : Fin 1000) (q : Fin 128) :
    (iblk3 V a c 0 t : Vec F S1000x128 .f32) (ix2 p q)
      = (V c (Pipeline.arrRef spec3 0) : S50000x128.Idx → Elt F .f32) (ix2 ⟨1000 * t.val + p.val, rowlt3 a t p⟩ q) := by
  unfold iblk3
  exact congrArg (V c (Pipeline.arrRef spec3 0) : S50000x128.Idx → Elt F .f32) (emb3_0 a t p q)

/-! ## Output window 3: the blocks tile the array, so the array ends at one function of its index -/

/-- An index of the array is in point `t`'s block iff each coordinate is in the block's range on its axis. -/
theorem mem_blk3_3 (t : Fin (cfg3 a).N) (i : S50000x128.Idx) :
    i ∈ (((cfg3 a).win 3).blk t).view.set ↔ ∀ d : Fin 2, ((cfg3 a).win 3).index t d * S1000x128.size d ≤ (i d).val ∧ (i d).val < ((cfg3 a).win 3).index t d * S1000x128.size d + S1000x128.size d := by
  have h : (((cfg3 a).win 3).blk t).view.set = (((cfg3 a).win 3).rect t).set := View.set_slice_whole main_v42 _
  exact (iff_of_eq (congrArg (fun s => i ∈ s) h)).trans Rect.mem_set_unit

/-- Every index of the array is in some point's block: row `r` is in the block of point `r / 1000`. -/
theorem arr_cover3_3 (i : S50000x128.Idx) :
    ∃ t : Fin (cfg3 a).N, ((cfg3 a).win 3).flush t = true ∧ i ∈ (((cfg3 a).win 3).blk t).view.set := by
  have hi0 : (i 0).val < 50000 := (i 0).isLt
  have hi1 : (i 1).val < 128 := (i 1).isLt
  obtain ⟨t, ht⟩ : ∃ t : Fin (cfg3 a).N, t.val = (i 0).val / 1000 :=
    ⟨⟨(i 0).val / 1000, lt_of_lt_of_eq (show (i 0).val / 1000 < 50 by omega) N_3.symm⟩, rfl⟩
  obtain ⟨e0_0, e0_1, e3_0, e3_1⟩ := idx_facts3 a t
  refine ⟨t, flush3_3 a t, ?_⟩
  rw [mem_blk3_3]
  intro d
  match d with
  | ⟨0, _⟩ => show ((cfg3 a).win 3).index t (0 : Fin 2) * 1000 ≤ (i 0).val ∧ (i 0).val < ((cfg3 a).win 3).index t (0 : Fin 2) * 1000 + 1000; omega
  | ⟨1, _⟩ => show ((cfg3 a).win 3).index t (1 : Fin 2) * 128 ≤ (i 1).val ∧ (i 1).val < ((cfg3 a).win 3).index t (1 : Fin 2) * 128 + 128; omega

/-- The array after the last point is `G`, once what every point leaves in the window's buffer is block `t` of `G`. -/
theorem final3_3 (c : Dev nD) (G : S50000x128.Idx → Elt F .f32)
    (hflush : ∀ t : Fin (cfg3 a).N, out3_3 (iblk3 V a c 0 t) (iblk3 V a c 1 t) (iblk3 V a c 2 t) = (((cfg3 a).win 3).blk t).view.read (Elt F) G) :
    (dat3 V a c).arrAt 3 (cfg3 a).N = G :=
  (dat3 V a c).arrAt_eq_of_cover 3 G (fun t _ => by
      show ((cfg3 a).win 3).cut (grid3.coords t) ((dat3 V a c).after 3 t) = _
      rw [after3_3]
      exact hflush t) (arr_cover3_3 a)

/-- What the body leaves in the output's buffer is the payload of the three blocks: the one store is of the whole
    buffer and every load is of a whole block. -/
theorem out3_3_eq (x0 : Vec F S1000x128 .f32) (x1 : Vec F S1x128x128 .f32) (x2 : Vec F S1x1x128 .f32) :
    out3_3 x0 x1 x2 = k3_pay1 x0 x1 x2 := by
  unfold out3_3
  rw [View.canon_unit_zero zeros2_3]
  simp only [View.ld_unit_zero (S := S1000x128) zeros2_3, View.ld_unit_zero (S := S1x128x128) zeros3_3, View.ld_unit_zero (S := S1x1x128) zeros3_3]

/-- The same from the payload point by point: element (p, q) of what point `t` stores is `G` at row 1000·t + p. -/
theorem final3_3' (c : Dev nD) (G : S50000x128.Idx → Elt F .f32)
    (hpt : ∀ (t : Fin (cfg3 a).N) (p : Fin 1000) (q : Fin 128),
      k3_pay1 (iblk3 V a c 0 t) (iblk3 V a c 1 t) (iblk3 V a c 2 t) (ix2 p q) = G (ix2 ⟨1000 * t.val + p.val, rowlt3 a t p⟩ q)) :
    (dat3 V a c).arrAt 3 (cfg3 a).N = G :=
  final3_3 V a c G fun t => by
    refine (out3_3_eq _ _ _).trans (funext fun (j : S1000x128.Idx) => ?_)
    obtain ⟨p, q, rfl⟩ : ∃ (p : Fin 1000) (q : Fin 128), j = ix2 p q := ⟨j 0, j 1, eq_ix2 j⟩
    exact (hpt t p q).trans (congrArg G (emb3_3 a t p q).symm)

end Cert.KernelIdeal.Fr

end
-- ==== Proof.LibScatterSet.lean ====
/-
  A scatter whose body returns the update (a "set"), read at an index, when every update that lands on the index carries
  the same value.

  The host's scatter is a left fold over the update indices in row-major order; each step overwrites the element at the
  update's result index, when that index is inside the operand. When all the updates that land on an index `i` carry one
  value `v`, the order of the fold does not matter at `i`: the result there is `v` if some update lands on `i` and the
  operand's element otherwise. No injectivity of the scatter indices is needed.
-/
import Idealize.ShloMosaic.PureOps.ShapeOps
import Idealize.ShloMosaic.PureOps.Dims

namespace Cert.LibScatterSet

open Idealize.ShloMosaic

open Classical in
/-- A left fold of a step that overwrites the element at `g n` with `val n` when `g n` is some index and does nothing
    otherwise, read at `i`: when every step that lands on `i` writes the same `v`, the result at `i` is `v` if some step
    lands on `i`, and the start's element otherwise. -/
theorem foldl_set_apply {ι κ α : Type} (g : κ → Option ι) (val : κ → α) (step : (ι → α) → κ → ι → α)
    (hsome : ∀ r n i₀, g n = some i₀ → step r n i₀ = val n ∧ ∀ i', i' ≠ i₀ → step r n i' = r i')
    (hnone : ∀ r n, g n = none → step r n = r) (v : α) (i : ι) :
    ∀ (l : List κ) (x : ι → α), (∀ n ∈ l, g n = some i → val n = v) →
      (l.foldl step x) i = if ∃ n ∈ l, g n = some i then v else x i
  | [], x, _ => by simp
  | a :: l, x, h => by
    rw [List.foldl_cons, foldl_set_apply g val step hsome hnone v i l _ (fun n hn => h n (List.mem_cons_of_mem _ hn))]
    by_cases hl : ∃ n ∈ l, g n = some i
    · rw [if_pos hl, if_pos (by obtain ⟨n, hn, e⟩ := hl; exact ⟨n, List.mem_cons_of_mem _ hn, e⟩)]
    · rw [if_neg hl]
      by_cases ha : g a = some i
      · rw [if_pos ⟨a, List.mem_cons_self, ha⟩, (hsome x a i ha).1]
        exact h a List.mem_cons_self ha
      · rw [if_neg (by
          rintro ⟨n, hn, e⟩
          rcases List.mem_cons.1 hn with rfl | hn'
          · exact ha e
          · exact hl ⟨n, hn', e⟩)]
        cases hg : g a with
        | none => rw [hnone x a hg]
        | some i₀ => exact (hsome x a i₀ hg).2 i (fun e => ha (by rw [hg, e]))

open Classical in
/-- THE SCATTER-SET READ AT AN INDEX. `Host.scatter` with the body "return the update", at an index `i` such that every
    update index whose result index is `i` carries the value `v`: the result is `v` when some update index lands on `i`,
    and the operand's element at `i` when none does. -/
theorem scatter_set_apply {s si u : Shape} {w : Nat} {α : Type} (d : ScatterDims s si u) (x : s.Idx → α)
    (idx : IVec si w) (upd : u.Idx → α) (v : α) (i : s.Idx)
    (h : ∀ j : u.Idx, d.resultIdx? j idx = some i → upd j = v) :
    Host.scatter d (fun _ b => b) x idx upd i = if ∃ j : u.Idx, d.resultIdx? j idx = some i then v else x i := by
  unfold Host.scatter
  refine (foldl_set_apply (fun n : Fin u.numel => d.resultIdx? (u.rowMajor.symm n) idx)
    (fun n => upd (u.rowMajor.symm n)) _ ?_ ?_ v i (List.finRange u.numel) x (fun n _ e => h _ e)).trans ?_
  · intro r n i₀ e
    have e' : d.resultIdx? (u.rowMajor.symm n) idx = some i₀ := e
    constructor
    · show (match d.resultIdx? (u.rowMajor.symm n) idx with
        | some i => fun i' => if i' = i then (fun (_ : α) (b : α) => b) (r i) (upd (u.rowMajor.symm n)) else r i'
        | none => r) i₀ = _
      rw [e']
      exact if_pos rfl
    · intro i' hi'
      show (match d.resultIdx? (u.rowMajor.symm n) idx with
        | some i => fun i' => if i' = i then (fun (_ : α) (b : α) => b) (r i) (upd (u.rowMajor.symm n)) else r i'
        | none => r) i' = _
      rw [e']
      exact if_neg hi'
  · intro r n e
    have e' : d.resultIdx? (u.rowMajor.symm n) idx = none := e
    show (match d.resultIdx? (u.rowMajor.symm n) idx with
      | some i => fun i' => if i' = i then (fun (_ : α) (b : α) => b) (r i) (upd (u.rowMajor.symm n)) else r i'
      | none => r) = _
    rw [e']
  · have hiff : (∃ n ∈ List.finRange u.numel, d.resultIdx? (u.rowMajor.symm n) idx = some i)
        ↔ ∃ j : u.Idx, d.resultIdx? j idx = some i := by
      constructor
      · rintro ⟨n, _, e⟩; exact ⟨_, e⟩
      · rintro ⟨j, e⟩
        exact ⟨u.rowMajor j, List.mem_finRange _, by rw [Equiv.symm_apply_apply]; exact e⟩
    by_cases hj : ∃ j : u.Idx, d.resultIdx? j idx = some i
    · rw [if_pos hj, if_pos (hiff.2 hj)]
    · rw [if_neg hj, if_neg (fun hn => hj (hiff.1 hn))]

/-- The scatter-set at an index some update lands on, all the updates that land there carrying `v`: it is `v`. -/
theorem scatter_set_apply_hit {s si u : Shape} {w : Nat} {α : Type} (d : ScatterDims s si u) (x : s.Idx → α)
    (idx : IVec si w) (upd : u.Idx → α) (v : α) (i : s.Idx)
    (h : ∀ j : u.Idx, d.resultIdx? j idx = some i → upd j = v) (j₀ : u.Idx) (hj₀ : d.resultIdx? j₀ idx = some i) :
    Host.scatter d (fun _ b => b) x idx upd i = v := by
  rw [scatter_set_apply d x idx upd v i h, if_pos ⟨j₀, hj₀⟩]

/-- The scatter-set at an index no update lands on: the operand's element. -/
theorem scatter_set_apply_miss {s si u : Shape} {w : Nat} {α : Type} (d : ScatterDims s si u) (x : s.Idx → α)
    (idx : IVec si w) (upd : u.Idx → α) (i : s.Idx)
    (h : ∀ j : u.Idx, d.resultIdx? j idx ≠ some i) :
    Host.scatter d (fun _ b => b) x idx upd i = x i := by
  rw [scatter_set_apply d x idx upd (x i) i (fun j e => absurd e (h j)), if_neg (fun ⟨j, e⟩ => h j e)]

end Cert.LibScatterSet
-- ==== Proof.Ref.Read.lean ====
/-
  The reference's stages read at an index, at the ideal values: each linear stage is, at row r and column q, the
  sum over the contracted coordinate of the row's entries times the weight's entries at (q, k), plus the bias at q;
  the node table is the attributed type's linear layer on its first twenty thousand rows and zero below; a per-type
  layer reads the weight and the bias of the type the row belongs to.
-/
import proofs.«107237_j10496900072251_2_alg».proof.Proof.Ref.Stages
import proofs.«107237_j10496900072251_2_alg».proof.Proof.Val.RDots
import proofs.«107237_j10496900072251_2_alg».proof.Proof.LibScatterSet

set_option synthInstance.maxSize 4096

noncomputable section

namespace Cert.ReferenceIdeal.StageRead

open Idealize.ShloMosaic Idealize.ShloMosaic.ValueIdx
open Cert.ReferenceIdeal Cert.ReferenceIdeal.Facts₀ Cert.ReferenceIdeal.Facts Cert.Val.R
open scoped BigOperators

variable [Facts]

/-! ## The three plain linear stages -/

/-- The attributed type's linear layer at (r, q): the row of the features against row q of the weight, plus the bias at q. -/
theorem hAttr_apply (a0 : FVec Ideal S20000x512 .f32) (a1 : FVec Ideal S128x512 .f32) (a2 : FVec Ideal S128 .f32)
    (r : Fin 20000) (q : Fin 128) :
    Stages.hAttr (F := Ideal) a0 a1 a2 (ix2 r q) = (∑ k : Fin 512, a0 (ix2 r k) * a1 (ix2 q k)) + a2 (ix1 q) := by
  unfold Stages.hAttr
  rw [addf_apply, rdot_20000x512, rbias_20000x128]
  refine congrArg (· + _) (Finset.sum_congr rfl fun k _ => ?_)
  rw [rtr512]

/-- A [128, 128] linear layer on the node table at (r, q). -/
theorem lin1_apply (x : FVec Ideal S50000x128 .f32) (w : FVec Ideal S128x128 .f32) (b : FVec Ideal S128 .f32)
    (r : Fin 50000) (q : Fin 128) :
    Stages.lin1 (F := Ideal) x w b (ix2 r q) = (∑ k : Fin 128, x (ix2 r k) * w (ix2 q k)) + b (ix1 q) := by
  unfold Stages.lin1
  rw [addf_apply, rdot_50000x128, rbias_50000x128]
  refine congrArg (· + _) (Finset.sum_congr rfl fun k _ => ?_)
  rw [rtr128]

/-- The projection is that layer. -/
theorem proj_apply (z : FVec Ideal S50000x128 .f32) (a11 : FVec Ideal S128x128 .f32) (a12 : FVec Ideal S128 .f32)
    (r : Fin 50000) (q : Fin 128) :
    Stages.proj (F := Ideal) z a11 a12 (ix2 r q) = (∑ k : Fin 128, z (ix2 r k) * a11 (ix2 q k)) + a12 (ix1 q) :=
  lin1_apply z a11 a12 r q

/-- The classifier at (r, q). -/
theorem logits_apply (e : FVec Ideal S50000x128 .f32) (a13 : FVec Ideal S8x128 .f32) (a14 : FVec Ideal S8 .f32)
    (r : Fin 50000) (q : Fin 8) :
    Stages.logits (F := Ideal) e a13 a14 (ix2 r q) = (∑ k : Fin 128, e (ix2 r k) * a13 (ix2 q k)) + a14 (ix1 q) := by
  unfold Stages.logits
  rw [addf_apply, rdot_50000x8, rbias_50000x8]
  refine congrArg (· + _) (Finset.sum_congr rfl fun k _ => ?_)
  rw [rtr8]

/-! ## The node table -/

/-- The index vector of the placement: the single start row 0. -/
abbrev idx0 : IVec S1 32 := broadcastInDim S1 ![] bcast_S_S1 (constantI S_ 32 0#32)

/-- The placement starts at row 0 and column 0 for every update. -/
theorem start_zero (j : S20000x128.Idx) (a : Fin 2) :
    scatter_S50000x128_S1_S20000x128_01_n_0_0.start j idx0 a = 0 := by
  unfold ScatterDims.start
  split
  · rfl
  · rfl

/-- The window coordinate of an update index on an operand axis is the update index's own coordinate. -/
theorem window_eq (j : S20000x128.Idx) (a : Fin 2) :
    scatter_S50000x128_S1_S20000x128_01_n_0_0.window j a = (j a).val := by
  match a with
  | ⟨0, _⟩ => rfl
  | ⟨1, _⟩ => rfl

/-- An update index lands on the operand index with the same coordinates. -/
theorem resultIdx_val {j : S20000x128.Idx} {i : S50000x128.Idx}
    (h : scatter_S50000x128_S1_S20000x128_01_n_0_0.resultIdx? j idx0 = some i) (a : Fin 2) : (i a).val = (j a).val := by
  unfold ScatterDims.resultIdx? at h
  split at h
  · cases h
    show (scatter_S50000x128_S1_S20000x128_01_n_0_0.start j idx0 a + scatter_S50000x128_S1_S20000x128_01_n_0_0.window j a).toNat = _
    rw [start_zero, window_eq]
    simp
  · cases h

/-- Every update index lands inside the operand. -/
theorem resultIdx_some (j : S20000x128.Idx) : ∃ i, scatter_S50000x128_S1_S20000x128_01_n_0_0.resultIdx? j idx0 = some i := by
  unfold ScatterDims.resultIdx?
  rw [dif_pos]
  · exact ⟨_, rfl⟩
  · intro a
    rw [start_zero, window_eq]
    match a with
    | ⟨0, _⟩ =>
      have h0 : (j 0).val < 20000 := idx2_lt0 j
      exact ⟨by omega, by show (0 : Int) + ((j 0).val : Int) < ((50000 : Nat) : Int); omega⟩
    | ⟨1, _⟩ =>
      have h1 : (j 1).val < 128 := (j 1).isLt
      exact ⟨by omega, by show (0 : Int) + ((j 1).val : Int) < ((128 : Nat) : Int); omega⟩

/-- The node table at (r, q): the attributed type's linear layer on the first twenty thousand rows, zero below. -/
theorem h0_apply (a0 : FVec Ideal S20000x512 .f32) (a1 : FVec Ideal S128x512 .f32) (a2 : FVec Ideal S128 .f32)
    (r : Fin 50000) (q : Fin 128) :
    Stages.h0 (F := Ideal) a0 a1 a2 (ix2 r q)
      = if h : r.val < 20000 then Stages.hAttr (F := Ideal) a0 a1 a2 (ix2 ⟨r.val, h⟩ q) else 0 := by
  unfold Stages.h0
  split
  · next h =>
    obtain ⟨i, hi⟩ := resultIdx_some (ix2 (⟨r.val, h⟩ : Fin 20000) q)
    have hi' : i = ix2 r q := funext fun a => Fin.ext (by
      rw [resultIdx_val hi a]
      match a with
      | ⟨0, _⟩ => rfl
      | ⟨1, _⟩ => rfl)
    refine Cert.LibScatterSet.scatter_set_apply_hit _ _ _ _ _ _ (fun j hj => ?_) (ix2 (⟨r.val, h⟩ : Fin 20000) q) (hi' ▸ hi)
    have hj' : j = ix2 (⟨r.val, h⟩ : Fin 20000) q := funext fun a => Fin.ext (by
      rw [← resultIdx_val hj a]
      match a with
      | ⟨0, _⟩ => rfl
      | ⟨1, _⟩ => rfl)
    rw [hj']
  · next h =>
    rw [Cert.LibScatterSet.scatter_set_apply_miss _ _ _ _ _ (fun j hj => ?_)]
    · rw [broadcastInDim_constant]
      exact Ideal.ofBits_zero_f32
    · have h0 : (j 0).val < 20000 := idx2_lt0 j
      have e : r.val = (j 0).val := resultIdx_val hj 0
      exact h (by omega)

set_option maxRecDepth 4096 in
/-- The same table as a two-piece concatenation: the rows of an array of twenty thousand rows, then thirty thousand
    zero rows. -/
theorem concat_h0 (a : FVec Ideal S20000x128 .f32)
    {hb : S_.BroadcastsInDim (⟨2, ![30000, 128]⟩ : Shape) (![] : Fin 0 → Fin 2)}
    {hc : Shape.Concatenates [S20000x128, (⟨2, ![30000, 128]⟩ : Shape)] S50000x128 0}
    (r : Fin 50000) (q : Fin 128) :
    concatenate S50000x128 0
        [⟨S20000x128, a⟩,
         ⟨(⟨2, ![30000, 128]⟩ : Shape),
          broadcastInDim (⟨2, ![30000, 128]⟩ : Shape) ![] hb (constant (F := Ideal) S_ .f32 0x00000000#32)⟩]
        hc (ix2 r q)
      = if h : r.val < 20000 then a (ix2 ⟨r.val, h⟩ q) else 0 := by
  split
  · next h =>
    exact concatenate_pair_apply_left (t := S50000x128) (s₁ := S20000x128) (s₂ := (⟨2, ![30000, 128]⟩ : Shape)) 0 a _ hc (ix2 r q) rfl
      (ix2 (⟨r.val, h⟩ : Fin 20000) q) (fun b => by
      match b with
      | ⟨0, _⟩ => rfl
      | ⟨1, _⟩ => rfl)
  · next h =>
    have h' : r.val - 20000 < 30000 := by have := r.isLt; omega
    rw [concatenate_pair_apply_right (t := S50000x128) (s₁ := S20000x128) (s₂ := (⟨2, ![30000, 128]⟩ : Shape)) 0 a _ hc (ix2 r q) rfl rfl
      (ix2 (⟨r.val - 20000, h'⟩ : Fin 30000) q) (fun b hb => by
      have hv : b.val ≠ 0 := fun e => hb (Fin.ext e)
      have hlt : b.val < 2 := b.isLt
      have hb1 : b = (1 : Fin 2) := Fin.ext (by show b.val = 1; omega)
      subst hb1
      rfl) (by show r.val - 20000 + 20000 = r.val; omega)]
    rw [broadcastInDim_constant]
    exact Ideal.ofBits_zero_f32

/-- The node table is that concatenation of the attributed type's linear layer with zero rows. -/
theorem h0_eq_concat (a0 : FVec Ideal S20000x512 .f32) (a1 : FVec Ideal S128x512 .f32) (a2 : FVec Ideal S128 .f32)
    {hb : S_.BroadcastsInDim (⟨2, ![30000, 128]⟩ : Shape) (![] : Fin 0 → Fin 2)}
    {hc : Shape.Concatenates [S20000x128, (⟨2, ![30000, 128]⟩ : Shape)] S50000x128 0} :
    Stages.h0 (F := Ideal) a0 a1 a2
      = concatenate S50000x128 0
          [⟨S20000x128, Stages.hAttr (F := Ideal) a0 a1 a2⟩,
           ⟨(⟨2, ![30000, 128]⟩ : Shape),
            broadcastInDim (⟨2, ![30000, 128]⟩ : Shape) ![] hb (constant (F := Ideal) S_ .f32 0x00000000#32)⟩]
          hc := by
  funext j
  obtain ⟨r, q, rfl⟩ : ∃ (r : Fin 50000) (q : Fin 128), j = ix2 r q := ⟨j 0, j 1, eq_ix2 (n0 := 50000) (n1 := 128) j⟩
  rw [h0_apply, concat_h0]

/-! ## The per-type layers -/

/-- The weight of type g, cut out of the stacked weights, squeezed and transposed, at (k, q): the stacked weights at (g, q, k). -/
theorem wread (a9 : FVec Ideal S3x128x128 .f32) (off : Fin 3 → Nat) (g : Fin 3) (h0 : off 0 = g.val) (h1 : off 1 = 0) (h2 : off 2 = 0)
    {hs : S3x128x128.Slices off S1x128x128} {hc : S1x128x128.ShapeCasts S128x128}
    {ht : S128x128.Transposes [1, 0] S128x128} (k q : Fin 128) :
    transpose S128x128 [1, 0] (shapeCast S128x128 (extractStridedSlice S1x128x128 off a9 hs) hc) ht (ix2 k q) = a9 (ix3 g q k) := by
  rw [rtr128, shapeCast_1ab_ab_apply]
  exact extractStridedSlice_apply off a9 hs (ix3 (0 : Fin 1) q k) (ix3 g q k) (fun a => by
    match a with
    | ⟨0, _⟩ => show g.val = off 0 + 0; omega
    | ⟨1, _⟩ => show q.val = off 1 + q.val; omega
    | ⟨2, _⟩ => show k.val = off 2 + k.val; omega)

/-- The bias of type g, cut out of the stacked biases and squeezed, at q: the stacked biases at (g, q). -/
theorem bread (a10 : FVec Ideal S3x128 .f32) (off : Fin 2 → Nat) (g : Fin 3) (h0 : off 0 = g.val) (h1 : off 1 = 0)
    {hs : S3x128.Slices off S1x128} {hc : S1x128.ShapeCasts S128} (q : Fin 128) :
    shapeCast S128 (extractStridedSlice S1x128 off a10 hs) hc (ix1 q) = a10 (ix2 g q) := by
  rw [shapeCast_1a_a_apply]
  exact extractStridedSlice_apply off a10 hs (ix2 (0 : Fin 1) q) (ix2 g q) (fun a => by
    match a with
    | ⟨0, _⟩ => show g.val = off 0 + 0; omega
    | ⟨1, _⟩ => show q.val = off 1 + q.val; omega)

/-- The rows of the table from row o on, n of them, at (r', k): the table at (o + r', k). -/
theorem yread (y : FVec Ideal S50000x128 .f32) (n o : Nat) (off : Fin 2 → Nat) (h0 : off 0 = o) (h1 : off 1 = 0)
    {hs : S50000x128.Slices off (⟨2, ![n, 128]⟩ : Shape)} (r' : Fin n) (k : Fin 128) (hr : o + r'.val < 50000) :
    extractStridedSlice (⟨2, ![n, 128]⟩ : Shape) off y hs (ix2 r' k) = y (ix2 (⟨o + r'.val, hr⟩ : Fin 50000) k) :=
  extractStridedSlice_apply off y hs (ix2 r' k) (ix2 (⟨o + r'.val, hr⟩ : Fin 50000) k) (fun a => by
    match a with
    | ⟨0, _⟩ => show o + r'.val = off 0 + r'.val; omega
    | ⟨1, _⟩ => show k.val = off 1 + k.val; omega)

/-- One type's block at (r', q): the table's row o + r' against row q of the type's weight, plus the type's bias at q. -/
theorem block_apply (y : FVec Ideal S50000x128 .f32) (a9 : FVec Ideal S3x128x128 .f32) (a10 : FVec Ideal S3x128 .f32)
    (n o : Nat) (g : Fin 3) (d : DotDims (⟨2, ![n, 128]⟩ : Shape) (⟨2, ![128, 128]⟩ : Shape) (⟨2, ![n, 128]⟩ : Shape))
    (hlc : d.lhsContracting = [1]) (hrc : d.rhsContracting = [0]) (hln : d.lhsNonContracting = [0]) (hrn : d.rhsNonContracting = [1])
    (hlb : d.lhsBatch = []) (hrb : d.rhsBatch = [])
    (offy : Fin 2 → Nat) (hy0 : offy 0 = o) (hy1 : offy 1 = 0)
    (offw : Fin 3 → Nat) (hw0 : offw 0 = g.val) (hw1 : offw 1 = 0) (hw2 : offw 2 = 0)
    (offb : Fin 2 → Nat) (hb0 : offb 0 = g.val) (hb1 : offb 1 = 0)
    {hsy : S50000x128.Slices offy (⟨2, ![n, 128]⟩ : Shape)}
    {hsw : S3x128x128.Slices offw S1x128x128} {hcw : S1x128x128.ShapeCasts S128x128} {htw : S128x128.Transposes [1, 0] S128x128}
    {hsb : S3x128.Slices offb S1x128} {hcb : S1x128.ShapeCasts S128}
    {h1 : S128.BroadcastsInDim S1x128 ![1]} {h2 : S1x128.BroadcastsInDim (⟨2, ![n, 128]⟩ : Shape) ![0, 1]}
    (r' : Fin n) (q : Fin 128) (hr : o + r'.val < 50000) :
    addf (F := Ideal)
        (Host.dotGeneral (F := Ideal) d none (extractStridedSlice (⟨2, ![n, 128]⟩ : Shape) offy y hsy)
          (transpose S128x128 [1, 0] (shapeCast S128x128 (extractStridedSlice S1x128x128 offw a9 hsw) hcw) htw))
        (broadcastInDim (⟨2, ![n, 128]⟩ : Shape) ![0, 1] h2
          (broadcastInDim S1x128 ![1] h1 (shapeCast S128 (extractStridedSlice S1x128 offb a10 hsb) hcb))) (ix2 r' q)
      = (∑ k : Fin 128, y (ix2 (⟨o + r'.val, hr⟩ : Fin 50000) k) * a9 (ix3 g q k)) + a10 (ix2 g q) := by
  rw [addf_apply, rdot d hlc hrc hln hrn hlb hrb, rbias, bread a10 offb g hb0 hb1]
  refine congrArg (· + _) (Finset.sum_congr rfl fun k _ => ?_)
  rw [yread y n o offy hy0 hy1 r' k hr, wread a9 offw g hw0 hw1 hw2]

/-! ### A concatenation of twenty, fifteen and fifteen thousand rows, read at a row of each piece -/

set_option maxRecDepth 4096 in
theorem concat3_lo {α : Type} (x0 : S20000x128.Idx → α) (x1 x2 : S15000x128.Idx → α)
    {hc : Shape.Concatenates [S20000x128, S15000x128, S15000x128] S50000x128 0} (r : Fin 50000) (q : Fin 128)
    (h : r.val < 20000) :
    concatenate S50000x128 0 [⟨S20000x128, x0⟩, ⟨S15000x128, x1⟩, ⟨S15000x128, x2⟩] hc (ix2 r q)
      = x0 (ix2 (⟨r.val, h⟩ : Fin 20000) q) :=
  concatenate_apply_piece (t := S50000x128) 0 [⟨S20000x128, x0⟩, ⟨S15000x128, x1⟩, ⟨S15000x128, x2⟩] hc (ix2 r q)
    0 (by show (0 : Nat) < 3; omega) S20000x128 x0 rfl rfl 0 rfl (ix2 (⟨r.val, h⟩ : Fin 20000) q)
    (fun b hb => by
      have hv : b.val ≠ 0 := fun e => hb (Fin.ext e)
      have hlt : b.val < 2 := b.isLt
      have hb1 : b = (1 : Fin 2) := Fin.ext (by show b.val = 1; omega)
      subst hb1
      rfl)
    (by show 0 + r.val = r.val; omega)

set_option maxRecDepth 4096 in
theorem concat3_mid {α : Type} (x0 : S20000x128.Idx → α) (x1 x2 : S15000x128.Idx → α)
    {hc : Shape.Concatenates [S20000x128, S15000x128, S15000x128] S50000x128 0} (r : Fin 50000) (q : Fin 128)
    (h1 : 20000 ≤ r.val) (h2 : r.val < 35000) :
    concatenate S50000x128 0 [⟨S20000x128, x0⟩, ⟨S15000x128, x1⟩, ⟨S15000x128, x2⟩] hc (ix2 r q)
      = x1 (ix2 (⟨r.val - 20000, by omega⟩ : Fin 15000) q) :=
  concatenate_apply_piece (t := S50000x128) 0 [⟨S20000x128, x0⟩, ⟨S15000x128, x1⟩, ⟨S15000x128, x2⟩] hc (ix2 r q)
    1 (by show (1 : Nat) < 3; omega) S15000x128 x1 rfl rfl 20000 rfl (ix2 (⟨r.val - 20000, by omega⟩ : Fin 15000) q)
    (fun b hb => by
      have hv : b.val ≠ 0 := fun e => hb (Fin.ext e)
      have hlt : b.val < 2 := b.isLt
      have hb1 : b = (1 : Fin 2) := Fin.ext (by show b.val = 1; omega)
      subst hb1
      rfl)
    (by show 20000 + (r.val - 20000) = r.val; omega)

set_option maxRecDepth 4096 in
theorem concat3_hi {α : Type} (x0 : S20000x128.Idx → α) (x1 x2 : S15000x128.Idx → α)
    {hc : Shape.Concatenates [S20000x128, S15000x128, S15000x128] S50000x128 0} (r : Fin 50000) (q : Fin 128)
    (h1 : 35000 ≤ r.val) :
    concatenate S50000x128 0 [⟨S20000x128, x0⟩, ⟨S15000x128, x1⟩, ⟨S15000x128, x2⟩] hc (ix2 r q)
      = x2 (ix2 (⟨r.val - 35000, by have := r.isLt; omega⟩ : Fin 15000) q) :=
  concatenate_apply_piece (t := S50000x128) 0 [⟨S20000x128, x0⟩, ⟨S15000x128, x1⟩, ⟨S15000x128, x2⟩] hc (ix2 r q)
    2 (by show (2 : Nat) < 3; omega) S15000x128 x2 rfl rfl 35000 rfl (ix2 (⟨r.val - 35000, by have := r.isLt; omega⟩ : Fin 15000) q)
    (fun b hb => by
      have hv : b.val ≠ 0 := fun e => hb (Fin.ext e)
      have hlt : b.val < 2 := b.isLt
      have hb1 : b = (1 : Fin 2) := Fin.ext (by show b.val = 1; omega)
      subst hb1
      rfl)
    (by show 35000 + (r.val - 35000) = r.val; omega)

/-! ### The three ranges of rows -/

/-- A row of type 0 (r < 20000): the row against W_fc[0], plus b_fc[0]. -/
theorem typeLin_apply_lo (y : FVec Ideal S50000x128 .f32) (a9 : FVec Ideal S3x128x128 .f32) (a10 : FVec Ideal S3x128 .f32)
    (r : Fin 50000) (q : Fin 128) (hlo : r.val < 20000) :
    Stages.typeLin (F := Ideal) y a9 a10 (ix2 r q)
      = (∑ k : Fin 128, y (ix2 r k) * a9 (ix3 (0 : Fin 3) q k)) + a10 (ix2 (0 : Fin 3) q) := by
  have hr : 0 + r.val < 50000 := by have := r.isLt; omega
  have e : (⟨0 + r.val, hr⟩ : Fin 50000) = r := Fin.ext (by show 0 + r.val = r.val; omega)
  unfold Stages.typeLin
  rw [concat3_lo _ _ _ r q hlo]
  refine (block_apply y a9 a10 20000 0 0 dot_S20000x128_S128x128_S20000x128_1_0_0_1_n_n rfl rfl rfl rfl rfl rfl
    ![0, 0] rfl rfl ![0, 0, 0] rfl rfl rfl ![0, 0] rfl rfl (⟨r.val, hlo⟩ : Fin 20000) q hr).trans ?_
  rw [e]

/-- A row of type 1 (20000 ≤ r < 35000): the row against W_fc[1], plus b_fc[1]. -/
theorem typeLin_apply_mid (y : FVec Ideal S50000x128 .f32) (a9 : FVec Ideal S3x128x128 .f32) (a10 : FVec Ideal S3x128 .f32)
    (r : Fin 50000) (q : Fin 128) (h1 : 20000 ≤ r.val) (h2 : r.val < 35000) :
    Stages.typeLin (F := Ideal) y a9 a10 (ix2 r q)
      = (∑ k : Fin 128, y (ix2 r k) * a9 (ix3 (1 : Fin 3) q k)) + a10 (ix2 (1 : Fin 3) q) := by
  have hr' : r.val - 20000 < 15000 := by omega
  have hr : 20000 + (r.val - 20000) < 50000 := by omega
  have e : (⟨20000 + (r.val - 20000), hr⟩ : Fin 50000) = r := Fin.ext (by show 20000 + (r.val - 20000) = r.val; omega)
  unfold Stages.typeLin
  rw [concat3_mid _ _ _ r q h1 h2]
  refine (block_apply y a9 a10 15000 20000 1 dot_S15000x128_S128x128_S15000x128_1_0_0_1_n_n rfl rfl rfl rfl rfl rfl
    ![20000, 0] rfl rfl ![1, 0, 0] rfl rfl rfl ![1, 0] rfl rfl (⟨r.val - 20000, hr'⟩ : Fin 15000) q hr).trans ?_
  rw [e]

/-- A row of type 2 (35000 ≤ r): the row against W_fc[2], plus b_fc[2]. -/
theorem typeLin_apply_hi (y : FVec Ideal S50000x128 .f32) (a9 : FVec Ideal S3x128x128 .f32) (a10 : FVec Ideal S3x128 .f32)
    (r : Fin 50000) (q : Fin 128) (h1 : 35000 ≤ r.val) :
    Stages.typeLin (F := Ideal) y a9 a10 (ix2 r q)
      = (∑ k : Fin 128, y (ix2 r k) * a9 (ix3 (2 : Fin 3) q k)) + a10 (ix2 (2 : Fin 3) q) := by
  have hr' : r.val - 35000 < 15000 := by have := r.isLt; omega
  have hr : 35000 + (r.val - 35000) < 50000 := by have := r.isLt; omega
  have e : (⟨35000 + (r.val - 35000), hr⟩ : Fin 50000) = r := Fin.ext (by show 35000 + (r.val - 35000) = r.val; omega)
  unfold Stages.typeLin
  rw [concat3_hi _ _ _ r q h1]
  refine (block_apply y a9 a10 15000 35000 2 dot_S15000x128_S128x128_S15000x128_1_0_0_1_n_n rfl rfl rfl rfl rfl rfl
    ![35000, 0] rfl rfl ![2, 0, 0] rfl rfl rfl ![2, 0] rfl rfl (⟨r.val - 35000, hr'⟩ : Fin 15000) q hr).trans ?_
  rw [e]

end Cert.ReferenceIdeal.StageRead

end
-- ==== Proof.KI.G3.lean ====
import proofs.«107237_j10496900072251_2_alg».proof.Proof.KI.R3
import proofs.«107237_j10496900072251_2_alg».proof.Proof.KI.C3
import proofs.«107237_j10496900072251_2_alg».proof.Proof.Val.KDots
import proofs.«107237_j10496900072251_2_alg».proof.Proof.Ref.Stages
import proofs.«107237_j10496900072251_2_alg».proof.Proof.Ref.Read
import Idealize.ShloMosaic.Lib.Pipeline.Value
import Idealize.ShloMosaic.Lib.ValueIdx
import Idealize.ShloMosaic.Lib.ValueLayout

/-! # Region 3 of @main, its value half: the table-indexed blocks and the per-type linear layer

At the literal table the weight window's block at grid point `t` is slab `g(t)` of the [3, 128, 128] weight array
and the bias window's block is slab `g(t)` of the [3, 1, 128] reshaped bias, `g(t)` the type of tile `t` (0 for the
first 20 tiles, 1 for the next 15, 2 for the rest). Row `1000·t + p` of the node table lies in the rows of type
`g(t)`, so what point `t` stores at `(p, q)` — the row against row `q` of the slab, plus the slab's bias entry — is
the per-type linear layer of the reference at `(1000·t + p, q)`. -/

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

section Blocks

variable {F : FTy → Type} [FloatOps F]
variable (V : (c : Dev nD) → (b : Ref sig .tc) → Buf (Elt F) ((c : Thread nD τ).loc b))

/-! ## The grid point as a number; the table-indexed windows' block indices -/

/-- The one coordinate of grid point `t` is `t`. -/
theorem coords3_val : ∀ t : Fin grid3.N, (grid3.coords t (0 : Fin 1)).val = t.val := by decide +kernel

/-- At the literal table the weight window's block index at point `t` is (type of tile `t`, 0, 0), -/
theorem index3_1 (t : Fin (cfg3 (F := F) adm3).N) : ((cfg3 (F := F) adm3).win 1).index t = ![grp3 t.val, 0, 0] :=
  (ix3_1_tbl3 (F := F) (grid3.coords t)).trans (congrArg (fun n => (![grp3 n, 0, 0] : Fin 3 → ℕ)) (coords3_val t))
/-- and the bias window's too. -/
theorem index3_2 (t : Fin (cfg3 (F := F) adm3).N) : ((cfg3 (F := F) adm3).win 2).index t = ![grp3 t.val, 0, 0] :=
  (ix3_2_tbl3 (F := F) (grid3.coords t)).trans (congrArg (fun n => (![grp3 n, 0, 0] : Fin 3 → ℕ)) (coords3_val t))

/-! ## Where a block's element sits in its array -/

/-- Weight window: element (0, x, y) of block `t` is element (type of tile `t`, x, y) of the array. -/
theorem emb3_1 (t : Fin (cfg3 (F := F) adm3).N) (x y : Fin 128) :
    (((cfg3 (F := F) adm3).win 1).blk t).view.emb (ValueIdx.ix3 (0 : Fin 1) x y) = (ValueIdx.ix3 ⟨grp3 t.val, grp3_lt _⟩ x y : S3x128x128.Idx) := by
  have e0 : ((cfg3 (F := F) adm3).win 1).index t (0 : Fin 3) = grp3 t.val := congrFun (index3_1 t) (0 : Fin 3)
  have e1 : ((cfg3 (F := F) adm3).win 1).index t (1 : Fin 3) = 0 := congrFun (index3_1 t) (1 : Fin 3)
  have e2 : ((cfg3 (F := F) adm3).win 1).index t (2 : Fin 3) = 0 := congrFun (index3_1 t) (2 : Fin 3)
  funext a; apply Fin.ext
  match a with
  | ⟨0, _⟩ => show ((cfg3 (F := F) adm3).win 1).index t (0 : Fin 3) * 1 + 1 * 0 = grp3 t.val; omega
  | ⟨1, _⟩ => show ((cfg3 (F := F) adm3).win 1).index t (1 : Fin 3) * 128 + 1 * x.val = x.val; omega
  | ⟨2, _⟩ => show ((cfg3 (F := F) adm3).win 1).index t (2 : Fin 3) * 128 + 1 * y.val = y.val; omega

/-- Bias window: element (0, 0, q) of block `t` is element (type of tile `t`, 0, q) of the array. -/
theorem emb3_2 (t : Fin (cfg3 (F := F) adm3).N) (q : Fin 128) :
    (((cfg3 (F := F) adm3).win 2).blk t).view.emb (ValueIdx.ix3 (0 : Fin 1) (0 : Fin 1) q) = (ValueIdx.ix3 ⟨grp3 t.val, grp3_lt _⟩ (0 : Fin 1) q : S3x1x128.Idx) := by
  have e0 : ((cfg3 (F := F) adm3).win 2).index t (0 : Fin 3) = grp3 t.val := congrFun (index3_2 t) (0 : Fin 3)
  have e1 : ((cfg3 (F := F) adm3).win 2).index t (1 : Fin 3) = 0 := congrFun (index3_2 t) (1 : Fin 3)
  have e2 : ((cfg3 (F := F) adm3).win 2).index t (2 : Fin 3) = 0 := congrFun (index3_2 t) (2 : Fin 3)
  funext a; apply Fin.ext
  match a with
  | ⟨0, _⟩ => show ((cfg3 (F := F) adm3).win 2).index t (0 : Fin 3) * 1 + 1 * 0 = grp3 t.val; omega
  | ⟨1, _⟩ => show ((cfg3 (F := F) adm3).win 2).index t (1 : Fin 3) * 1 + 1 * 0 = 0; omega
  | ⟨2, _⟩ => show ((cfg3 (F := F) adm3).win 2).index t (2 : Fin 3) * 128 + 1 * q.val = q.val; omega

/-! ## The table-indexed input blocks, read off the region-entry contents -/

/-- The weight block at point `t` is the slab of tile `t`'s type. -/
theorem iblk3_1_apply (c : Dev nD) (t : Fin (cfg3 (F := F) adm3).N) (x y : Fin 128) :
    (iblk3 V adm3 c 1 t : Vec F S1x128x128 .f32) (ValueIdx.ix3 (0 : Fin 1) x y)
      = (V c main_arg9 : S3x128x128.Idx → Elt F .f32) (ValueIdx.ix3 ⟨grp3 t.val, grp3_lt _⟩ x y) := by
  show (V c main_arg9 : S3x128x128.Idx → Elt F .f32) ((((cfg3 (F := F) adm3).win 1).blk t).view.emb (ValueIdx.ix3 (0 : Fin 1) x y)) = _
  exact congrArg (V c main_arg9 : S3x128x128.Idx → Elt F .f32) (emb3_1 t x y)

/-- The bias block at point `t` is the slab of tile `t`'s type. -/
theorem iblk3_2_apply (c : Dev nD) (t : Fin (cfg3 (F := F) adm3).N) (q : Fin 128) :
    (iblk3 V adm3 c 2 t : Vec F S1x1x128 .f32) (ValueIdx.ix3 (0 : Fin 1) (0 : Fin 1) q)
      = (V c main_v41 : S3x1x128.Idx → Elt F .f32) (ValueIdx.ix3 ⟨grp3 t.val, grp3_lt _⟩ (0 : Fin 1) q) := by
  show (V c main_v41 : S3x1x128.Idx → Elt F .f32) ((((cfg3 (F := F) adm3).win 2).blk t).view.emb (ValueIdx.ix3 (0 : Fin 1) (0 : Fin 1) q)) = _
  exact congrArg (V c main_v41 : S3x1x128.Idx → Elt F .f32) (emb3_2 t q)

/-! ## The bias as the region finds it: the host's reshape of the [3, 128] argument -/

/-- After the host stretch before the region, the [3, 1, 128] bias at (g, 0, q) is the argument at (g, q). -/
theorem after_hostOps3_v41 (W : Valuation τ sig (Elt F)) (g : Fin 3) (q : Fin 128) :
    (StableHlo.after hostOps3 W main_v41 : S3x1x128.Idx → Elt F .f32) (ValueIdx.ix3 g (0 : Fin 1) q)
      = (W main_arg10 : S3x128.Idx → Elt F .f32) (ix2 g q) := by
  show (StableHlo.after hostOps3 W main_v41 : S3x1x128.Idx → Elt F .f32) _ = _
  simp only [hostOps3, StableHlo.after_cons, StableHlo.after_nil]
  rw [StableHlo.reshape_result]
  refine shapeCast_apply _ _ _ _ ?_
  show (S3x128.rowMajor (ix2 g q)).val = (S3x1x128.rowMajor (ValueIdx.ix3 g (0 : Fin 1) q)).val
  rw [Shape.rowMajor_val_three, Shape.rowMajor_val_two]
  show g.val * 128 + q.val = (g.val * 1 + 0) * 128 + q.val
  omega

end Blocks

/-! ## The result: the per-type linear layer of the node table -/

section Result

open Cert.Val.K
open scoped BigOperators

variable [Cert.ReferenceIdeal.Facts]
variable (V : (c : Dev nD) → (b : Ref sig .tc) → Buf (Elt Ideal) ((c : Thread nD τ).loc b))

/-- The four arrays the region reads, as the region finds them, at their shapes: the node table, the three weight
    slabs, the [3, 128] bias argument and its [3, 1, 128] reshape. -/
abbrev y3 (c : Dev nD) : FVec Ideal S50000x128 .f32 := V c main_v40
abbrev w3 (c : Dev nD) : FVec Ideal S3x128x128 .f32 := V c main_arg9
abbrev b3 (c : Dev nD) : FVec Ideal S3x128 .f32 := V c main_arg10
abbrev b3r (c : Dev nD) : FVec Ideal S3x1x128 .f32 := V c main_v41

/-- Row `1000·t + p` lies in tile `t`. -/
theorem row_div3 (t p : ℕ) (hp : p < 1000) : (1000 * t + p) / 1000 = t := by omega

/-- The output array after the last point is the reference's per-type linear layer of the three arrays the region
    reads, GIVEN that layer read at an index: at row `r`, whose type `g` is that of tile `r / 1000` (the types'
    row ranges begin at multiples of 1000), the row against row `q` of weight slab `g`, plus bias `(g, q)`. The
    bias the region reads is the host's reshape of the [3, 128] argument (`hv41`). Point by point: what point `t`
    stores at `(p, q)` is the row of its activation block against row `q` of its weight block plus its bias block's
    entry; the activation block is rows `1000·t …` of the node table, the weight and bias blocks are slab `g(t)`. -/
theorem arr3_of_lin (c : Dev nD)
    (hv41 : ∀ (g : Fin 3) (q : Fin 128), b3r V c (ValueIdx.ix3 g (0 : Fin 1) q) = b3 V c (ix2 g q))
    (hlin : ∀ (r : Fin 50000) (q : Fin 128) (g : Fin 3), g.val = grp3 (r.val / 1000) →
      Cert.ReferenceIdeal.Stages.typeLin (F := Ideal) (V c main_v40) (V c main_arg9) (V c main_arg10) (ix2 r q)
        = (∑ k : Fin 128, y3 V c (ix2 r k) * w3 V c (ValueIdx.ix3 g q k)) + b3 V c (ix2 g q)) :
    (dat3 (F := Ideal) V adm3 c).arrAt 3 (cfg3 (F := Ideal) adm3).N
      = Cert.ReferenceIdeal.Stages.typeLin (F := Ideal) (V c main_v40) (V c main_arg9) (V c main_arg10) := by
  refine final3_3' V adm3 c _ fun t p q => ?_
  rw [k3_pay1_apply, hlin ⟨1000 * t.val + p.val, rowlt3 adm3 t p⟩ q ⟨grp3 t.val, grp3_lt _⟩
    (congrArg grp3 (row_div3 t.val p.val p.isLt).symm)]
  exact congrArg₂ (· + ·)
    (Finset.sum_congr rfl fun k _ => congrArg₂ (· * ·) (iblk3_0_apply V adm3 c t p k) (iblk3_1_apply V c t q k))
    ((iblk3_2_apply V c t q).trans (hv41 ⟨grp3 t.val, grp3_lt _⟩ q))

/-- The same from the layer read on each type's row range: rows below 20000 through slab 0, rows below 35000
    through slab 1, the rest through slab 2. -/
theorem arr3_of_cases (c : Dev nD)
    (hv41 : ∀ (g : Fin 3) (q : Fin 128), b3r V c (ValueIdx.ix3 g (0 : Fin 1) q) = b3 V c (ix2 g q))
    (hlo : ∀ (r : Fin 50000) (q : Fin 128), r.val < 20000 →
      Cert.ReferenceIdeal.Stages.typeLin (F := Ideal) (V c main_v40) (V c main_arg9) (V c main_arg10) (ix2 r q)
        = (∑ k : Fin 128, y3 V c (ix2 r k) * w3 V c (ValueIdx.ix3 (0 : Fin 3) q k)) + b3 V c (ix2 (0 : Fin 3) q))
    (hmid : ∀ (r : Fin 50000) (q : Fin 128), 20000 ≤ r.val → r.val < 35000 →
      Cert.ReferenceIdeal.Stages.typeLin (F := Ideal) (V c main_v40) (V c main_arg9) (V c main_arg10) (ix2 r q)
        = (∑ k : Fin 128, y3 V c (ix2 r k) * w3 V c (ValueIdx.ix3 (1 : Fin 3) q k)) + b3 V c (ix2 (1 : Fin 3) q))
    (hhi : ∀ (r : Fin 50000) (q : Fin 128), 35000 ≤ r.val →
      Cert.ReferenceIdeal.Stages.typeLin (F := Ideal) (V c main_v40) (V c main_arg9) (V c main_arg10) (ix2 r q)
        = (∑ k : Fin 128, y3 V c (ix2 r k) * w3 V c (ValueIdx.ix3 (2 : Fin 3) q k)) + b3 V c (ix2 (2 : Fin 3) q)) :
    (dat3 (F := Ideal) V adm3 c).arrAt 3 (cfg3 (F := Ideal) adm3).N
      = Cert.ReferenceIdeal.Stages.typeLin (F := Ideal) (V c main_v40) (V c main_arg9) (V c main_arg10) :=
  arr3_of_lin V c hv41 fun r q g hg => by
    have hr := r.isLt
    by_cases h1 : r.val < 20000
    · have e : g = 0 := Fin.ext (by rw [hg]; unfold grp3; rw [if_pos (by omega)]; rfl)
      subst e; exact hlo r q h1
    · by_cases h2 : r.val < 35000
      · have e : g = 1 := Fin.ext (by rw [hg]; unfold grp3; rw [if_neg (by omega), if_pos (by omega)]; rfl)
        subst e; exact hmid r q (by omega) h2
      · have e : g = 2 := Fin.ext (by rw [hg]; unfold grp3; rw [if_neg (by omega), if_neg (by omega)]; rfl)
        subst e; exact hhi r q (by omega)

/-- THE RESULT. The output array after the last point is the reference's per-type linear layer of the node table,
    the weight slabs and the bias, the region's [3, 1, 128] bias being the host's reshape of the [3, 128] argument. -/
theorem arr3 (c : Dev nD)
    (hv41 : ∀ (g : Fin 3) (q : Fin 128), (V c main_v41 : S3x1x128.Idx → EReal) (ValueIdx.ix3 g (0 : Fin 1) q)
      = (V c main_arg10 : S3x128.Idx → EReal) (ValueIdx.ix2 g q)) :
    (dat3 (F := Ideal) V adm3 c).arrAt 3 (cfg3 (F := Ideal) adm3).N
      = Cert.ReferenceIdeal.Stages.typeLin (F := Ideal) (V c main_v40) (V c main_arg9) (V c main_arg10) :=
  arr3_of_cases V c hv41
    (fun r q h => Cert.ReferenceIdeal.StageRead.typeLin_apply_lo (V c main_v40) (V c main_arg9) (V c main_arg10) r q h)
    (fun r q h1 h2 => Cert.ReferenceIdeal.StageRead.typeLin_apply_mid (V c main_v40) (V c main_arg9) (V c main_arg10) r q h1 h2)
    (fun r q h => Cert.ReferenceIdeal.StageRead.typeLin_apply_hi (V c main_v40) (V c main_arg9) (V c main_arg10) r q h)

end Result

/-! ## The bias when the region is entered -/

section Entry41

variable {F : FTy → Type} [FloatOps F]
variable (m : (ℓ : Loc nD τ sig) → Buf (Elt F) ℓ) (outs : Outs (F := F))

/-- When region 3 is entered the [3, 1, 128] bias at (g, 0, q) is the [3, 128] argument at (g, q): the host stretch
    before the region reshapes the argument and leaves the argument as it was. -/
theorem V7_v41 (c : Dev nD) (g : Fin 3) (q : Fin 128) :
    (V7 m outs c main_v41 : S3x1x128.Idx → Elt F .f32) (ValueIdx.ix3 g (0 : Fin 1) q)
      = (V7 m outs c main_arg10 : S3x128.Idx → Elt F .f32) (ix2 g q) :=
  (after_hostOps3_v41 (V6 m outs c) g q).trans (congrFun (V7_of m outs c main_arg10 (by decide)).symm (ix2 g q))

end Entry41

end Cert.KernelIdeal.Fr

end
-- ==== Proof.KI.C4.lean ====
/- From blocks to the array, region 4 of @main: the printed index maps in closed form over the grid (a row-blocked
   window's block index at point `t` is (t, 0), a whole window's is zero), where a block's element sits in its array
   (row 1000·t + p), each input block read off the region-entry contents `V`, and each output array after the last
   point as ONE function `G` of its index once every point's stored block is block `t` of `G`: the blocks tile the
   array (row r lies in the block of point r / 1000). Generic in the float instance. -/
import proofs.«107237_j10496900072251_2_alg».proof.Proof.KI.R4
import Idealize.ShloMosaic.Lib.Pipeline.Value
import Idealize.ShloMosaic.Lib.ValueIdx

noncomputable section

namespace Cert.KernelIdeal.Fr

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## Zero offsets, the grid's size, a row's bound -/

theorem zeros2_4 : (![0, 0] : Fin 2 → Nat) = fun _ => 0 := funext fun a => by fin_cases a <;> rfl
theorem zeros1_4 : (![0] : Fin 1 → Nat) = fun _ => 0 := funext fun a => by fin_cases a <;> rfl

/-- The grid has 50 points. -/
theorem tlt4 (t : Fin cfg4.N) : t.val < 50 := lt_of_lt_of_eq t.isLt N_4

/-- Row `p` of block `t` is a row of the array. -/
theorem rowlt4 (t : Fin cfg4.N) (p : Fin 1000) : 1000 * t.val + p.val < 50000 := by
  have := tlt4 t; have := p.isLt; omega

/-! ## The index maps in closed form, decided over the grid -/

/-- Each window's block index at point `t`: a row-blocked window's is (t, 0), a whole window's is zero. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = 0
    ∧ win4_3.index t (1 : Fin 2) = 0
    ∧ win4_4.index t (0 : Fin 1) = 0
    ∧ win4_5.index t (0 : Fin 2) = t.val
    ∧ win4_5.index t (1 : Fin 2) = 0
    ∧ win4_6.index t (0 : Fin 2) = t.val
    ∧ win4_6.index t (1 : Fin 2) = 0 :=
  (by decide +kernel : ∀ t : Fin grid4.N, _)

/-! ## Where a block's element sits in its array -/

/-- Window 0: element (p, q) of block `t` is element (1000·t + p, q) of the array. -/
theorem emb4_0 (t : Fin cfg4.N) (p : Fin 1000) (q : Fin 128) :
    ((cfg4.win 0).blk t).view.emb (ix2 p q) = (ix2 ⟨1000 * t.val + p.val, rowlt4 t p⟩ q : S50000x128.Idx) := by
  obtain ⟨e0_0, e0_1, e1_0, e1_1, e2_0, e3_0, e3_1, e4_0, e5_0, e5_1, e6_0, e6_1⟩ := idx_facts4 t
  funext a; apply Fin.ext
  match a with
  | ⟨0, _⟩ => show win4_0.index t (0 : Fin 2) * 1000 + 1 * p.val = 1000 * t.val + p.val; omega
  | ⟨1, _⟩ => show win4_0.index t (1 : Fin 2) * 128 + 1 * q.val = q.val; omega

/-- Window 1 is its whole array: an element of the block is that element of the array. -/
theorem emb4_1 (t : Fin cfg4.N) (y : S128x128.Idx) : ((cfg4.win 1).blk t).view.emb y = y := by
  obtain ⟨e0_0, e0_1, e1_0, e1_1, e2_0, e3_0, e3_1, e4_0, e5_0, e5_1, e6_0, e6_1⟩ := idx_facts4 t
  funext a; apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Window 2 is its whole array: an element of the block is that element of the array. -/
theorem emb4_2 (t : Fin cfg4.N) (y : S128.Idx) : ((cfg4.win 2).blk t).view.emb y = y := by
  obtain ⟨e0_0, e0_1, e1_0, e1_1, e2_0, e3_0, e3_1, e4_0, e5_0, e5_1, e6_0, e6_1⟩ := idx_facts4 t
  funext a; apply Fin.ext
  match a with
  | ⟨0, _⟩ => show win4_2.index t (0 : Fin 1) * 128 + 1 * (y 0).val = (y 0).val; omega

/-- Window 3 is its whole array: an element of the block is that element of the array. -/
theorem emb4_3 (t : Fin cfg4.N) (y : S8x128.Idx) : ((cfg4.win 3).blk t).view.emb y = y := by
  obtain ⟨e0_0, e0_1, e1_0, e1_1, e2_0, e3_0, e3_1, e4_0, e5_0, e5_1, e6_0, e6_1⟩ := idx_facts4 t
  funext a; apply Fin.ext
  match a with
  | ⟨0, _⟩ => show win4_3.index t (0 : Fin 2) * 8 + 1 * (y 0).val = (y 0).val; omega
  | ⟨1, _⟩ => show win4_3.index t (1 : Fin 2) * 128 + 1 * (y 1).val = (y 1).val; omega

/-- Window 4 is its whole array: an element of the block is that element of the array. -/
theorem emb4_4 (t : Fin cfg4.N) (y : S8.Idx) : ((cfg4.win 4).blk t).view.emb y = y := by
  obtain ⟨e0_0, e0_1, e1_0, e1_1, e2_0, e3_0, e3_1, e4_0, e5_0, e5_1, e6_0, e6_1⟩ := idx_facts4 t
  funext a; apply Fin.ext
  match a with
  | ⟨0, _⟩ => show win4_4.index t (0 : Fin 1) * 8 + 1 * (y 0).val = (y 0).val; omega

/-- Window 5: element (p, q) of block `t` is element (1000·t + p, q) of the array. -/
theorem emb4_5 (t : Fin cfg4.N) (p : Fin 1000) (q : Fin 128) :
    ((cfg4.win 5).blk t).view.emb (ix2 p q) = (ix2 ⟨1000 * t.val + p.val, rowlt4 t p⟩ q : S50000x128.Idx) := by
  obtain ⟨e0_0, e0_1, e1_0, e1_1, e2_0, e3_0, e3_1, e4_0, e5_0, e5_1, e6_0, e6_1⟩ := idx_facts4 t
  funext a; apply Fin.ext
  match a with
  | ⟨0, _⟩ => show win4_5.index t (0 : Fin 2) * 1000 + 1 * p.val = 1000 * t.val + p.val; omega
  | ⟨1, _⟩ => show win4_5.index t (1 : Fin 2) * 128 + 1 * q.val = q.val; omega

/-- Window 6: element (p, q) of block `t` is element (1000·t + p, q) of the array. -/
theorem emb4_6 (t : Fin cfg4.N) (p : Fin 1000) (q : Fin 8) :
    ((cfg4.win 6).blk t).view.emb (ix2 p q) = (ix2 ⟨1000 * t.val + p.val, rowlt4 t p⟩ q : S50000x8.Idx) := by
  obtain ⟨e0_0, e0_1, e1_0, e1_1, e2_0, e3_0, e3_1, e4_0, e5_0, e5_1, e6_0, e6_1⟩ := idx_facts4 t
  funext a; apply Fin.ext
  match a with
  | ⟨0, _⟩ => show win4_6.index t (0 : Fin 2) * 1000 + 1 * p.val = 1000 * t.val + p.val; omega
  | ⟨1, _⟩ => show win4_6.index t (1 : Fin 2) * 8 + 1 * q.val = q.val; omega

/-! ## Each input block, read off the region-entry contents -/

/-- Input window 0's block at point `t` is rows 1000·t … 1000·t + 999 of its array. -/
theorem iblk4_0_apply (c : Dev nD) (t : Fin cfg4.N) (p : Fin 1000) (q : Fin 128) :
    (iblk4 V c 0 t : Vec F S1000x128 .f32) (ix2 p q)
      = (V c (Pipeline.arrRef spec4 0) : S50000x128.Idx → Elt F .f32) (ix2 ⟨1000 * t.val + p.val, rowlt4 t p⟩ q) := by
  unfold iblk4
  rw [View.read_apply]
  show (V c (Pipeline.arrRef spec4 0) : S50000x128.Idx → Elt F .f32) (((cfg4.win 0).blk t).view.emb (ix2 p q)) = _
  rw [emb4_0]

/-- Input window 1's block at every point is its whole array. -/
theorem iblk4_1_apply (c : Dev nD) (t : Fin cfg4.N) (y : S128x128.Idx) :
    (iblk4 V c 1 t : Vec F S128x128 .f32) y = (V c (Pipeline.arrRef spec4 1) : S128x128.Idx → Elt F .f32) y := by
  unfold iblk4
  rw [View.read_apply]
  show (V c (Pipeline.arrRef spec4 1) : S128x128.Idx → Elt F .f32) (((cfg4.win 1).blk t).view.emb y) = _
  rw [emb4_1]

/-- Input window 2's block at every point is its whole array. -/
theorem iblk4_2_apply (c : Dev nD) (t : Fin cfg4.N) (y : S128.Idx) :
    (iblk4 V c 2 t : Vec F S128 .f32) y = (V c (Pipeline.arrRef spec4 2) : S128.Idx → Elt F .f32) y := by
  unfold iblk4
  rw [View.read_apply]
  show (V c (Pipeline.arrRef spec4 2) : S128.Idx → Elt F .f32) (((cfg4.win 2).blk t).view.emb y) = _
  rw [emb4_2]

/-- Input window 3's block at every point is its whole array. -/
theorem iblk4_3_apply (c : Dev nD) (t : Fin cfg4.N) (y : S8x128.Idx) :
    (iblk4 V c 3 t : Vec F S8x128 .f32) y = (V c (Pipeline.arrRef spec4 3) : S8x128.Idx → Elt F .f32) y := by
  unfold iblk4
  rw [View.read_apply]
  show (V c (Pipeline.arrRef spec4 3) : S8x128.Idx → Elt F .f32) (((cfg4.win 3).blk t).view.emb y) = _
  rw [emb4_3]

/-- Input window 4's block at every point is its whole array. -/
theorem iblk4_4_apply (c : Dev nD) (t : Fin cfg4.N) (y : S8.Idx) :
    (iblk4 V c 4 t : Vec F S8 .f32) y = (V c (Pipeline.arrRef spec4 4) : S8.Idx → Elt F .f32) y := by
  unfold iblk4
  rw [View.read_apply]
  show (V c (Pipeline.arrRef spec4 4) : S8.Idx → Elt F .f32) (((cfg4.win 4).blk t).view.emb y) = _
  rw [emb4_4]

/-! ## Output window 5: the blocks tile the array, so the array ends at one function of its index -/

/-- An index of the array is in point `t`'s block iff each coordinate is in the block's range on its axis. -/
theorem mem_blk4_5 (t : Fin cfg4.N) (i : S50000x128.Idx) :
    i ∈ ((cfg4.win 5).blk t).view.set ↔ ∀ a : Fin 2, win4_5.index t a * S1000x128.size a ≤ (i a).val ∧ (i a).val < win4_5.index t a * S1000x128.size a + S1000x128.size a := by
  show i ∈ ((View.whole main_v62_0).slice (win4_5.rect t)).set ↔ _
  rw [View.set_slice_whole, Rect.mem_set_unit]
  exact Iff.rfl

/-- Every index of the array is in some point's block: row `r` is in the block of point `r / 1000`. -/
theorem arr_cover4_5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ : ∃ t : Fin cfg4.N, t.val = (i 0).val / 1000 :=
    ⟨⟨(i 0).val / 1000, lt_of_lt_of_eq (show (i 0).val / 1000 < 50 by omega) N_4.symm⟩, rfl⟩
  obtain ⟨e0_0, e0_1, e1_0, e1_1, e2_0, e3_0, e3_1, e4_0, e5_0, e5_1, e6_0, e6_1⟩ := idx_facts4 t
  refine ⟨t, flush4_5 t, ?_⟩
  rw [mem_blk4_5]
  intro a
  match a with
  | ⟨0, _⟩ => show win4_5.index t (0 : Fin 2) * 1000 ≤ (i 0).val ∧ (i 0).val < win4_5.index t (0 : Fin 2) * 1000 + 1000; omega
  | ⟨1, _⟩ => show win4_5.index t (1 : Fin 2) * 128 ≤ (i 1).val ∧ (i 1).val < win4_5.index t (1 : Fin 2) * 128 + 128; omega

/-- The array after the last point is `G`, once what every point leaves in the window's buffer is block `t` of `G`. -/
theorem final4_5 (c : Dev nD) (G : S50000x128.Idx → Elt F .f32)
    (hflush : ∀ t : Fin cfg4.N, out4_5 (iblk4 V c 0 t) (iblk4 V c 1 t) (iblk4 V c 2 t) (iblk4 V c 3 t) (iblk4 V c 4 t) = ((cfg4.win 5).blk t).view.read (Elt F) G) :
    (dat4 V c).arrAt 5 cfg4.N = G :=
  (dat4 V c).arrAt_eq_of_cover 5 G (fun t _ => by
      show (cfg4.win 5).cut (grid4.coords t) ((dat4 V c).after 5 t) = _
      rw [after4_5]
      exact hflush t) arr_cover4_5

/-- The same from the payload point by point: element (p, q) of what point `t` stores is `G` at row 1000·t + p. -/
theorem final4_5' (c : Dev nD) (G : S50000x128.Idx → Elt F .f32)
    (hpt : ∀ (t : Fin cfg4.N) (p : Fin 1000) (q : Fin 128),
      k4_pay1 (iblk4 V c 0 t) (iblk4 V c 1 t) (iblk4 V c 2 t) (ix2 p q) = G (ix2 ⟨1000 * t.val + p.val, rowlt4 t p⟩ q)) :
    (dat4 V c).arrAt 5 cfg4.N = G :=
  final4_5 V c G fun t => by
    unfold out4_5
    rw [View.canon_unit_zero zeros2_4]
    simp only [View.ld_unit_zero (S := S1000x128) zeros2_4, View.ld_unit_zero (S := S128x128) zeros2_4, View.ld_unit_zero (S := S128) zeros1_4]
    funext (j : S1000x128.Idx)
    rw [View.read_apply]
    obtain ⟨p, q, rfl⟩ : ∃ (p : Fin 1000) (q : Fin 128), j = ix2 p q := ⟨j 0, j 1, eq_ix2 j⟩
    show _ = G (((cfg4.win 5).blk t).view.emb (ix2 p q))
    rw [emb4_5]
    exact hpt t p q

/-! ## Output window 6: the blocks tile the array, so the array ends at one function of its index -/

/-- An index of the array is in point `t`'s block iff each coordinate is in the block's range on its axis. -/
theorem mem_blk4_6 (t : Fin cfg4.N) (i : S50000x8.Idx) :
    i ∈ ((cfg4.win 6).blk t).view.set ↔ ∀ a : Fin 2, win4_6.index t a * S1000x8.size a ≤ (i a).val ∧ (i a).val < win4_6.index t a * S1000x8.size a + S1000x8.size a := by
  show i ∈ ((View.whole main_v62_1).slice (win4_6.rect t)).set ↔ _
  rw [View.set_slice_whole, Rect.mem_set_unit]
  exact Iff.rfl

/-- Every index of the array is in some point's block: row `r` is in the block of point `r / 1000`. -/
theorem arr_cover4_6 (i : S50000x8.Idx) :
    ∃ t : Fin cfg4.N, (cfg4.win 6).flush t = true ∧ i ∈ ((cfg4.win 6).blk t).view.set := by
  have hi0 : (i 0).val < 50000 := (i 0).isLt
  have hi1 : (i 1).val < 8 := (i 1).isLt
  obtain ⟨t, ht⟩ : ∃ t : Fin cfg4.N, t.val = (i 0).val / 1000 :=
    ⟨⟨(i 0).val / 1000, lt_of_lt_of_eq (show (i 0).val / 1000 < 50 by omega) N_4.symm⟩, rfl⟩
  obtain ⟨e0_0, e0_1, e1_0, e1_1, e2_0, e3_0, e3_1, e4_0, e5_0, e5_1, e6_0, e6_1⟩ := idx_facts4 t
  refine ⟨t, flush4_6 t, ?_⟩
  rw [mem_blk4_6]
  intro a
  match a with
  | ⟨0, _⟩ => show win4_6.index t (0 : Fin 2) * 1000 ≤ (i 0).val ∧ (i 0).val < win4_6.index t (0 : Fin 2) * 1000 + 1000; omega
  | ⟨1, _⟩ => show win4_6.index t (1 : Fin 2) * 8 ≤ (i 1).val ∧ (i 1).val < win4_6.index t (1 : Fin 2) * 8 + 8; omega

/-- The array after the last point is `G`, once what every point leaves in the window's buffer is block `t` of `G`. -/
theorem final4_6 (c : Dev nD) (G : S50000x8.Idx → Elt F .f32)
    (hflush : ∀ t : Fin cfg4.N, out4_6 (iblk4 V c 0 t) (iblk4 V c 1 t) (iblk4 V c 2 t) (iblk4 V c 3 t) (iblk4 V c 4 t) = ((cfg4.win 6).blk t).view.read (Elt F) G) :
    (dat4 V c).arrAt 6 cfg4.N = G :=
  (dat4 V c).arrAt_eq_of_cover 6 G (fun t _ => by
      show (cfg4.win 6).cut (grid4.coords t) ((dat4 V c).after 6 t) = _
      rw [after4_6]
      exact hflush t) arr_cover4_6

/-- The same from the payload point by point: element (p, q) of what point `t` stores is `G` at row 1000·t + p. -/
theorem final4_6' (c : Dev nD) (G : S50000x8.Idx → Elt F .f32)
    (hpt : ∀ (t : Fin cfg4.N) (p : Fin 1000) (q : Fin 8),
      k4_pay2 (iblk4 V c 0 t) (iblk4 V c 1 t) (iblk4 V c 2 t) (iblk4 V c 3 t) (iblk4 V c 4 t) (ix2 p q) = G (ix2 ⟨1000 * t.val + p.val, rowlt4 t p⟩ q)) :
    (dat4 V c).arrAt 6 cfg4.N = G :=
  final4_6 V c G fun t => by
    unfold out4_6
    rw [View.canon_unit_zero zeros2_4]
    simp only [View.ld_unit_zero (S := S1000x128) zeros2_4, View.ld_unit_zero (S := S128x128) zeros2_4, View.ld_unit_zero (S := S128) zeros1_4, View.ld_unit_zero (S := S8x128) zeros2_4, View.ld_unit_zero (S := S8) zeros1_4]
    funext (j : S1000x8.Idx)
    rw [View.read_apply]
    obtain ⟨p, q, rfl⟩ : ∃ (p : Fin 1000) (q : Fin 8), j = ix2 p q := ⟨j 0, j 1, eq_ix2 j⟩
    show _ = G (((cfg4.win 6).blk t).view.emb (ix2 p q))
    rw [emb4_6]
    exact hpt t p q

end Cert.KernelIdeal.Fr

end
-- ==== Proof.KI.G4.lean ====
/-
  Region 4's two result arrays are the reference's embedding (the exponential linear unit of the projection) and its class
  scores (the classifier of the embedding), of the region's input arrays.

  Every grid point stores two row blocks.  The first: element (p, q) is the unit of the projection's value, the sum over k
  of the input block's (p, k) times the weight's (q, k) plus the bias at q; the input block's row p is the array's row
  1000 t + p, so this is the reference's embedding at (1000 t + p, q).  The second: element (p, q) is the sum over k of the
  first block's (p, k) times the classifier weight's (q, k) plus its bias at q, which, the first block being the embedding's
  rows, is the reference's classifier at (1000 t + p, q).  The row blocks tile both arrays.
-/
import proofs.«107237_j10496900072251_2_alg».proof.Proof.KI.C4
import proofs.«107237_j10496900072251_2_alg».proof.Proof.Val.KDots
import proofs.«107237_j10496900072251_2_alg».proof.Proof.Val.RDots
import proofs.«107237_j10496900072251_2_alg».proof.Proof.Ref.Stages
import proofs.«107237_j10496900072251_2_alg».proof.Proof.Val.Elem
import proofs.«107237_j10496900072251_2_alg».proof.Proof.KI.G1

noncomputable section

namespace Cert.KernelIdeal.Fr

open Cert.KernelIdeal Cert.KernelIdeal.Gen Idealize.ShloMosaic Idealize.ShloMosaic.TcCoe Idealize.SL.Sem
open Idealize.ShloMosaic.ValueIdx
open scoped BigOperators

variable [Cert.KernelIdeal.Facts] [Cert.ReferenceIdeal.Facts]
variable (V : (c : Dev nD) → (b : Ref sig .tc) → Buf (Elt Ideal) ((c : Thread nD τ).loc b))

/-- The reference's projection at (r, q): it is the [128, 128] linear layer. -/
theorem proj_at (z : FVec Ideal Cert.ReferenceIdeal.S50000x128 .f32) (w : FVec Ideal Cert.ReferenceIdeal.S128x128 .f32)
    (b : FVec Ideal Cert.ReferenceIdeal.S128 .f32) (r : Fin 50000) (q : Fin 128) :
    Cert.ReferenceIdeal.Stages.proj (F := Ideal) z w b (ix2 r q) = (∑ k : Fin 128, z (ix2 r k) * w (ix2 q k)) + b (ix1 q) :=
  lin1_at z w b r q

/-- The reference's classifier at (r, q): the row of the embedding against row q of the weight, plus the bias at q. -/
theorem logits_at (e : FVec Ideal Cert.ReferenceIdeal.S50000x128 .f32) (w : FVec Ideal Cert.ReferenceIdeal.S8x128 .f32)
    (b : FVec Ideal Cert.ReferenceIdeal.S8 .f32) (r : Fin 50000) (q : Fin 8) :
    Cert.ReferenceIdeal.Stages.logits (F := Ideal) e w b (ix2 r q) = (∑ k : Fin 128, e (ix2 r k) * w (ix2 q k)) + b (ix1 q) := by
  unfold Cert.ReferenceIdeal.Stages.logits
  rw [addf_apply, Cert.Val.R.rdot_50000x8, Cert.Val.R.rbias_50000x8]
  refine congrArg (· + _) (Finset.sum_congr rfl fun k _ => ?_)
  rw [Cert.Val.R.rtr8]

/-- Region 4's linear part is region 1's stored value of the same three blocks: the two bodies compute the same
    product plus bias. -/
theorem klin4_eq_k1 (v0 : Vec Ideal S1000x128 .f32) (v3 : Vec Ideal S128x128 .f32) (v7 : Vec Ideal S128 .f32) :
    Cert.Val.E.klin4 (F := Ideal) v0 v3 v7 = k1_pay1 (F := Ideal) v0 v3 v7 := rfl

/-- Point t's first stored block at (p, q) is the reference's embedding at row 1000 t + p. -/
theorem emb_pt (c : Dev nD) (t : Fin cfg4.N) (p : Fin 1000) (q : Fin 128) :
    k4_pay1 (F := Ideal) (iblk4 V c 0 t) (iblk4 V c 1 t) (iblk4 V c 2 t) (ix2 p q)
      = Cert.ReferenceIdeal.Stages.elu (F := Ideal)
          (Cert.ReferenceIdeal.Stages.proj (F := Ideal) (V c main_v61) (V c main_arg11) (V c main_arg12))
          (ix2 ⟨1000 * t.val + p.val, rowlt4 t p⟩ q) := by
  rw [Cert.Val.E.k4_pay1_eq]
  refine Cert.Val.E.elu_glue _ t.val (tlt4 t) _ (fun p' q' => ?_) p q
  rw [klin4_eq_k1, Cert.Val.K.k1_pay1_apply, proj_at, iblk4_2_apply]
  refine congrArg₂ (· + ·) (Finset.sum_congr rfl fun k _ => ?_) rfl
  rw [iblk4_0_apply, iblk4_1_apply]

/-- REGION 4's FIRST RESULT: after the last grid point the first output array is the reference's embedding, the
    exponential linear unit of the projection of the region's input table. -/
theorem arr4_emb (c : Dev nD) :
    (dat4 (F := Ideal) V c).arrAt 5 cfg4.N
      = Cert.ReferenceIdeal.Stages.elu (F := Ideal)
          (Cert.ReferenceIdeal.Stages.proj (F := Ideal) (V c main_v61) (V c main_arg11) (V c main_arg12)) :=
  final4_5' V c _ fun t p q => emb_pt V c t p q

/-- REGION 4's SECOND RESULT: after the last grid point the second output array is the reference's class scores of that
    embedding. -/
theorem arr4_logits (c : Dev nD) :
    (dat4 (F := Ideal) V c).arrAt 6 cfg4.N
      = Cert.ReferenceIdeal.Stages.logits (F := Ideal)
          (Cert.ReferenceIdeal.Stages.elu (F := Ideal)
            (Cert.ReferenceIdeal.Stages.proj (F := Ideal) (V c main_v61) (V c main_arg11) (V c main_arg12)))
          (V c main_arg13) (V c main_arg14) := by
  refine final4_6' V c _ fun t p q => ?_
  rw [Cert.Val.K.k4_pay2_apply, logits_at, iblk4_4_apply]
  refine congrArg₂ (· + ·) (Finset.sum_congr rfl fun k _ => ?_) rfl
  rw [iblk4_3_apply, emb_pt V c t p k]

end Cert.KernelIdeal.Fr

end
-- ==== Proof.KI.Value.lean ====
/- The kernel program's two results at the ideal values, as the reference's staged functions of the argument
   arrays. The buffers' contents are followed through @main: each region's output array is the reference's dense
   stage of the region's input arrays (the row tiles of a matrix product are the product's rows; the per-type
   layer picks the tile's type through the constant table; the selection column is the cluster table's bit where
   every cluster index is in 0..3), each host stretch applies the reference's own operations (the node table above
   zero rows is the table written into zeros; the mean over in-edges; the one-hot table), and a buffer nothing
   writes keeps its launch contents. -/
import proofs.«107237_j10496900072251_2_alg».proof.Proof.KI.Run
import proofs.«107237_j10496900072251_2_alg».proof.Proof.KI.Host
import proofs.«107237_j10496900072251_2_alg».proof.Proof.KI.G0
import proofs.«107237_j10496900072251_2_alg».proof.Proof.KI.G1
import proofs.«107237_j10496900072251_2_alg».proof.Proof.KI.G2
import proofs.«107237_j10496900072251_2_alg».proof.Proof.KI.G3
import proofs.«107237_j10496900072251_2_alg».proof.Proof.KI.G4
import proofs.«107237_j10496900072251_2_alg».proof.Proof.Ref.Read

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo

variable [Cert.ReferenceIdeal.Facts]
variable (m : (ℓ : Loc nD τ sig) → Buf (Elt Ideal) ℓ) (c : Dev nD)

/-! ## A buffer nothing has written yet holds its launch contents -/

theorem keep1 (r : Ref sig .tc) (h0 : r ∉ hostOps0_W) : V1 m c r = m ((c : Thread nD τ).loc r) := V1_of m c r h0
theorem keep2 (O : Outs (F := Ideal)) (r : Ref sig .tc) (h0 : r ∉ hostOps0_W) (h1 : r ∉ ([main_v0] : List (Ref sig .tc))) :
    V2 m O c r = m ((c : Thread nD τ).loc r) := (V2_of m O c r h1).trans (keep1 m c r h0)
theorem keep3 (O : Outs (F := Ideal)) (r : Ref sig .tc) (h0 : r ∉ hostOps0_W) (h1 : r ∉ ([main_v0] : List (Ref sig .tc))) (h2 : r ∉ hostOps1_W) :
    V3 m O c r = m ((c : Thread nD τ).loc r) := (V3_of m O c r h2).trans (keep2 m c O r h0 h1)
theorem keep4 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) : V4 m O c r = m ((c : Thread nD τ).loc r) := (V4_of m O c r h3).trans (keep3 m c O r h0 h1 h2)
theorem keep5 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) (h4 : r ∉ hostOps2_W) : V5 m O c r = m ((c : Thread nD τ).loc r) :=
  (V5_of m O c r h4).trans (keep4 m c O r h0 h1 h2 h3)
theorem keep6 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) (h4 : r ∉ hostOps2_W) (h5 : r ∉ ([main_v40] : List (Ref sig .tc))) :
    V6 m O c r = m ((c : Thread nD τ).loc r) := (V6_of m O c r h5).trans (keep5 m c O r h0 h1 h2 h3 h4)
theorem keep7 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) (h4 : r ∉ hostOps2_W) (h5 : r ∉ ([main_v40] : List (Ref sig .tc))) (h6 : r ∉ hostOps3_W) :
    V7 m O c r = m ((c : Thread nD τ).loc r) := (V7_of m O c r h6).trans (keep6 m c O r h0 h1 h2 h3 h4 h5)
theorem keep8 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) (h4 : r ∉ hostOps2_W) (h5 : r ∉ ([main_v40] : List (Ref sig .tc))) (h6 : r ∉ hostOps3_W)
    (h7 : r ∉ ([main_v42] : List (Ref sig .tc))) : V8 m O c r = m ((c : Thread nD τ).loc r) :=
  (V8_of m O c r h7).trans (keep7 m c O r h0 h1 h2 h3 h4 h5 h6)
theorem keep9 (O : Outs (F := Ideal)) (r : Ref sig .tc) (h0 : r ∉ hostOps0_W) (h1 : r ∉ ([main_v0] : List (Ref sig .tc))) (h2 : r ∉ hostOps1_W)
    (h3 : r ∉ ([main_v13] : List (Ref sig .tc))) (h4 : r ∉ hostOps2_W) (h5 : r ∉ ([main_v40] : List (Ref sig .tc))) (h6 : r ∉ hostOps3_W)
    (h7 : r ∉ ([main_v42] : List (Ref sig .tc))) (h8 : r ∉ hostOps4_W) : V9 m O c r = m ((c : Thread nD τ).loc r) :=
  (V9_of m O c r h8).trans (keep8 m c O r h0 h1 h2 h3 h4 h5 h6 h7)

/-! ## The contents, stage by stage (for any contents `O` the regions leave that agree with what they do leave) -/

/-- Region 0's output: the attributed type's linear layer. -/
theorem s_v0 (O : Outs (F := Ideal)) (h2 : O 2 main_v0 c = o2 m main_v0 c) :
    V2 m O c main_v0 = Cert.ReferenceIdeal.Stages.hAttr (F := Ideal) (m ((c : Thread nD τ).loc main_arg0)) (m ((c : Thread nD τ).loc main_arg1)) (m ((c : Thread nD τ).loc main_arg2)) := by
  have e : V2 m O c main_v0 = O 2 main_v0 c := by simp only [V2, Function.update_self]
  refine e.trans (h2.trans ((o2_arr m c 3).trans ((arr0 (E1 m) c).trans ?_)))
  show Cert.ReferenceIdeal.Stages.hAttr (F := Ideal) (V1 m c main_arg0) (V1 m c main_arg1) (V1 m c main_arg2) = _
  rw [keep1 m c main_arg0 (by decide), keep1 m c main_arg1 (by decide), keep1 m c main_arg2 (by decide)]

/-- The node table: region 0's rows above zero rows is the linear layer written into the zero table. -/
theorem s_v2 (O : Outs (F := Ideal)) (h2 : O 2 main_v0 c = o2 m main_v0 c) :
    V3 m O c main_v2 = Cert.ReferenceIdeal.Stages.h0 (F := Ideal) (m ((c : Thread nD τ).loc main_arg0)) (m ((c : Thread nD τ).loc main_arg1)) (m ((c : Thread nD τ).loc main_arg2)) := by
  show after hostOps1 (V2 m O c) (Proc.devRef .tc main_v2) = _
  rw [host1_v2]
  show concatenate S50000x128 0 [⟨S20000x128, V2 m O c main_v0⟩, _] _ = _
  rw [s_v0 m c O h2]
  exact (Cert.ReferenceIdeal.StageRead.h0_eq_concat _ _ _).symm

/-- The one-hot table. -/
theorem s_v12 (O : Outs (F := Ideal)) : V3 m O c main_v12 = Cert.ReferenceIdeal.Stages.oneHot (F := Ideal) (m ((c : Thread nD τ).loc main_arg3)) (m ((c : Thread nD τ).loc main_arg4)) (m ((c : Thread nD τ).loc main_arg5)) (m ((c : Thread nD τ).loc main_arg6)) := by
  show after hostOps1 (V2 m O c) (Proc.devRef .tc main_v12) = _
  rw [host1_v12]
  show Cert.ReferenceIdeal.Stages.oneHot (F := Ideal) (V2 m O c main_arg3) (V2 m O c main_arg4) (V2 m O c main_arg5) (V2 m O c main_arg6) = _
  rw [keep2 m c O main_arg3 (by decide) (by decide), keep2 m c O main_arg4 (by decide) (by decide), keep2 m c O main_arg5 (by decide) (by decide), keep2 m c O main_arg6 (by decide) (by decide)]

/-- Region 1's output: the shared linear layer of the node table. -/
theorem s_v13 (O : Outs (F := Ideal)) (h2 : O 2 main_v0 c = o2 m main_v0 c) (h4 : O 4 main_v13 c = o4 m main_v13 c) :
    V4 m O c main_v13 = Cert.ReferenceIdeal.Stages.lin1 (F := Ideal) (Cert.ReferenceIdeal.Stages.h0 (F := Ideal) (m ((c : Thread nD τ).loc main_arg0)) (m ((c : Thread nD τ).loc main_arg1)) (m ((c : Thread nD τ).loc main_arg2))) (m ((c : Thread nD τ).loc main_arg7)) (m ((c : Thread nD τ).loc main_arg8)) := by
  have e : V4 m O c main_v13 = O 4 main_v13 c := by simp only [V4, Function.update_self]
  refine e.trans (h4.trans ((o4_arr m c 3).trans ((arr1 (E3 m) c).trans ?_)))
  show Cert.ReferenceIdeal.Stages.lin1 (F := Ideal) (V3 m (outs2 m) c main_v2) (V3 m (outs2 m) c main_arg7) (V3 m (outs2 m) c main_arg8) = _
  rw [s_v2 m c (outs2 m) rfl, keep3 m c (outs2 m) main_arg7 (by decide) (by decide) (by decide), keep3 m c (outs2 m) main_arg8 (by decide) (by decide) (by decide)]

/-- The first aggregation. -/
theorem s_v32 (O : Outs (F := Ideal)) (h2 : O 2 main_v0 c = o2 m main_v0 c) (h4 : O 4 main_v13 c = o4 m main_v13 c) :
    V5 m O c main_v32 = Cert.ReferenceIdeal.Stages.meanAgg (F := Ideal) (Cert.ReferenceIdeal.Stages.lin1 (F := Ideal) (Cert.ReferenceIdeal.Stages.h0 (F := Ideal) (m ((c : Thread nD τ).loc main_arg0)) (m ((c : Thread nD τ).loc main_arg1)) (m ((c : Thread nD τ).loc main_arg2))) (m ((c : Thread nD τ).loc main_arg7)) (m ((c : Thread nD τ).loc main_arg8))) (m ((c : Thread nD τ).loc main_arg15)) (m ((c : Thread nD τ).loc main_arg16)) := by
  show after hostOps2 (V4 m O c) (Proc.devRef .tc main_v32) = _
  rw [host2_v32]
  show Cert.ReferenceIdeal.Stages.meanAgg (F := Ideal) (V4 m O c main_v13) (V4 m O c main_arg15) (V4 m O c main_arg16) = _
  rw [s_v13 m c O h2 h4, keep4 m c O main_arg15 (by decide) (by decide) (by decide) (by decide), keep4 m c O main_arg16 (by decide) (by decide) (by decide) (by decide)]

/-- The selection column. -/
theorem s_v39 (O : Outs (F := Ideal)) :
    V5 m O c main_v39 = Cert.Dom.selCol (F := Ideal) (m ((c : Thread nD τ).loc main_arg17)) bcast_S_S50000 bcast_S50000_S50000x1_0 := by
  show after hostOps2 (V4 m O c) (Proc.devRef .tc main_v39) = _
  rw [host2_v39]
  show Cert.Dom.selCol (F := Ideal) (V4 m O c main_arg17) bcast_S_S50000 bcast_S50000_S50000x1_0 = _
  rw [keep4 m c O main_arg17 (by decide) (by decide) (by decide) (by decide)]

theorem s5_v2 (O : Outs (F := Ideal)) (h2 : O 2 main_v0 c = o2 m main_v0 c) : V5 m O c main_v2 = Cert.ReferenceIdeal.Stages.h0 (F := Ideal) (m ((c : Thread nD τ).loc main_arg0)) (m ((c : Thread nD τ).loc main_arg1)) (m ((c : Thread nD τ).loc main_arg2)) :=
  (V5_of m O c main_v2 (by decide)).trans ((V4_of m O c main_v2 (by decide)).trans (s_v2 m c O h2))
theorem s5_v12 (O : Outs (F := Ideal)) : V5 m O c main_v12 = Cert.ReferenceIdeal.Stages.oneHot (F := Ideal) (m ((c : Thread nD τ).loc main_arg3)) (m ((c : Thread nD τ).loc main_arg4)) (m ((c : Thread nD τ).loc main_arg5)) (m ((c : Thread nD τ).loc main_arg6)) :=
  (V5_of m O c main_v12 (by decide)).trans ((V4_of m O c main_v12 (by decide)).trans (s_v12 m c O))

/-- Region 2's output: the node table plus the one-hot row or the aggregated row, by the node's cluster. -/
theorem s_v40 (O : Outs (F := Ideal)) (h6 : O 6 main_v40 c = o6 m main_v40 c) (hr : ∀ r : Fin 50000, (m ((c : Thread nD τ).loc main_arg17)) (ValueIdx.ix1 r) = 0#32 ∨ (m ((c : Thread nD τ).loc main_arg17)) (ValueIdx.ix1 r) = 1#32 ∨ (m ((c : Thread nD τ).loc main_arg17)) (ValueIdx.ix1 r) = 2#32 ∨ (m ((c : Thread nD τ).loc main_arg17)) (ValueIdx.ix1 r) = 3#32) :
    V6 m O c main_v40 = Cert.ReferenceIdeal.Stages.hAttributed (F := Ideal) (Cert.ReferenceIdeal.Stages.h0 (F := Ideal) (m ((c : Thread nD τ).loc main_arg0)) (m ((c : Thread nD τ).loc main_arg1)) (m ((c : Thread nD τ).loc main_arg2))) (Cert.ReferenceIdeal.Stages.oneHot (F := Ideal) (m ((c : Thread nD τ).loc main_arg3)) (m ((c : Thread nD τ).loc main_arg4)) (m ((c : Thread nD τ).loc main_arg5)) (m ((c : Thread nD τ).loc main_arg6))) (Cert.ReferenceIdeal.Stages.meanAgg (F := Ideal) (Cert.ReferenceIdeal.Stages.lin1 (F := Ideal) (Cert.ReferenceIdeal.Stages.h0 (F := Ideal) (m ((c : Thread nD τ).loc main_arg0)) (m ((c : Thread nD τ).loc main_arg1)) (m ((c : Thread nD τ).loc main_arg2))) (m ((c : Thread nD τ).loc main_arg7)) (m ((c : Thread nD τ).loc main_arg8))) (m ((c : Thread nD τ).loc main_arg15)) (m ((c : Thread nD τ).loc main_arg16))) (m ((c : Thread nD τ).loc main_arg17)) := by
  have e : V6 m O c main_v40 = O 6 main_v40 c := by simp only [V6, Function.update_self]
  refine e.trans (h6.trans ((o6_arr m c 4).trans ((arr2 (E5 m) c (m ((c : Thread nD τ).loc main_arg17)) hr (s_v39 m c (outs4 m))).trans ?_)))
  show Cert.ReferenceIdeal.Stages.hAttributed (F := Ideal) (V5 m (outs4 m) c main_v2) (V5 m (outs4 m) c main_v12) (V5 m (outs4 m) c main_v32) _ = _
  rw [s5_v2 m c (outs4 m) rfl, s5_v12 m c (outs4 m), s_v32 m c (outs4 m) rfl rfl]

/-- Region 3's output: the per-type linear layer. -/
theorem s_v42 (O : Outs (F := Ideal)) (h8 : O 8 main_v42 c = o8 m adm3 main_v42 c) (hr : ∀ r : Fin 50000, (m ((c : Thread nD τ).loc main_arg17)) (ValueIdx.ix1 r) = 0#32 ∨ (m ((c : Thread nD τ).loc main_arg17)) (ValueIdx.ix1 r) = 1#32 ∨ (m ((c : Thread nD τ).loc main_arg17)) (ValueIdx.ix1 r) = 2#32 ∨ (m ((c : Thread nD τ).loc main_arg17)) (ValueIdx.ix1 r) = 3#32) :
    V8 m O c main_v42 = Cert.ReferenceIdeal.Stages.typeLin (F := Ideal) (Cert.ReferenceIdeal.Stages.hAttributed (F := Ideal) (Cert.ReferenceIdeal.Stages.h0 (F := Ideal) (m ((c : Thread nD τ).loc main_arg0)) (m ((c : Thread nD τ).loc main_arg1)) (m ((c : Thread nD τ).loc main_arg2))) (Cert.ReferenceIdeal.Stages.oneHot (F := Ideal) (m ((c : Thread nD τ).loc main_arg3)) (m ((c : Thread nD τ).loc main_arg4)) (m ((c : Thread nD τ).loc main_arg5)) (m ((c : Thread nD τ).loc main_arg6))) (Cert.ReferenceIdeal.Stages.meanAgg (F := Ideal) (Cert.ReferenceIdeal.Stages.lin1 (F := Ideal) (Cert.ReferenceIdeal.Stages.h0 (F := Ideal) (m ((c : Thread nD τ).loc main_arg0)) (m ((c : Thread nD τ).loc main_arg1)) (m ((c : Thread nD τ).loc main_arg2))) (m ((c : Thread nD τ).loc main_arg7)) (m ((c : Thread nD τ).loc main_arg8))) (m ((c : Thread nD τ).loc main_arg15)) (m ((c : Thread nD τ).loc main_arg16))) (m ((c : Thread nD τ).loc main_arg17))) (m ((c : Thread nD τ).loc main_arg9)) (m ((c : Thread nD τ).loc main_arg10)) := by
  have e : V8 m O c main_v42 = O 8 main_v42 c := by simp only [V8, Function.update_self]
  have hv41 : ∀ (g : Fin 3) (q : Fin 128), (E7 m c main_v41 : S3x1x128.Idx → EReal) (ValueIdx.ix3 g (0 : Fin 1) q) = (E7 m c main_arg10 : S3x128.Idx → EReal) (ValueIdx.ix2 g q) := fun g q =>
    (after_hostOps3_v41 (V6 m (outs6 m) c) g q).trans (congrFun (V7_of m (outs6 m) c main_arg10 (by decide)).symm (ValueIdx.ix2 g q))
  refine e.trans (h8.trans ((o8_arr m adm3 c 3).trans ((arr3 (E7 m) c hv41).trans ?_)))
  show Cert.ReferenceIdeal.Stages.typeLin (F := Ideal) (V7 m (outs6 m) c main_v40) (V7 m (outs6 m) c main_arg9) (V7 m (outs6 m) c main_arg10) = _
  rw [(V7_of m (outs6 m) c main_v40 (by decide)).trans (s_v40 m c (outs6 m) rfl hr), keep7 m c (outs6 m) main_arg9 (by decide) (by decide) (by decide) (by decide) (by decide) (by decide) (by decide), keep7 m c (outs6 m) main_arg10 (by decide) (by decide) (by decide) (by decide) (by decide) (by decide) (by decide)]

/-- The second aggregation. -/
theorem s_v61 (O : Outs (F := Ideal)) (h8 : O 8 main_v42 c = o8 m adm3 main_v42 c) (hr : ∀ r : Fin 50000, (m ((c : Thread nD τ).loc main_arg17)) (ValueIdx.ix1 r) = 0#32 ∨ (m ((c : Thread nD τ).loc main_arg17)) (ValueIdx.ix1 r) = 1#32 ∨ (m ((c : Thread nD τ).loc main_arg17)) (ValueIdx.ix1 r) = 2#32 ∨ (m ((c : Thread nD τ).loc main_arg17)) (ValueIdx.ix1 r) = 3#32) :
    V9 m O c main_v61 = Cert.ReferenceIdeal.Stages.meanAgg (F := Ideal) (Cert.ReferenceIdeal.Stages.typeLin (F := Ideal) (Cert.ReferenceIdeal.Stages.hAttributed (F := Ideal) (Cert.ReferenceIdeal.Stages.h0 (F := Ideal) (m ((c : Thread nD τ).loc main_arg0)) (m ((c : Thread nD τ).loc main_arg1)) (m ((c : Thread nD τ).loc main_arg2))) (Cert.ReferenceIdeal.Stages.oneHot (F := Ideal) (m ((c : Thread nD τ).loc main_arg3)) (m ((c : Thread nD τ).loc main_arg4)) (m ((c : Thread nD τ).loc main_arg5)) (m ((c : Thread nD τ).loc main_arg6))) (Cert.ReferenceIdeal.Stages.meanAgg (F := Ideal) (Cert.ReferenceIdeal.Stages.lin1 (F := Ideal) (Cert.ReferenceIdeal.Stages.h0 (F := Ideal) (m ((c : Thread nD τ).loc main_arg0)) (m ((c : Thread nD τ).loc main_arg1)) (m ((c : Thread nD τ).loc main_arg2))) (m ((c : Thread nD τ).loc main_arg7)) (m ((c : Thread nD τ).loc main_arg8))) (m ((c : Thread nD τ).loc main_arg15)) (m ((c : Thread nD τ).loc main_arg16))) (m ((c : Thread nD τ).loc main_arg17))) (m ((c : Thread nD τ).loc main_arg9)) (m ((c : Thread nD τ).loc main_arg10))) (m ((c : Thread nD τ).loc main_arg15)) (m ((c : Thread nD τ).loc main_arg16)) := by
  show after hostOps4 (V8 m O c) (Proc.devRef .tc main_v61) = _
  rw [host4_v61]
  show Cert.ReferenceIdeal.Stages.meanAgg (F := Ideal) (V8 m O c main_v42) (V8 m O c main_arg15) (V8 m O c main_arg16) = _
  rw [s_v42 m c O h8 hr, keep8 m c O main_arg15 (by decide) (by decide) (by decide) (by decide) (by decide) (by decide) (by decide) (by decide), keep8 m c O main_arg16 (by decide) (by decide) (by decide) (by decide) (by decide) (by decide) (by decide) (by decide)]

/-! ## The two results -/

/-- THE EMBEDDING the kernel program ends with is the reference's staged function of the argument arrays. -/
theorem emb_value (hr : ∀ r : Fin 50000, (m ((c : Thread nD τ).loc main_arg17)) (ValueIdx.ix1 r) = 0#32 ∨ (m ((c : Thread nD τ).loc main_arg17)) (ValueIdx.ix1 r) = 1#32 ∨ (m ((c : Thread nD τ).loc main_arg17)) (ValueIdx.ix1 r) = 2#32 ∨ (m ((c : Thread nD τ).loc main_arg17)) (ValueIdx.ix1 r) = 3#32) :
    Vlast m c main_v62_0 = Cert.ReferenceIdeal.Stages.emb_all (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Cert.ReferenceIdeal.Stages.emb_all
  refine (V10_at0 m adm3 c).trans ((o10_arr m adm3 c 5).trans ((arr4_emb (E9 m adm3) c).trans ?_))
  show Cert.ReferenceIdeal.Stages.elu (F := Ideal) (Cert.ReferenceIdeal.Stages.proj (F := Ideal) (V9 m (outs8 m adm3) c main_v61) (V9 m (outs8 m adm3) c main_arg11) (V9 m (outs8 m adm3) c main_arg12)) = _
  rw [s_v61 m c (outs8 m adm3) rfl hr, keep9 m c (outs8 m adm3) main_arg11 (by decide) (by decide) (by decide) (by decide) (by decide) (by decide) (by decide) (by decide) (by decide), keep9 m c (outs8 m adm3) main_arg12 (by decide) (by decide) (by decide) (by decide) (by decide) (by decide) (by decide) (by decide) (by decide)]

/-- THE CLASS SCORES likewise. -/
theorem logits_value (hr : ∀ r : Fin 50000, (m ((c : Thread nD τ).loc main_arg17)) (ValueIdx.ix1 r) = 0#32 ∨ (m ((c : Thread nD τ).loc main_arg17)) (ValueIdx.ix1 r) = 1#32 ∨ (m ((c : Thread nD τ).loc main_arg17)) (ValueIdx.ix1 r) = 2#32 ∨ (m ((c : Thread nD τ).loc main_arg17)) (ValueIdx.ix1 r) = 3#32) :
    Vlast m c main_v62_1 = Cert.ReferenceIdeal.Stages.logits_all (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  unfold Cert.ReferenceIdeal.Stages.logits_all Cert.ReferenceIdeal.Stages.emb_all
  refine (V10_at1 m adm3 c).trans ((o10_arr m adm3 c 6).trans ((arr4_logits (E9 m adm3) c).trans ?_))
  show Cert.ReferenceIdeal.Stages.logits (F := Ideal) (Cert.ReferenceIdeal.Stages.elu (F := Ideal) (Cert.ReferenceIdeal.Stages.proj (F := Ideal) (V9 m (outs8 m adm3) c main_v61) (V9 m (outs8 m adm3) c main_arg11) (V9 m (outs8 m adm3) c main_arg12))) (V9 m (outs8 m adm3) c main_arg13) (V9 m (outs8 m adm3) c main_arg14) = _
  rw [s_v61 m c (outs8 m adm3) rfl hr, keep9 m c (outs8 m adm3) main_arg11 (by decide) (by decide) (by decide) (by decide) (by decide) (by decide) (by decide) (by decide) (by decide), keep9 m c (outs8 m adm3) main_arg12 (by decide) (by decide) (by decide) (by decide) (by decide) (by decide) (by decide) (by decide) (by decide), keep9 m c (outs8 m adm3) main_arg13 (by decide) (by decide) (by decide) (by decide) (by decide) (by decide) (by decide) (by decide) (by decide), keep9 m c (outs8 m adm3) main_arg14 (by decide) (by decide) (by decide) (by decide) (by decide) (by decide) (by decide) (by decide) (by decide)]

end Cert.KernelIdeal.Fr

end
-- ==== Proof.Ref.Run.lean ====
/-
  The reference's @main as a list of its host operations, the two module-local functions it calls written out at
  their call sites over the calls' buffer records, and its run read back: every weakly fair execution terminates
  with every buffer at the fold of the operations over the launch contents; the argument arrays, which no
  operation writes, end as launched. The list is cut where @main's definition is cut into its three windows.
-/
import proofs.«107237_j10496900072251_2_alg».proof.Proof.Gen.ReferenceIdeal
import Idealize.ShloMosaic.Lib.StableHlo.Run
import Idealize.ShloMosaic.Lib.Pipeline.Frame

set_option synthInstance.maxSize 4096

noncomputable section

namespace Cert.ReferenceIdeal.RefRun

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F]

/-- The operations of @main's first window (statements 1 … 60). -/
abbrev ops0 : List (HloOp τ sig (Elt F)) :=
  [ StableHlo.nullary main_c (fun i => lit0 (S4.rowMajor i)),
    StableHlo.unary main_arg1 main_v0 ((transpose S512x128 [1, 0] · transposes_S128x512_S512x128_1_0) : (⟨S128x512, .f32⟩ : BufTy).Contents (Elt F) → (⟨S512x128, .f32⟩ : BufTy).Contents (Elt F)),
    StableHlo.binary main_arg0 main_v0 main_v1 ((fun l r => Host.dotGeneral dot_S20000x512_S512x128_S20000x128_1_0_0_1_n_n none l r) : (⟨S20000x512, .f32⟩ : BufTy).Contents (Elt F) → (⟨S512x128, .f32⟩ : BufTy).Contents (Elt F) → (⟨S20000x128, .f32⟩ : BufTy).Contents (Elt F)),
    StableHlo.unary main_arg2 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S20000x128 ![0, 1] bcast_S1x128_S20000x128_0_1 : (⟨S1x128, .f32⟩ : BufTy).Contents (Elt F) → (⟨S20000x128, .f32⟩ : BufTy).Contents (Elt F)),
    StableHlo.binary main_v1 main_v3 main_v4 (addf : (⟨S20000x128, .f32⟩ : BufTy).Contents (Elt F) → (⟨S20000x128, .f32⟩ : BufTy).Contents (Elt F) → (⟨S20000x128, .f32⟩ : BufTy).Contents (Elt F)),
    StableHlo.nullary main_cst (constant S_ .f32 0x00000000#32),
    StableHlo.unary main_cst main_v5 (broadcastInDim S50000x128 ![] bcast_S_S50000x128 : (⟨S_, .f32⟩ : BufTy).Contents (Elt F) → (⟨S50000x128, .f32⟩ : BufTy).Contents (Elt F)),
    StableHlo.nullary main_c_0 (constantI S_ 32 0#32),
    StableHlo.unary main_c_0 main_v6 (broadcastInDim S1 ![] bcast_S_S1 : (⟨S_, .i32⟩ : BufTy).Contents (Elt F) → (⟨S1, .i32⟩ : BufTy).Contents (Elt F)),
    StableHlo.ternary main_v5 main_v6 main_v4 main_v7 ((fun x i u => Host.scatter scatter_S50000x128_S1_S20000x128_01_n_0_0 (fun _ b => b) x i u) : (⟨S50000x128, .f32⟩ : BufTy).Contents (Elt F) → (⟨S1, .i32⟩ : BufTy).Contents (Elt F) → (⟨S20000x128, .f32⟩ : BufTy).Contents (Elt F) → (⟨S50000x128, .f32⟩ : BufTy).Contents (Elt F)),
    StableHlo.nullary main_cst_1 (constant S_ .f32 0x00000000#32),
    StableHlo.unary main_cst_1 main_v8 (broadcastInDim S20000x128 ![] bcast_S_S20000x128 : (⟨S_, .f32⟩ : BufTy).Contents (Elt F) → (⟨S20000x128, .f32⟩ : BufTy).Contents (Elt F)),
    StableHlo.unary main_arg3 main_v9 ((transpose S15000x128 [1, 0] · transposes_S128x15000_S15000x128_1_0) : (⟨S128x15000, .f32⟩ : BufTy).Contents (Elt F) → (⟨S15000x128, .f32⟩ : BufTy).Contents (Elt F)),
    StableHlo.unary main_arg4 main_v10 (broadcastInDim S1x128 ![1] bcast_S128_S1x128_1 : (⟨S128, .f32⟩ : BufTy).Contents (Elt F) → (⟨S1x128, .f32⟩ : BufTy).Contents (Elt F)),
    StableHlo.unary main_v10 main_v11 (broadcastInDim S15000x128 ![0, 1] bcast_S1x128_S15000x128_0_1 : (⟨S1x128, .f32⟩ : BufTy).Contents (Elt F) → (⟨S15000x128, .f32⟩ : BufTy).Contents (Elt F)),
    StableHlo.binary main_v9 main_v11 main_v12 (addf : (⟨S15000x128, .f32⟩ : BufTy).Contents (Elt F) → (⟨S15000x128, .f32⟩ : BufTy).Contents (Elt F) → (⟨S15000x128, .f32⟩ : BufTy).Contents (Elt F)),
    StableHlo.unary main_arg5 main_v13 ((transpose S15000x128 [1, 0] · transposes_S128x15000_S15000x128_1_0) : (⟨S128x15000, .f32⟩ : BufTy).Contents (Elt F) → (⟨S15000x128, .f32⟩ : BufTy).Contents (Elt F)),
    StableHlo.unary main_arg6 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S15000x128 ![0, 1] bcast_S1x128_S15000x128_0_1 : (⟨S1x128, .f32⟩ : BufTy).Contents (Elt F) → (⟨S15000x128, .f32⟩ : BufTy).Contents (Elt F)),
    StableHlo.binary main_v13 main_v15 main_v16 (addf : (⟨S15000x128, .f32⟩ : BufTy).Contents (Elt F) → (⟨S15000x128, .f32⟩ : BufTy).Contents (Elt F) → (⟨S15000x128, .f32⟩ : BufTy).Contents (Elt F)),
    StableHlo.nary ![main_v8, main_v12, main_v16] main_v17 (fun u => concatenate S50000x128 0 [⟨S20000x128, u 0⟩, ⟨S15000x128, u 1⟩, ⟨S15000x128, u 2⟩] concatenates_S20000x128_S15000x128_S15000x128_S50000x128_d0),
    StableHlo.unary main_arg7 main_v18 ((transpose S128x128 [1, 0] · transposes_S128x128_S128x128_1_0) : (⟨S128x128, .f32⟩ : BufTy).Contents (Elt F) → (⟨S128x128, .f32⟩ : BufTy).Contents (Elt F)),
    StableHlo.binary main_v7 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v21 main_v22 (addf : (⟨S50000x128, .f32⟩ : BufTy).Contents (Elt F) → (⟨S50000x128, .f32⟩ : BufTy).Contents (Elt F) → (⟨S50000x128, .f32⟩ : BufTy).Contents (Elt F)),
    StableHlo.nullary main_c_2 (constantI S_ 32 0#32),
    StableHlo.unary main_c_2 main_v23 (broadcastInDim S800000 ![] bcast_S_S800000 : (⟨S_, .i32⟩ : BufTy).Contents (Elt F) → (⟨S800000, .i32⟩ : BufTy).Contents (Elt F)),
    StableHlo.binary main_arg15 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v25 (broadcastInDim S800000 ![] bcast_S_S800000 : (⟨S_, .i32⟩ : BufTy).Contents (Elt F) → (⟨S800000, .i32⟩ : BufTy).Contents (Elt F)),
    StableHlo.binary main_arg15 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_arg15 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_v22 main_v28 main_v29 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v30 (broadcastInDim S50000x128 ![] bcast_S_S50000x128 : (⟨S_, .f32⟩ : BufTy).Contents (Elt F) → (⟨S50000x128, .f32⟩ : BufTy).Contents (Elt F)),
    StableHlo.unary main_arg16 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_5 (constant S_ .f32 0x3F800000#32),
    StableHlo.unary main_cst_5 main_v33 (broadcastInDim S800000 ![] bcast_S_S800000 : (⟨S_, .f32⟩ : BufTy).Contents (Elt F) → (⟨S800000, .f32⟩ : BufTy).Contents (Elt F)),
    StableHlo.nullary main_cst_6 (constant S_ .f32 0x00000000#32),
    StableHlo.unary main_cst_6 main_v34 (broadcastInDim S50000 ![] bcast_S_S50000 : (⟨S_, .f32⟩ : BufTy).Contents (Elt F) → (⟨S50000, .f32⟩ : BufTy).Contents (Elt F)),
    StableHlo.unary main_arg16 main_v35 (broadcastInDim S800000x1 ![0] bcast_S800000_S800000x1_0 : (⟨S800000, .i32⟩ : BufTy).Contents (Elt F) → (⟨S800000x1, .i32⟩ : BufTy).Contents (Elt F)),
    StableHlo.ternary main_v34 main_v35 main_v33 main_v36 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_7 (constant S_ .f32 0x3F800000#32),
    StableHlo.unary main_cst_7 main_v37 (broadcastInDim S50000 ![] bcast_S_S50000 : (⟨S_, .f32⟩ : BufTy).Contents (Elt F) → (⟨S50000, .f32⟩ : BufTy).Contents (Elt F)),
    StableHlo.binary main_v36 main_v37 main_v38 (maximumf : (⟨S50000, .f32⟩ : BufTy).Contents (Elt F) → (⟨S50000, .f32⟩ : BufTy).Contents (Elt F) → (⟨S50000, .f32⟩ : BufTy).Contents (Elt F)),
    StableHlo.unary main_v38 main_v39 (broadcastInDim S50000x1 ![0] bcast_S50000_S50000x1_0 : (⟨S50000, .f32⟩ : BufTy).Contents (Elt F) → (⟨S50000x1, .f32⟩ : BufTy).Contents (Elt F)),
    StableHlo.unary main_v39 main_v40 (broadcastInDim S50000x128 ![0, 1] bcast_S50000x1_S50000x128_0_1 : (⟨S50000x1, .f32⟩ : BufTy).Contents (Elt F) → (⟨S50000x128, .f32⟩ : BufTy).Contents (Elt F)),
    StableHlo.binary main_v32 main_v40 main_v41 (Host.divf : (⟨S50000x128, .f32⟩ : BufTy).Contents (Elt F) → (⟨S50000x128, .f32⟩ : BufTy).Contents (Elt F) → (⟨S50000x128, .f32⟩ : BufTy).Contents (Elt F)),
    StableHlo.nullary main_c_8 (constantI S_ 32 0#32),
    StableHlo.unary main_c_8 main_v42 (broadcastInDim S50000 ![] bcast_S_S50000 : (⟨S_, .i32⟩ : BufTy).Contents (Elt F) → (⟨S50000, .i32⟩ : BufTy).Contents (Elt F)),
    StableHlo.binary main_arg17 main_v42 main_v43 (cmpi .slt : (⟨S50000, .i32⟩ : BufTy).Contents (Elt F) → (⟨S50000, .i32⟩ : BufTy).Contents (Elt F) → (⟨S50000, .i1⟩ : BufTy).Contents (Elt F)),
    StableHlo.nullary main_c_9 (constantI S_ 32 4#32),
    StableHlo.unary main_c_9 main_v44 (broadcastInDim S50000 ![] bcast_S_S50000 : (⟨S_, .i32⟩ : BufTy).Contents (Elt F) → (⟨S50000, .i32⟩ : BufTy).Contents (Elt F)),
    StableHlo.binary main_arg17 main_v44 main_v45 (addi : (⟨S50000, .i32⟩ : BufTy).Contents (Elt F) → (⟨S50000, .i32⟩ : BufTy).Contents (Elt F) → (⟨S50000, .i32⟩ : BufTy).Contents (Elt F)),
    StableHlo.ternary main_v43 main_v45 main_arg17 main_v46 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v46 main_v47 (broadcastInDim S50000x1 ![0] bcast_S50000_S50000x1_0 : (⟨S50000, .i32⟩ : BufTy).Contents (Elt F) → (⟨S50000x1, .i32⟩ : BufTy).Contents (Elt F)) ]

/-- The operations of @main's second window (statements 61 … 120): the select function's two operations stand at its call. -/
abbrev ops1 : List (HloOp τ sig (Elt F)) :=
  [ StableHlo.binary main_c main_v47 main_v48 ((fun x i => Host.gather gather_S4_S50000x1_S50000_n_0_n_n_0_1_1 x i) : (⟨S4, .i1⟩ : BufTy).Contents (Elt F) → (⟨S50000x1, .i32⟩ : BufTy).Contents (Elt F) → (⟨S50000, .i1⟩ : BufTy).Contents (Elt F)),
    StableHlo.unary main_v48 main_v49 (broadcastInDim S50000x1 ![0] bcast_S50000_S50000x1_0 : (⟨S50000, .i1⟩ : BufTy).Contents (Elt F) → (⟨S50000x1, .i1⟩ : BufTy).Contents (Elt F)),
    StableHlo.TRef.unary (.of main_v49 : TRef sig ⟨S50000x1, .i1⟩) main_call0.v0 (broadcastInDim S50000x128 ![0, 1] bcast_S50000x1_S50000x128_0_1),
    StableHlo.TRef.ternary main_call0.v0 (.of main_v17 : TRef sig ⟨S50000x128, .f32⟩) (.of main_v41 : TRef sig ⟨S50000x128, .f32⟩) main_call0.v1 select,
    StableHlo.binary main_v7 main_v50 main_v51 (addf : (⟨S50000x128, .f32⟩ : BufTy).Contents (Elt F) → (⟨S50000x128, .f32⟩ : BufTy).Contents (Elt F) → (⟨S50000x128, .f32⟩ : BufTy).Contents (Elt F)),
    StableHlo.unary main_v51 main_v52 ((extractStridedSlice S20000x128 ![0, 0] · slices_S50000x128_S20000x128_0_0) : (⟨S50000x128, .f32⟩ : BufTy).Contents (Elt F) → (⟨S20000x128, .f32⟩ : BufTy).Contents (Elt F)),
    StableHlo.unary main_arg9 main_v53 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v53 main_v54 rfl shapeCasts_S1x128x128_S128x128,
    StableHlo.unary main_v54 main_v55 ((transpose S128x128 [1, 0] · transposes_S128x128_S128x128_1_0) : (⟨S128x128, .f32⟩ : BufTy).Contents (Elt F) → (⟨S128x128, .f32⟩ : BufTy).Contents (Elt F)),
    StableHlo.binary main_v52 main_v55 main_v56 ((fun l r => Host.dotGeneral dot_S20000x128_S128x128_S20000x128_1_0_0_1_n_n none l r) : (⟨S20000x128, .f32⟩ : BufTy).Contents (Elt F) → (⟨S128x128, .f32⟩ : BufTy).Contents (Elt F) → (⟨S20000x128, .f32⟩ : BufTy).Contents (Elt F)),
    StableHlo.unary main_arg10 main_v57 ((extractStridedSlice S1x128 ![0, 0] · slices_S3x128_S1x128_0_0) : (⟨S3x128, .f32⟩ : BufTy).Contents (Elt F) → (⟨S1x128, .f32⟩ : BufTy).Contents (Elt F)),
    StableHlo.reshape main_v57 main_v58 rfl shapeCasts_S1x128_S128,
    StableHlo.unary main_v58 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S20000x128 ![0, 1] bcast_S1x128_S20000x128_0_1 : (⟨S1x128, .f32⟩ : BufTy).Contents (Elt F) → (⟨S20000x128, .f32⟩ : BufTy).Contents (Elt F)),
    StableHlo.binary main_v56 main_v60 main_v61 (addf : (⟨S20000x128, .f32⟩ : BufTy).Contents (Elt F) → (⟨S20000x128, .f32⟩ : BufTy).Contents (Elt F) → (⟨S20000x128, .f32⟩ : BufTy).Contents (Elt F)),
    StableHlo.unary main_v51 main_v62 ((extractStridedSlice S15000x128 ![20000, 0] · slices_S50000x128_S15000x128_20000_0) : (⟨S50000x128, .f32⟩ : BufTy).Contents (Elt F) → (⟨S15000x128, .f32⟩ : BufTy).Contents (Elt F)),
    StableHlo.unary main_arg9 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v63 main_v64 rfl shapeCasts_S1x128x128_S128x128,
    StableHlo.unary main_v64 main_v65 ((transpose S128x128 [1, 0] · transposes_S128x128_S128x128_1_0) : (⟨S128x128, .f32⟩ : BufTy).Contents (Elt F) → (⟨S128x128, .f32⟩ : BufTy).Contents (Elt F)),
    StableHlo.binary main_v62 main_v65 main_v66 ((fun l r => Host.dotGeneral dot_S15000x128_S128x128_S15000x128_1_0_0_1_n_n none l r) : (⟨S15000x128, .f32⟩ : BufTy).Contents (Elt F) → (⟨S128x128, .f32⟩ : BufTy).Contents (Elt F) → (⟨S15000x128, .f32⟩ : BufTy).Contents (Elt F)),
    StableHlo.unary main_arg10 main_v67 ((extractStridedSlice S1x128 ![1, 0] · slices_S3x128_S1x128_1_0) : (⟨S3x128, .f32⟩ : BufTy).Contents (Elt F) → (⟨S1x128, .f32⟩ : BufTy).Contents (Elt F)),
    StableHlo.reshape main_v67 main_v68 rfl shapeCasts_S1x128_S128,
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S15000x128 ![0, 1] bcast_S1x128_S15000x128_0_1 : (⟨S1x128, .f32⟩ : BufTy).Contents (Elt F) → (⟨S15000x128, .f32⟩ : BufTy).Contents (Elt F)),
    StableHlo.binary main_v66 main_v70 main_v71 (addf : (⟨S15000x128, .f32⟩ : BufTy).Contents (Elt F) → (⟨S15000x128, .f32⟩ : BufTy).Contents (Elt F) → (⟨S15000x128, .f32⟩ : BufTy).Contents (Elt F)),
    StableHlo.unary main_v51 main_v72 ((extractStridedSlice S15000x128 ![35000, 0] · slices_S50000x128_S15000x128_35000_0) : (⟨S50000x128, .f32⟩ : BufTy).Contents (Elt F) → (⟨S15000x128, .f32⟩ : BufTy).Contents (Elt F)),
    StableHlo.unary main_arg9 main_v73 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.unary main_v74 main_v75 ((transpose S128x128 [1, 0] · transposes_S128x128_S128x128_1_0) : (⟨S128x128, .f32⟩ : BufTy).Contents (Elt F) → (⟨S128x128, .f32⟩ : BufTy).Contents (Elt F)),
    StableHlo.binary main_v72 main_v75 main_v76 ((fun l r => Host.dotGeneral dot_S15000x128_S128x128_S15000x128_1_0_0_1_n_n none l r) : (⟨S15000x128, .f32⟩ : BufTy).Contents (Elt F) → (⟨S128x128, .f32⟩ : BufTy).Contents (Elt F) → (⟨S15000x128, .f32⟩ : BufTy).Contents (Elt F)),
    StableHlo.unary main_arg10 main_v77 ((extractStridedSlice S1x128 ![2, 0] · slices_S3x128_S1x128_2_0) : (⟨S3x128, .f32⟩ : BufTy).Contents (Elt F) → (⟨S1x128, .f32⟩ : BufTy).Contents (Elt F)),
    StableHlo.reshape main_v77 main_v78 rfl shapeCasts_S1x128_S128,
    StableHlo.unary main_v78 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S15000x128 ![0, 1] bcast_S1x128_S15000x128_0_1 : (⟨S1x128, .f32⟩ : BufTy).Contents (Elt F) → (⟨S15000x128, .f32⟩ : BufTy).Contents (Elt F)),
    StableHlo.binary main_v76 main_v80 main_v81 (addf : (⟨S15000x128, .f32⟩ : BufTy).Contents (Elt F) → (⟨S15000x128, .f32⟩ : BufTy).Contents (Elt F) → (⟨S15000x128, .f32⟩ : BufTy).Contents (Elt F)),
    StableHlo.nary ![main_v61, main_v71, main_v81] main_v82 (fun u => concatenate S50000x128 0 [⟨S20000x128, u 0⟩, ⟨S15000x128, u 1⟩, ⟨S15000x128, u 2⟩] concatenates_S20000x128_S15000x128_S15000x128_S50000x128_d0),
    StableHlo.nullary main_c_10 (constantI S_ 32 0#32),
    StableHlo.unary main_c_10 main_v83 (broadcastInDim S800000 ![] bcast_S_S800000 : (⟨S_, .i32⟩ : BufTy).Contents (Elt F) → (⟨S800000, .i32⟩ : BufTy).Contents (Elt F)),
    StableHlo.binary main_arg15 main_v83 main_v84 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v85 (broadcastInDim S800000 ![] bcast_S_S800000 : (⟨S_, .i32⟩ : BufTy).Contents (Elt F) → (⟨S800000, .i32⟩ : BufTy).Contents (Elt F)),
    StableHlo.binary main_arg15 main_v85 main_v86 (addi : (⟨S800000, .i32⟩ : BufTy).Contents (Elt F) → (⟨S800000, .i32⟩ : BufTy).Contents (Elt F) → (⟨S800000, .i32⟩ : BufTy).Contents (Elt F)),
    StableHlo.ternary main_v84 main_v86 main_arg15 main_v87 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v87 main_v88 (broadcastInDim S800000x1 ![0] bcast_S800000_S800000x1_0 : (⟨S800000, .i32⟩ : BufTy).Contents (Elt F) → (⟨S800000x1, .i32⟩ : BufTy).Contents (Elt F)),
    StableHlo.binary main_v82 main_v88 main_v89 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v90 (broadcastInDim S50000x128 ![] bcast_S_S50000x128 : (⟨S_, .f32⟩ : BufTy).Contents (Elt F) → (⟨S50000x128, .f32⟩ : BufTy).Contents (Elt F)),
    StableHlo.unary main_arg16 main_v91 (broadcastInDim S800000x1 ![0] bcast_S800000_S800000x1_0 : (⟨S800000, .i32⟩ : BufTy).Contents (Elt F) → (⟨S800000x1, .i32⟩ : BufTy).Contents (Elt F)),
    StableHlo.ternary main_v90 main_v91 main_v89 main_v92 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_13 (constant S_ .f32 0x3F800000#32),
    StableHlo.unary main_cst_13 main_v93 (broadcastInDim S800000 ![] bcast_S_S800000 : (⟨S_, .f32⟩ : BufTy).Contents (Elt F) → (⟨S800000, .f32⟩ : BufTy).Contents (Elt F)),
    StableHlo.nullary main_cst_14 (constant S_ .f32 0x00000000#32),
    StableHlo.unary main_cst_14 main_v94 (broadcastInDim S50000 ![] bcast_S_S50000 : (⟨S_, .f32⟩ : BufTy).Contents (Elt F) → (⟨S50000, .f32⟩ : BufTy).Contents (Elt F)),
    StableHlo.unary main_arg16 main_v95 (broadcastInDim S800000x1 ![0] bcast_S800000_S800000x1_0 : (⟨S800000, .i32⟩ : BufTy).Contents (Elt F) → (⟨S800000x1, .i32⟩ : BufTy).Contents (Elt F)),
    StableHlo.ternary main_v94 main_v95 main_v93 main_v96 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v97 (broadcastInDim S50000 ![] bcast_S_S50000 : (⟨S_, .f32⟩ : BufTy).Contents (Elt F) → (⟨S50000, .f32⟩ : BufTy).Contents (Elt F)),
    StableHlo.binary main_v96 main_v97 main_v98 (maximumf : (⟨S50000, .f32⟩ : BufTy).Contents (Elt F) → (⟨S50000, .f32⟩ : BufTy).Contents (Elt F) → (⟨S50000, .f32⟩ : BufTy).Contents (Elt F)),
    StableHlo.unary main_v98 main_v99 (broadcastInDim S50000x1 ![0] bcast_S50000_S50000x1_0 : (⟨S50000, .f32⟩ : BufTy).Contents (Elt F) → (⟨S50000x1, .f32⟩ : BufTy).Contents (Elt F)),
    StableHlo.unary main_v99 main_v100 (broadcastInDim S50000x128 ![0, 1] bcast_S50000x1_S50000x128_0_1 : (⟨S50000x1, .f32⟩ : BufTy).Contents (Elt F) → (⟨S50000x128, .f32⟩ : BufTy).Contents (Elt F)),
    StableHlo.binary main_v92 main_v100 main_v101 (Host.divf : (⟨S50000x128, .f32⟩ : BufTy).Contents (Elt F) → (⟨S50000x128, .f32⟩ : BufTy).Contents (Elt F) → (⟨S50000x128, .f32⟩ : BufTy).Contents (Elt F)) ]

/-- The operations of @main's third window (statements 121 … 132): the exponential linear unit's fifteen operations
    (its two select functions' among them) stand at its call. -/
abbrev ops2 : List (HloOp τ sig (Elt F)) :=
  [ StableHlo.unary main_arg11 main_v102 ((transpose S128x128 [1, 0] · transposes_S128x128_S128x128_1_0) : (⟨S128x128, .f32⟩ : BufTy).Contents (Elt F) → (⟨S128x128, .f32⟩ : BufTy).Contents (Elt F)),
    StableHlo.binary main_v101 main_v102 main_v103 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v105 main_v106 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v106 : TRef sig ⟨S50000x128, .f32⟩) main_call1.v0 main_call1.v1 (cmpf .ogt),
    StableHlo.TRef.nullary main_call1.cst_0 (constant S_ .f32 0x00000000#32),
    StableHlo.TRef.unary main_call1.cst_0 main_call1.v2 (broadcastInDim S50000x128 ![] bcast_S_S50000x128),
    StableHlo.TRef.binary (.of main_v106 : TRef sig ⟨S50000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x128 ![] bcast_S_S50000x128),
    StableHlo.TRef.ternary main_call1.v3 main_call1.call0.v1 (.of main_v106 : TRef sig ⟨S50000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x128 ![] bcast_S_S50000x128),
    StableHlo.TRef.binary main_call1.v6 main_call1.v5 main_call1.v7 mulf,
    StableHlo.TRef.ternary main_call1.v1 (.of main_v106 : TRef sig ⟨S50000x128, .f32⟩) main_call1.v7 main_call1.call1.v0 select,
    StableHlo.unary main_arg13 main_v108 ((transpose S128x8 [1, 0] · transposes_S8x128_S128x8_1_0) : (⟨S8x128, .f32⟩ : BufTy).Contents (Elt F) → (⟨S128x8, .f32⟩ : BufTy).Contents (Elt F)),
    StableHlo.binary main_v107 main_v108 main_v109 ((fun l r => Host.dotGeneral dot_S50000x128_S128x8_S50000x8_1_0_0_1_n_n none l r) : (⟨S50000x128, .f32⟩ : BufTy).Contents (Elt F) → (⟨S128x8, .f32⟩ : BufTy).Contents (Elt F) → (⟨S50000x8, .f32⟩ : BufTy).Contents (Elt F)),
    StableHlo.unary main_arg14 main_v110 (broadcastInDim S1x8 ![1] bcast_S8_S1x8_1 : (⟨S8, .f32⟩ : BufTy).Contents (Elt F) → (⟨S1x8, .f32⟩ : BufTy).Contents (Elt F)),
    StableHlo.unary main_v110 main_v111 (broadcastInDim S50000x8 ![0, 1] bcast_S1x8_S50000x8_0_1 : (⟨S1x8, .f32⟩ : BufTy).Contents (Elt F) → (⟨S50000x8, .f32⟩ : BufTy).Contents (Elt F)),
    StableHlo.binary main_v109 main_v111 main_v112 (addf : (⟨S50000x8, .f32⟩ : BufTy).Contents (Elt F) → (⟨S50000x8, .f32⟩ : BufTy).Contents (Elt F) → (⟨S50000x8, .f32⟩ : BufTy).Contents (Elt F)) ]

/-- @main's 146 operations, in order. -/
abbrev ops : List (HloOp τ sig (Elt F)) := ops0 ++ (ops1 ++ ops2)

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

set_option maxRecDepth 8192 in
/-- @main is that straight line: its windows one after the other are the concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., nullary_bufs_sub .., unary_bufs_sub .., ternary_bufs_sub .., nullary_bufs_sub .., unary_bufs_sub .., unary_bufs_sub .., unary_bufs_sub .., unary_bufs_sub .., binary_bufs_sub .., unary_bufs_sub .., unary_bufs_sub .., unary_bufs_sub .., binary_bufs_sub .., nary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops1_sub : (ops1 : List (HloOp τ sig (Elt F))).Forall fun op => op.bufs ⊆ tcRefs τ sig :=
  ⟨binary_bufs_sub .., unary_bufs_sub .., unary_bufs_sub .., ternary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
set_option maxRecDepth 8192 in
theorem ops2_sub : (ops2 : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- The buffers the first window's operations write. -/
abbrev W0 : List (Ref sig .tc) := [main_c, main_v0, main_v1, main_v2, main_v3, main_v4, main_cst, main_v5, main_c_0, main_v6, main_v7, main_cst_1, main_v8, main_v9, main_v10, main_v11, main_v12, main_v13, main_v14, main_v15, main_v16, main_v17, main_v18, main_v19, main_v20, main_v21, main_v22, main_c_2, main_v23, main_v24, main_c_3, main_v25, main_v26, main_v27, main_v28, main_v29, main_cst_4, main_v30, main_v31, main_v32, main_cst_5, main_v33, main_cst_6, main_v34, main_v35, main_v36, main_cst_7, main_v37, main_v38, main_v39, main_v40, main_v41, main_c_8, main_v42, main_v43, main_c_9, main_v44, main_v45, main_v46, main_v47]
/-- The buffers the second window's operations write. -/
abbrev W1 : List (Ref sig .tc) := [main_v48, main_v49, main_call0_v0, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_c_10, main_v83, main_v84, main_c_11, main_v85, main_v86, main_v87, main_v88, main_v89, main_cst_12, main_v90, main_v91, main_v92, main_cst_13, main_v93, main_cst_14, main_v94, main_v95, main_v96, main_cst_15, main_v97, main_v98, main_v99, main_v100, main_v101]
/-- The buffers the third window's operations write. -/
abbrev W2 : List (Ref sig .tc) := [main_v102, main_v103, main_v104, main_v105, main_v106, main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v107, main_v108, main_v109, main_v110, main_v111, main_v112]

set_option maxRecDepth 8192 in
theorem ops0_writes : (ops0 : List (HloOp τ sig (Elt F))).Forall fun op => op.writes ⊆ (W0.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
set_option maxRecDepth 8192 in
theorem ops1_writes : (ops1 : List (HloOp τ sig (Elt F))).Forall fun op => op.writes ⊆ (W1.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
set_option maxRecDepth 8192 in
theorem ops2_writes : (ops2 : List (HloOp τ sig (Elt F))).Forall fun op => op.writes ⊆ (W2.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The fold over the whole list is the three windows' folds in turn. -/
theorem after_ops (V : Valuation τ sig (Elt F)) : after ops V = after ops2 (after ops1 (after ops0 V)) := by
  simp only [ops, after_append]

/-- A buffer no window writes keeps its contents through the whole list. -/
theorem after_ops_keep (V : Valuation τ sig (Elt F)) (r : Ref sig .tc) (h0 : r ∉ W0) (h1 : r ∉ W1) (h2 : r ∉ W2) :
    after ops V (Proc.devRef .tc r) = V (Proc.devRef .tc r) := by
  rw [after_ops, after_of_writes_sub ops2 _ ops2_writes h2, after_of_writes_sub ops1 _ ops1_writes h1,
    after_of_writes_sub ops0 _ ops0_writes h0]

/-- At the compiled mesh, for any float values, from any memory with zero counters: every weakly fair execution of
    @main terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The same, read at the two result buffers and the eighteen argument buffers: the results at the fold, the
    arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = after ops (launchContents m c) (Proc.devRef .tc main_v107)
      ∧ r.2.mem ((c.tc : Thread nD τ).loc main_v112) = after ops (launchContents m c) (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨h c main_v107, h c main_v112,
      (h c main_arg0).trans (after_ops_keep _ main_arg0 (by decide) (by decide) (by decide)),
      (h c main_arg1).trans (after_ops_keep _ main_arg1 (by decide) (by decide) (by decide)),
      (h c main_arg2).trans (after_ops_keep _ main_arg2 (by decide) (by decide) (by decide)),
      (h c main_arg3).trans (after_ops_keep _ main_arg3 (by decide) (by decide) (by decide)),
      (h c main_arg4).trans (after_ops_keep _ main_arg4 (by decide) (by decide) (by decide)),
      (h c main_arg5).trans (after_ops_keep _ main_arg5 (by decide) (by decide) (by decide)),
      (h c main_arg6).trans (after_ops_keep _ main_arg6 (by decide) (by decide) (by decide)),
      (h c main_arg7).trans (after_ops_keep _ main_arg7 (by decide) (by decide) (by decide)),
      (h c main_arg8).trans (after_ops_keep _ main_arg8 (by decide) (by decide) (by decide)),
      (h c main_arg9).trans (after_ops_keep _ main_arg9 (by decide) (by decide) (by decide)),
      (h c main_arg10).trans (after_ops_keep _ main_arg10 (by decide) (by decide) (by decide)),
      (h c main_arg11).trans (after_ops_keep _ main_arg11 (by decide) (by decide) (by decide)),
      (h c main_arg12).trans (after_ops_keep _ main_arg12 (by decide) (by decide) (by decide)),
      (h c main_arg13).trans (after_ops_keep _ main_arg13 (by decide) (by decide) (by decide)),
      (h c main_arg14).trans (after_ops_keep _ main_arg14 (by decide) (by decide) (by decide)),
      (h c main_arg15).trans (after_ops_keep _ main_arg15 (by decide) (by decide) (by decide)),
      (h c main_arg16).trans (after_ops_keep _ main_arg16 (by decide) (by decide) (by decide)),
      (h c main_arg17).trans (after_ops_keep _ main_arg17 (by decide) (by decide) (by decide))⟩)
    (run_all m ρ)

/-- The run with the results dropped: @main terminates and leaves its argument arrays as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => (h c).2.2) (run m ρ)

end Cert.ReferenceIdeal.RefRun

end
-- ==== Proof.Ref.Value.lean ====
/-
  The reference's two results as the staged functions of the argument arrays. The fold of @main's operations is
  read window by window from an arbitrary valuation: in the first window the node table, the one-hot table, the
  first aggregation, the wrapped cluster indices and the cluster table; in the second the second aggregation from
  those; in the third the embedding and the class scores from that. A buffer a window does not write keeps its
  contents through it, so the three readings compose to the staged functions of the launch contents.
-/
import proofs.«107237_j10496900072251_2_alg».proof.Proof.Ref.Stages
import proofs.«107237_j10496900072251_2_alg».proof.Proof.Ref.Run

set_option synthInstance.maxSize 4096

noncomputable section

namespace Cert.ReferenceIdeal.RefValue

open Cert.ReferenceIdeal Cert.ReferenceIdeal.Facts₀ Cert.ReferenceIdeal.Facts Cert.ReferenceIdeal.RefRun
open Idealize.ShloMosaic Idealize.ShloMosaic.TcCoe Idealize.SL.Sem Idealize.ShloMosaic.StableHlo

variable {F : FTy → Type} [FloatOps F]

/-! ## The first window -/

set_option maxRecDepth 8192 in
set_option maxHeartbeats 4000000 in
/-- The node table: the zero table with the attributed type's linear layer at its first rows. -/
theorem w0_v7 (V : Valuation τ sig (Elt F)) :
    after ops0 V (Proc.devRef .tc main_v7) = Stages.h0 (V (Proc.devRef .tc main_arg0)) (V (Proc.devRef .tc main_arg1)) (V (Proc.devRef .tc main_arg2)) := by
  simp only [ops0]
  after_results_simp
  rfl

set_option maxRecDepth 8192 in
set_option maxHeartbeats 4000000 in
/-- The one-hot table. -/
theorem w0_v17 (V : Valuation τ sig (Elt F)) :
    after ops0 V (Proc.devRef .tc main_v17) = Stages.oneHot (V (Proc.devRef .tc main_arg3)) (V (Proc.devRef .tc main_arg4)) (V (Proc.devRef .tc main_arg5)) (V (Proc.devRef .tc main_arg6)) := by
  simp only [ops0]
  after_results_simp
  rfl

set_option maxRecDepth 8192 in
set_option maxHeartbeats 4000000 in
/-- The first aggregation: the mean over in-edges of the shared linear layer of the node table. -/
theorem w0_v41 (V : Valuation τ sig (Elt F)) :
    after ops0 V (Proc.devRef .tc main_v41)
      = Stages.meanAgg (Stages.lin1 (Stages.h0 (V (Proc.devRef .tc main_arg0)) (V (Proc.devRef .tc main_arg1)) (V (Proc.devRef .tc main_arg2))) (V (Proc.devRef .tc main_arg7)) (V (Proc.devRef .tc main_arg8))) (V (Proc.devRef .tc main_arg15)) (V (Proc.devRef .tc main_arg16)) := by
  simp only [ops0]
  after_results_simp
  rfl

set_option maxRecDepth 8192 in
set_option maxHeartbeats 4000000 in
/-- The wrapped cluster indices. -/
theorem w0_v47 (V : Valuation τ sig (Elt F)) :
    after ops0 V (Proc.devRef .tc main_v47) = Stages.assignIdx (V (Proc.devRef .tc main_arg17)) := by
  simp only [ops0]
  after_results_simp
  rfl

set_option maxRecDepth 8192 in
set_option maxHeartbeats 4000000 in
/-- The cluster table. -/
theorem w0_c (V : Valuation τ sig (Elt F)) :
    after ops0 V (Proc.devRef .tc main_c) = Stages.clusterTable (F := F) := by
  simp only [ops0]
  after_results_simp
  rfl

/-! ## The second window -/

set_option maxRecDepth 8192 in
set_option maxHeartbeats 4000000 in
/-- The second aggregation from the first window's five values and the arguments. -/
theorem w1_v101 (W : Valuation τ sig (Elt F)) :
    after ops1 W (Proc.devRef .tc main_v101)
      = Stages.meanAgg
          (Stages.typeLin
            (addf (W (Proc.devRef .tc main_v7))
              (select
                (broadcastInDim S50000x128 ![0, 1] bcast_S50000x1_S50000x128_0_1
                  (broadcastInDim S50000x1 ![0] bcast_S50000_S50000x1_0
                    (Host.gather gather_S4_S50000x1_S50000_n_0_n_n_0_1_1 (W (Proc.devRef .tc main_c)) (W (Proc.devRef .tc main_v47)))))
                (W (Proc.devRef .tc main_v17)) (W (Proc.devRef .tc main_v41))))
            (W (Proc.devRef .tc main_arg9)) (W (Proc.devRef .tc main_arg10)))
          (W (Proc.devRef .tc main_arg15)) (W (Proc.devRef .tc main_arg16)) := by
  simp only [ops1]
  after_results_simp
  rfl

/-! ## The third window -/

set_option maxRecDepth 8192 in
set_option maxHeartbeats 4000000 in
/-- The embedding from the second aggregation. -/
theorem w2_v107 (X : Valuation τ sig (Elt F)) :
    after ops2 X (Proc.devRef .tc main_v107)
      = Stages.elu (Stages.proj (X (Proc.devRef .tc main_v101)) (X (Proc.devRef .tc main_arg11)) (X (Proc.devRef .tc main_arg12))) := by
  simp only [ops2]
  after_results_simp
  rfl

set_option maxRecDepth 8192 in
set_option maxHeartbeats 4000000 in
/-- The class scores from the embedding. -/
theorem w2_v112 (X : Valuation τ sig (Elt F)) :
    after ops2 X (Proc.devRef .tc main_v112)
      = Stages.logits
          (Stages.elu (Stages.proj (X (Proc.devRef .tc main_v101)) (X (Proc.devRef .tc main_arg11)) (X (Proc.devRef .tc main_arg12))))
          (X (Proc.devRef .tc main_arg13)) (X (Proc.devRef .tc main_arg14)) := by
  simp only [ops2]
  after_results_simp
  rfl

/-! ## The windows composed -/

/-- A buffer the first window does not write keeps its contents through it. -/
theorem keep0 (V : Valuation τ sig (Elt F)) (r : Ref sig .tc) (h : r ∉ W0) :
    after ops0 V (Proc.devRef .tc r) = V (Proc.devRef .tc r) := after_of_writes_sub ops0 V ops0_writes h
/-- A buffer the second window does not write keeps its contents through it. -/
theorem keep1 (V : Valuation τ sig (Elt F)) (r : Ref sig .tc) (h : r ∉ W1) :
    after ops1 V (Proc.devRef .tc r) = V (Proc.devRef .tc r) := after_of_writes_sub ops1 V ops1_writes h

/-- The second aggregation after the first two windows, from any valuation. -/
theorem w01_v101 (V : Valuation τ sig (Elt F)) :
    after ops1 (after ops0 V) (Proc.devRef .tc main_v101)
      = Stages.meanAgg
          (Stages.typeLin
            (Stages.hAttributed (Stages.h0 (V (Proc.devRef .tc main_arg0)) (V (Proc.devRef .tc main_arg1)) (V (Proc.devRef .tc main_arg2))) (Stages.oneHot (V (Proc.devRef .tc main_arg3)) (V (Proc.devRef .tc main_arg4)) (V (Proc.devRef .tc main_arg5)) (V (Proc.devRef .tc main_arg6)))
              (Stages.meanAgg (Stages.lin1 (Stages.h0 (V (Proc.devRef .tc main_arg0)) (V (Proc.devRef .tc main_arg1)) (V (Proc.devRef .tc main_arg2))) (V (Proc.devRef .tc main_arg7)) (V (Proc.devRef .tc main_arg8))) (V (Proc.devRef .tc main_arg15)) (V (Proc.devRef .tc main_arg16))) (V (Proc.devRef .tc main_arg17)))
            (V (Proc.devRef .tc main_arg9)) (V (Proc.devRef .tc main_arg10)))
          (V (Proc.devRef .tc main_arg15)) (V (Proc.devRef .tc main_arg16)) := by
  rw [w1_v101, w0_v7, w0_v17, w0_v41, w0_v47, w0_c,
    keep0 V main_arg9 (by decide), keep0 V main_arg10 (by decide), keep0 V main_arg15 (by decide), keep0 V main_arg16 (by decide)]
  rfl

/-- The first result is the embedding of the argument arrays. -/
theorem emb_eq_val (V : Valuation τ sig (Elt F)) :
    after ops V (Proc.devRef .tc main_v107) = Stages.emb_all (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops, w2_v107, w01_v101,
    keep1 _ main_arg11 (by decide), keep1 _ main_arg12 (by decide), keep0 V main_arg11 (by decide), keep0 V main_arg12 (by decide)]
  rfl

/-- The second result is the class scores of the argument arrays. -/
theorem logits_eq_val (V : Valuation τ sig (Elt F)) :
    after ops V (Proc.devRef .tc main_v112) = Stages.logits_all (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  rw [after_ops, w2_v112, w01_v101,
    keep1 _ main_arg11 (by decide), keep1 _ main_arg12 (by decide), keep0 V main_arg11 (by decide), keep0 V main_arg12 (by decide),
    keep1 _ main_arg13 (by decide), keep1 _ main_arg14 (by decide), keep0 V main_arg13 (by decide), keep0 V main_arg14 (by decide)]
  rfl

/-- The first result from a launch memory, on each device. -/
theorem emb_eq (m : (ℓ : Loc nD τ sig) → Buf (Elt F) ℓ) (c : Dev nD) :
    after ops (fun b => m (c, b)) (Proc.devRef .tc main_v107)
      = Stages.emb_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  emb_eq_val (fun b => m (c, b))

/-- The second result from a launch memory, on each device. -/
theorem logits_eq (m : (ℓ : Loc nD τ sig) → Buf (Elt F) ℓ) (c : Dev nD) :
    after ops (fun b => m (c, b)) (Proc.devRef .tc main_v112)
      = Stages.logits_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  logits_eq_val (fun b => m (c, b))

/-- The run read at the stages: every weakly fair execution of @main terminates with the first result the embedding
    and the second the class scores of the launch contents of the argument arrays, and those arrays as launched. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = Stages.emb_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v112) = Stages.logits_all (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (emb_eq m c), (h c).2.1.trans (logits_eq m c), (h c).2.2⟩) (run m ρ)

end Cert.ReferenceIdeal.RefValue

end
-- ==== Proof.Dom.Range.lean ====
/-
  The integer input node_assign read out of the precondition: every entry lies in [0, 4).

  The precondition is a conjunction (a chain of 1-bit "and"s) whose last conjunct is the reduction by "and",
  over the whole array, of  (0 ≤ node_assign[i]) and (node_assign[i] < 4), both signed.  A chain of "and"s that is 1 has every
  conjunct 1; a reduction by "and" that is 1 had a 1 at every index; and a 32-bit word that is, signed, at least 0 and
  below 4 is one of 0, 1, 2, 3.
-/
import proofs.«107237_j10496900072251_2_alg».proof.Pre_finite_inputs
import Idealize.ShloMosaic.Lib.ReduceAll
import Idealize.ShloMosaic.Lib.ValueIdx

noncomputable section

namespace Cert.Dom

open Idealize.ShloMosaic Idealize.ShloMosaic.ValueIdx
open Cert.Pre_finite_inputs

/-- The rank-0 shape has one index. -/
instance : Subsingleton S_.Idx := ⟨fun a b => funext fun d => d.elim0⟩

/-- A 32-bit word that is, signed, at least 0 and below 4 is 0, 1, 2 or 3. -/
theorem word_range (x : BitVec 32) (h0 : IntOp.cmpi .sge x 0#32 = 1#1) (h4 : IntOp.cmpi .slt x 4#32 = 1#1) :
    x = 0#32 ∨ x = 1#32 ∨ x = 2#32 ∨ x = 3#32 := by
  rw [IntOp.cmpi_sge] at h0
  rw [IntOp.cmpi_slt] at h4
  have e0 : (0#32 : BitVec 32).toInt = 0 := by decide
  have e4 : (4#32 : BitVec 32).toInt = 4 := by decide
  rw [e0] at h0
  rw [e4] at h4
  have hx : x = BitVec.ofInt 32 x.toInt := (BitVec.ofInt_toInt).symm
  have : x.toInt = 0 ∨ x.toInt = 1 ∨ x.toInt = 2 ∨ x.toInt = 3 := by omega
  rcases this with h | h | h | h <;> rw [h] at hx
  · exact Or.inl hx
  · exact Or.inr (Or.inl hx)
  · exact Or.inr (Or.inr (Or.inl hx))
  · exact Or.inr (Or.inr (Or.inr hx))

variable [Facts]

/-- The last part of the precondition being all ones puts every node_assign entry in {0, 1, 2, 3}. -/
theorem part4_range {F : FTy → Type} [FloatOps F] (a14 : FVec F S8 .f32) (a17 : IVec S50000 32) (v63 v67 : IVec S_ 1)
    (h : fn_part4 (F := F) a14 a17 v63 v67 = (fun _ => 1#1)) (i : S50000.Idx) :
    a17 i = 0#32 ∨ a17 i = 1#32 ∨ a17 i = 2#32 ∨ a17 i = 3#32 := by
  have e := congrFun h ix0
  dsimp only [fn_part4] at e
  simp only [andi] at e
  rw [IntOp.andi_eq_one] at e
  have e2 := Host.reduce_andi_all _ _ _ _ _ e.2 i
  simp only [andi, cmpi, broadcastInDim, constantI] at e2
  rw [IntOp.andi_eq_one] at e2
  exact word_range _ e2.1 e2.2

/-- THE PRECONDITION DECODED: the printed predicate being all ones (what the claim's hypothesis says on every device)
    puts every node_assign entry in {0, 1, 2, 3}.  The predicate's chain of operations ends in its last part, applied to the
    same node_assign. -/
theorem node_assign_range {F : FTy → Type} [FloatOps F]
    {a0 : FVec F S20000x512 .f32} {a1 : FVec F S128x512 .f32} {a2 : FVec F S128 .f32} {a3 : FVec F S128x15000 .f32}
    {a4 : FVec F S128 .f32} {a5 : FVec F S128x15000 .f32} {a6 : FVec F S128 .f32} {a7 : FVec F S128x128 .f32}
    {a8 : FVec F S128 .f32} {a9 : FVec F S3x128x128 .f32} {a10 : FVec F S3x128 .f32} {a11 : FVec F S128x128 .f32}
    {a12 : FVec F S128 .f32} {a13 : FVec F S8x128 .f32} {a14 : FVec F S8 .f32} {a15 : IVec S800000 32}
    {a16 : IVec S800000 32} {a17 : IVec S50000 32}
    (h : fn (F := F) a0 a1 a2 a3 a4 a5 a6 a7 a8 a9 a10 a11 a12 a13 a14 a15 a16 a17 = (fun _ => 1#1)) (i : S50000.Idx) :
    a17 i = 0#32 ∨ a17 i = 1#32 ∨ a17 i = 2#32 ∨ a17 i = 3#32 := by
  unfold fn fn_part1 fn_part2 fn_part3 at h
  exact part4_range _ a17 _ _ h i

/-- The same at a row number: node_assign[r] is 0, 1, 2 or 3. -/
theorem node_assign_range_row {F : FTy → Type} [FloatOps F]
    {a0 : FVec F S20000x512 .f32} {a1 : FVec F S128x512 .f32} {a2 : FVec F S128 .f32} {a3 : FVec F S128x15000 .f32}
    {a4 : FVec F S128 .f32} {a5 : FVec F S128x15000 .f32} {a6 : FVec F S128 .f32} {a7 : FVec F S128x128 .f32}
    {a8 : FVec F S128 .f32} {a9 : FVec F S3x128x128 .f32} {a10 : FVec F S3x128 .f32} {a11 : FVec F S128x128 .f32}
    {a12 : FVec F S128 .f32} {a13 : FVec F S8x128 .f32} {a14 : FVec F S8 .f32} {a15 : IVec S800000 32}
    {a16 : IVec S800000 32} {a17 : IVec S50000 32}
    (h : fn (F := F) a0 a1 a2 a3 a4 a5 a6 a7 a8 a9 a10 a11 a12 a13 a14 a15 a16 a17 = (fun _ => 1#1)) (r : Fin 50000) :
    a17 (ix1 r) = 0#32 ∨ a17 (ix1 r) = 1#32 ∨ a17 (ix1 r) = 2#32 ∨ a17 (ix1 r) = 3#32 :=
  node_assign_range h (ix1 r)

end Cert.Dom

end
-- ==== Proof.lean ====
/- The proof of `Cert.Claim` (proofs.«107237_j10496900072251_2_alg».proof.Defs): hand-written, untrusted.
   The program is a graph network on 50000 nodes of three types (20000 attributed nodes, then 15000 and 15000) and
   800000 edges. (1) The attributed nodes' features pass a dense layer x·W_preᵀ + b_pre; the other nodes' rows are
   zero: h0. (2) The nodes of the other two types get the rows W_embᵀ + b_emb; the attributed nodes' rows are zero.
   (3) h0 passes a dense layer h·W_opᵀ + b_op and is averaged over each node's in-edges. (4) Each node adds to its row
   of h0 either its row of (2) or its row of (3), by whether its cluster is one of 0 and 3. (5) Each node's row passes
   its type's dense layer x·W_fc[type]ᵀ + b_fc[type]. (6) The rows are averaged over in-edges and pass a dense layer
   x·Wgᵀ + bg followed by y > 0 ? y : exp y − 1, the embedding; the embedding passes x·Wcᵀ + bc, the class scores. The
   results are the embedding and the class scores, the latter twice.
   The kernel computes the dense layers of (1), (3), (5) and (6) and the sum of (4) each as a pallas_call over tiles
   of 1000 rows, (5) picking the tile's weights through a table of the tiles' types (20 tiles of type 0, 15 of type
   1, 15 of type 2: the types are whole runs of tiles), and everything between them on the host; the reference
   computes all of it on the host.
   The five conjuncts of the claim:
   * `frame_Kernel`, `frame_KernelIdeal`: the kernel's program, at the bit-exact and at the ideal instance, runs to the
     end from any memory with zero counters and leaves its eighteen argument arrays as launched: each pallas_call is a
     pipeline whose body loads whole blocks, computes one payload per output and stores it whole, and the host
     stretches between them write only their own results.
   * `frame_ReferenceIdeal`: the reference, a straight line of host operations, does the same.
   * `preserves_Kernel_KernelIdeal`: the ideal pass rewrote nothing, so there is nothing to preserve.
   * `algebraic_KernelIdeal_ReferenceIdeal`: at the ideal instance (extended reals, exact operations, format changes
     the identity) the two programs, from memories agreeing on the arguments, end with equal results. Each row-tiled
     kernel is the reference's stage on each tile of 1000 rows, because row r of x·Wᵀ + b depends only on row r of x,
     and the tiles cover the rows; the two averages over in-edges and the rows of (2) are the same host operations
     applied to equal values; the per-tile pick of weights is the reference's per-type one because a tile's rows
     share one type; and the kernel's test "cluster is 0 or 3" is the reference's lookup in the table (true, false,
     false, true) because every cluster is one of 0, 1, 2, 3, which the precondition states. -/
import proofs.«107237_j10496900072251_2_alg».proof.Defs
import proofs.«107237_j10496900072251_2_alg».proof.Proof.K.Run
import proofs.«107237_j10496900072251_2_alg».proof.Proof.KI.Run
import proofs.«107237_j10496900072251_2_alg».proof.Proof.KI.Value
import proofs.«107237_j10496900072251_2_alg».proof.Proof.Ref.Value
import proofs.«107237_j10496900072251_2_alg».proof.Proof.Dom.Range
import proofs.«107237_j10496900072251_2_alg».proof.Proof.Gen.Kernel
import proofs.«107237_j10496900072251_2_alg».proof.Proof.Gen.KernelIdeal
import proofs.«107237_j10496900072251_2_alg».proof.Proof.Gen.ReferenceIdeal
import proofs.«107237_j10496900072251_2_alg».proof.Proof.Gen.Pre_finite_inputs
import Idealize.ShloMosaic.Lib.ValueIdx
import Idealize.ShloMosaic.Adequacy
import Idealize.ShloMosaic.Init

noncomputable section

namespace Cert.Proof

open Idealize.ShloMosaic Idealize.ShloMosaic.TcCoe Idealize.SL.Sem

/-- The kernel's program at the bit-exact instance runs and leaves its arguments as launched. -/
theorem frame_kernel : Cert.frame_Kernel := fun m ρ _ => Cert.Kernel.Fr.frame m ρ

/-- The kernel's program at the ideal instance runs and leaves its arguments as launched. -/
theorem frame_kernel_ideal : Cert.frame_KernelIdeal := fun m ρ _ => Cert.KernelIdeal.Fr.frame m ρ

/-- The reference runs and leaves its arguments as launched. -/
theorem frame_reference : Cert.frame_ReferenceIdeal := fun m g _ => Cert.ReferenceIdeal.RefRun.frame m g

/-- The two results, as functions of the eighteen arguments, at equal arguments. -/
theorem results_congr
    {a0 b0 : Cert.ReferenceIdeal.Stages.Arr Ideal Cert.ReferenceIdeal.S20000x512 .f32} {a1 b1 : Cert.ReferenceIdeal.Stages.Arr Ideal Cert.ReferenceIdeal.S128x512 .f32} {a2 b2 : Cert.ReferenceIdeal.Stages.Arr Ideal Cert.ReferenceIdeal.S128 .f32} {a3 b3 : Cert.ReferenceIdeal.Stages.Arr Ideal Cert.ReferenceIdeal.S128x15000 .f32} {a4 b4 : Cert.ReferenceIdeal.Stages.Arr Ideal Cert.ReferenceIdeal.S128 .f32} {a5 b5 : Cert.ReferenceIdeal.Stages.Arr Ideal Cert.ReferenceIdeal.S128x15000 .f32}
    {a6 b6 : Cert.ReferenceIdeal.Stages.Arr Ideal Cert.ReferenceIdeal.S128 .f32} {a7 b7 : Cert.ReferenceIdeal.Stages.Arr Ideal Cert.ReferenceIdeal.S128x128 .f32} {a8 b8 : Cert.ReferenceIdeal.Stages.Arr Ideal Cert.ReferenceIdeal.S128 .f32} {a9 b9 : Cert.ReferenceIdeal.Stages.Arr Ideal Cert.ReferenceIdeal.S3x128x128 .f32} {a10 b10 : Cert.ReferenceIdeal.Stages.Arr Ideal Cert.ReferenceIdeal.S3x128 .f32} {a11 b11 : Cert.ReferenceIdeal.Stages.Arr Ideal Cert.ReferenceIdeal.S128x128 .f32}
    {a12 b12 : Cert.ReferenceIdeal.Stages.Arr Ideal Cert.ReferenceIdeal.S128 .f32} {a13 b13 : Cert.ReferenceIdeal.Stages.Arr Ideal Cert.ReferenceIdeal.S8x128 .f32} {a14 b14 : Cert.ReferenceIdeal.Stages.Arr Ideal Cert.ReferenceIdeal.S8 .f32} {a15 b15 : Cert.ReferenceIdeal.Stages.Arr Ideal Cert.ReferenceIdeal.S800000 .i32} {a16 b16 : Cert.ReferenceIdeal.Stages.Arr Ideal Cert.ReferenceIdeal.S800000 .i32} {a17 b17 : Cert.ReferenceIdeal.Stages.Arr Ideal Cert.ReferenceIdeal.S50000 .i32}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) :
    Cert.ReferenceIdeal.Stages.emb_all (F := Ideal) b0 b1 b2 b3 b4 b5 b6 b7 b8 b9 b10 b11 b12 b13 b14 b15 b16 b17 = Cert.ReferenceIdeal.Stages.emb_all (F := Ideal) a0 a1 a2 a3 a4 a5 a6 a7 a8 a9 a10 a11 a12 a13 a14 a15 a16 a17
    ∧ Cert.ReferenceIdeal.Stages.logits_all (F := Ideal) b0 b1 b2 b3 b4 b5 b6 b7 b8 b9 b10 b11 b12 b13 b14 b15 b16 b17 = Cert.ReferenceIdeal.Stages.logits_all (F := Ideal) a0 a1 a2 a3 a4 a5 a6 a7 a8 a9 a10 a11 a12 a13 a14 a15 a16 a17 := by
  subst h0 h1 h2 h3 h4 h5 h6 h7 h8 h9 h10 h11 h12 h13 h14 h15 h16 h17
  exact ⟨rfl, rfl⟩

/-- At the ideal instance the kernel's two result arrays end at the reference's embedding and class scores of the same
    arguments: the kernel's run names its results, which are those two functions of the arguments when every cluster
    entry is 0, 1, 2 or 3 (the precondition); the reference's run ends at the same two functions of its own
    arguments, which agree with the kernel's. -/
theorem algebraic : Cert.algebraic_KernelIdeal_ReferenceIdeal := by
  intro m g m' g' hpre hagree
  refine ⟨fun c => Cert.ReferenceIdeal.Stages.emb_all (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Stages.logits_all (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.ReferenceIdeal.Stages.logits_all (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · refine (θ_run Cert.KernelIdeal.defs _ _).mono (fun _ h c => ?_) (Cert.KernelIdeal.Fr.run_results (F := Ideal) m g)
    have hr := fun r : Fin 50000 => Cert.Dom.node_assign_range_row (hpre c) r
    obtain ⟨e0, e1, e2, erest⟩ := h c
    exact ⟨e0.trans (Cert.KernelIdeal.Fr.emb_value m c hr), e1.trans (Cert.KernelIdeal.Fr.logits_value m c hr), e2.trans (Cert.KernelIdeal.Fr.logits_value m c hr), erest⟩
  · refine (θ_run Cert.ReferenceIdeal.defs _ _).mono (fun _ h c => ?_) (Cert.ReferenceIdeal.RefValue.run_stages (F := Ideal) m' g')
    obtain ⟨h0, h1, h2, h3, h4, h5, h6, h7, h8, h9, h10, h11, h12, h13, h14, h15, h16, h17⟩ := hagree c
    obtain ⟨e0, e1, erest⟩ := h c
    obtain ⟨c0, c1⟩ := results_congr h0 h1 h2 h3 h4 h5 h6 h7 h8 h9 h10 h11 h12 h13 h14 h15 h16 h17
    exact ⟨e0.trans c0, e1.trans c1, e1.trans c1, erest⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
